-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S8192x1024 : Shape := ⟨2, ![8192, 1024]⟩
abbrev S8192x8192 : Shape := ⟨2, ![8192, 8192]⟩
abbrev S8192x1 : Shape := ⟨2, ![8192, 1]⟩
abbrev S1024x1024 : Shape := ⟨2, ![1024, 1024]⟩
abbrev S1024x1 : Shape := ⟨2, ![1024, 1]⟩
abbrev S1024 : Shape := ⟨1, ![1024]⟩
abbrev S_ : Shape := ⟨0, ![]⟩
abbrev S1x8192 : Shape := ⟨2, ![1, 8192]⟩
abbrev S1x1024 : Shape := ⟨2, ![1, 1024]⟩

abbrev nBuf : Space → Nat
  | .hbm => 24
  | .vmem => 29
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S8192x8192, .f32⟩
  | .hbm, ⟨5, _⟩ => ⟨S8192x1, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S1x8192, .f32⟩
  | .hbm, ⟨22, _⟩ => ⟨S8192x1024, .f32⟩
  | .hbm, ⟨23, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S8192x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1, .f32⟩
  | .local _ .vmem, ⟨6, _⟩ => ⟨S1024x1, .f32⟩
  | .local _ .vmem, ⟨7, _⟩ => ⟨S1024x1024, .f32⟩
  | .local _ .vmem, ⟨8, _⟩ => ⟨S1024x1024, .f32⟩
  | .local _ .vmem, ⟨9, _⟩ => ⟨S1024x1, .f32⟩
  | .local _ .vmem, ⟨10, _⟩ => ⟨S1024x1, .f32⟩
  | .local _ .vmem, ⟨11, _⟩ => ⟨S1024x1024, .f32⟩
  | .local _ .vmem, ⟨12, _⟩ => ⟨S1024x1024, .f32⟩
  | .local _ .vmem, ⟨13, _⟩ => ⟨S8192x1024, .bf16⟩
  | .local _ .vmem, ⟨14, _⟩ => ⟨S1024x1, .f32⟩
  | .local _ .vmem, ⟨15, _⟩ => ⟨S1024x1, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | .local _ .vmem, ⟨19, _⟩ => ⟨S1024x1, .f32⟩
  | .local _ .vmem, ⟨20, _⟩ => ⟨S1024x1024, .f32⟩
  | .local _ .vmem, ⟨21, _⟩ => ⟨S1024x1024, .f32⟩
  | .local _ .vmem, ⟨22, _⟩ => ⟨S8192x1024, .bf16⟩
  | .local _ .vmem, ⟨23, _⟩ => ⟨S1x1024, .f32⟩
  | .local _ .vmem, ⟨24, _⟩ => ⟨S1x1024, .f32⟩
  | .local _ .vmem, ⟨25, _⟩ => ⟨S1024x1024, .f32⟩
  | .local _ .vmem, ⟨26, _⟩ => ⟨S1024x1024, .f32⟩
  | .local _ .vmem, ⟨27, _⟩ => ⟨S1024x1024, .f32⟩
  | .local _ .vmem, ⟨28, _⟩ => ⟨S1024x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_scratch0 : Ref sig .tc := ⟨.vmem, 18, rfl⟩
abbrev cc2_scratch1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg3_1 : Ref sig .tc := ⟨.vmem, 26, rfl⟩
abbrev cc3_scratch0 : Ref sig .tc := ⟨.vmem, 27, rfl⟩
abbrev cc3_scratch1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc3_sem3_0 : DmaSem sig := 23
abbrev cc3_sem3_1 : DmaSem sig := 24

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev grid2 : Pipeline.Grid := ⟨2, ![8, 8], ![false, false]⟩

def k2_mult1 (i : grid2.Coords) : BitVec 32 :=
  let arg1 : BitVec 32 := BitVec.ofNat 32 (i 1).val
  let c1024_i32 : BitVec 32 := 1024#32
  let v20 : BitVec 32 := Scalar.muli arg1 c1024_i32
  v20
def k2_off1 (i : grid2.Coords) : Fin 2 → Nat :=
  let arg1 : BitVec 32 := BitVec.ofNat 32 (i 1).val
  let c1024_i32 : BitVec 32 := 1024#32
  let v20 : BitVec 32 := Scalar.muli arg1 c1024_i32
  let v21 : BitVec 32 := v20
  let v22 : Index := Scalar.indexCast v21
  let c0_9 : Index := 0#32
  ![v22.toNat, 0]
def k2_cond2 (i : grid2.Coords) : BitVec 1 :=
  let arg1 : BitVec 32 := BitVec.ofNat 32 (i 1).val
  let c7_i32 : BitVec 32 := 7#32
  let v31 : BitVec 1 := Scalar.cmpi .eq arg1 c7_i32
  let v32 : BitVec 32 := Scalar.extui v31
  let c0_i32_15 : BitVec 32 := 0#32
  let v33 : BitVec 1 := Scalar.cmpi .ne v32 c0_i32_15
  v33

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S8192x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![8, 8], ![false, false]⟩

def k3_mult1 (i : grid3.Coords) : BitVec 32 :=
  let arg1 : BitVec 32 := BitVec.ofNat 32 (i 1).val
  let c1024_i32 : BitVec 32 := 1024#32
  let v20 : BitVec 32 := Scalar.muli arg1 c1024_i32
  v20
def k3_off1 (i : grid3.Coords) : Fin 2 → Nat :=
  let arg1 : BitVec 32 := BitVec.ofNat 32 (i 1).val
  let c1024_i32 : BitVec 32 := 1024#32
  let v20 : BitVec 32 := Scalar.muli arg1 c1024_i32
  let v21 : BitVec 32 := v20
  let v22 : Index := Scalar.indexCast v21
  let c0_10 : Index := 0#32
  ![v22.toNat, 0]
def k3_cond2 (i : grid3.Coords) : BitVec 1 :=
  let arg1 : BitVec 32 := BitVec.ofNat 32 (i 1).val
  let c7_i32 : BitVec 32 := 7#32
  let v31 : BitVec 1 := Scalar.cmpi .eq arg1 c7_i32
  let v32 : BitVec 32 := Scalar.extui v31
  let c0_i32_16 : BitVec 32 := 0#32
  let v33 : BitVec 1 := Scalar.cmpi .ne v32 c0_i32_16
  v33

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S8192x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 2 → Memref sig .tc .vmem S1x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

class Facts₀ : Prop where
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  h_S1024x1024 : 0 < S1024x1024.numel
  shapeCasts_S1024x1024_S1024x1024 : S1024x1024.ShapeCasts S1024x1024
  inb_S1024x1024_S1024x1024_0_0 : ∀ a, (![0, 0] : Fin 2 → Nat) a + S1024x1024.size a ≤ S1024x1024.size a
  shapeCasts_S1024x1_S1024x1 : S1024x1.ShapeCasts S1024x1
  reduces_S1024x1024_S1024 : S1024x1024.Reduces [1] S1024
  shapeCasts_S1024_S1024x1 : S1024.ShapeCasts S1024x1
  bcast_S_S8192x1 : S_.BroadcastsInDim S8192x1 (![] : Fin 0 → Fin S8192x1.rank)
  shapeCasts_S8192x1_S1x8192 : S8192x1.ShapeCasts S1x8192
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  dot_S1024x1024_S1024x1_S1024x1_0_0_1_1_n_n_wf : DotDims.WF S1024x1024 S1024x1 S1024x1 [0] [0] [1] [1] [] []
  dot_S1024x1024_S1024x1024_S1024x1024_1_0_0_1_n_n_wf : DotDims.WF S1024x1024 S1024x1024 S1024x1024 [1] [0] [0] [1] [] []
  dot_S1024x1024_S1024x1024_S1024x1024_0_0_1_1_n_n_wf : DotDims.WF S1024x1024 S1024x1024 S1024x1024 [0] [0] [1] [1] [] []
  hrank0 : 0 < grid0.rank
  k0_mult1_dvd : ∀ i : grid0.Coords, 1024 ∣ (k0_mult1 i).toNat
  k0_off1_inb : ∀ i : grid0.Coords, ∀ a, (k0_off1 i) a + S1024x1024.size a ≤ S8192x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x1024.size a ≤ S8192x1024.size a
  hwx0_1 : ∀ i : grid0.Coords, EltTy.bits .bf16 = 32 ∨ (Rect.block (s := S8192x1024) S8192x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S8192x1.size a
  hwx1_1 : ∀ i : grid1.Coords, EltTy.bits .f32 = 32 ∨ (Rect.block (s := S8192x1) S1024x1.size (cc1_transform_1 i) (hinb1_1 i)).WholeWords (EltTy.packing .f32)
  hrank2 : 0 < grid2.rank
  k2_mult1_dvd : ∀ i : grid2.Coords, 1024 ∣ (k2_mult1 i).toNat
  k2_off1_inb : ∀ i : grid2.Coords, ∀ a, (k2_off1 i) a + S1024x1024.size a ≤ S8192x1024.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x8192.size a
  hwx2_0 : ∀ i : grid2.Coords, EltTy.bits .f32 = 32 ∨ (Rect.block (s := S8192x8192) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x1024.size a ≤ S8192x1024.size a
  hwx2_1 : ∀ i : grid2.Coords, EltTy.bits .bf16 = 32 ∨ (Rect.block (s := S8192x1024) S8192x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S8192x1.size a
  hwx2_2 : ∀ i : grid2.Coords, EltTy.bits .f32 = 32 ∨ (Rect.block (s := S8192x1) S1024x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x1024.size a
  hwx2_3 : ∀ i : grid2.Coords, EltTy.bits .f32 = 32 ∨ (Rect.block (s := S8192x1024) S1024x1024.size (cc2_transform_3 i) (hinb2_3 i)).WholeWords (EltTy.packing .f32)
  hrank3 : 0 < grid3.rank
  k3_mult1_dvd : ∀ i : grid3.Coords, 1024 ∣ (k3_mult1 i).toNat
  k3_off1_inb : ∀ i : grid3.Coords, ∀ a, (k3_off1 i) a + S1024x1024.size a ≤ S8192x1024.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S8192x8192.size a
  hwx3_0 : ∀ i : grid3.Coords, EltTy.bits .f32 = 32 ∨ (Rect.block (s := S8192x8192) S1024x1024.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8192x1024.size a ≤ S8192x1024.size a
  hwx3_1 : ∀ i : grid3.Coords, EltTy.bits .bf16 = 32 ∨ (Rect.block (s := S8192x1024) S8192x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x8192.size a
  hwx3_2 : ∀ i : grid3.Coords, EltTy.bits .f32 = 32 ∨ (Rect.block (s := S1x8192) S1x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x1024.size a ≤ S8192x1024.size a
  hwx3_3 : ∀ i : grid3.Coords, EltTy.bits .f32 = 32 ∨ (Rect.block (s := S8192x1024) S1024x1024.size (cc3_transform_3 i) (hinb3_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S1024x1_S1024x1_0_0_1_1_n_n : DotDims S1024x1024 S1024x1 S1024x1 where
  lhsContracting := [0]
  rhsContracting := [0]
  lhsNonContracting := [1]
  rhsNonContracting := [1]
  lhsBatch := []
  rhsBatch := []
  wf := dot_S1024x1024_S1024x1_S1024x1_0_0_1_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x1024_S1024x1024_0_0_1_1_n_n : DotDims S1024x1024 S1024x1024 S1024x1024 where
  lhsContracting := [0]
  rhsContracting := [0]
  lhsNonContracting := [1]
  rhsNonContracting := [1]
  lhsBatch := []
  rhsBatch := []
  wf := dot_S1024x1024_S1024x1024_S1024x1024_0_0_1_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1024x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2_0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x1.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v2_0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S8192x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v15) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v2_0) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v0) S8192x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v14) S1x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v16) S1024x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S8192x1024 : Shape := ⟨2, ![8192, 1024]⟩
abbrev S1024x8192 : Shape := ⟨2, ![1024, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 69
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x8192, .f32⟩
  | .hbm, ⟨3, _⟩ => ⟨S8192x8192, .f32⟩
  | .hbm, ⟨4, _⟩ => ⟨S_, .f32⟩
  | .hbm, ⟨5, _⟩ => ⟨S_, .f32⟩
  | .hbm, ⟨6, _⟩ => ⟨S8192x8192, .f32⟩
  | .hbm, ⟨7, _⟩ => ⟨S8192x8192, .i1⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S8192x1, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S8192x8192, .f32⟩
  | .hbm, ⟨52, _⟩ => ⟨S8192x8192, .f32⟩
  | .hbm, ⟨53, _⟩ => ⟨S_, .f32⟩
  | .hbm, ⟨54, _⟩ => ⟨S8192, .f32⟩
  | .hbm, ⟨55, _⟩ => ⟨S_, .f32⟩
  | .hbm, ⟨56, _⟩ => ⟨S8192, .f32⟩
  | .hbm, ⟨57, _⟩ => ⟨S8192, .f32⟩
  | .hbm, ⟨58, _⟩ => ⟨S8192x1, .f32⟩
  | .hbm, ⟨59, _⟩ => ⟨S8192x8192, .f32⟩
  | .hbm, ⟨60, _⟩ => ⟨S8192x8192, .f32⟩
  | .hbm, ⟨61, _⟩ => ⟨S8192x8192, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x8192, .f32⟩
  | .hbm, ⟨66, _⟩ => ⟨S8192x8192, .f32⟩
  | .hbm, ⟨67, _⟩ => ⟨S8192x1024, .f32⟩
  | .hbm, ⟨68, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_v34 : Ref sig .tc := ⟨.hbm, 52, rfl⟩
abbrev main_cst_9 : Ref sig .tc := ⟨.hbm, 53, rfl⟩
abbrev main_v35 : Ref sig .tc := ⟨.hbm, 54, rfl⟩
abbrev main_cst_10 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_11 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩

abbrev nD : Nat := 1
abbrev τ : Topo := Topo.v7x

variable {F : FTy → Type} [FloatOps F]

class Facts₀ : Prop where
  transposes_S8192x1024_S1024x8192_1_0 : S8192x1024.Transposes [1, 0] S1024x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x8192_0_1 : S8192x1.BroadcastsInDim S8192x8192 (![0, 1] : Fin 2 → Fin S8192x8192.rank)
  bcast_S_S8192 : S_.BroadcastsInDim S8192 (![] : Fin 0 → Fin S8192.rank)
  transposes_S8192x8192_S8192x8192_1_0 : S8192x8192.Transposes [1, 0] S8192x8192
  dot_S8192x1024_S1024x8192_S8192x8192_1_0_0_1_n_n_wf : DotDims.WF S8192x1024 S1024x8192 S8192x8192 [1] [0] [0] [1] [] []
  dot_S8192x8192_S8192x1024_S8192x1024_1_0_0_1_n_n_wf : DotDims.WF S8192x8192 S8192x1024 S8192x1024 [1] [0] [0] [1] [] []

variable [Facts₀]

def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf

class Facts : Prop extends Facts₀ where

variable [Facts]
-- ==== Proof.K.Reg0Frame.lean ====
/-
  Region 0 of the kernel program (the scores and the row sums of squares), at the buffer contents `V` the
  region is entered with: what each window's staging buffer holds point by point, the body's triple in its two
  control cases (the second grid coordinate zero: the row-sum block is reset, then added to; otherwise it is
  added to what the point before left), the proof data, the body obligation at every point, and the region
  invariant at entry and exit.  Nothing here depends on the float model.
-/
import proofs.«128303_j3917010174495_2_alg».proof.Proof.Gen.Kernel.Launch
import proofs.«128303_j3917010174495_2_alg».proof.Proof.Gen.Kernel.Skeleton
import proofs.«128303_j3917010174495_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, its
    block index has not moved), for any proof data whose array is `V`'s and whose body leaves the block in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition of the body's conditional, from the grid coordinates: the second coordinate is zero. -/
abbrev cond0 (i : grid0.Coords) : Prop := (Scalar.cmpi .ne (Scalar.extui (Scalar.cmpi .eq (BitVec.ofNat 32 (i 1).val) 0#32)) 0#32) = 1#1
/-- It holds at the first point of each row of the grid. -/
theorem hcond0 : ∀ t : Fin cfg0.N, cond0 (grid0.coords t) ↔ t.val % 8 = 0 :=
  (by decide +kernel : ∀ t : Fin grid0.N, cond0 (grid0.coords t) ↔ t.val % 8 = 0)

/-! ## The staging memrefs -/

/-- One staging buffer of each output window, through which its contents are stated (the choice does not matter). -/
abbrev VO2 : View sig .tc .vmem S1024x1024 .f32 := (Memref.whole cc0_stg2_0 : Memref sig .tc .vmem S1024x1024 .f32).view
abbrev VO3 : View sig .tc .vmem S1024x1 .f32 := (Memref.whole cc0_stg3_0 : Memref sig .tc .vmem S1024x1 .f32).view
/-- Each window's current staging memref at point `t`, as the pipeline passes it to the body, and its wholeness. -/
abbrev ms0 (t : Fin cfg0.N) : Memref sig .tc .vmem S1024x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1 .f32 := win0_3.stage (cfg0.slots t 3)
abbrev hs3 (t : Fin cfg0.N) : (ms3 t).IsWhole := hstage0_3 ((cfg0.slots t 3).cast nbuf0_3)

/-! ## The body's triple, case by case -/

set_option maxHeartbeats 1000000 in
/-- The pieces the body's stores leave in the two outputs' staging memrefs (last first) when the second grid
    coordinate is zero, with the proof that on whole staging memrefs — the inputs' at their contents, the outputs'
    at anything — the body runs to the continuation holding the inputs' as they were and each output's buffer with
    its pieces written. -/
noncomputable def kernelRunA (c : Dev nD) (i : grid0.Coords) (arg2 : Memref sig .tc .vmem S1024x1024 .bf16) (harg2 : arg2.IsWhole) (arg3 : Memref sig .tc .vmem S8192x1024 .bf16) (harg3 : arg3.IsWhole) (arg4 : Memref sig .tc .vmem S1024x1024 .f32) (harg4 : arg4.IsWhole) (arg5 : Memref sig .tc .vmem S1024x1 .f32) (harg5 : arg5.IsWhole) (hc0 : cond0 i)
    (x0 : Vec F S1024x1024 .bf16) (x1 : Vec F S8192x1024 .bf16) :
    Σ' (L2 : List (View.Piece (Elt F) S1024x1024 .f32)), { L3 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__k1_kernel i arg2 harg2 arg3 harg3 arg4 harg4 arg5 harg5) K } := by
  refine ⟨?_, ?_, fun E K => ?run⟩
  case run =>
    simp only [cc0__k1_kernel_eq_skeleton]; unfold cc0__k1_kernel_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

set_option maxHeartbeats 1000000 in
/-- The same when the second grid coordinate is not zero: the row-sum block's buffer is handed in at the contents
    `xo3` the point before left, and the body adds to them. -/
noncomputable def kernelRunB (c : Dev nD) (i : grid0.Coords) (arg2 : Memref sig .tc .vmem S1024x1024 .bf16) (harg2 : arg2.IsWhole) (arg3 : Memref sig .tc .vmem S8192x1024 .bf16) (harg3 : arg3.IsWhole) (arg4 : Memref sig .tc .vmem S1024x1024 .f32) (harg4 : arg4.IsWhole) (arg5 : Memref sig .tc .vmem S1024x1 .f32) (harg5 : arg5.IsWhole) (hc0 : ¬cond0 i)
    (x0 : Vec F S1024x1024 .bf16) (x1 : Vec F S8192x1024 .bf16) (xo3 : Vec F S1024x1 .f32) :
    Σ' (L2 : List (View.Piece (Elt F) S1024x1024 .f32)), { L3 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xo3
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__k1_kernel i arg2 harg2 arg3 harg3 arg4 harg4 arg5 harg5) K } := by
  refine ⟨?_, ?_, fun E K => ?run⟩
  case run =>
    simp only [cc0__k1_kernel_eq_skeleton]; unfold cc0__k1_kernel_skel
    unfold owns
    iintro ⟨⟨%f0, %hf0, H0⟩, ⟨%f1, %hf1, H1⟩, ⟨%d2, %f2, -, H2⟩, ⟨%f3, %hf3, H3⟩, Hk⟩
    obtain rfl := harg2.eq_unread hf0; obtain rfl := harg3.eq_unread hf1; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

/-! ## What each case leaves in the outputs' buffers -/

/-- Each case's pieces for an output tile its block, so they cover it. -/
theorem coverA_2 (c : Dev nD) (i : grid0.Coords) (arg2 : Memref sig .tc .vmem S1024x1024 .bf16) (harg2 : arg2.IsWhole) (arg3 : Memref sig .tc .vmem S8192x1024 .bf16) (harg3 : arg3.IsWhole) (arg4 : Memref sig .tc .vmem S1024x1024 .f32) (harg4 : arg4.IsWhole) (arg5 : Memref sig .tc .vmem S1024x1 .f32) (harg5 : arg5.IsWhole) (hc0 : cond0 i) (x0 : Vec F S1024x1024 .bf16) (x1 : Vec F S8192x1024 .bf16) (y : S1024x1024.Idx) :
    ∃ pc ∈ (kernelRunA c i arg2 harg2 arg3 harg3 arg4 harg4 arg5 harg5 hc0 x0 x1).1, y ∈ pc.1.set :=
  View.cover_of_tiledL (kernelRunA c i arg2 harg2 arg3 harg3 arg4 harg4 arg5 harg5 hc0 x0 x1).1 S1024x1024.size (by sl_kernel_rfl) y
theorem coverA_3 (c : Dev nD) (i : grid0.Coords) (arg2 : Memref sig .tc .vmem S1024x1024 .bf16) (harg2 : arg2.IsWhole) (arg3 : Memref sig .tc .vmem S8192x1024 .bf16) (harg3 : arg3.IsWhole) (arg4 : Memref sig .tc .vmem S1024x1024 .f32) (harg4 : arg4.IsWhole) (arg5 : Memref sig .tc .vmem S1024x1 .f32) (harg5 : arg5.IsWhole) (hc0 : cond0 i) (x0 : Vec F S1024x1024 .bf16) (x1 : Vec F S8192x1024 .bf16) (y : S1024x1.Idx) :
    ∃ pc ∈ (kernelRunA c i arg2 harg2 arg3 harg3 arg4 harg4 arg5 harg5 hc0 x0 x1).2.1, y ∈ pc.1.set :=
  View.cover_of_tiledL (kernelRunA c i arg2 harg2 arg3 harg3 arg4 harg4 arg5 harg5 hc0 x0 x1).2.1 S1024x1.size (by sl_kernel_rfl) y
theorem coverB_2 (c : Dev nD) (i : grid0.Coords) (arg2 : Memref sig .tc .vmem S1024x1024 .bf16) (harg2 : arg2.IsWhole) (arg3 : Memref sig .tc .vmem S8192x1024 .bf16) (harg3 : arg3.IsWhole) (arg4 : Memref sig .tc .vmem S1024x1024 .f32) (harg4 : arg4.IsWhole) (arg5 : Memref sig .tc .vmem S1024x1 .f32) (harg5 : arg5.IsWhole) (hc0 : ¬cond0 i) (x0 : Vec F S1024x1024 .bf16) (x1 : Vec F S8192x1024 .bf16) (xo3 : Vec F S1024x1 .f32) (y : S1024x1024.Idx) :
    ∃ pc ∈ (kernelRunB c i arg2 harg2 arg3 harg3 arg4 harg4 arg5 harg5 hc0 x0 x1 xo3).1, y ∈ pc.1.set :=
  View.cover_of_tiledL (kernelRunB c i arg2 harg2 arg3 harg3 arg4 harg4 arg5 harg5 hc0 x0 x1 xo3).1 S1024x1024.size (by sl_kernel_rfl) y
theorem coverB_3 (c : Dev nD) (i : grid0.Coords) (arg2 : Memref sig .tc .vmem S1024x1024 .bf16) (harg2 : arg2.IsWhole) (arg3 : Memref sig .tc .vmem S8192x1024 .bf16) (harg3 : arg3.IsWhole) (arg4 : Memref sig .tc .vmem S1024x1024 .f32) (harg4 : arg4.IsWhole) (arg5 : Memref sig .tc .vmem S1024x1 .f32) (harg5 : arg5.IsWhole) (hc0 : ¬cond0 i) (x0 : Vec F S1024x1024 .bf16) (x1 : Vec F S8192x1024 .bf16) (xo3 : Vec F S1024x1 .f32) (y : S1024x1.Idx) :
    ∃ pc ∈ (kernelRunB c i arg2 harg2 arg3 harg3 arg4 harg4 arg5 harg5 hc0 x0 x1 xo3).2.1, y ∈ pc.1.set :=
  View.cover_of_tiledL (kernelRunB c i arg2 harg2 arg3 harg3 arg4 harg4 arg5 harg5 hc0 x0 x1 xo3).2.1 S1024x1.size (by sl_kernel_rfl) y

/-- What a case leaves in an output's staging buffer: its pieces read back over junk. -/
def outA_2 (c : Dev nD) (i : grid0.Coords) (arg2 : Memref sig .tc .vmem S1024x1024 .bf16) (harg2 : arg2.IsWhole) (arg3 : Memref sig .tc .vmem S8192x1024 .bf16) (harg3 : arg3.IsWhole) (arg4 : Memref sig .tc .vmem S1024x1024 .f32) (harg4 : arg4.IsWhole) (arg5 : Memref sig .tc .vmem S1024x1 .f32) (harg5 : arg5.IsWhole) (hc0 : cond0 i) (x0 : Vec F S1024x1024 .bf16) (x1 : Vec F S8192x1024 .bf16) : Vec F S1024x1024 .f32 :=
  VO2.read (Elt F) (VO2.writes (Elt F) VO2.junk (kernelRunA c i arg2 harg2 arg3 harg3 arg4 harg4 arg5 harg5 hc0 x0 x1).1)
def outA_3 (c : Dev nD) (i : grid0.Coords) (arg2 : Memref sig .tc .vmem S1024x1024 .bf16) (harg2 : arg2.IsWhole) (arg3 : Memref sig .tc .vmem S8192x1024 .bf16) (harg3 : arg3.IsWhole) (arg4 : Memref sig .tc .vmem S1024x1024 .f32) (harg4 : arg4.IsWhole) (arg5 : Memref sig .tc .vmem S1024x1 .f32) (harg5 : arg5.IsWhole) (hc0 : cond0 i) (x0 : Vec F S1024x1024 .bf16) (x1 : Vec F S8192x1024 .bf16) : Vec F S1024x1 .f32 :=
  VO3.read (Elt F) (VO3.writes (Elt F) VO3.junk (kernelRunA c i arg2 harg2 arg3 harg3 arg4 harg4 arg5 harg5 hc0 x0 x1).2.1)
def outB_2 (c : Dev nD) (i : grid0.Coords) (arg2 : Memref sig .tc .vmem S1024x1024 .bf16) (harg2 : arg2.IsWhole) (arg3 : Memref sig .tc .vmem S8192x1024 .bf16) (harg3 : arg3.IsWhole) (arg4 : Memref sig .tc .vmem S1024x1024 .f32) (harg4 : arg4.IsWhole) (arg5 : Memref sig .tc .vmem S1024x1 .f32) (harg5 : arg5.IsWhole) (hc0 : ¬cond0 i) (x0 : Vec F S1024x1024 .bf16) (x1 : Vec F S8192x1024 .bf16) (xo3 : Vec F S1024x1 .f32) : Vec F S1024x1024 .f32 :=
  VO2.read (Elt F) (VO2.writes (Elt F) VO2.junk (kernelRunB c i arg2 harg2 arg3 harg3 arg4 harg4 arg5 harg5 hc0 x0 x1 xo3).1)
def outB_3 (c : Dev nD) (i : grid0.Coords) (arg2 : Memref sig .tc .vmem S1024x1024 .bf16) (harg2 : arg2.IsWhole) (arg3 : Memref sig .tc .vmem S8192x1024 .bf16) (harg3 : arg3.IsWhole) (arg4 : Memref sig .tc .vmem S1024x1024 .f32) (harg4 : arg4.IsWhole) (arg5 : Memref sig .tc .vmem S1024x1 .f32) (harg5 : arg5.IsWhole) (hc0 : ¬cond0 i) (x0 : Vec F S1024x1024 .bf16) (x1 : Vec F S8192x1024 .bf16) (xo3 : Vec F S1024x1 .f32) : Vec F S1024x1 .f32 :=
  VO3.read (Elt F) (VO3.writes (Elt F) VO3.junk (kernelRunB c i arg2 harg2 arg3 harg3 arg4 harg4 arg5 harg5 hc0 x0 x1 xo3).2.1)

/-! ## What the outputs hold after each point -/

/-- The accumulation.  What the row-sum window's staging buffer holds after the body at position `n`: at the first
    point of a row of the grid the reset-and-add case's contents, elsewhere the add case's over what the point before
    left (the buffer is not written back between). -/
def outsAt3 (c : Dev nD) : (n : ℕ) → n < cfg0.N → Vec F S1024x1 .f32
  | 0, hn => outA_3 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) ((hcond0 ⟨0, hn⟩).mpr (Nat.zero_mod _)) (iblk V c 0 ⟨0, hn⟩) (iblk V c 1 ⟨0, hn⟩)
  | n + 1, hn =>
    if h0 : (n + 1) % 8 = 0 then
      outA_3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) ((hcond0 ⟨n + 1, hn⟩).mpr h0) (iblk V c 0 ⟨n + 1, hn⟩) (iblk V c 1 ⟨n + 1, hn⟩)
    else
      outB_3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (fun h => h0 ((hcond0 ⟨n + 1, hn⟩).mp h)) (iblk V c 0 ⟨n + 1, hn⟩) (iblk V c 1 ⟨n + 1, hn⟩) (outsAt3 c n (Nat.lt_of_succ_lt hn))

theorem outsAt3_A (c : Dev nD) (t : Fin cfg0.N) (h0 : t.val % 8 = 0) :
    outsAt3 V c t.val t.isLt = outA_3 c (grid0.coords t) (ms0 t) (hs0 t) (ms1 t) (hs1 t) (ms2 t) (hs2 t) (ms3 t) (hs3 t) ((hcond0 t).mpr h0) (iblk V c 0 t) (iblk V c 1 t) := by
  obtain ⟨n, hn⟩ := t
  cases n with
  | zero => exact rfl
  | succ n => exact (dif_pos h0).trans rfl

theorem outsAt3_B (c : Dev nD) (t : Fin cfg0.N) (h0 : ¬t.val % 8 = 0) :
    outsAt3 V c t.val t.isLt = outB_3 c (grid0.coords t) (ms0 t) (hs0 t) (ms1 t) (hs1 t) (ms2 t) (hs2 t) (ms3 t) (hs3 t) (fun h => h0 ((hcond0 t).mp h)) (iblk V c 0 t) (iblk V c 1 t) (outsAt3 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- What the score window's staging buffer holds after the body at point `t`. -/
def outsAt2 (c : Dev nD) (t : Fin cfg0.N) : Vec F S1024x1024 .f32 :=
  if h0 : t.val % 8 = 0 then
    outA_2 c (grid0.coords t) (ms0 t) (hs0 t) (ms1 t) (hs1 t) (ms2 t) (hs2 t) (ms3 t) (hs3 t) ((hcond0 t).mpr h0) (iblk V c 0 t) (iblk V c 1 t)
  else
    outB_2 c (grid0.coords t) (ms0 t) (hs0 t) (ms1 t) (hs1 t) (ms2 t) (hs2 t) (ms3 t) (hs3 t) (fun h => h0 ((hcond0 t).mp h)) (iblk V c 0 t) (iblk V c 1 t) (outsAt3 V c (t.val - 1) (Nat.lt_of_le_of_lt (Nat.sub_le _ _) t.isLt))

theorem outsAt2_A (c : Dev nD) (t : Fin cfg0.N) (h0 : t.val % 8 = 0) :
    outsAt2 V c t = outA_2 c (grid0.coords t) (ms0 t) (hs0 t) (ms1 t) (hs1 t) (ms2 t) (hs2 t) (ms3 t) (hs3 t) ((hcond0 t).mpr h0) (iblk V c 0 t) (iblk V c 1 t) := dif_pos h0
theorem outsAt2_B (c : Dev nD) (t : Fin cfg0.N) (h0 : ¬t.val % 8 = 0) :
    outsAt2 V c t = outB_2 c (grid0.coords t) (ms0 t) (hs0 t) (ms1 t) (hs1 t) (ms2 t) (hs2 t) (ms3 t) (hs3 t) (fun h => h0 ((hcond0 t).mp h)) (iblk V c 0 t) (iblk V c 1 t) (outsAt3 V c (t.val - 1) (Nat.lt_of_le_of_lt (Nat.sub_le _ _) t.isLt)) := dif_neg h0

/-! ## The pipeline's proof data -/

/-- The proof data of the region's pipeline on core `c`: the arrays as the region finds them; after the body at
    point `t` each input's buffer at its block and the outputs' at `outsAt2`, `outsAt3`; the invariant the core's
    other scoped buffers and its random-number register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outsAt2 V c t
    | ⟨3, _⟩ => outsAt3 V c t.val t.isLt
  Φ _ := Pipeline.ΦA spec0 c
  q _ := fullShare
  owed _ := 0

/-- The proof data's arrays are the region-entry contents. -/
theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = outsAt2 V c t := by dsimp only [dat]
theorem after_3 (c : Dev nD) (t : Fin cfg0.N) : (dat V c).after 3 t = outsAt3 V c t.val t.isLt := by dsimp only [dat]

/-- Each input's current staging buffer holds its block at every point, fetched there or not. -/
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
/-- Away from the first point of a row of the grid the row-sum window's current staging buffer holds what the body
    left at the point before: the point is not the first, and the buffer was not written back between. -/
theorem before_3_B (c : Dev nD) (t : Fin cfg0.N) (h0 : ¬t.val % 8 = 0) (d) :
    (dat V c).before 3 t d = outsAt3 V c (t.val - 1) (Nat.lt_of_le_of_lt (Nat.sub_le _ _) t.isLt) := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dat]

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t))

set_option maxHeartbeats 800000 in
/-- The body at any point: the inputs' memrefs hold their blocks; the closed form says which case the point is in;
    in the add case the row-sum buffer holds what the point before left; so the case's run applies; the invariant
    passes through unread; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2, after_3]
  by_cases h0 : t.val % 8 = 0
  · rw [outsAt2_A V c t h0, outsAt3_A V c t h0]
    unfold outA_2 outA_3
    iintro ⟨HΦ, Ho, ⟨%d0, H0⟩, ⟨%d1, H1⟩, ⟨%d2, H2⟩, ⟨%d3, H3⟩⟩
    iapply ((kernelRunA c (grid0.coords t) _ _ _ _ _ _ _ _ ((hcond0 t).mpr h0) (iblk V c 0 t) (iblk V c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverA_2 c _ _ _ _ _ _ _ _ _ _ _ _)
    unfold owns; iexists _; isplitr
    swap; · iexact H3
    ipureintro; exact View.read_writes_of_cover _ _ _ _ _ (coverA_3 c _ _ _ _ _ _ _ _ _ _ _ _)
  · rw [outsAt2_B V c t h0, outsAt3_B V c t h0]
    simp only [before_3_B V c t h0]
    unfold outB_2 outB_3
    iintro ⟨HΦ, Ho, ⟨%d0, H0⟩, ⟨%d1, H1⟩, ⟨%d2, H2⟩, ⟨%d3, H3⟩⟩
    iapply ((kernelRunB c (grid0.coords t) _ _ _ _ _ _ _ _ (fun h => h0 ((hcond0 t).mp h)) (iblk V c 0 t) (iblk V c 1 t) _).2.2 Set.univ _)
    isplitl [H0]; · iexact H0
    isplitl [H1]; · iexact H1
    isplitl [H2]; · iexists _; iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverB_2 c _ _ _ _ _ _ _ _ _ _ _ _ _)
    unfold owns; iexists _; isplitr
    swap; · iexact H3
    ipureintro; exact View.read_writes_of_cover _ _ _ _ _ (coverB_3 c _ _ _ _ _ _ _ _ _ _ _ _ _)

/-- The library's body obligation, at every point. -/
theorem body_obligation (c : Dev nD) : BodyObligation (dat (F := F) V c) (defs₀ (F := F)) Variants.none () Set.univ := fun t => by
  rw [bigSep_W0, bigSep_W0]
  exact sound_body V c t

/-! ## The invariant at the region's boundary -/

/-- The invariant is the region's boundary invariant throughout. -/
theorem hin (c : Dev nD) : Pipeline.ΦA spec0 c ⊢ (dat V c).Φ 0 := .rfl
theorem hout (c : Dev nD) : (dat V c).Φ (Fin.last cfg0.N) ⊢ Pipeline.ΦA spec0 c := .rfl

end Cert.Kernel.Reg0

end
-- ==== Proof.K.Reg1Frame.lean ====
/-
  Region 1 of the kernel program: the column sums of squares.

  The grid is 8 × 8, the point (j, i) at position t = 8·j + i.  Window 0 is the [1024, 1024] block (i, j) of the
  scores, read at every point; window 1 is the [1024, 1] block j of the result, kept in place over the eight points
  of a grid row and written back at the last of them.  At i = 0 the body first fills window 1 with zeros; at every
  point it adds to window 1 the product of the squared block, contracted over its first axis, with a column of ones.

  Stated at the buffer contents V the region is entered with, for any float operations F: the two control cases of
  the body (i = 0 or not) each as a run over whole staging memrefs, what window 1 holds after each point by
  recursion on the point, the pipeline's proof data and the body obligation at every point.  The region invariant
  is the class invariant throughout: the body uses no scratch.
-/
import proofs.«128303_j3917010174495_2_alg».proof.Proof.Gen.Kernel.Launch
import proofs.«128303_j3917010174495_2_alg».proof.Proof.Gen.Kernel.Skeleton
import proofs.«128303_j3917010174495_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array at the entry contents. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 0's current staging buffer holds its block at every point, for any proof data whose array is the entry
    contents and whose body leaves the block in place. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition of the body's one conditional, from the grid coordinates: the second coordinate is zero. -/
abbrev cond (i : grid1.Coords) : Prop := (Scalar.cmpi .ne (Scalar.extui (Scalar.cmpi .eq (BitVec.ofNat 32 (i 1).val) 0#32)) 0#32) = 1#1
/-- It holds exactly at the first point of each grid row. -/
theorem hcond : ∀ t : Fin cfg1.N, cond (grid1.coords t) ↔ t.val % 8 = 0 :=
  (by decide +kernel : ∀ t : Fin grid1.N, cond (grid1.coords t) ↔ t.val % 8 = 0)

/-! ## The staging memrefs -/

/-- One staging buffer of window 1, through which its contents are stated (the choice does not matter). -/
abbrev VO : View sig .tc .vmem S1024x1 .f32 := (Memref.whole cc1_stg1_0 : Memref sig .tc .vmem S1024x1 .f32).view
/-- Each window's current staging memref at point t, and its wholeness. -/
abbrev ms_0 (t : Fin cfg1.N) : Memref sig .tc .vmem S1024x1024 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1024x1 .f32 := win1_1.stage (cfg1.slots t 1)
abbrev hs_1 (t : Fin cfg1.N) : (ms_1 t).IsWhole := hstage1_1 ((cfg1.slots t 1).cast nbuf1_1)

/-! ## The body on any whole staging memrefs, case by case -/

set_option maxHeartbeats 1000000 in
/-- The first point of a grid row: the body fills window 1 with zeros and then adds the block's contribution.
    The pieces window 1 ends with (last first), with the proof that the body runs to the continuation holding
    window 0 as it was and window 1 with those pieces written. -/
noncomputable def kernelRunA (c : Dev nD) (i : grid1.Coords) (arg2 : Memref sig .tc .vmem S1024x1024 .f32) (harg2 : arg2.IsWhole) (arg3 : Memref sig .tc .vmem S1024x1 .f32) (harg3 : arg3.IsWhole) (hc : cond i)
    (x0 : Vec F S1024x1024 .f32) :
    { L1 : List (View.Piece (Elt F) S1024x1 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc1__k2_kernel i arg2 harg2 arg3 harg3) K } := by
  refine ⟨?_, fun E K => ?run⟩
  case run =>
    simp only [cc1__k2_kernel_eq_skeleton]; unfold cc1__k2_kernel_skel
    unfold owns
    iintro ⟨⟨%f0, %hf0, H0⟩, ⟨%d1, %f1, -, H1⟩, Hk⟩
    obtain rfl := harg2.eq_unread hf0
    sl_exec (disch := first | exact hc)
    sl_step
    iapply Hk
    isplitl [H0]
    · iexists _; isplitr; · ipureintro; exact harg2.read_unread _
      iexact H0
    iexists _; iexact H1

set_option maxHeartbeats 1000000 in
/-- A later point of a grid row: the body adds the block's contribution to what window 1 holds (xo). -/
noncomputable def kernelRunB (c : Dev nD) (i : grid1.Coords) (arg2 : Memref sig .tc .vmem S1024x1024 .f32) (harg2 : arg2.IsWhole) (arg3 : Memref sig .tc .vmem S1024x1 .f32) (harg3 : arg3.IsWhole) (hc : ¬cond i)
    (x0 : Vec F S1024x1024 .f32) (xo : Vec F S1024x1 .f32) :
    { L1 : List (View.Piece (Elt F) S1024x1 .f32) //
      ∀ (E : Set ℕ) (K : PUnit → sProp 𝕄),
        iprop(owns (c : Thread nD τ) arg2 fullShare x0 ∗ owns (c : Thread nD τ) arg3 fullShare xo
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc1__k2_kernel i arg2 harg2 arg3 harg3) K } := by
  refine ⟨?_, fun E K => ?run⟩
  case run =>
    simp only [cc1__k2_kernel_eq_skeleton]; unfold cc1__k2_kernel_skel
    unfold owns
    iintro ⟨⟨%f0, %hf0, H0⟩, ⟨%f1, %hf1, H1⟩, Hk⟩
    obtain rfl := harg2.eq_unread hf0; obtain rfl := harg3.eq_unread hf1
    sl_exec (disch := first | exact hc)
    sl_step
    iapply Hk
    isplitl [H0]
    · iexists _; isplitr; · ipureintro; exact harg2.read_unread _
      iexact H0
    iexists _; iexact H1

/-! ## What each case leaves in window 1 -/

/-- The pieces of the first-point case tile window 1's block, so they cover it. -/
theorem coverA (c : Dev nD) (i : grid1.Coords) (arg2 : Memref sig .tc .vmem S1024x1024 .f32) (harg2 : arg2.IsWhole) (arg3 : Memref sig .tc .vmem S1024x1 .f32) (harg3 : arg3.IsWhole) (hc : cond i)
    (x0 : Vec F S1024x1024 .f32) (y : S1024x1.Idx) :
    ∃ pc ∈ (kernelRunA c i arg2 harg2 arg3 harg3 hc x0).1, y ∈ pc.1.set :=
  View.cover_of_tiledL (kernelRunA c i arg2 harg2 arg3 harg3 hc x0).1 S1024x1.size (by sl_kernel_rfl) y

/-- What the first-point case leaves in window 1: its pieces read back. -/
def outA (c : Dev nD) (i : grid1.Coords) (arg2 : Memref sig .tc .vmem S1024x1024 .f32) (harg2 : arg2.IsWhole) (arg3 : Memref sig .tc .vmem S1024x1 .f32) (harg3 : arg3.IsWhole) (hc : cond i)
    (x0 : Vec F S1024x1024 .f32) : Vec F S1024x1 .f32 :=
  VO.read (Elt F) (VO.writes (Elt F) VO.junk (kernelRunA c i arg2 harg2 arg3 harg3 hc x0).1)

/-- The pieces of the later-point case tile window 1's block, so they cover it. -/
theorem coverB (c : Dev nD) (i : grid1.Coords) (arg2 : Memref sig .tc .vmem S1024x1024 .f32) (harg2 : arg2.IsWhole) (arg3 : Memref sig .tc .vmem S1024x1 .f32) (harg3 : arg3.IsWhole) (hc : ¬cond i)
    (x0 : Vec F S1024x1024 .f32) (xo : Vec F S1024x1 .f32) (y : S1024x1.Idx) :
    ∃ pc ∈ (kernelRunB c i arg2 harg2 arg3 harg3 hc x0 xo).1, y ∈ pc.1.set :=
  View.cover_of_tiledL (kernelRunB c i arg2 harg2 arg3 harg3 hc x0 xo).1 S1024x1.size (by sl_kernel_rfl) y

/-- What the later-point case leaves in window 1: its pieces read back. -/
def outB (c : Dev nD) (i : grid1.Coords) (arg2 : Memref sig .tc .vmem S1024x1024 .f32) (harg2 : arg2.IsWhole) (arg3 : Memref sig .tc .vmem S1024x1 .f32) (harg3 : arg3.IsWhole) (hc : ¬cond i)
    (x0 : Vec F S1024x1024 .f32) (xo : Vec F S1024x1 .f32) : Vec F S1024x1 .f32 :=
  VO.read (Elt F) (VO.writes (Elt F) VO.junk (kernelRunB c i arg2 harg2 arg3 harg3 hc x0 xo).1)

/-! ## What window 1 holds after each point -/

/-- Window 1's staging buffer after the body at position n: at the first point of a grid row the first-point
    case on the point's block; elsewhere the later-point case on the point's block over what position n - 1 left. -/
def outsAt (c : Dev nD) : (n : ℕ) → n < cfg1.N → Vec F S1024x1 .f32
  | 0, hn => outA c (grid1.coords ⟨0, hn⟩) (ms_0 ⟨0, hn⟩) (hs_0 ⟨0, hn⟩) (ms_1 ⟨0, hn⟩) (hs_1 ⟨0, hn⟩) ((hcond ⟨0, hn⟩).mpr (Nat.zero_mod _)) (iblk V c 0 ⟨0, hn⟩)
  | n + 1, hn =>
    if h0 : (n + 1) % 8 = 0 then
      outA c (grid1.coords ⟨n + 1, hn⟩) (ms_0 ⟨n + 1, hn⟩) (hs_0 ⟨n + 1, hn⟩) (ms_1 ⟨n + 1, hn⟩) (hs_1 ⟨n + 1, hn⟩) ((hcond ⟨n + 1, hn⟩).mpr h0) (iblk V c 0 ⟨n + 1, hn⟩)
    else
      outB c (grid1.coords ⟨n + 1, hn⟩) (ms_0 ⟨n + 1, hn⟩) (hs_0 ⟨n + 1, hn⟩) (ms_1 ⟨n + 1, hn⟩) (hs_1 ⟨n + 1, hn⟩) (fun h => h0 ((hcond ⟨n + 1, hn⟩).mp h)) (iblk V c 0 ⟨n + 1, hn⟩) (outsAt c n (Nat.lt_of_succ_lt hn))

/-- At the first point of a grid row. -/
theorem outsAt_A (c : Dev nD) (t : Fin cfg1.N) (h0 : t.val % 8 = 0) :
    outsAt V c t.val t.isLt = outA c (grid1.coords t) (ms_0 t) (hs_0 t) (ms_1 t) (hs_1 t) ((hcond t).mpr h0) (iblk V c 0 t) := by
  obtain ⟨n, hn⟩ := t
  cases n with
  | zero => exact rfl
  | succ n => exact (dif_pos h0).trans rfl

/-- At a later point of a grid row. -/
theorem outsAt_B (c : Dev nD) (t : Fin cfg1.N) (h0 : ¬t.val % 8 = 0) :
    outsAt V c t.val t.isLt = outB c (grid1.coords t) (ms_0 t) (hs_0 t) (ms_1 t) (hs_1 t) (fun h => h0 ((hcond t).mp h)) (iblk V c 0 t) (outsAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core c: the arrays at the entry contents; after the body at point t
    window 0 at its block and window 1 at outsAt; the class invariant; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => (outsAt V c t.val t.isLt)
  Φ _ := Pipeline.ΦA spec1 c
  q _ := fullShare
  owed _ := 0

/-- The proof data's arrays are the entry contents. -/
theorem A_eq (c : Dev nD) (w : Fin cfg1.W) : (dat V c).A w = V c (Pipeline.arrRef spec1 w) := by
  dsimp only [dat]

/-- What the body leaves, window by window. -/
theorem after_0 (c : Dev nD) (t : Fin cfg1.N) : (dat V c).after 0 t = iblk V c 0 t := by dsimp only [dat]
theorem after_1 (c : Dev nD) (t : Fin cfg1.N) : (dat V c).after 1 t = (outsAt V c t.val t.isLt) := by dsimp only [dat]

/-- Window 0's current staging buffer holds its block at every point. -/
theorem before_0 (c : Dev nD) (t : Fin cfg1.N) (d) : (dat V c).before 0 t d = iblk V c 0 t :=
  before_0_of V (dat V c) (A_eq V c 0) (after_0 V c) t d

/-- At a later point of a grid row window 1's current staging buffer holds what the body left at the point before:
    the point is not the first, and the buffer is written back only at the last point of a row. -/
theorem before_1_B (c : Dev nD) (t : Fin cfg1.N) (h0 : ¬t.val % 8 = 0) (d) :
    (dat V c).before 1 t d = (outsAt V c (t.val - 1) (Nat.lt_of_le_of_lt (Nat.sub_le _ _) t.isLt)) := by
  have hN : t.val < 64 := lt_of_lt_of_eq t.isLt (show cfg1.N = 64 from N_1)
  rw [Dat.before_out_kept _ 1 rfl t (by omega) (Bool.eq_false_iff.mpr fun h => by have := (flush1_1 _).mp h; dsimp only at this; omega)
    (fun _ => rfl) (fun _ _ => rfl)]
  dsimp only [dat]

/-! ## The body obligation -/

/-- What the body is called with at point t, -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d)))

/-- and what it returns. -/
def bodyPost (c : Dev nD) (t : Fin cfg1.N) : sProp 𝕄 :=
  iprop((dat V c).Φ t.succ ∗ (dat V c).owesAt () t.succ
    ∗ owns (c : Thread nD τ) (ms_0 t) fullShare ((dat V c).after 0 t)
    ∗ owns (c : Thread nD τ) (ms_1 t) fullShare ((dat V c).after 1 t))

set_option maxHeartbeats 800000 in
/-- The body at any point: window 0 holds its block; the closed form says which case the point is in; at a later
    point of a row window 1 holds what the point before left; so the case's run applies. The invariant passes
    through unread and the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0]
  rw [show (dat V c).Φ t.succ = (dat V c).Φ t.castSucc from rfl,
    show (dat V c).owesAt () t.succ = (dat V c).owesAt () t.castSucc from rfl,
    after_0, after_1]
  have hN : t.val < 64 := lt_of_lt_of_eq t.isLt (show cfg1.N = 64 from N_1)
  by_cases h0 : t.val % 8 = 0
  · rw [outsAt_A V c t h0]
    unfold outA
    iintro ⟨HΦ, Ho, ⟨%d0, H0⟩, ⟨%d1, H1⟩⟩
    iapply ((kernelRunA c (grid1.coords t) _ _ _ _ ((hcond t).mpr h0) (iblk V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverA c _ _ _ _ _ _ _)
  · rw [outsAt_B V c t h0]
    simp only [before_1_B V c t h0]
    unfold outB
    iintro ⟨HΦ, Ho, ⟨%d0, H0⟩, ⟨%d1, H1⟩⟩
    iapply ((kernelRunB c (grid1.coords t) _ _ _ _ (fun h => h0 ((hcond t).mp h)) (iblk V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverB c _ _ _ _ _ _ _ _)

/-- The body obligation, at every point. -/
theorem body_obligation (c : Dev nD) : BodyObligation (dat (F := F) V c) (defs₀ (F := F)) Variants.none () Set.univ := fun t => by
  rw [bigSep_W1, bigSep_W1]
  exact sound_body V c t

/-! ## The invariant at the region's two ends -/

/-- The invariant at the first position is the class invariant, -/
theorem hin (c : Dev nD) : Pipeline.ΦA spec1 c ⊢ (dat V c).Φ 0 := .rfl

/-- and at the last. -/
theorem hout (c : Dev nD) : (dat V c).Φ (Fin.last cfg1.N) ⊢ Pipeline.ΦA spec1 c := .rfl

end Cert.Kernel.Reg1

end
-- ==== Proof.K.Reg2Frame.lean ====
/-
  Region 2 of the kernel program (custom_call 2, `cc2__k3_kernel`, pipeline 2), at a parameter `V`: the
  TensorCore's buffer contents when the region is entered.

  The grid is 8 × 8, point t = 8·i + j.  Window 0 (a [1024,1024] block of the scores at (i,j)), window 1 (the whole
  bf16 array, resident), window 2 (a [1024,1] block of the row factors at (i,0)) are inputs; window 3 (a [1024,1024]
  block at (i,0)) is the output, stored only at j = 7.  Two scratch buffers are carried between points: the running
  numerator [1024,1024] and the running denominator [1024,1]; both are reset at j = 0, added to at every point and
  read out at j = 7.  Three control cases: the first, a middle and the last point of a grid row.

  What is proved here: the proof data `dat`, the body obligation at every point, and that the region invariant is
  the class invariant before the first point and gives it back after the last.
-/
import proofs.«128303_j3917010174495_2_alg».proof.Proof.Gen.Kernel.Launch
import proofs.«128303_j3917010174495_2_alg».proof.Proof.Gen.Kernel.Skeleton
import proofs.«128303_j3917010174495_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (unfetched, the
    block index has not moved), for any proof data whose array is `V`'s and whose body leaves the block in place. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions, in closed form over the grid -/

/-- The first `scf.if`: the column coordinate is 0. -/
abbrev cond0 (i : grid2.Coords) : Prop := (Scalar.cmpi .ne (Scalar.extui (Scalar.cmpi .eq (BitVec.ofNat 32 (i 1).val) 0#32)) 0#32) = 1#1
theorem hcond0 : ∀ t : Fin cfg2.N, cond0 (grid2.coords t) ↔ t.val % 8 = 0 :=
  (by decide +kernel : ∀ t : Fin grid2.N, cond0 (grid2.coords t) ↔ t.val % 8 = 0)
/-- The last `scf.if`: the column coordinate is 7. -/
abbrev cond1 (i : grid2.Coords) : Prop := k2_cond2 i = 1#1
theorem hcond1 : ∀ t : Fin cfg2.N, cond1 (grid2.coords t) ↔ t.val % 8 = 7 :=
  (by decide +kernel : ∀ t : Fin grid2.N, cond1 (grid2.coords t) ↔ t.val % 8 = 7)

/-! ## Where the windows are idle -/

theorem liveAt_0 : ∀ t : Fin cfg2.N, cfg2.idle 0 (grid2.coords t) = false := by decide +kernel
theorem liveAt_1 : ∀ t : Fin cfg2.N, cfg2.idle 1 (grid2.coords t) = false := by decide +kernel
theorem liveAt_2 : ∀ t : Fin cfg2.N, cfg2.idle 2 (grid2.coords t) = false := by decide +kernel
/-- Off the last column the output window is idle and is not written back. -/
theorem idleAt_3 : ∀ t : Fin cfg2.N, ¬cond1 (grid2.coords t) → cfg2.idle 3 (grid2.coords t) = true := by decide +kernel
theorem noFlush_3 : ∀ t : Fin cfg2.N, ¬cond1 (grid2.coords t) → (cfg2.win 3).flush t = false := by decide +kernel
/-- On the last column it is live. -/
theorem liveAt_3 : ∀ t : Fin cfg2.N, cond1 (grid2.coords t) → cfg2.idle 3 (grid2.coords t) = false := by decide +kernel

/-! ## The memrefs the body is called with -/

/-- One staging buffer of the output window, through which its contents are stated. -/
abbrev VO : View sig .tc .vmem S1024x1024 .f32 := (Memref.whole cc2_stg3_0 : Memref sig .tc .vmem S1024x1024 .f32).view
abbrev ms0 (t : Fin cfg2.N) : Memref sig .tc .vmem S1024x1024 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S8192x1024 .bf16 := win2_1.stage (cfg2.slots t 1)
abbrev hs1 (t : Fin cfg2.N) : (ms1 t).IsWhole := hstage2_1 ((cfg2.slots t 1).cast nbuf2_1)
abbrev ms2 (t : Fin cfg2.N) : Memref sig .tc .vmem S1024x1 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S1024x1024 .f32 := win2_3.stage (cfg2.slots t 3)
abbrev hs3 (t : Fin cfg2.N) : (ms3 t).IsWhole := hstage2_3 ((cfg2.slots t 3).cast nbuf2_3)
/-- The two scratch operands: whole scoped buffers, passed beside the windows. -/
abbrev scM0 : Memref sig .tc .vmem S1024x1024 .f32 := Memref.whole cc2_scratch0
abbrev scM1 : Memref sig .tc .vmem S1024x1 .f32 := Memref.whole cc2_scratch1
abbrev VS0 : View sig .tc .vmem S1024x1024 .f32 := scM0.view
abbrev VS1 : View sig .tc .vmem S1024x1 .f32 := scM1.view

/-- The class invariant with the two scratch operands as memrefs owned at some contents. -/
theorem PhiA_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ d, owns (c : Thread nD τ) scM0 fullShare d) ∗ (∃ d, owns (c : Thread nD τ) scM1 fullShare d) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg3_1), ((c : Thread nD τ).loc cc3_stg3_1) ↦{fullShare} f) ∗ (∃ f : Buf (Elt F) ((c : Thread nD τ).loc cc3_scratch0), ((c : Thread nD τ).loc cc3_scratch0) ↦{fullShare} f) ∗ (∃ f : Buf (Elt F) ((c : Thread nD τ).loc cc3_scratch1), ((c : Thread nD τ).loc cc3_scratch1) ↦{fullShare} f)) ∗ (∃ r, prngReg c r)) := by
  unfold Pipeline.ΦA; rw [scopedRest2_eq]; simp only [scM0, scM1, owns_whole]; try rfl

/-! ## The kernel body on any whole memrefs, case by case: the pieces each buffer ends with are found by the run -/

set_option maxHeartbeats 4000000 in
/-- FIRST point of a grid row (column 0): the two scratch buffers, at anything, are reset and added to; the output
    buffer is not touched and is handed back as found. -/
noncomputable def kernelRun_A (c : Dev nD) (i : grid2.Coords) (arg2 : Memref sig .tc .vmem S1024x1024 .f32) (harg2 : arg2.IsWhole) (arg3 : Memref sig .tc .vmem S8192x1024 .bf16) (harg3 : arg3.IsWhole) (arg4 : Memref sig .tc .vmem S1024x1 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (hc0 : cond0 i) (hc1 : ¬cond1 i)
    (x0 : Vec F S1024x1024 .f32) (x1 : Vec F S8192x1024 .bf16) (x2 : Vec F S1024x1 .f32) :
    Σ' (L3 : List (View.Piece (Elt F) S1024x1024 .f32)) (LS0 : List (View.Piece (Elt F) S1024x1024 .f32)), { LS1 : List (View.Piece (Elt F) S1024x1 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc2__k3_kernel i arg2 harg2 arg3 harg3 arg4 harg4 arg5 harg5 arg6 harg6 arg7 harg7) K } := by
  refine ⟨[], ?_, ?_, fun xi3 E K => ?run⟩
  case run =>
    simp only [cc2__k3_kernel_eq_skeleton]; unfold cc2__k3_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 4000000 in
/-- A MIDDLE point of a grid row (columns 1..6): the two scratch buffers, at what the point before left, are added
    to; the output buffer is not touched. -/
noncomputable def kernelRun_B (c : Dev nD) (i : grid2.Coords) (arg2 : Memref sig .tc .vmem S1024x1024 .f32) (harg2 : arg2.IsWhole) (arg3 : Memref sig .tc .vmem S8192x1024 .bf16) (harg3 : arg3.IsWhole) (arg4 : Memref sig .tc .vmem S1024x1 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (hc0 : ¬cond0 i) (hc1 : ¬cond1 i)
    (x0 : Vec F S1024x1024 .f32) (x1 : Vec F S8192x1024 .bf16) (x2 : Vec F S1024x1 .f32) (xs0 : Vec F S1024x1024 .f32) (xs1 : Vec F S1024x1 .f32) :
    Σ' (L3 : List (View.Piece (Elt F) S1024x1024 .f32)) (LS0 : List (View.Piece (Elt F) S1024x1024 .f32)), { LS1 : List (View.Piece (Elt F) S1024x1 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc2__k3_kernel i arg2 harg2 arg3 harg3 arg4 harg4 arg5 harg5 arg6 harg6 arg7 harg7) K } := by
  refine ⟨[], ?_, ?_, fun xi3 E K => ?run⟩
  case run =>
    simp only [cc2__k3_kernel_eq_skeleton]; unfold cc2__k3_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 4000000 in
/-- The LAST point of a grid row (column 7): the two scratch buffers, at what the point before left, are added to,
    and the output buffer, at anything, is stored whole with their quotient. -/
noncomputable def kernelRun_C (c : Dev nD) (i : grid2.Coords) (arg2 : Memref sig .tc .vmem S1024x1024 .f32) (harg2 : arg2.IsWhole) (arg3 : Memref sig .tc .vmem S8192x1024 .bf16) (harg3 : arg3.IsWhole) (arg4 : Memref sig .tc .vmem S1024x1 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (hc0 : ¬cond0 i) (hc1 : cond1 i)
    (x0 : Vec F S1024x1024 .f32) (x1 : Vec F S8192x1024 .bf16) (x2 : Vec F S1024x1 .f32) (xs0 : Vec F S1024x1024 .f32) (xs1 : Vec F S1024x1 .f32) :
    Σ' (L3 : List (View.Piece (Elt F) S1024x1024 .f32)) (LS0 : List (View.Piece (Elt F) S1024x1024 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc2__k3_kernel i arg2 harg2 arg3 harg3 arg4 harg4 arg5 harg5 arg6 harg6 arg7 harg7) K } := by
  refine ⟨?_, ?_, ?_, fun E K => ?run⟩
  case run =>
    simp only [cc2__k3_kernel_eq_skeleton]; unfold cc2__k3_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

/-! ## What a point leaves: the output's buffer and the two scratch buffers, from the case's pieces -/

/-- The three buffers a point leaves: the output window's, the running numerator, the running denominator. -/
abbrev Outs (F : FTy → Type) [FloatOps F] : Type := Vec F S1024x1024 .f32 × Vec F S1024x1024 .f32 × Vec F S1024x1 .f32

/-- Pieces read back over junk (where the pieces cover the buffer the junk is never seen). -/
def readO (L : List (View.Piece (Elt F) S1024x1024 .f32)) : Vec F S1024x1024 .f32 := VO.read (Elt F) (VO.writes (Elt F) VO.junk L)
def readS0 (L : List (View.Piece (Elt F) S1024x1024 .f32)) : Vec F S1024x1024 .f32 := VS0.read (Elt F) (VS0.writes (Elt F) VS0.junk L)
def readS1 (L : List (View.Piece (Elt F) S1024x1 .f32)) : Vec F S1024x1 .f32 := VS1.read (Elt F) (VS1.writes (Elt F) VS1.junk L)

/-- The body's run at point `t` in each case, at the point's memrefs and the input windows' blocks. -/
def runA (c : Dev nD) (t : Fin cfg2.N) (h0 : t.val % 8 = 0) (h1 : ¬t.val % 8 = 7) :=
  kernelRun_A (F := F) c (grid2.coords t) (ms0 t) (hs0 t) (ms1 t) (hs1 t) (ms2 t) (hs2 t) (ms3 t) (hs3 t) scM0 (Memref.isWhole_whole _) scM1 (Memref.isWhole_whole _) ((hcond0 t).mpr h0) (fun h => h1 ((hcond1 t).mp h)) (iblk V c 0 t) (iblk V c 1 t) (iblk V c 2 t)
def runB (c : Dev nD) (t : Fin cfg2.N) (h0 : ¬t.val % 8 = 0) (h1 : ¬t.val % 8 = 7) (xs0 : Vec F S1024x1024 .f32) (xs1 : Vec F S1024x1 .f32) :=
  kernelRun_B (F := F) c (grid2.coords t) (ms0 t) (hs0 t) (ms1 t) (hs1 t) (ms2 t) (hs2 t) (ms3 t) (hs3 t) scM0 (Memref.isWhole_whole _) scM1 (Memref.isWhole_whole _) (fun h => h0 ((hcond0 t).mp h)) (fun h => h1 ((hcond1 t).mp h)) (iblk V c 0 t) (iblk V c 1 t) (iblk V c 2 t) xs0 xs1
def runC (c : Dev nD) (t : Fin cfg2.N) (h0 : ¬t.val % 8 = 0) (h1 : t.val % 8 = 7) (xs0 : Vec F S1024x1024 .f32) (xs1 : Vec F S1024x1 .f32) :=
  kernelRun_C (F := F) c (grid2.coords t) (ms0 t) (hs0 t) (ms1 t) (hs1 t) (ms2 t) (hs2 t) (ms3 t) (hs3 t) scM0 (Memref.isWhole_whole _) scM1 (Memref.isWhole_whole _) (fun h => h0 ((hcond0 t).mp h)) ((hcond1 t).mpr h1) (iblk V c 0 t) (iblk V c 1 t) (iblk V c 2 t) xs0 xs1

/-- The pieces of each case cover the buffers they are stored into. -/
theorem scoverA_0 (c : Dev nD) (t : Fin cfg2.N) (h0 : t.val % 8 = 0) (h1 : ¬t.val % 8 = 7) (y : S1024x1024.Idx) : ∃ pc ∈ (runA V c t h0 h1).2.1, y ∈ pc.1.set :=
  View.cover_of_tiledL (runA V c t h0 h1).2.1 S1024x1024.size (by sl_kernel_rfl) y
theorem scoverA_1 (c : Dev nD) (t : Fin cfg2.N) (h0 : t.val % 8 = 0) (h1 : ¬t.val % 8 = 7) (y : S1024x1.Idx) : ∃ pc ∈ (runA V c t h0 h1).2.2.1, y ∈ pc.1.set :=
  View.cover_of_tiledL (runA V c t h0 h1).2.2.1 S1024x1.size (by sl_kernel_rfl) y
theorem scoverB_0 (c : Dev nD) (t : Fin cfg2.N) (h0 : ¬t.val % 8 = 0) (h1 : ¬t.val % 8 = 7) (xs0 : Vec F S1024x1024 .f32) (xs1 : Vec F S1024x1 .f32) (y : S1024x1024.Idx) : ∃ pc ∈ (runB V c t h0 h1 xs0 xs1).2.1, y ∈ pc.1.set :=
  View.cover_of_tiledL (runB V c t h0 h1 xs0 xs1).2.1 S1024x1024.size (by sl_kernel_rfl) y
theorem scoverB_1 (c : Dev nD) (t : Fin cfg2.N) (h0 : ¬t.val % 8 = 0) (h1 : ¬t.val % 8 = 7) (xs0 : Vec F S1024x1024 .f32) (xs1 : Vec F S1024x1 .f32) (y : S1024x1.Idx) : ∃ pc ∈ (runB V c t h0 h1 xs0 xs1).2.2.1, y ∈ pc.1.set :=
  View.cover_of_tiledL (runB V c t h0 h1 xs0 xs1).2.2.1 S1024x1.size (by sl_kernel_rfl) y
theorem coverC_3 (c : Dev nD) (t : Fin cfg2.N) (h0 : ¬t.val % 8 = 0) (h1 : t.val % 8 = 7) (xs0 : Vec F S1024x1024 .f32) (xs1 : Vec F S1024x1 .f32) (y : S1024x1024.Idx) : ∃ pc ∈ (runC V c t h0 h1 xs0 xs1).1, y ∈ pc.1.set :=
  View.cover_of_tiledL (runC V c t h0 h1 xs0 xs1).1 S1024x1024.size (by sl_kernel_rfl) y
theorem scoverC_0 (c : Dev nD) (t : Fin cfg2.N) (h0 : ¬t.val % 8 = 0) (h1 : t.val % 8 = 7) (xs0 : Vec F S1024x1024 .f32) (xs1 : Vec F S1024x1 .f32) (y : S1024x1024.Idx) : ∃ pc ∈ (runC V c t h0 h1 xs0 xs1).2.1, y ∈ pc.1.set :=
  View.cover_of_tiledL (runC V c t h0 h1 xs0 xs1).2.1 S1024x1024.size (by sl_kernel_rfl) y
theorem scoverC_1 (c : Dev nD) (t : Fin cfg2.N) (h0 : ¬t.val % 8 = 0) (h1 : t.val % 8 = 7) (xs0 : Vec F S1024x1024 .f32) (xs1 : Vec F S1024x1 .f32) (y : S1024x1.Idx) : ∃ pc ∈ (runC V c t h0 h1 xs0 xs1).2.2.1, y ∈ pc.1.set :=
  View.cover_of_tiledL (runC V c t h0 h1 xs0 xs1).2.2.1 S1024x1.size (by sl_kernel_rfl) y

/-- What each case leaves in the three buffers (the output's a placeholder where the case does not store it). -/
def outA (c : Dev nD) (t : Fin cfg2.N) (h0 : t.val % 8 = 0) (h1 : ¬t.val % 8 = 7) : Outs F :=
  (readO (runA V c t h0 h1).1, readS0 (runA V c t h0 h1).2.1, readS1 (runA V c t h0 h1).2.2.1)
def outB (c : Dev nD) (t : Fin cfg2.N) (h0 : ¬t.val % 8 = 0) (h1 : ¬t.val % 8 = 7) (xs0 : Vec F S1024x1024 .f32) (xs1 : Vec F S1024x1 .f32) : Outs F :=
  (readO (runB V c t h0 h1 xs0 xs1).1, readS0 (runB V c t h0 h1 xs0 xs1).2.1, readS1 (runB V c t h0 h1 xs0 xs1).2.2.1)
def outC (c : Dev nD) (t : Fin cfg2.N) (h0 : ¬t.val % 8 = 0) (h1 : t.val % 8 = 7) (xs0 : Vec F S1024x1024 .f32) (xs1 : Vec F S1024x1 .f32) : Outs F :=
  (readO (runC V c t h0 h1 xs0 xs1).1, readS0 (runC V c t h0 h1 xs0 xs1).2.1, readS1 (runC V c t h0 h1 xs0 xs1).2.2.1)

/-- THE ACCUMULATION: what the three buffers hold after the body at position `n`, by recursion on the position —
    the case the column selects, the carried scratch at what position `n - 1` left. -/
def outsAt (c : Dev nD) : (n : ℕ) → n < cfg2.N → Outs F
  | 0, hn => outA V c ⟨0, hn⟩ (Nat.zero_mod _) (by decide : ¬(0 % 8 = 7))
  | n + 1, hn =>
    if h0 : (n + 1) % 8 = 0 then
      if h1 : (n + 1) % 8 = 7 then False.elim (by omega)
      else outA V c ⟨n + 1, hn⟩ h0 h1
    else
      if h1 : (n + 1) % 8 = 7 then
        outC V c ⟨n + 1, hn⟩ h0 h1 (outsAt c n (Nat.lt_of_succ_lt hn)).2.1 (outsAt c n (Nat.lt_of_succ_lt hn)).2.2
      else
        outB V c ⟨n + 1, hn⟩ h0 h1 (outsAt c n (Nat.lt_of_succ_lt hn)).2.1 (outsAt c n (Nat.lt_of_succ_lt hn)).2.2

theorem outsAt_A (c : Dev nD) (t : Fin cfg2.N) (h0 : t.val % 8 = 0) (h1 : ¬t.val % 8 = 7) :
    outsAt V c t.val t.isLt = outA V c t h0 h1 := by
  obtain ⟨n, hn⟩ := t
  cases n with
  | zero => rfl
  | succ n => exact (dif_pos h0).trans (dif_neg h1)

theorem outsAt_B (c : Dev nD) (t : Fin cfg2.N) (h0 : ¬t.val % 8 = 0) (h1 : ¬t.val % 8 = 7) :
    outsAt V c t.val t.isLt = outB V c t h0 h1 (outsAt V c (t.val - 1) (Nat.lt_of_le_of_lt (Nat.sub_le _ _) t.isLt)).2.1
      (outsAt V c (t.val - 1) (Nat.lt_of_le_of_lt (Nat.sub_le _ _) t.isLt)).2.2 := by
  obtain ⟨n, hn⟩ := t
  cases n with
  | zero => exact absurd (Nat.zero_mod _) h0
  | succ n => exact (dif_neg h0).trans (dif_neg h1)

theorem outsAt_C (c : Dev nD) (t : Fin cfg2.N) (h0 : ¬t.val % 8 = 0) (h1 : t.val % 8 = 7) :
    outsAt V c t.val t.isLt = outC V c t h0 h1 (outsAt V c (t.val - 1) (Nat.lt_of_le_of_lt (Nat.sub_le _ _) t.isLt)).2.1
      (outsAt V c (t.val - 1) (Nat.lt_of_le_of_lt (Nat.sub_le _ _) t.isLt)).2.2 := by
  obtain ⟨n, hn⟩ := t
  cases n with
  | zero => exact absurd (Nat.zero_mod _) h0
  | succ n => exact (dif_neg h0).trans (dif_pos h1)

/-! ## The region invariant -/

/-- Before position `n`: before the first point the class invariant (every scoped buffer at anything); afterwards
    the same with the two carried scratch buffers at what the point before left in them. -/
def PhiS (c : Dev nD) : (n : ℕ) → n ≤ cfg2.N → sProp 𝕄
  | 0, _ => Pipeline.ΦA spec2 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ owns (c : Thread nD τ) scM0 fullShare ((outsAt V c n hn).2.1) ∗ owns (c : Thread nD τ) scM1 fullShare ((outsAt V c n hn).2.2) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg3_1), ((c : Thread nD τ).loc cc3_stg3_1) ↦{fullShare} f) ∗ (∃ f : Buf (Elt F) ((c : Thread nD τ).loc cc3_scratch0), ((c : Thread nD τ).loc cc3_scratch0) ↦{fullShare} f) ∗ (∃ f : Buf (Elt F) ((c : Thread nD τ).loc cc3_scratch1), ((c : Thread nD τ).loc cc3_scratch1) ↦{fullShare} f)) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ owns (c : Thread nD τ) scM0 fullShare ((outsAt V c n hn).2.1) ∗ owns (c : Thread nD τ) scM1 fullShare ((outsAt V c n hn).2.2) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg3_1), ((c : Thread nD τ).loc cc3_stg3_1) ↦{fullShare} f) ∗ (∃ f : Buf (Elt F) ((c : Thread nD τ).loc cc3_scratch0), ((c : Thread nD τ).loc cc3_scratch0) ↦{fullShare} f) ∗ (∃ f : Buf (Elt F) ((c : Thread nD τ).loc cc3_scratch1), ((c : Thread nD τ).loc cc3_scratch1) ↦{fullShare} f)) ∗ (∃ r, prngReg c r)) := rfl

theorem PhiS_pos (c : Dev nD) (n : ℕ) (h : n ≤ cfg2.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ owns (c : Thread nD τ) scM0 fullShare ((outsAt V c (n - 1) (by omega)).2.1) ∗ owns (c : Thread nD τ) scM1 fullShare ((outsAt V c (n - 1) (by omega)).2.2) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg3_1), ((c : Thread nD τ).loc cc3_stg3_1) ↦{fullShare} f) ∗ (∃ f : Buf (Elt F) ((c : Thread nD τ).loc cc3_scratch0), ((c : Thread nD τ).loc cc3_scratch0) ↦{fullShare} f) ∗ (∃ f : Buf (Elt F) ((c : Thread nD τ).loc cc3_scratch1), ((c : Thread nD τ).loc cc3_scratch1) ↦{fullShare} f)) ∗ (∃ r, prngReg c r)) := by
  cases n with
  | zero => exact absurd rfl hz
  | succ n => rfl

/-! ## The proof data -/

/-- The proof data of pipeline 2 on core `c`: the arrays as the region finds them; after the body at point `t`
    each input's buffer at its block and the output's at `outsAt`'s first component; the invariant `PhiS`; nothing
    owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = (outsAt V c t.val t.isLt).1 := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d

/-! ## The body obligation, at a generic point -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 8000000 in
/-- The body at any point. The inputs' memrefs hold their blocks; the column says which case the point is in; the
    invariant hands the body the two carried scratch buffers (at anything before the first point, else at what the
    point before left) and takes them back at this point's contents, which the case's pieces cover; off the last
    column the output's buffer comes back untouched, on it its pieces cover it; the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg2.N = 64 from N_2)
  rw [show (dat V c).leavesExact 0 t = owns (c : Thread nD τ) (ms0 t) fullShare ((dat V c).after 0 t) from by
    unfold Dat.leavesExact; rw [liveAt_0 t], after_0]
  rw [show (dat V c).leavesExact 1 t = owns (c : Thread nD τ) (ms1 t) fullShare ((dat V c).after 1 t) from by
    unfold Dat.leavesExact; rw [liveAt_1 t], after_1]
  rw [show (dat V c).leavesExact 2 t = owns (c : Thread nD τ) (ms2 t) fullShare ((dat V c).after 2 t) from by
    unfold Dat.leavesExact; rw [liveAt_2 t], after_2]
  by_cases h0 : t.val % 8 = 0
  · have h1 : ¬t.val % 8 = 7 := by omega
    rw [Dat.leavesExact_idle (dat V c) 3 t (idleAt_3 t (fun h => h1 ((hcond1 t).mp h))) (noFlush_3 t (fun h => h1 ((hcond1 t).mp h)))]
    rw [outsAt_A V c t h0 h1]
    unfold outA readS0 readS1; (try dsimp only)
    by_cases hz : t.val = 0
    · rw [PhiS_castSucc V c t, PhiS_zero V c _ _ hz, PhiA_eq]
      iintro ⟨⟨⟨HR0, HR1, HR2, HR3, HR4, HR5, HR6, HR7, HR8, HR9, HR10, HS0, HS1, HR13, HR14, HR15, HR16, HR17, HR18, HR19, HR20, HR21⟩, Hg⟩, Ho, ⟨%d0, H0⟩, ⟨%d1, H1⟩, ⟨%d2, H2⟩, ⟨%d3, H3⟩⟩
      iapply ((runA V c t h0 h1).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HR0 HR1 HR2 HR3 HR4 HR5 HR6 HR7 HR8 HR9 HR10 HS0 HS1 HR13 HR14 HR15 HR16 HR17 HR18 HR19 HR20 HR21 Hg]
      · isplitl [HR0 HR1 HR2 HR3 HR4 HR5 HR6 HR7 HR8 HR9 HR10 HS0 HS1 HR13 HR14 HR15 HR16 HR17 HR18 HR19 HR20 HR21]
        · isplitl [HR0]
          · iexact HR0
          isplitl [HR1]
          · iexact HR1
          isplitl [HR2]
          · iexact HR2
          isplitl [HR3]
          · iexact HR3
          isplitl [HR4]
          · iexact HR4
          isplitl [HR5]
          · iexact HR5
          isplitl [HR6]
          · iexact HR6
          isplitl [HR7]
          · iexact HR7
          isplitl [HR8]
          · iexact HR8
          isplitl [HR9]
          · iexact HR9
          isplitl [HR10]
          · iexact HR10
          isplitl [HS0]
          · unfold owns; iexists _; isplitr
            swap; · iexact HS0
            ipureintro; exact View.read_writes_of_cover _ _ _ _ _ (scoverA_0 V c t h0 h1)
          isplitl [HS1]
          · unfold owns; iexists _; isplitr
            swap; · iexact HS1
            ipureintro; exact View.read_writes_of_cover _ _ _ _ _ (scoverA_1 V c t h0 h1)
          isplitl [HR13]
          · iexact HR13
          isplitl [HR14]
          · iexact HR14
          isplitl [HR15]
          · iexact HR15
          isplitl [HR16]
          · iexact HR16
          isplitl [HR17]
          · iexact HR17
          isplitl [HR18]
          · iexact HR18
          isplitl [HR19]
          · iexact HR19
          isplitl [HR20]
          · iexact HR20
          iexact HR21
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HR0, HR1, HR2, HR3, HR4, HR5, HR6, HR7, HR8, HR9, HR10, HS0, HS1, HR13, HR14, HR15, HR16, HR17, HR18, HR19, HR20, HR21⟩, Hg⟩, Ho, ⟨%d0, H0⟩, ⟨%d1, H1⟩, ⟨%d2, H2⟩, ⟨%d3, H3⟩⟩
      iapply ((runA V c t h0 h1).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HR0 HR1 HR2 HR3 HR4 HR5 HR6 HR7 HR8 HR9 HR10 HS0 HS1 HR13 HR14 HR15 HR16 HR17 HR18 HR19 HR20 HR21 Hg]
      · isplitl [HR0 HR1 HR2 HR3 HR4 HR5 HR6 HR7 HR8 HR9 HR10 HS0 HS1 HR13 HR14 HR15 HR16 HR17 HR18 HR19 HR20 HR21]
        · isplitl [HR0]
          · iexact HR0
          isplitl [HR1]
          · iexact HR1
          isplitl [HR2]
          · iexact HR2
          isplitl [HR3]
          · iexact HR3
          isplitl [HR4]
          · iexact HR4
          isplitl [HR5]
          · iexact HR5
          isplitl [HR6]
          · iexact HR6
          isplitl [HR7]
          · iexact HR7
          isplitl [HR8]
          · iexact HR8
          isplitl [HR9]
          · iexact HR9
          isplitl [HR10]
          · iexact HR10
          isplitl [HS0]
          · unfold owns; iexists _; isplitr
            swap; · iexact HS0
            ipureintro; exact View.read_writes_of_cover _ _ _ _ _ (scoverA_0 V c t h0 h1)
          isplitl [HS1]
          · unfold owns; iexists _; isplitr
            swap; · iexact HS1
            ipureintro; exact View.read_writes_of_cover _ _ _ _ _ (scoverA_1 V c t h0 h1)
          isplitl [HR13]
          · iexact HR13
          isplitl [HR14]
          · iexact HR14
          isplitl [HR15]
          · iexact HR15
          isplitl [HR16]
          · iexact HR16
          isplitl [HR17]
          · iexact HR17
          isplitl [HR18]
          · iexact HR18
          isplitl [HR19]
          · iexact HR19
          isplitl [HR20]
          · iexact HR20
          iexact HR21
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (dat V c).leavesExact 3 t = owns (c : Thread nD τ) (ms3 t) fullShare ((dat V c).after 3 t) from by
        unfold Dat.leavesExact; rw [liveAt_3 t ((hcond1 t).mpr h1)], after_3]
      rw [outsAt_C V c t h0 h1]
      unfold outC readO readS0 readS1; (try dsimp only)
      rw [PhiS_castSucc V c t, PhiS_pos V c _ _ hz]
      iintro ⟨⟨⟨HR0, HR1, HR2, HR3, HR4, HR5, HR6, HR7, HR8, HR9, HR10, HS0, HS1, HR13, HR14, HR15, HR16, HR17, HR18, HR19, HR20, HR21⟩, Hg⟩, Ho, ⟨%d0, H0⟩, ⟨%d1, H1⟩, ⟨%d2, H2⟩, ⟨%d3, H3⟩⟩
      iapply ((runC V c t h0 h1 _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HR0 HR1 HR2 HR3 HR4 HR5 HR6 HR7 HR8 HR9 HR10 HS0 HS1 HR13 HR14 HR15 HR16 HR17 HR18 HR19 HR20 HR21 Hg]
      · isplitl [HR0 HR1 HR2 HR3 HR4 HR5 HR6 HR7 HR8 HR9 HR10 HS0 HS1 HR13 HR14 HR15 HR16 HR17 HR18 HR19 HR20 HR21]
        · isplitl [HR0]
          · iexact HR0
          isplitl [HR1]
          · iexact HR1
          isplitl [HR2]
          · iexact HR2
          isplitl [HR3]
          · iexact HR3
          isplitl [HR4]
          · iexact HR4
          isplitl [HR5]
          · iexact HR5
          isplitl [HR6]
          · iexact HR6
          isplitl [HR7]
          · iexact HR7
          isplitl [HR8]
          · iexact HR8
          isplitl [HR9]
          · iexact HR9
          isplitl [HR10]
          · iexact HR10
          isplitl [HS0]
          · unfold owns; iexists _; isplitr
            swap; · iexact HS0
            ipureintro; exact View.read_writes_of_cover _ _ _ _ _ (scoverC_0 V c t h0 h1 _ _)
          isplitl [HS1]
          · unfold owns; iexists _; isplitr
            swap; · iexact HS1
            ipureintro; exact View.read_writes_of_cover _ _ _ _ _ (scoverC_1 V c t h0 h1 _ _)
          isplitl [HR13]
          · iexact HR13
          isplitl [HR14]
          · iexact HR14
          isplitl [HR15]
          · iexact HR15
          isplitl [HR16]
          · iexact HR16
          isplitl [HR17]
          · iexact HR17
          isplitl [HR18]
          · iexact HR18
          isplitl [HR19]
          · iexact HR19
          isplitl [HR20]
          · iexact HR20
          iexact HR21
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC_3 V c t h0 h1 _ _)
    · rw [Dat.leavesExact_idle (dat V c) 3 t (idleAt_3 t (fun h => h1 ((hcond1 t).mp h))) (noFlush_3 t (fun h => h1 ((hcond1 t).mp h)))]
      rw [outsAt_B V c t h0 h1]
      unfold outB readS0 readS1; (try dsimp only)
      rw [PhiS_castSucc V c t, PhiS_pos V c _ _ hz]
      iintro ⟨⟨⟨HR0, HR1, HR2, HR3, HR4, HR5, HR6, HR7, HR8, HR9, HR10, HS0, HS1, HR13, HR14, HR15, HR16, HR17, HR18, HR19, HR20, HR21⟩, Hg⟩, Ho, ⟨%d0, H0⟩, ⟨%d1, H1⟩, ⟨%d2, H2⟩, ⟨%d3, H3⟩⟩
      iapply ((runB V c t h0 h1 _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HR0 HR1 HR2 HR3 HR4 HR5 HR6 HR7 HR8 HR9 HR10 HS0 HS1 HR13 HR14 HR15 HR16 HR17 HR18 HR19 HR20 HR21 Hg]
      · isplitl [HR0 HR1 HR2 HR3 HR4 HR5 HR6 HR7 HR8 HR9 HR10 HS0 HS1 HR13 HR14 HR15 HR16 HR17 HR18 HR19 HR20 HR21]
        · isplitl [HR0]
          · iexact HR0
          isplitl [HR1]
          · iexact HR1
          isplitl [HR2]
          · iexact HR2
          isplitl [HR3]
          · iexact HR3
          isplitl [HR4]
          · iexact HR4
          isplitl [HR5]
          · iexact HR5
          isplitl [HR6]
          · iexact HR6
          isplitl [HR7]
          · iexact HR7
          isplitl [HR8]
          · iexact HR8
          isplitl [HR9]
          · iexact HR9
          isplitl [HR10]
          · iexact HR10
          isplitl [HS0]
          · unfold owns; iexists _; isplitr
            swap; · iexact HS0
            ipureintro; exact View.read_writes_of_cover _ _ _ _ _ (scoverB_0 V c t h0 h1 _ _)
          isplitl [HS1]
          · unfold owns; iexists _; isplitr
            swap; · iexact HS1
            ipureintro; exact View.read_writes_of_cover _ _ _ _ _ (scoverB_1 V c t h0 h1 _ _)
          isplitl [HR13]
          · iexact HR13
          isplitl [HR14]
          · iexact HR14
          isplitl [HR15]
          · iexact HR15
          isplitl [HR16]
          · iexact HR16
          isplitl [HR17]
          · iexact HR17
          isplitl [HR18]
          · iexact HR18
          isplitl [HR19]
          · iexact HR19
          isplitl [HR20]
          · iexact HR20
          iexact HR21
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After any point but the first the invariant gives the class invariant back: what the two carried scratch
    buffers hold is forgotten. -/
theorem Phi_out (c : Dev nD) (t : Fin (cfg2.N + 1)) (ht : t.val ≠ 0) : (dat V c).Φ t ⊢ Pipeline.ΦA spec2 c := by
  rw [show (dat V c).Φ t = PhiS V c t.val (Nat.le_of_lt_succ t.isLt) from rfl, PhiS_pos V c _ _ ht, PhiA_eq]
  iintro ⟨⟨HR0, HR1, HR2, HR3, HR4, HR5, HR6, HR7, HR8, HR9, HR10, HS0, HS1, HR13, HR14, HR15, HR16, HR17, HR18, HR19, HR20, HR21⟩, Hg⟩
  isplitl [HR0 HR1 HR2 HR3 HR4 HR5 HR6 HR7 HR8 HR9 HR10 HS0 HS1 HR13 HR14 HR15 HR16 HR17 HR18 HR19 HR20 HR21]
  · isplitl [HR0]
    · iexact HR0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HR10]
    · iexact HR10
    isplitl [HS0]
    · iexists _; iexact HS0
    isplitl [HS1]
    · iexists _; iexact HS1
    isplitl [HR13]
    · iexact HR13
    isplitl [HR14]
    · iexact HR14
    isplitl [HR15]
    · iexact HR15
    isplitl [HR16]
    · iexact HR16
    isplitl [HR17]
    · iexact HR17
    isplitl [HR18]
    · iexact HR18
    isplitl [HR19]
    · iexact HR19
    isplitl [HR20]
    · iexact HR20
    iexact HR21
  iexact Hg

/-- The same after the last point. -/
theorem hout (c : Dev nD) : (dat V c).Φ (Fin.last cfg2.N) ⊢ Pipeline.ΦA spec2 c :=
  Phi_out V c _ (by rw [Fin.val_last]; have : cfg2.N = 64 := N_2; omega)

end Cert.Kernel.Reg2

end
-- ==== Proof.K.Reg3Run.lean ====
/-
  Region 3 of the kernel program (custom_call 3: the column softmax of the scores times `im`): the windows' blocks at a
  parameter `V` (the TensorCore's buffer contents when the region is entered), the closed forms of the body's two
  conditions over the 8 × 8 grid (point t = 8·j + i: the first holds at i = 0, the second at i = 7), where the output
  window is idle, and the body's triple in each of its three control cases — first, middle and last point of a grid
  row — on whole memrefs, with the pieces its stores leave in the output block and in the two scratch buffers.
-/
import proofs.«128303_j3917010174495_2_alg».proof.Proof.Gen.Kernel.Launch
import proofs.«128303_j3917010174495_2_alg».proof.Proof.Gen.Kernel.Skeleton
import proofs.«128303_j3917010174495_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Reg3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof
    data whose array is `V`'s and whose body leaves the block in place. -/
theorem before_0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's first `scf.if` (the scratch buffers are zeroed), from the grid coordinates. -/
abbrev cond0 (i : grid3.Coords) : Prop := (Scalar.cmpi .ne (Scalar.extui (Scalar.cmpi .eq (BitVec.ofNat 32 (i 1).val) 0#32)) 0#32) = 1#1
/-- It holds at the first point of each grid row. -/
theorem hcond0 : ∀ t : Fin cfg3.N, cond0 (grid3.coords t) ↔ t.val % 8 = 0 :=
  (by decide +kernel : ∀ t : Fin grid3.N, cond0 (grid3.coords t) ↔ t.val % 8 = 0)

/-- The condition of the body's last `scf.if` (the quotient is stored into the output block). -/
abbrev cond1 (i : grid3.Coords) : Prop := k3_cond2 i = 1#1
/-- It holds at the last point of each grid row. -/
theorem hcond1 : ∀ t : Fin cfg3.N, cond1 (grid3.coords t) ↔ t.val % 8 = 7 :=
  (by decide +kernel : ∀ t : Fin grid3.N, cond1 (grid3.coords t) ↔ t.val % 8 = 7)

/-! ## Where the windows are idle -/

theorem liveAt_0 : ∀ t : Fin cfg3.N, cfg3.idle 0 (grid3.coords t) = false := fun _ => rfl
theorem liveAt_1 : ∀ t : Fin cfg3.N, cfg3.idle 1 (grid3.coords t) = false := fun _ => rfl
theorem liveAt_2 : ∀ t : Fin cfg3.N, cfg3.idle 2 (grid3.coords t) = false := fun _ => rfl
/-- Where the last `scf.if` is not taken the output window is idle and not written back. -/
theorem idleAt_3 : ∀ t : Fin cfg3.N, ¬cond1 (grid3.coords t) → cfg3.idle 3 (grid3.coords t) = true := by decide +kernel
theorem noFlush_3 : ∀ t : Fin cfg3.N, ¬cond1 (grid3.coords t) → (cfg3.win 3).flush t = false := by decide +kernel
/-- Where it is taken the window is live. -/
theorem liveAt_3 : ∀ t : Fin cfg3.N, cond1 (grid3.coords t) → cfg3.idle 3 (grid3.coords t) = false := by decide +kernel

/-! ## The memrefs the body is called with -/

/-- One staging buffer of the output window, through which its contents are stated. -/
abbrev VO : View sig .tc .vmem S1024x1024 .f32 := (Memref.whole cc3_stg3_0 : Memref sig .tc .vmem S1024x1024 .f32).view
abbrev ms0 (t : Fin cfg3.N) : Memref sig .tc .vmem S1024x1024 .f32 := win3_0.stage (cfg3.slots t 0)
abbrev hs0 (t : Fin cfg3.N) : (ms0 t).IsWhole := hstage3_0 ((cfg3.slots t 0).cast nbuf3_0)
abbrev ms1 (t : Fin cfg3.N) : Memref sig .tc .vmem S8192x1024 .bf16 := win3_1.stage (cfg3.slots t 1)
abbrev hs1 (t : Fin cfg3.N) : (ms1 t).IsWhole := hstage3_1 ((cfg3.slots t 1).cast nbuf3_1)
abbrev ms2 (t : Fin cfg3.N) : Memref sig .tc .vmem S1x1024 .f32 := win3_2.stage (cfg3.slots t 2)
abbrev hs2 (t : Fin cfg3.N) : (ms2 t).IsWhole := hstage3_2 ((cfg3.slots t 2).cast nbuf3_2)
abbrev ms3 (t : Fin cfg3.N) : Memref sig .tc .vmem S1024x1024 .f32 := win3_3.stage (cfg3.slots t 3)
abbrev hs3 (t : Fin cfg3.N) : (ms3 t).IsWhole := hstage3_3 ((cfg3.slots t 3).cast nbuf3_3)
/-- The two scratch operands: whole scoped buffers of the kernel's own. -/
abbrev scM0 : Memref sig .tc .vmem S1024x1024 .f32 := Memref.whole cc3_scratch0
abbrev scM1 : Memref sig .tc .vmem S1024x1 .f32 := Memref.whole cc3_scratch1
abbrev VS0 : View sig .tc .vmem S1024x1024 .f32 := scM0.view
abbrev VS1 : View sig .tc .vmem S1024x1 .f32 := scM1.view

/-- The scoped buffers that are neither a staging buffer of this call nor its scratch, unopened. -/
abbrev restBut (c : Dev nD) : sProp 𝕄 :=
  Pipeline.scopedRestBut (Ix := Unit) (Name := ℕ) (U := UR sig nD τ) (Lvl := ℕ) (Val := Elt F) spec3 c [cc3_scratch0, cc3_scratch1]

/-- The class invariant with the two scratch operands as memrefs owned at some contents. -/
theorem PhiA_eq (c : Dev nD) :
    (Pipeline.ΦA spec3 c : sProp 𝕄)
      = iprop(iprop(iprop((∃ d, owns (c : Thread nD τ) scM0 fullShare d) ∗ (∃ d, owns (c : Thread nD τ) scM1 fullShare d)) ∗ restBut (F := F) c) ∗ (∃ r, prngReg c r)) := by
  unfold Pipeline.ΦA
  rw [Pipeline.scopedRest_split_of_list spec3 c [cc3_scratch0, cc3_scratch1] (by decide) (by decide)]
  simp only [scM0, scM1, owns_whole, bigSepL_cons_cons, bigSepL_singleton]; try rfl

/-! ## The body on any staging memrefs, case by case -/

set_option maxHeartbeats 1000000 in
/-- FIRST point of a grid row (the first `scf.if` taken, the last not): the pieces the body's stores leave in the
    output block (none) and in the two scratch buffers, with the body's triple on whole memrefs — the inputs at
    their contents, the output at contents handed back untouched, the scratch buffers at anything. -/
noncomputable def kernelRun_A (c : Dev nD) (i : grid3.Coords) (arg2 : Memref sig .tc .vmem S1024x1024 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (hc0 : cond0 i) (hc1 : ¬cond1 i)
    (x0 : Vec F S1024x1024 .f32) (x1 : Vec F S8192x1024 .bf16) (x2 : Vec F S1x1024 .f32) :
    Σ' (L3 : List (View.Piece (Elt F) S1024x1024 .f32)) (LS0 : List (View.Piece (Elt F) S1024x1024 .f32)), { LS1 : List (View.Piece (Elt F) S1024x1 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc3__k4_kernel i arg2 harg2 arg3 harg3 arg4 harg4 arg5 harg5 arg6 harg6 arg7 harg7) K } := by
  refine ⟨[], ?_, ?_, fun xi3 E K => ?run⟩
  case run =>
    simp only [cc3__k4_kernel_eq_skeleton]; unfold cc3__k4_kernel_skel
    simp only [k3_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 1000000 in
/-- MIDDLE point of a grid row (neither `scf.if` taken): as the first, the scratch buffers at the contents the
    point before left. -/
noncomputable def kernelRun_B (c : Dev nD) (i : grid3.Coords) (arg2 : Memref sig .tc .vmem S1024x1024 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (hc0 : ¬cond0 i) (hc1 : ¬cond1 i)
    (x0 : Vec F S1024x1024 .f32) (x1 : Vec F S8192x1024 .bf16) (x2 : Vec F S1x1024 .f32) (xs0 : Vec F S1024x1024 .f32) (xs1 : Vec F S1024x1 .f32) :
    Σ' (L3 : List (View.Piece (Elt F) S1024x1024 .f32)) (LS0 : List (View.Piece (Elt F) S1024x1024 .f32)), { LS1 : List (View.Piece (Elt F) S1024x1 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc3__k4_kernel i arg2 harg2 arg3 harg3 arg4 harg4 arg5 harg5 arg6 harg6 arg7 harg7) K } := by
  refine ⟨[], ?_, ?_, fun xi3 E K => ?run⟩
  case run =>
    simp only [cc3__k4_kernel_eq_skeleton]; unfold cc3__k4_kernel_skel
    simp only [k3_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 1000000 in
/-- LAST point of a grid row (the last `scf.if` taken): the output block at anything, stored whole; the scratch
    buffers at the contents the point before left. -/
noncomputable def kernelRun_C (c : Dev nD) (i : grid3.Coords) (arg2 : Memref sig .tc .vmem S1024x1024 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (hc0 : ¬cond0 i) (hc1 : cond1 i)
    (x0 : Vec F S1024x1024 .f32) (x1 : Vec F S8192x1024 .bf16) (x2 : Vec F S1x1024 .f32) (xs0 : Vec F S1024x1024 .f32) (xs1 : Vec F S1024x1 .f32) :
    Σ' (L3 : List (View.Piece (Elt F) S1024x1024 .f32)) (LS0 : List (View.Piece (Elt F) S1024x1024 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc3__k4_kernel i arg2 harg2 arg3 harg3 arg4 harg4 arg5 harg5 arg6 harg6 arg7 harg7) K } := by
  refine ⟨?_, ?_, ?_, fun E K => ?run⟩
  case run =>
    simp only [cc3__k4_kernel_eq_skeleton]; unfold cc3__k4_kernel_skel
    simp only [k3_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.Kernel.Reg3

end
-- ==== Proof.K.Reg3Frame.lean ====
/-
  Region 3 of the kernel program (custom_call 3: the column softmax of the scores times `im`), its half of the frame,
  stated at a parameter `V`: the TensorCore's buffer contents when the region is entered.

  The grid is 8 × 8, point t = 8·j + i.  The body zeroes two scratch buffers at the first point of a grid row (i = 0),
  adds one block's contribution to each at every point, and at the row's last point (i = 7) divides one by the other
  into the output block, which no other point touches.  Three control cases: first, middle, last point of a row.
  The contents of the output block and of the two scratch buffers after each point are a function of the point, by
  recursion; the invariant before a point holds the two scratch buffers at what the point before left.
-/
import proofs.«128303_j3917010174495_2_alg».proof.Proof.K.Reg3Run

set_option maxRecDepth 16384

noncomputable section

namespace Cert.Kernel.Reg3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the buffers hold after the body, case by case -/

/-- In each case the pieces stored into a scratch buffer cover it, and in the last case those stored into the output
    block cover it. -/
theorem scoverA_0 (c : Dev nD) (i : grid3.Coords) (arg2 : Memref sig .tc .vmem S1024x1024 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (hc0 : cond0 i) (hc1 : ¬cond1 i) (x0 : Vec F S1024x1024 .f32) (x1 : Vec F S8192x1024 .bf16) (x2 : Vec F S1x1024 .f32) (y : S1024x1024.Idx) :
    ∃ pc ∈ (kernelRun_A c i arg2 harg2 arg3 harg3 arg4 harg4 arg5 harg5 arg6 harg6 arg7 harg7 hc0 hc1 x0 x1 x2).2.1, y ∈ pc.1.set :=
  View.cover_of_tiledL (kernelRun_A c i arg2 harg2 arg3 harg3 arg4 harg4 arg5 harg5 arg6 harg6 arg7 harg7 hc0 hc1 x0 x1 x2).2.1 S1024x1024.size (by sl_kernel_rfl) y
theorem scoverA_1 (c : Dev nD) (i : grid3.Coords) (arg2 : Memref sig .tc .vmem S1024x1024 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (hc0 : cond0 i) (hc1 : ¬cond1 i) (x0 : Vec F S1024x1024 .f32) (x1 : Vec F S8192x1024 .bf16) (x2 : Vec F S1x1024 .f32) (y : S1024x1.Idx) :
    ∃ pc ∈ (kernelRun_A c i arg2 harg2 arg3 harg3 arg4 harg4 arg5 harg5 arg6 harg6 arg7 harg7 hc0 hc1 x0 x1 x2).2.2.1, y ∈ pc.1.set :=
  View.cover_of_tiledL (kernelRun_A c i arg2 harg2 arg3 harg3 arg4 harg4 arg5 harg5 arg6 harg6 arg7 harg7 hc0 hc1 x0 x1 x2).2.2.1 S1024x1.size (by sl_kernel_rfl) y
theorem scoverB_0 (c : Dev nD) (i : grid3.Coords) (arg2 : Memref sig .tc .vmem S1024x1024 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (hc0 : ¬cond0 i) (hc1 : ¬cond1 i) (x0 : Vec F S1024x1024 .f32) (x1 : Vec F S8192x1024 .bf16) (x2 : Vec F S1x1024 .f32) (xs0 : Vec F S1024x1024 .f32) (xs1 : Vec F S1024x1 .f32) (y : S1024x1024.Idx) :
    ∃ pc ∈ (kernelRun_B c i arg2 harg2 arg3 harg3 arg4 harg4 arg5 harg5 arg6 harg6 arg7 harg7 hc0 hc1 x0 x1 x2 xs0 xs1).2.1, y ∈ pc.1.set :=
  View.cover_of_tiledL (kernelRun_B c i arg2 harg2 arg3 harg3 arg4 harg4 arg5 harg5 arg6 harg6 arg7 harg7 hc0 hc1 x0 x1 x2 xs0 xs1).2.1 S1024x1024.size (by sl_kernel_rfl) y
theorem scoverB_1 (c : Dev nD) (i : grid3.Coords) (arg2 : Memref sig .tc .vmem S1024x1024 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (hc0 : ¬cond0 i) (hc1 : ¬cond1 i) (x0 : Vec F S1024x1024 .f32) (x1 : Vec F S8192x1024 .bf16) (x2 : Vec F S1x1024 .f32) (xs0 : Vec F S1024x1024 .f32) (xs1 : Vec F S1024x1 .f32) (y : S1024x1.Idx) :
    ∃ pc ∈ (kernelRun_B c i arg2 harg2 arg3 harg3 arg4 harg4 arg5 harg5 arg6 harg6 arg7 harg7 hc0 hc1 x0 x1 x2 xs0 xs1).2.2.1, y ∈ pc.1.set :=
  View.cover_of_tiledL (kernelRun_B c i arg2 harg2 arg3 harg3 arg4 harg4 arg5 harg5 arg6 harg6 arg7 harg7 hc0 hc1 x0 x1 x2 xs0 xs1).2.2.1 S1024x1.size (by sl_kernel_rfl) y
theorem coverC_3 (c : Dev nD) (i : grid3.Coords) (arg2 : Memref sig .tc .vmem S1024x1024 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (hc0 : ¬cond0 i) (hc1 : cond1 i) (x0 : Vec F S1024x1024 .f32) (x1 : Vec F S8192x1024 .bf16) (x2 : Vec F S1x1024 .f32) (xs0 : Vec F S1024x1024 .f32) (xs1 : Vec F S1024x1 .f32) (y : S1024x1024.Idx) :
    ∃ pc ∈ (kernelRun_C c i arg2 harg2 arg3 harg3 arg4 harg4 arg5 harg5 arg6 harg6 arg7 harg7 hc0 hc1 x0 x1 x2 xs0 xs1).1, y ∈ pc.1.set :=
  View.cover_of_tiledL (kernelRun_C c i arg2 harg2 arg3 harg3 arg4 harg4 arg5 harg5 arg6 harg6 arg7 harg7 hc0 hc1 x0 x1 x2 xs0 xs1).1 S1024x1024.size (by sl_kernel_rfl) y
theorem scoverC_0 (c : Dev nD) (i : grid3.Coords) (arg2 : Memref sig .tc .vmem S1024x1024 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (hc0 : ¬cond0 i) (hc1 : cond1 i) (x0 : Vec F S1024x1024 .f32) (x1 : Vec F S8192x1024 .bf16) (x2 : Vec F S1x1024 .f32) (xs0 : Vec F S1024x1024 .f32) (xs1 : Vec F S1024x1 .f32) (y : S1024x1024.Idx) :
    ∃ pc ∈ (kernelRun_C c i arg2 harg2 arg3 harg3 arg4 harg4 arg5 harg5 arg6 harg6 arg7 harg7 hc0 hc1 x0 x1 x2 xs0 xs1).2.1, y ∈ pc.1.set :=
  View.cover_of_tiledL (kernelRun_C c i arg2 harg2 arg3 harg3 arg4 harg4 arg5 harg5 arg6 harg6 arg7 harg7 hc0 hc1 x0 x1 x2 xs0 xs1).2.1 S1024x1024.size (by sl_kernel_rfl) y
theorem scoverC_1 (c : Dev nD) (i : grid3.Coords) (arg2 : Memref sig .tc .vmem S1024x1024 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (hc0 : ¬cond0 i) (hc1 : cond1 i) (x0 : Vec F S1024x1024 .f32) (x1 : Vec F S8192x1024 .bf16) (x2 : Vec F S1x1024 .f32) (xs0 : Vec F S1024x1024 .f32) (xs1 : Vec F S1024x1 .f32) (y : S1024x1.Idx) :
    ∃ pc ∈ (kernelRun_C c i arg2 harg2 arg3 harg3 arg4 harg4 arg5 harg5 arg6 harg6 arg7 harg7 hc0 hc1 x0 x1 x2 xs0 xs1).2.2.1, y ∈ pc.1.set :=
  View.cover_of_tiledL (kernelRun_C c i arg2 harg2 arg3 harg3 arg4 harg4 arg5 harg5 arg6 harg6 arg7 harg7 hc0 hc1 x0 x1 x2 xs0 xs1).2.2.1 S1024x1.size (by sl_kernel_rfl) y

/-- What a list of pieces leaves in the output block, in scratch 0, in scratch 1: the pieces read back over junk. -/
abbrev rdO (L : List (View.Piece (Elt F) S1024x1024 .f32)) : Vec F S1024x1024 .f32 := VO.read (Elt F) (VO.writes (Elt F) VO.junk L)
abbrev rdS0 (L : List (View.Piece (Elt F) S1024x1024 .f32)) : Vec F S1024x1024 .f32 := VS0.read (Elt F) (VS0.writes (Elt F) VS0.junk L)
abbrev rdS1 (L : List (View.Piece (Elt F) S1024x1 .f32)) : Vec F S1024x1 .f32 := VS1.read (Elt F) (VS1.writes (Elt F) VS1.junk L)

/-- The three buffers (output block, scratch 0, scratch 1) after the body at a point of each case, at the point's
    memrefs and input blocks; in the first two cases the output component is a placeholder nothing consults (the
    window is idle there). -/
def outsA (c : Dev nD) (t : Fin cfg3.N) (h0 : t.val % 8 = 0) (h1 : ¬t.val % 8 = 7) : Vec F S1024x1024 .f32 × Vec F S1024x1024 .f32 × Vec F S1024x1 .f32 :=
  (rdO (kernelRun_A c (grid3.coords t) (ms0 t) (hs0 t) (ms1 t) (hs1 t) (ms2 t) (hs2 t) (ms3 t) (hs3 t) scM0 (Memref.isWhole_whole _) scM1 (Memref.isWhole_whole _) ((hcond0 t).mpr h0) (fun h => h1 ((hcond1 t).mp h)) (iblk V c 0 t) (iblk V c 1 t) (iblk V c 2 t)).1,
   rdS0 (kernelRun_A c (grid3.coords t) (ms0 t) (hs0 t) (ms1 t) (hs1 t) (ms2 t) (hs2 t) (ms3 t) (hs3 t) scM0 (Memref.isWhole_whole _) scM1 (Memref.isWhole_whole _) ((hcond0 t).mpr h0) (fun h => h1 ((hcond1 t).mp h)) (iblk V c 0 t) (iblk V c 1 t) (iblk V c 2 t)).2.1,
   rdS1 (kernelRun_A c (grid3.coords t) (ms0 t) (hs0 t) (ms1 t) (hs1 t) (ms2 t) (hs2 t) (ms3 t) (hs3 t) scM0 (Memref.isWhole_whole _) scM1 (Memref.isWhole_whole _) ((hcond0 t).mpr h0) (fun h => h1 ((hcond1 t).mp h)) (iblk V c 0 t) (iblk V c 1 t) (iblk V c 2 t)).2.2.1)
def outsB (c : Dev nD) (t : Fin cfg3.N) (h0 : ¬t.val % 8 = 0) (h1 : ¬t.val % 8 = 7) (xs0 : Vec F S1024x1024 .f32) (xs1 : Vec F S1024x1 .f32) : Vec F S1024x1024 .f32 × Vec F S1024x1024 .f32 × Vec F S1024x1 .f32 :=
  (rdO (kernelRun_B c (grid3.coords t) (ms0 t) (hs0 t) (ms1 t) (hs1 t) (ms2 t) (hs2 t) (ms3 t) (hs3 t) scM0 (Memref.isWhole_whole _) scM1 (Memref.isWhole_whole _) (fun h => h0 ((hcond0 t).mp h)) (fun h => h1 ((hcond1 t).mp h)) (iblk V c 0 t) (iblk V c 1 t) (iblk V c 2 t) xs0 xs1).1,
   rdS0 (kernelRun_B c (grid3.coords t) (ms0 t) (hs0 t) (ms1 t) (hs1 t) (ms2 t) (hs2 t) (ms3 t) (hs3 t) scM0 (Memref.isWhole_whole _) scM1 (Memref.isWhole_whole _) (fun h => h0 ((hcond0 t).mp h)) (fun h => h1 ((hcond1 t).mp h)) (iblk V c 0 t) (iblk V c 1 t) (iblk V c 2 t) xs0 xs1).2.1,
   rdS1 (kernelRun_B c (grid3.coords t) (ms0 t) (hs0 t) (ms1 t) (hs1 t) (ms2 t) (hs2 t) (ms3 t) (hs3 t) scM0 (Memref.isWhole_whole _) scM1 (Memref.isWhole_whole _) (fun h => h0 ((hcond0 t).mp h)) (fun h => h1 ((hcond1 t).mp h)) (iblk V c 0 t) (iblk V c 1 t) (iblk V c 2 t) xs0 xs1).2.2.1)
def outsC (c : Dev nD) (t : Fin cfg3.N) (h0 : ¬t.val % 8 = 0) (h1 : t.val % 8 = 7) (xs0 : Vec F S1024x1024 .f32) (xs1 : Vec F S1024x1 .f32) : Vec F S1024x1024 .f32 × Vec F S1024x1024 .f32 × Vec F S1024x1 .f32 :=
  (rdO (kernelRun_C c (grid3.coords t) (ms0 t) (hs0 t) (ms1 t) (hs1 t) (ms2 t) (hs2 t) (ms3 t) (hs3 t) scM0 (Memref.isWhole_whole _) scM1 (Memref.isWhole_whole _) (fun h => h0 ((hcond0 t).mp h)) ((hcond1 t).mpr h1) (iblk V c 0 t) (iblk V c 1 t) (iblk V c 2 t) xs0 xs1).1,
   rdS0 (kernelRun_C c (grid3.coords t) (ms0 t) (hs0 t) (ms1 t) (hs1 t) (ms2 t) (hs2 t) (ms3 t) (hs3 t) scM0 (Memref.isWhole_whole _) scM1 (Memref.isWhole_whole _) (fun h => h0 ((hcond0 t).mp h)) ((hcond1 t).mpr h1) (iblk V c 0 t) (iblk V c 1 t) (iblk V c 2 t) xs0 xs1).2.1,
   rdS1 (kernelRun_C c (grid3.coords t) (ms0 t) (hs0 t) (ms1 t) (hs1 t) (ms2 t) (hs2 t) (ms3 t) (hs3 t) scM0 (Memref.isWhole_whole _) scM1 (Memref.isWhole_whole _) (fun h => h0 ((hcond0 t).mp h)) ((hcond1 t).mpr h1) (iblk V c 0 t) (iblk V c 1 t) (iblk V c 2 t) xs0 xs1).2.2.1)

/-! ## What the buffers hold after each point -/

/-- THE ACCUMULATION: the three buffers after the body at position `n` — the case `n mod 8` selects, the scratch
    buffers it reads at what position `n - 1` left. -/
def outsAt (c : Dev nD) : (n : ℕ) → n < cfg3.N → Vec F S1024x1024 .f32 × Vec F S1024x1024 .f32 × Vec F S1024x1 .f32
  | 0, hn => outsA V c ⟨0, hn⟩ (Nat.zero_mod _) (show ¬(0 : ℕ) % 8 = 7 by decide)
  | n + 1, hn =>
    if h0 : (n + 1) % 8 = 0 then
      if h1 : (n + 1) % 8 = 7 then False.elim (by omega)
      else outsA V c ⟨n + 1, hn⟩ h0 h1
    else
      if h1 : (n + 1) % 8 = 7 then
        outsC V c ⟨n + 1, hn⟩ h0 h1 (outsAt c n (Nat.lt_of_succ_lt hn)).2.1 (outsAt c n (Nat.lt_of_succ_lt hn)).2.2
      else
        outsB V c ⟨n + 1, hn⟩ h0 h1 (outsAt c n (Nat.lt_of_succ_lt hn)).2.1 (outsAt c n (Nat.lt_of_succ_lt hn)).2.2

theorem outsAt_A (c : Dev nD) (t : Fin cfg3.N) (h0 : t.val % 8 = 0) (h1 : ¬t.val % 8 = 7) :
    outsAt V c t.val t.isLt = outsA V c t h0 h1 := by
  obtain ⟨n, hn⟩ := t
  cases n with
  | zero => exact rfl
  | succ n => exact (dif_pos h0).trans ((dif_neg h1).trans rfl)

theorem outsAt_B (c : Dev nD) (t : Fin cfg3.N) (h0 : ¬t.val % 8 = 0) (h1 : ¬t.val % 8 = 7) :
    outsAt V c t.val t.isLt = outsB V c t h0 h1 (outsAt V c (t.val - 1) (Nat.lt_of_le_of_lt (Nat.sub_le _ _) t.isLt)).2.1 (outsAt V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg3.N) (h0 : ¬t.val % 8 = 0) (h1 : t.val % 8 = 7) :
    outsAt V c t.val t.isLt = outsC V c t h0 h1 (outsAt V c (t.val - 1) (Nat.lt_of_le_of_lt (Nat.sub_le _ _) t.isLt)).2.1 (outsAt V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch buffer at
    anything); afterwards the two scratch buffers at what the point before left, the other scoped buffers at
    anything, the generator register at some state. -/
def PhiS (c : Dev nD) : (n : ℕ) → n ≤ cfg3.N → sProp 𝕄
  | 0, _ => Pipeline.ΦA spec3 c
  | n + 1, hn => iprop(iprop(iprop(owns (c : Thread nD τ) scM0 fullShare ((outsAt V c n hn).2.1) ∗ owns (c : Thread nD τ) scM1 fullShare ((outsAt V c n hn).2.2)) ∗ restBut (F := F) c) ∗ (∃ r, prngReg c r))

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop(iprop(iprop(owns (c : Thread nD τ) scM0 fullShare ((outsAt V c n hn).2.1) ∗ owns (c : Thread nD τ) scM1 fullShare ((outsAt V c n hn).2.2)) ∗ restBut (F := F) c) ∗ (∃ r, prngReg c r)) := rfl

theorem PhiS_pos (c : Dev nD) (n : ℕ) (h : n ≤ cfg3.N) (hz : n ≠ 0) :
    PhiS V c n h = iprop(iprop(iprop(owns (c : Thread nD τ) scM0 fullShare ((outsAt V c (n - 1) (by omega)).2.1) ∗ owns (c : Thread nD τ) scM1 fullShare ((outsAt V c (n - 1) (by omega)).2.2)) ∗ restBut (F := F) c) ∗ (∃ r, prngReg c r)) := by
  cases n with
  | zero => exact absurd rfl hz
  | succ n => rfl

/-! ## The pipeline's proof data -/

/-- The proof data of this pipeline on core `c`: the arrays as the region finds them; after the body at point `t`
    each input's buffer at its block and the output's at `outsAt`'s first component; the invariant `PhiS`; nothing
    owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg3.W) : (dat V c).A w = V c (Pipeline.arrRef spec3 w) := by
  dsimp only [dat]

theorem PhiS_castSucc (c : Dev nD) (t : Fin cfg3.N) :
    (dat V c).Φ t.castSucc = PhiS V c t.val (Nat.le_of_lt t.isLt) := by
  dsimp only [dat]; simp only [Fin.coe_castSucc]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = (outsAt V c t.val t.isLt).1 := by dsimp only [dat]

theorem before_0 (c : Dev nD) (t : Fin cfg3.N) (d) : (dat V c).before 0 t d = iblk V c 0 t :=
  before_0_of V (dat V c) (A_eq V c 0) (after_0 V c) t d
theorem before_1 (c : Dev nD) (t : Fin cfg3.N) (d) : (dat V c).before 1 t d = iblk V c 1 t :=
  before_1_of V (dat V c) (A_eq V c 1) (after_1 V c) t d
theorem before_2 (c : Dev nD) (t : Fin cfg3.N) (d) : (dat V c).before 2 t d = iblk V c 2 t :=
  before_2_of V (dat V c) (A_eq V c 2) (after_2 V c) t d

/-! ## The body obligation, at a generic point -/

/-- What the body is called with at point `t`, the windows one by one, -/
def bodyPre (c : Dev nD) (t : Fin cfg3.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point: the inputs' memrefs hold their blocks; `t mod 8` says which case the point is in; the
    invariant hands the body the two scratch buffers (at anything at the very first point, else at what the point
    before left, which a row's first point does not read) and takes them back at this point's contents; at the
    points that do not store the output block its buffer is handed back as found. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [liveAt_0 t], after_0]
  rw [show (dat V c).leavesExact 1 t = owns (c : Thread nD τ) (ms1 t) fullShare ((dat V c).after 1 t) from by
    unfold Dat.leavesExact; rw [liveAt_1 t], after_1]
  rw [show (dat V c).leavesExact 2 t = owns (c : Thread nD τ) (ms2 t) fullShare ((dat V c).after 2 t) from by
    unfold Dat.leavesExact; rw [liveAt_2 t], after_2]
  have hN : t.val < 64 := lt_of_lt_of_eq t.isLt (show cfg3.N = 64 from N_3)
  by_cases h0 : t.val % 8 = 0
  · have h1 : ¬t.val % 8 = 7 := by omega
    rw [Dat.leavesExact_idle (dat V c) 3 t (idleAt_3 t (fun h => h1 ((hcond1 t).mp h))) (noFlush_3 t (fun h => h1 ((hcond1 t).mp h)))]
    rw [outsAt_A V c t h0 h1]
    unfold outsA; (try dsimp only)
    by_cases hz : t.val = 0
    · rw [PhiS_castSucc V c t, PhiS_zero V c _ _ hz, PhiA_eq]
      iintro ⟨⟨⟨⟨HS0, HS1⟩, HR⟩, Hg⟩, Ho, ⟨%d0, H0⟩, ⟨%d1, H1⟩, ⟨%d2, H2⟩, ⟨%d3, H3⟩⟩
      iapply ((kernelRun_A c (grid3.coords t) _ _ _ _ _ _ _ _ _ _ _ _ ((hcond0 t).mpr h0) (fun h => h1 ((hcond1 t).mp h)) (iblk V c 0 t) (iblk V c 1 t) (iblk V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scoverA_0 c _ _ _ _ _ _ _ _ _ _ _ _ _ _ _ _ _ _)
            · unfold owns; iexists _; isplitr
              swap; · iexact HS1
              ipureintro; exact View.read_writes_of_cover _ _ _ _ _ (scoverA_1 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨⟨HS0, HS1⟩, HR⟩, Hg⟩, Ho, ⟨%d0, H0⟩, ⟨%d1, H1⟩, ⟨%d2, H2⟩, ⟨%d3, H3⟩⟩
      iapply ((kernelRun_A c (grid3.coords t) _ _ _ _ _ _ _ _ _ _ _ _ ((hcond0 t).mpr h0) (fun h => h1 ((hcond1 t).mp h)) (iblk V c 0 t) (iblk V c 1 t) (iblk V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scoverA_0 c _ _ _ _ _ _ _ _ _ _ _ _ _ _ _ _ _ _)
            · unfold owns; iexists _; isplitr
              swap; · iexact HS1
              ipureintro; exact View.read_writes_of_cover _ _ _ _ _ (scoverA_1 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    by_cases h1 : t.val % 8 = 7
    · rw [show (dat V c).leavesExact 3 t = owns (c : Thread nD τ) (ms3 t) fullShare ((dat V c).after 3 t) from by
        unfold Dat.leavesExact; rw [liveAt_3 t ((hcond1 t).mpr h1)], after_3]
      rw [outsAt_C V c t h0 h1]
      unfold outsC; (try dsimp only)
      rw [PhiS_castSucc V c t, PhiS_pos V c _ _ hz]
      iintro ⟨⟨⟨⟨HS0, HS1⟩, HR⟩, Hg⟩, Ho, ⟨%d0, H0⟩, ⟨%d1, H1⟩, ⟨%d2, H2⟩, ⟨%d3, H3⟩⟩
      iapply ((kernelRun_C c (grid3.coords t) _ _ _ _ _ _ _ _ _ _ _ _ (fun h => h0 ((hcond0 t).mp h)) ((hcond1 t).mpr h1) (iblk V c 0 t) (iblk V c 1 t) (iblk V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scoverC_0 c _ _ _ _ _ _ _ _ _ _ _ _ _ _ _ _ _ _ _ _)
            · unfold owns; iexists _; isplitr
              swap; · iexact HS1
              ipureintro; exact View.read_writes_of_cover _ _ _ _ _ (scoverC_1 c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC_3 c _ _ _ _ _ _ _ _ _ _ _ _ _ _ _ _ _ _ _ _)
    · rw [Dat.leavesExact_idle (dat V c) 3 t (idleAt_3 t (fun h => h1 ((hcond1 t).mp h))) (noFlush_3 t (fun h => h1 ((hcond1 t).mp h)))]
      rw [outsAt_B V c t h0 h1]
      unfold outsB; (try dsimp only)
      rw [PhiS_castSucc V c t, PhiS_pos V c _ _ hz]
      iintro ⟨⟨⟨⟨HS0, HS1⟩, HR⟩, Hg⟩, Ho, ⟨%d0, H0⟩, ⟨%d1, H1⟩, ⟨%d2, H2⟩, ⟨%d3, H3⟩⟩
      iapply ((kernelRun_B c (grid3.coords t) _ _ _ _ _ _ _ _ _ _ _ _ (fun h => h0 ((hcond0 t).mp h)) (fun h => h1 ((hcond1 t).mp h)) (iblk V c 0 t) (iblk V c 1 t) (iblk V c 2 t) _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scoverB_0 c _ _ _ _ _ _ _ _ _ _ _ _ _ _ _ _ _ _ _ _)
            · unfold owns; iexists _; isplitr
              swap; · iexact HS1
              ipureintro; exact View.read_writes_of_cover _ _ _ _ _ (scoverB_1 c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W3, bigSep_W3]
  exact sound_body V c t

/-- What the launch hands the region is the invariant before the first point. -/
theorem hin (c : Dev nD) : Pipeline.ΦA spec3 c ⊢ (dat V c).Φ 0 := by
  rw [show (dat V c).Φ 0 = PhiS V c 0 (Nat.zero_le _) from rfl, PhiS_zero V c 0 _ rfl]
  try exact Idealize.SL.BI.Entails.refl _

/-- After any point but the first the invariant gives the class's back: the scratch buffers' contents are forgotten. -/
theorem Phi_out (c : Dev nD) (t : Fin (cfg3.N + 1)) (ht : t.val ≠ 0) : (dat V c).Φ t ⊢ Pipeline.ΦA spec3 c := by
  rw [show (dat V c).Φ t = PhiS V c t.val (Nat.le_of_lt_succ t.isLt) from rfl, PhiS_pos V c _ _ ht, PhiA_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

/-- The same after the last point. -/
theorem hout (c : Dev nD) : (dat V c).Φ (Fin.last cfg3.N) ⊢ Pipeline.ΦA spec3 c :=
  Phi_out V c _ (by rw [Fin.val_last]; have : cfg3.N = 64 := N_3; omega)

end Cert.Kernel.Reg3

end
-- ==== Proof.K.Run.lean ====
/-
  The kernel program's run, at any float instance: @main is two host conversions, region 0 (scores and row sums of
  squares), region 1 (column sums of squares), fifteen host operations (the two reciprocal norms), region 2 (row path)
  and region 3 (column path).  The contents of every unscoped buffer are followed through these six items as a fold
  from the launch memory: a host stretch applies its operations; a region replaces its windows' arrays by what its
  write-backs leave and keeps everything else.  Each region is one segment whose proof data are that region's half at
  the contents it is entered with; the launch theorem for a list of segments then says every weakly fair execution
  terminates, faulting nowhere, with every unscoped buffer at the fold's last value.
-/
import proofs.«128303_j3917010174495_2_alg».proof.Proof.K.Reg0Frame
import proofs.«128303_j3917010174495_2_alg».proof.Proof.K.Reg1Frame
import proofs.«128303_j3917010174495_2_alg».proof.Proof.K.Reg2Frame
import proofs.«128303_j3917010174495_2_alg».proof.Proof.K.Reg3Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- At launch. -/
abbrev W0 : Dev nD → Valuation τ sig (Elt F) := fun c b => m ((c : Dev nD), b)
/-- After the two conversions (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- After region 0: its windows' arrays at what the pipeline leaves (an input as entered, an output's write-backs folded), every
    other buffer as entered. -/
def W2 (c : Dev nD) : Valuation τ sig (Elt F) :=
  Pipeline.withArrays spec0 c (W1 m c) fun w => (Reg0.dat (V1 m) c).arrAt w cfg0.N
theorem W2_arr (c : Dev nD) (w : Fin cfg0.W) :
    W2 m c (Proc.devRef .tc (Pipeline.arrRef spec0 w)) = (Reg0.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (Reg0.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After region 1: its windows' arrays at what the pipeline leaves (an input as entered, an output's write-backs folded), every
    other buffer as entered. -/
def W3 (c : Dev nD) : Valuation τ sig (Elt F) :=
  Pipeline.withArrays spec1 c (W2 m c) fun w => (Reg1.dat (V2 m) c).arrAt w cfg1.N
theorem W3_arr (c : Dev nD) (w : Fin cfg1.W) :
    W3 m c (Proc.devRef .tc (Pipeline.arrRef spec1 w)) = (Reg1.dat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m c b
theorem hF1 (c : Dev nD) (w : Fin cfg1.W) : (Reg1.dat (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the fifteen host operations (region 2's entry). -/
abbrev W4 : Dev nD → Valuation τ sig (Elt F) := fun c => StableHlo.after hostOps2 (W3 m c)
abbrev V4 : (c : Dev nD) → (b : Ref sig .tc) → Buf (Elt F) ((c : Thread nD τ).loc b) := fun c b => W4 m c b

/-- After region 2: its windows' arrays at what the pipeline leaves (an input as entered, an output's write-backs folded), every
    other buffer as entered. -/
def W5 (c : Dev nD) : Valuation τ sig (Elt F) :=
  Pipeline.withArrays spec2 c (W4 m c) fun w => (Reg2.dat (V4 m) c).arrAt w cfg2.N
theorem W5_arr (c : Dev nD) (w : Fin cfg2.W) :
    W5 m c (Proc.devRef .tc (Pipeline.arrRef spec2 w)) = (Reg2.dat (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
/-- The same read at the TensorCore's references. -/
abbrev V5 : (c : Dev nD) → (b : Ref sig .tc) → Buf (Elt F) ((c : Thread nD τ).loc b) := fun c b => W5 m c b
theorem hF2 (c : Dev nD) (w : Fin cfg2.W) : (Reg2.dat (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-- After region 3: its windows' arrays at what the pipeline leaves (an input as entered, an output's write-backs folded), every
    other buffer as entered. -/
def W6 (c : Dev nD) : Valuation τ sig (Elt F) :=
  Pipeline.withArrays spec3 c (W5 m c) fun w => (Reg3.dat (V5 m) c).arrAt w cfg3.N
theorem W6_arr (c : Dev nD) (w : Fin cfg3.W) :
    W6 m c (Proc.devRef .tc (Pipeline.arrRef spec3 w)) = (Reg3.dat (V5 m) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m c (Proc.devRef .tc b) = W5 m c (Proc.devRef .tc b) := by
  unfold W6; exact Pipeline.withArrays_of_ne spec3 c _ _ b hb
/-- The same read at the TensorCore's references. -/
abbrev V6 : (c : Dev nD) → (b : Ref sig .tc) → Buf (Elt F) ((c : Thread nD τ).loc b) := fun c b => W6 m c b
theorem hF3 (c : Dev nD) (w : Fin cfg3.W) : (Reg3.dat (V5 m) c).arrAt w cfg3.N = V6 m c (Pipeline.arrRef spec3 w) :=
  (W6_arr m c w).symm
theorem hrest3 (c : Dev nD) : ∀ b, b ∉ Finset.univ.image (Pipeline.arrRef spec3) → V6 m c b = V5 m c b :=
  fun b hb => W6_of_ne m c b fun w e => hb (Finset.mem_image.mpr ⟨w, Finset.mem_univ _, e⟩)

/-! ## The proof data family and the thread state -/

abbrev adm : (p : Fin 4) → (pcfgs (F := F) p).Adm := fun p => (cfgs p).toPCfg_adm
/-- Every pipeline's proof data, each at its region's entry contents (a literal match, so that the pinned configuration at
    a numeral reduces to the printed one). -/
def pdats : (p : Fin 4) → (c : Dev nD) → Dat τ (Elt F) Unit ℕ (UR sig nD τ) ℕ (Pipeline.pin (pcfgs (F := F)) adm p) c
  | ⟨0, _⟩ => fun c => Reg0.dat (V1 m) c
  | ⟨1, _⟩ => fun c => Reg1.dat (V2 m) c
  | ⟨2, _⟩ => fun c => Reg2.dat (V4 m) c
  | ⟨3, _⟩ => fun c => Reg3.dat (V5 m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m c) ∗ ∃ r, prngReg c r)

/-- No host operation allocates a buffer. -/
theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-- The generator register, the (empty) tables and the scoped rest, regrouped as the class invariant (the scoped rest beside the
    register), and back. -/
theorem rest_gen_in (G P S : sProp 𝕄) : iprop(G ∗ P ∗ S) ⊢ iprop(S ∗ G) := by
  iintro ⟨Hp, -, Hr⟩
  isplitl [Hr]; · iexact Hr
  iexact Hp
theorem rest_gen_out (G S : sProp 𝕄) : iprop(S ∗ G) ⊢ iprop(G ∗ emp ∗ S) := by
  iintro ⟨Hr, Hp⟩
  isplitl [Hp]; · iexact Hp
  isplitr; · iempintro
  iexact Hr

/-! ## The regions as segments -/

-- unification of the library's statements over `pin pcs a p` with the pinned configuration needs plain definitions unfolded in a metavariable's type
set_option backward.isDefEq.respectTransparency.types false in
/-- Region 0 as a segment: entered with every unscoped buffer at `W1`, left with them at `W2`: its windows' arrays are split out
    of the unscoped buffers and put back at what the write-backs leave; the generator register goes into the class invariant and
    comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (rest_gen_in _ _ _).trans (Reg0.hin (V1 m) c)
  hout c := by
    rw [Pipeline.ownSems0_none]
    exact (Reg0.hout (V1 m) c).trans (rest_gen_out _ _)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of the library's statements over `pin pcs a p` with the pinned configuration needs plain definitions unfolded in a metavariable's type
set_option backward.isDefEq.respectTransparency.types false in
/-- Region 1 as a segment: entered with every unscoped buffer at `W2`, left with them at `W3`: its windows' arrays are split out
    of the unscoped buffers and put back at what the write-backs leave; the generator register goes into the class invariant and
    comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (rest_gen_in _ _ _).trans (Reg1.hin (V2 m) c)
  hout c := by
    rw [Pipeline.ownSems0_none]
    exact (Reg1.hout (V2 m) c).trans (rest_gen_out _ _)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of the library's statements over `pin pcs a p` with the pinned configuration needs plain definitions unfolded in a metavariable's type
set_option backward.isDefEq.respectTransparency.types false in
/-- Region 2 as a segment: entered with every unscoped buffer at `W4`, left with them at `W5`: its windows' arrays are split out
    of the unscoped buffers and put back at what the write-backs leave; the generator register goes into the class invariant and
    comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Reg2.body_obligation (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (rest_gen_in _ _ _).trans (Reg2.hin (V4 m) c)
  hout c := by
    rw [Pipeline.ownSems0_none]
    exact (Reg2.hout (V4 m) c).trans (rest_gen_out _ _)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of the library's statements over `pin pcs a p` with the pinned configuration needs plain definitions unfolded in a metavariable's type
set_option backward.isDefEq.respectTransparency.types false in
/-- Region 3 as a segment: entered with every unscoped buffer at `W5`, left with them at `W6`: its windows' arrays are split out
    of the unscoped buffers and put back at what the write-backs leave; the generator register goes into the class invariant and
    comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (Reg3.body_obligation (V5 m) c).loose
  hwaits := Pipeline.hwaits_of_owed_zero _ _ _ _ L lv 3 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V5 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (rest_gen_in _ _ _).trans (Reg3.hin (V5 m) c)
  hout c := by
    rw [Pipeline.ownSems0_none]
    exact (Reg3.hout (V5 m) c).trans (rest_gen_out _ _)
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V5 m c) (V6 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .region (reg2 m),
    .region (reg3 m) ]
theorem main_run (c : Dev nD) : main (F := F) c = Pipeline.Seg.run (segs m) := (main_chain c).trans (by chain_rfl)

set_option backward.isDefEq.respectTransparency.types false in
/-- From any memory with zero counters every weakly fair execution of @main terminates, nothing faulting, and every final
    state holds every unscoped buffer at the fold's last value. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.Kernel.Run

end
-- ==== Proof.K.Frame.lean ====
/-
  The frame claim of the kernel program, at any float instance: after the run every unscoped buffer holds the fold's last
  value, and at an argument's buffer the fold walks back to the launch memory — no host operation writes an argument and
  no region has one among its windows' arrays.
-/
import proofs.«128303_j3917010174495_2_alg».proof.Proof.K.Run
import proofs.«128303_j3917010174495_2_alg».proof.Proof.Gen.Kernel.Regions

noncomputable section

namespace Cert.Kernel.RunFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
variable (m : (ℓ : Loc nD τ sig) → Buf (Elt F) ℓ)

/-- A buffer the two conversions do not write is as launched; one the fifteen host operations do not write is as region 1 left it. -/
theorem W1_of (c : Dev nD) (r : Ref sig .tc) (h : r ∉ hostOps0_W) : Run.W1 m c (Proc.devRef .tc r) = Run.W0 m c (Proc.devRef .tc r) :=
  StableHlo.after_of_writes_sub hostOps0 _ hostOps0_writes h
theorem W4_of (c : Dev nD) (r : Ref sig .tc) (h : r ∉ hostOps2_W) : Run.W4 m c (Proc.devRef .tc r) = Run.W3 m c (Proc.devRef .tc r) :=
  StableHlo.after_of_writes_sub hostOps2 _ hostOps2_writes h

/-- Each argument reaches the end as launched. -/
theorem W6_arg0 (c : Dev nD) : Run.W6 m c (Proc.devRef .tc main_arg0) = m ((c : Thread nD τ).loc main_arg0) :=
  (Run.W6_of_ne m c main_arg0 (by decide)).trans <| (Run.W5_of_ne m c main_arg0 (by decide)).trans <|
    (W4_of m c main_arg0 (by decide)).trans <| (Run.W3_of_ne m c main_arg0 (by decide)).trans <|
    (Run.W2_of_ne m c main_arg0 (by decide)).trans <| (W1_of m c main_arg0 (by decide)).trans rfl
theorem W6_arg1 (c : Dev nD) : Run.W6 m c (Proc.devRef .tc main_arg1) = m ((c : Thread nD τ).loc main_arg1) :=
  (Run.W6_of_ne m c main_arg1 (by decide)).trans <| (Run.W5_of_ne m c main_arg1 (by decide)).trans <|
    (W4_of m c main_arg1 (by decide)).trans <| (Run.W3_of_ne m c main_arg1 (by decide)).trans <|
    (Run.W2_of_ne m c main_arg1 (by decide)).trans <| (W1_of m c main_arg1 (by decide)).trans rfl

/-- Every weakly fair execution of @main terminates, nothing faulting, with both argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (Run.mem_uc main_arg0 (by decide))).trans (W6_arg0 m c),
     (h c _ (Run.mem_uc main_arg1 (by decide))).trans (W6_arg1 m c)⟩) (Run.run m ρ)

end Cert.Kernel.RunFrame

end
-- ==== Proof.KI.Reg0Frame.lean ====
/-
  Region 0 of the kernel program (the scores and the row sums of squares), at the buffer contents `V` the
  region is entered with: what each window's staging buffer holds point by point, the body's triple in its two
  control cases (the second grid coordinate zero: the row-sum block is reset, then added to; otherwise it is
  added to what the point before left), the proof data, the body obligation at every point, and the region
  invariant at entry and exit.  Nothing here depends on the float model.
-/
import proofs.«128303_j3917010174495_2_alg».proof.Proof.Gen.KernelIdeal.Launch
import proofs.«128303_j3917010174495_2_alg».proof.Proof.Gen.KernelIdeal.Skeleton
import proofs.«128303_j3917010174495_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, its
    block index has not moved), for any proof data whose array is `V`'s and whose body leaves the block in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition of the body's conditional, from the grid coordinates: the second coordinate is zero. -/
abbrev cond0 (i : grid0.Coords) : Prop := (Scalar.cmpi .ne (Scalar.extui (Scalar.cmpi .eq (BitVec.ofNat 32 (i 1).val) 0#32)) 0#32) = 1#1
/-- It holds at the first point of each row of the grid. -/
theorem hcond0 : ∀ t : Fin cfg0.N, cond0 (grid0.coords t) ↔ t.val % 8 = 0 :=
  (by decide +kernel : ∀ t : Fin grid0.N, cond0 (grid0.coords t) ↔ t.val % 8 = 0)

/-! ## The staging memrefs -/

/-- One staging buffer of each output window, through which its contents are stated (the choice does not matter). -/
abbrev VO2 : View sig .tc .vmem S1024x1024 .f32 := (Memref.whole cc0_stg2_0 : Memref sig .tc .vmem S1024x1024 .f32).view
abbrev VO3 : View sig .tc .vmem S1024x1 .f32 := (Memref.whole cc0_stg3_0 : Memref sig .tc .vmem S1024x1 .f32).view
/-- Each window's current staging memref at point `t`, as the pipeline passes it to the body, and its wholeness. -/
abbrev ms0 (t : Fin cfg0.N) : Memref sig .tc .vmem S1024x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1 .f32 := win0_3.stage (cfg0.slots t 3)
abbrev hs3 (t : Fin cfg0.N) : (ms3 t).IsWhole := hstage0_3 ((cfg0.slots t 3).cast nbuf0_3)

/-! ## The body's triple, case by case -/

set_option maxHeartbeats 1000000 in
/-- The pieces the body's stores leave in the two outputs' staging memrefs (last first) when the second grid
    coordinate is zero, with the proof that on whole staging memrefs — the inputs' at their contents, the outputs'
    at anything — the body runs to the continuation holding the inputs' as they were and each output's buffer with
    its pieces written. -/
noncomputable def kernelRunA (c : Dev nD) (i : grid0.Coords) (arg2 : Memref sig .tc .vmem S1024x1024 .bf16) (harg2 : arg2.IsWhole) (arg3 : Memref sig .tc .vmem S8192x1024 .bf16) (harg3 : arg3.IsWhole) (arg4 : Memref sig .tc .vmem S1024x1024 .f32) (harg4 : arg4.IsWhole) (arg5 : Memref sig .tc .vmem S1024x1 .f32) (harg5 : arg5.IsWhole) (hc0 : cond0 i)
    (x0 : Vec F S1024x1024 .bf16) (x1 : Vec F S8192x1024 .bf16) :
    Σ' (L2 : List (View.Piece (Elt F) S1024x1024 .f32)), { L3 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__k1_kernel i arg2 harg2 arg3 harg3 arg4 harg4 arg5 harg5) K } := by
  refine ⟨?_, ?_, fun E K => ?run⟩
  case run =>
    simp only [cc0__k1_kernel_eq_skeleton]; unfold cc0__k1_kernel_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

set_option maxHeartbeats 1000000 in
/-- The same when the second grid coordinate is not zero: the row-sum block's buffer is handed in at the contents
    `xo3` the point before left, and the body adds to them. -/
noncomputable def kernelRunB (c : Dev nD) (i : grid0.Coords) (arg2 : Memref sig .tc .vmem S1024x1024 .bf16) (harg2 : arg2.IsWhole) (arg3 : Memref sig .tc .vmem S8192x1024 .bf16) (harg3 : arg3.IsWhole) (arg4 : Memref sig .tc .vmem S1024x1024 .f32) (harg4 : arg4.IsWhole) (arg5 : Memref sig .tc .vmem S1024x1 .f32) (harg5 : arg5.IsWhole) (hc0 : ¬cond0 i)
    (x0 : Vec F S1024x1024 .bf16) (x1 : Vec F S8192x1024 .bf16) (xo3 : Vec F S1024x1 .f32) :
    Σ' (L2 : List (View.Piece (Elt F) S1024x1024 .f32)), { L3 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xo3
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__k1_kernel i arg2 harg2 arg3 harg3 arg4 harg4 arg5 harg5) K } := by
  refine ⟨?_, ?_, fun E K => ?run⟩
  case run =>
    simp only [cc0__k1_kernel_eq_skeleton]; unfold cc0__k1_kernel_skel
    unfold owns
    iintro ⟨⟨%f0, %hf0, H0⟩, ⟨%f1, %hf1, H1⟩, ⟨%d2, %f2, -, H2⟩, ⟨%f3, %hf3, H3⟩, Hk⟩
    obtain rfl := harg2.eq_unread hf0; obtain rfl := harg3.eq_unread hf1; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

/-! ## What each case leaves in the outputs' buffers -/

/-- Each case's pieces for an output tile its block, so they cover it. -/
theorem coverA_2 (c : Dev nD) (i : grid0.Coords) (arg2 : Memref sig .tc .vmem S1024x1024 .bf16) (harg2 : arg2.IsWhole) (arg3 : Memref sig .tc .vmem S8192x1024 .bf16) (harg3 : arg3.IsWhole) (arg4 : Memref sig .tc .vmem S1024x1024 .f32) (harg4 : arg4.IsWhole) (arg5 : Memref sig .tc .vmem S1024x1 .f32) (harg5 : arg5.IsWhole) (hc0 : cond0 i) (x0 : Vec F S1024x1024 .bf16) (x1 : Vec F S8192x1024 .bf16) (y : S1024x1024.Idx) :
    ∃ pc ∈ (kernelRunA c i arg2 harg2 arg3 harg3 arg4 harg4 arg5 harg5 hc0 x0 x1).1, y ∈ pc.1.set :=
  View.cover_of_tiledL (kernelRunA c i arg2 harg2 arg3 harg3 arg4 harg4 arg5 harg5 hc0 x0 x1).1 S1024x1024.size (by sl_kernel_rfl) y
theorem coverA_3 (c : Dev nD) (i : grid0.Coords) (arg2 : Memref sig .tc .vmem S1024x1024 .bf16) (harg2 : arg2.IsWhole) (arg3 : Memref sig .tc .vmem S8192x1024 .bf16) (harg3 : arg3.IsWhole) (arg4 : Memref sig .tc .vmem S1024x1024 .f32) (harg4 : arg4.IsWhole) (arg5 : Memref sig .tc .vmem S1024x1 .f32) (harg5 : arg5.IsWhole) (hc0 : cond0 i) (x0 : Vec F S1024x1024 .bf16) (x1 : Vec F S8192x1024 .bf16) (y : S1024x1.Idx) :
    ∃ pc ∈ (kernelRunA c i arg2 harg2 arg3 harg3 arg4 harg4 arg5 harg5 hc0 x0 x1).2.1, y ∈ pc.1.set :=
  View.cover_of_tiledL (kernelRunA c i arg2 harg2 arg3 harg3 arg4 harg4 arg5 harg5 hc0 x0 x1).2.1 S1024x1.size (by sl_kernel_rfl) y
theorem coverB_2 (c : Dev nD) (i : grid0.Coords) (arg2 : Memref sig .tc .vmem S1024x1024 .bf16) (harg2 : arg2.IsWhole) (arg3 : Memref sig .tc .vmem S8192x1024 .bf16) (harg3 : arg3.IsWhole) (arg4 : Memref sig .tc .vmem S1024x1024 .f32) (harg4 : arg4.IsWhole) (arg5 : Memref sig .tc .vmem S1024x1 .f32) (harg5 : arg5.IsWhole) (hc0 : ¬cond0 i) (x0 : Vec F S1024x1024 .bf16) (x1 : Vec F S8192x1024 .bf16) (xo3 : Vec F S1024x1 .f32) (y : S1024x1024.Idx) :
    ∃ pc ∈ (kernelRunB c i arg2 harg2 arg3 harg3 arg4 harg4 arg5 harg5 hc0 x0 x1 xo3).1, y ∈ pc.1.set :=
  View.cover_of_tiledL (kernelRunB c i arg2 harg2 arg3 harg3 arg4 harg4 arg5 harg5 hc0 x0 x1 xo3).1 S1024x1024.size (by sl_kernel_rfl) y
theorem coverB_3 (c : Dev nD) (i : grid0.Coords) (arg2 : Memref sig .tc .vmem S1024x1024 .bf16) (harg2 : arg2.IsWhole) (arg3 : Memref sig .tc .vmem S8192x1024 .bf16) (harg3 : arg3.IsWhole) (arg4 : Memref sig .tc .vmem S1024x1024 .f32) (harg4 : arg4.IsWhole) (arg5 : Memref sig .tc .vmem S1024x1 .f32) (harg5 : arg5.IsWhole) (hc0 : ¬cond0 i) (x0 : Vec F S1024x1024 .bf16) (x1 : Vec F S8192x1024 .bf16) (xo3 : Vec F S1024x1 .f32) (y : S1024x1.Idx) :
    ∃ pc ∈ (kernelRunB c i arg2 harg2 arg3 harg3 arg4 harg4 arg5 harg5 hc0 x0 x1 xo3).2.1, y ∈ pc.1.set :=
  View.cover_of_tiledL (kernelRunB c i arg2 harg2 arg3 harg3 arg4 harg4 arg5 harg5 hc0 x0 x1 xo3).2.1 S1024x1.size (by sl_kernel_rfl) y

/-- What a case leaves in an output's staging buffer: its pieces read back over junk. -/
def outA_2 (c : Dev nD) (i : grid0.Coords) (arg2 : Memref sig .tc .vmem S1024x1024 .bf16) (harg2 : arg2.IsWhole) (arg3 : Memref sig .tc .vmem S8192x1024 .bf16) (harg3 : arg3.IsWhole) (arg4 : Memref sig .tc .vmem S1024x1024 .f32) (harg4 : arg4.IsWhole) (arg5 : Memref sig .tc .vmem S1024x1 .f32) (harg5 : arg5.IsWhole) (hc0 : cond0 i) (x0 : Vec F S1024x1024 .bf16) (x1 : Vec F S8192x1024 .bf16) : Vec F S1024x1024 .f32 :=
  VO2.read (Elt F) (VO2.writes (Elt F) VO2.junk (kernelRunA c i arg2 harg2 arg3 harg3 arg4 harg4 arg5 harg5 hc0 x0 x1).1)
def outA_3 (c : Dev nD) (i : grid0.Coords) (arg2 : Memref sig .tc .vmem S1024x1024 .bf16) (harg2 : arg2.IsWhole) (arg3 : Memref sig .tc .vmem S8192x1024 .bf16) (harg3 : arg3.IsWhole) (arg4 : Memref sig .tc .vmem S1024x1024 .f32) (harg4 : arg4.IsWhole) (arg5 : Memref sig .tc .vmem S1024x1 .f32) (harg5 : arg5.IsWhole) (hc0 : cond0 i) (x0 : Vec F S1024x1024 .bf16) (x1 : Vec F S8192x1024 .bf16) : Vec F S1024x1 .f32 :=
  VO3.read (Elt F) (VO3.writes (Elt F) VO3.junk (kernelRunA c i arg2 harg2 arg3 harg3 arg4 harg4 arg5 harg5 hc0 x0 x1).2.1)
def outB_2 (c : Dev nD) (i : grid0.Coords) (arg2 : Memref sig .tc .vmem S1024x1024 .bf16) (harg2 : arg2.IsWhole) (arg3 : Memref sig .tc .vmem S8192x1024 .bf16) (harg3 : arg3.IsWhole) (arg4 : Memref sig .tc .vmem S1024x1024 .f32) (harg4 : arg4.IsWhole) (arg5 : Memref sig .tc .vmem S1024x1 .f32) (harg5 : arg5.IsWhole) (hc0 : ¬cond0 i) (x0 : Vec F S1024x1024 .bf16) (x1 : Vec F S8192x1024 .bf16) (xo3 : Vec F S1024x1 .f32) : Vec F S1024x1024 .f32 :=
  VO2.read (Elt F) (VO2.writes (Elt F) VO2.junk (kernelRunB c i arg2 harg2 arg3 harg3 arg4 harg4 arg5 harg5 hc0 x0 x1 xo3).1)
def outB_3 (c : Dev nD) (i : grid0.Coords) (arg2 : Memref sig .tc .vmem S1024x1024 .bf16) (harg2 : arg2.IsWhole) (arg3 : Memref sig .tc .vmem S8192x1024 .bf16) (harg3 : arg3.IsWhole) (arg4 : Memref sig .tc .vmem S1024x1024 .f32) (harg4 : arg4.IsWhole) (arg5 : Memref sig .tc .vmem S1024x1 .f32) (harg5 : arg5.IsWhole) (hc0 : ¬cond0 i) (x0 : Vec F S1024x1024 .bf16) (x1 : Vec F S8192x1024 .bf16) (xo3 : Vec F S1024x1 .f32) : Vec F S1024x1 .f32 :=
  VO3.read (Elt F) (VO3.writes (Elt F) VO3.junk (kernelRunB c i arg2 harg2 arg3 harg3 arg4 harg4 arg5 harg5 hc0 x0 x1 xo3).2.1)

/-! ## What the outputs hold after each point -/

/-- The accumulation.  What the row-sum window's staging buffer holds after the body at position `n`: at the first
    point of a row of the grid the reset-and-add case's contents, elsewhere the add case's over what the point before
    left (the buffer is not written back between). -/
def outsAt3 (c : Dev nD) : (n : ℕ) → n < cfg0.N → Vec F S1024x1 .f32
  | 0, hn => outA_3 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) ((hcond0 ⟨0, hn⟩).mpr (Nat.zero_mod _)) (iblk V c 0 ⟨0, hn⟩) (iblk V c 1 ⟨0, hn⟩)
  | n + 1, hn =>
    if h0 : (n + 1) % 8 = 0 then
      outA_3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) ((hcond0 ⟨n + 1, hn⟩).mpr h0) (iblk V c 0 ⟨n + 1, hn⟩) (iblk V c 1 ⟨n + 1, hn⟩)
    else
      outB_3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (fun h => h0 ((hcond0 ⟨n + 1, hn⟩).mp h)) (iblk V c 0 ⟨n + 1, hn⟩) (iblk V c 1 ⟨n + 1, hn⟩) (outsAt3 c n (Nat.lt_of_succ_lt hn))

theorem outsAt3_A (c : Dev nD) (t : Fin cfg0.N) (h0 : t.val % 8 = 0) :
    outsAt3 V c t.val t.isLt = outA_3 c (grid0.coords t) (ms0 t) (hs0 t) (ms1 t) (hs1 t) (ms2 t) (hs2 t) (ms3 t) (hs3 t) ((hcond0 t).mpr h0) (iblk V c 0 t) (iblk V c 1 t) := by
  obtain ⟨n, hn⟩ := t
  cases n with
  | zero => exact rfl
  | succ n => exact (dif_pos h0).trans rfl

theorem outsAt3_B (c : Dev nD) (t : Fin cfg0.N) (h0 : ¬t.val % 8 = 0) :
    outsAt3 V c t.val t.isLt = outB_3 c (grid0.coords t) (ms0 t) (hs0 t) (ms1 t) (hs1 t) (ms2 t) (hs2 t) (ms3 t) (hs3 t) (fun h => h0 ((hcond0 t).mp h)) (iblk V c 0 t) (iblk V c 1 t) (outsAt3 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- What the score window's staging buffer holds after the body at point `t`. -/
def outsAt2 (c : Dev nD) (t : Fin cfg0.N) : Vec F S1024x1024 .f32 :=
  if h0 : t.val % 8 = 0 then
    outA_2 c (grid0.coords t) (ms0 t) (hs0 t) (ms1 t) (hs1 t) (ms2 t) (hs2 t) (ms3 t) (hs3 t) ((hcond0 t).mpr h0) (iblk V c 0 t) (iblk V c 1 t)
  else
    outB_2 c (grid0.coords t) (ms0 t) (hs0 t) (ms1 t) (hs1 t) (ms2 t) (hs2 t) (ms3 t) (hs3 t) (fun h => h0 ((hcond0 t).mp h)) (iblk V c 0 t) (iblk V c 1 t) (outsAt3 V c (t.val - 1) (Nat.lt_of_le_of_lt (Nat.sub_le _ _) t.isLt))

theorem outsAt2_A (c : Dev nD) (t : Fin cfg0.N) (h0 : t.val % 8 = 0) :
    outsAt2 V c t = outA_2 c (grid0.coords t) (ms0 t) (hs0 t) (ms1 t) (hs1 t) (ms2 t) (hs2 t) (ms3 t) (hs3 t) ((hcond0 t).mpr h0) (iblk V c 0 t) (iblk V c 1 t) := dif_pos h0
theorem outsAt2_B (c : Dev nD) (t : Fin cfg0.N) (h0 : ¬t.val % 8 = 0) :
    outsAt2 V c t = outB_2 c (grid0.coords t) (ms0 t) (hs0 t) (ms1 t) (hs1 t) (ms2 t) (hs2 t) (ms3 t) (hs3 t) (fun h => h0 ((hcond0 t).mp h)) (iblk V c 0 t) (iblk V c 1 t) (outsAt3 V c (t.val - 1) (Nat.lt_of_le_of_lt (Nat.sub_le _ _) t.isLt)) := dif_neg h0

/-! ## The pipeline's proof data -/

/-- The proof data of the region's pipeline on core `c`: the arrays as the region finds them; after the body at
    point `t` each input's buffer at its block and the outputs' at `outsAt2`, `outsAt3`; the invariant the core's
    other scoped buffers and its random-number register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outsAt2 V c t
    | ⟨3, _⟩ => outsAt3 V c t.val t.isLt
  Φ _ := Pipeline.ΦA spec0 c
  q _ := fullShare
  owed _ := 0

/-- The proof data's arrays are the region-entry contents. -/
theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = outsAt2 V c t := by dsimp only [dat]
theorem after_3 (c : Dev nD) (t : Fin cfg0.N) : (dat V c).after 3 t = outsAt3 V c t.val t.isLt := by dsimp only [dat]

/-- Each input's current staging buffer holds its block at every point, fetched there or not. -/
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
/-- Away from the first point of a row of the grid the row-sum window's current staging buffer holds what the body
    left at the point before: the point is not the first, and the buffer was not written back between. -/
theorem before_3_B (c : Dev nD) (t : Fin cfg0.N) (h0 : ¬t.val % 8 = 0) (d) :
    (dat V c).before 3 t d = outsAt3 V c (t.val - 1) (Nat.lt_of_le_of_lt (Nat.sub_le _ _) t.isLt) := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dat]

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t))

set_option maxHeartbeats 800000 in
/-- The body at any point: the inputs' memrefs hold their blocks; the closed form says which case the point is in;
    in the add case the row-sum buffer holds what the point before left; so the case's run applies; the invariant
    passes through unread; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2, after_3]
  by_cases h0 : t.val % 8 = 0
  · rw [outsAt2_A V c t h0, outsAt3_A V c t h0]
    unfold outA_2 outA_3
    iintro ⟨HΦ, Ho, ⟨%d0, H0⟩, ⟨%d1, H1⟩, ⟨%d2, H2⟩, ⟨%d3, H3⟩⟩
    iapply ((kernelRunA c (grid0.coords t) _ _ _ _ _ _ _ _ ((hcond0 t).mpr h0) (iblk V c 0 t) (iblk V c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverA_2 c _ _ _ _ _ _ _ _ _ _ _ _)
    unfold owns; iexists _; isplitr
    swap; · iexact H3
    ipureintro; exact View.read_writes_of_cover _ _ _ _ _ (coverA_3 c _ _ _ _ _ _ _ _ _ _ _ _)
  · rw [outsAt2_B V c t h0, outsAt3_B V c t h0]
    simp only [before_3_B V c t h0]
    unfold outB_2 outB_3
    iintro ⟨HΦ, Ho, ⟨%d0, H0⟩, ⟨%d1, H1⟩, ⟨%d2, H2⟩, ⟨%d3, H3⟩⟩
    iapply ((kernelRunB c (grid0.coords t) _ _ _ _ _ _ _ _ (fun h => h0 ((hcond0 t).mp h)) (iblk V c 0 t) (iblk V c 1 t) _).2.2 Set.univ _)
    isplitl [H0]; · iexact H0
    isplitl [H1]; · iexact H1
    isplitl [H2]; · iexists _; iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverB_2 c _ _ _ _ _ _ _ _ _ _ _ _ _)
    unfold owns; iexists _; isplitr
    swap; · iexact H3
    ipureintro; exact View.read_writes_of_cover _ _ _ _ _ (coverB_3 c _ _ _ _ _ _ _ _ _ _ _ _ _)

/-- The library's body obligation, at every point. -/
theorem body_obligation (c : Dev nD) : BodyObligation (dat (F := F) V c) (defs₀ (F := F)) Variants.none () Set.univ := fun t => by
  rw [bigSep_W0, bigSep_W0]
  exact sound_body V c t

/-! ## The invariant at the region's boundary -/

/-- The invariant is the region's boundary invariant throughout. -/
theorem hin (c : Dev nD) : Pipeline.ΦA spec0 c ⊢ (dat V c).Φ 0 := .rfl
theorem hout (c : Dev nD) : (dat V c).Φ (Fin.last cfg0.N) ⊢ Pipeline.ΦA spec0 c := .rfl

end Cert.KernelIdeal.Reg0

end
-- ==== Proof.KI.Reg1Frame.lean ====
/-
  Region 1 of the kernel program: the column sums of squares.

  The grid is 8 × 8, the point (j, i) at position t = 8·j + i.  Window 0 is the [1024, 1024] block (i, j) of the
  scores, read at every point; window 1 is the [1024, 1] block j of the result, kept in place over the eight points
  of a grid row and written back at the last of them.  At i = 0 the body first fills window 1 with zeros; at every
  point it adds to window 1 the product of the squared block, contracted over its first axis, with a column of ones.

  Stated at the buffer contents V the region is entered with, for any float operations F: the two control cases of
  the body (i = 0 or not) each as a run over whole staging memrefs, what window 1 holds after each point by
  recursion on the point, the pipeline's proof data and the body obligation at every point.  The region invariant
  is the class invariant throughout: the body uses no scratch.
-/
import proofs.«128303_j3917010174495_2_alg».proof.Proof.Gen.KernelIdeal.Launch
import proofs.«128303_j3917010174495_2_alg».proof.Proof.Gen.KernelIdeal.Skeleton
import proofs.«128303_j3917010174495_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array at the entry contents. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 0's current staging buffer holds its block at every point, for any proof data whose array is the entry
    contents and whose body leaves the block in place. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition of the body's one conditional, from the grid coordinates: the second coordinate is zero. -/
abbrev cond (i : grid1.Coords) : Prop := (Scalar.cmpi .ne (Scalar.extui (Scalar.cmpi .eq (BitVec.ofNat 32 (i 1).val) 0#32)) 0#32) = 1#1
/-- It holds exactly at the first point of each grid row. -/
theorem hcond : ∀ t : Fin cfg1.N, cond (grid1.coords t) ↔ t.val % 8 = 0 :=
  (by decide +kernel : ∀ t : Fin grid1.N, cond (grid1.coords t) ↔ t.val % 8 = 0)

/-! ## The staging memrefs -/

/-- One staging buffer of window 1, through which its contents are stated (the choice does not matter). -/
abbrev VO : View sig .tc .vmem S1024x1 .f32 := (Memref.whole cc1_stg1_0 : Memref sig .tc .vmem S1024x1 .f32).view
/-- Each window's current staging memref at point t, and its wholeness. -/
abbrev ms_0 (t : Fin cfg1.N) : Memref sig .tc .vmem S1024x1024 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1024x1 .f32 := win1_1.stage (cfg1.slots t 1)
abbrev hs_1 (t : Fin cfg1.N) : (ms_1 t).IsWhole := hstage1_1 ((cfg1.slots t 1).cast nbuf1_1)

/-! ## The body on any whole staging memrefs, case by case -/

set_option maxHeartbeats 1000000 in
/-- The first point of a grid row: the body fills window 1 with zeros and then adds the block's contribution.
    The pieces window 1 ends with (last first), with the proof that the body runs to the continuation holding
    window 0 as it was and window 1 with those pieces written. -/
noncomputable def kernelRunA (c : Dev nD) (i : grid1.Coords) (arg2 : Memref sig .tc .vmem S1024x1024 .f32) (harg2 : arg2.IsWhole) (arg3 : Memref sig .tc .vmem S1024x1 .f32) (harg3 : arg3.IsWhole) (hc : cond i)
    (x0 : Vec F S1024x1024 .f32) :
    { L1 : List (View.Piece (Elt F) S1024x1 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc1__k2_kernel i arg2 harg2 arg3 harg3) K } := by
  refine ⟨?_, fun E K => ?run⟩
  case run =>
    simp only [cc1__k2_kernel_eq_skeleton]; unfold cc1__k2_kernel_skel
    unfold owns
    iintro ⟨⟨%f0, %hf0, H0⟩, ⟨%d1, %f1, -, H1⟩, Hk⟩
    obtain rfl := harg2.eq_unread hf0
    sl_exec (disch := first | exact hc)
    sl_step
    iapply Hk
    isplitl [H0]
    · iexists _; isplitr; · ipureintro; exact harg2.read_unread _
      iexact H0
    iexists _; iexact H1

set_option maxHeartbeats 1000000 in
/-- A later point of a grid row: the body adds the block's contribution to what window 1 holds (xo). -/
noncomputable def kernelRunB (c : Dev nD) (i : grid1.Coords) (arg2 : Memref sig .tc .vmem S1024x1024 .f32) (harg2 : arg2.IsWhole) (arg3 : Memref sig .tc .vmem S1024x1 .f32) (harg3 : arg3.IsWhole) (hc : ¬cond i)
    (x0 : Vec F S1024x1024 .f32) (xo : Vec F S1024x1 .f32) :
    { L1 : List (View.Piece (Elt F) S1024x1 .f32) //
      ∀ (E : Set ℕ) (K : PUnit → sProp 𝕄),
        iprop(owns (c : Thread nD τ) arg2 fullShare x0 ∗ owns (c : Thread nD τ) arg3 fullShare xo
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc1__k2_kernel i arg2 harg2 arg3 harg3) K } := by
  refine ⟨?_, fun E K => ?run⟩
  case run =>
    simp only [cc1__k2_kernel_eq_skeleton]; unfold cc1__k2_kernel_skel
    unfold owns
    iintro ⟨⟨%f0, %hf0, H0⟩, ⟨%f1, %hf1, H1⟩, Hk⟩
    obtain rfl := harg2.eq_unread hf0; obtain rfl := harg3.eq_unread hf1
    sl_exec (disch := first | exact hc)
    sl_step
    iapply Hk
    isplitl [H0]
    · iexists _; isplitr; · ipureintro; exact harg2.read_unread _
      iexact H0
    iexists _; iexact H1

/-! ## What each case leaves in window 1 -/

/-- The pieces of the first-point case tile window 1's block, so they cover it. -/
theorem coverA (c : Dev nD) (i : grid1.Coords) (arg2 : Memref sig .tc .vmem S1024x1024 .f32) (harg2 : arg2.IsWhole) (arg3 : Memref sig .tc .vmem S1024x1 .f32) (harg3 : arg3.IsWhole) (hc : cond i)
    (x0 : Vec F S1024x1024 .f32) (y : S1024x1.Idx) :
    ∃ pc ∈ (kernelRunA c i arg2 harg2 arg3 harg3 hc x0).1, y ∈ pc.1.set :=
  View.cover_of_tiledL (kernelRunA c i arg2 harg2 arg3 harg3 hc x0).1 S1024x1.size (by sl_kernel_rfl) y

/-- What the first-point case leaves in window 1: its pieces read back. -/
def outA (c : Dev nD) (i : grid1.Coords) (arg2 : Memref sig .tc .vmem S1024x1024 .f32) (harg2 : arg2.IsWhole) (arg3 : Memref sig .tc .vmem S1024x1 .f32) (harg3 : arg3.IsWhole) (hc : cond i)
    (x0 : Vec F S1024x1024 .f32) : Vec F S1024x1 .f32 :=
  VO.read (Elt F) (VO.writes (Elt F) VO.junk (kernelRunA c i arg2 harg2 arg3 harg3 hc x0).1)

/-- The pieces of the later-point case tile window 1's block, so they cover it. -/
theorem coverB (c : Dev nD) (i : grid1.Coords) (arg2 : Memref sig .tc .vmem S1024x1024 .f32) (harg2 : arg2.IsWhole) (arg3 : Memref sig .tc .vmem S1024x1 .f32) (harg3 : arg3.IsWhole) (hc : ¬cond i)
    (x0 : Vec F S1024x1024 .f32) (xo : Vec F S1024x1 .f32) (y : S1024x1.Idx) :
    ∃ pc ∈ (kernelRunB c i arg2 harg2 arg3 harg3 hc x0 xo).1, y ∈ pc.1.set :=
  View.cover_of_tiledL (kernelRunB c i arg2 harg2 arg3 harg3 hc x0 xo).1 S1024x1.size (by sl_kernel_rfl) y

/-- What the later-point case leaves in window 1: its pieces read back. -/
def outB (c : Dev nD) (i : grid1.Coords) (arg2 : Memref sig .tc .vmem S1024x1024 .f32) (harg2 : arg2.IsWhole) (arg3 : Memref sig .tc .vmem S1024x1 .f32) (harg3 : arg3.IsWhole) (hc : ¬cond i)
    (x0 : Vec F S1024x1024 .f32) (xo : Vec F S1024x1 .f32) : Vec F S1024x1 .f32 :=
  VO.read (Elt F) (VO.writes (Elt F) VO.junk (kernelRunB c i arg2 harg2 arg3 harg3 hc x0 xo).1)

/-! ## What window 1 holds after each point -/

/-- Window 1's staging buffer after the body at position n: at the first point of a grid row the first-point
    case on the point's block; elsewhere the later-point case on the point's block over what position n - 1 left. -/
def outsAt (c : Dev nD) : (n : ℕ) → n < cfg1.N → Vec F S1024x1 .f32
  | 0, hn => outA c (grid1.coords ⟨0, hn⟩) (ms_0 ⟨0, hn⟩) (hs_0 ⟨0, hn⟩) (ms_1 ⟨0, hn⟩) (hs_1 ⟨0, hn⟩) ((hcond ⟨0, hn⟩).mpr (Nat.zero_mod _)) (iblk V c 0 ⟨0, hn⟩)
  | n + 1, hn =>
    if h0 : (n + 1) % 8 = 0 then
      outA c (grid1.coords ⟨n + 1, hn⟩) (ms_0 ⟨n + 1, hn⟩) (hs_0 ⟨n + 1, hn⟩) (ms_1 ⟨n + 1, hn⟩) (hs_1 ⟨n + 1, hn⟩) ((hcond ⟨n + 1, hn⟩).mpr h0) (iblk V c 0 ⟨n + 1, hn⟩)
    else
      outB c (grid1.coords ⟨n + 1, hn⟩) (ms_0 ⟨n + 1, hn⟩) (hs_0 ⟨n + 1, hn⟩) (ms_1 ⟨n + 1, hn⟩) (hs_1 ⟨n + 1, hn⟩) (fun h => h0 ((hcond ⟨n + 1, hn⟩).mp h)) (iblk V c 0 ⟨n + 1, hn⟩) (outsAt c n (Nat.lt_of_succ_lt hn))

/-- At the first point of a grid row. -/
theorem outsAt_A (c : Dev nD) (t : Fin cfg1.N) (h0 : t.val % 8 = 0) :
    outsAt V c t.val t.isLt = outA c (grid1.coords t) (ms_0 t) (hs_0 t) (ms_1 t) (hs_1 t) ((hcond t).mpr h0) (iblk V c 0 t) := by
  obtain ⟨n, hn⟩ := t
  cases n with
  | zero => exact rfl
  | succ n => exact (dif_pos h0).trans rfl

/-- At a later point of a grid row. -/
theorem outsAt_B (c : Dev nD) (t : Fin cfg1.N) (h0 : ¬t.val % 8 = 0) :
    outsAt V c t.val t.isLt = outB c (grid1.coords t) (ms_0 t) (hs_0 t) (ms_1 t) (hs_1 t) (fun h => h0 ((hcond t).mp h)) (iblk V c 0 t) (outsAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core c: the arrays at the entry contents; after the body at point t
    window 0 at its block and window 1 at outsAt; the class invariant; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => (outsAt V c t.val t.isLt)
  Φ _ := Pipeline.ΦA spec1 c
  q _ := fullShare
  owed _ := 0

/-- The proof data's arrays are the entry contents. -/
theorem A_eq (c : Dev nD) (w : Fin cfg1.W) : (dat V c).A w = V c (Pipeline.arrRef spec1 w) := by
  dsimp only [dat]

/-- What the body leaves, window by window. -/
theorem after_0 (c : Dev nD) (t : Fin cfg1.N) : (dat V c).after 0 t = iblk V c 0 t := by dsimp only [dat]
theorem after_1 (c : Dev nD) (t : Fin cfg1.N) : (dat V c).after 1 t = (outsAt V c t.val t.isLt) := by dsimp only [dat]

/-- Window 0's current staging buffer holds its block at every point. -/
theorem before_0 (c : Dev nD) (t : Fin cfg1.N) (d) : (dat V c).before 0 t d = iblk V c 0 t :=
  before_0_of V (dat V c) (A_eq V c 0) (after_0 V c) t d

/-- At a later point of a grid row window 1's current staging buffer holds what the body left at the point before:
    the point is not the first, and the buffer is written back only at the last point of a row. -/
theorem before_1_B (c : Dev nD) (t : Fin cfg1.N) (h0 : ¬t.val % 8 = 0) (d) :
    (dat V c).before 1 t d = (outsAt V c (t.val - 1) (Nat.lt_of_le_of_lt (Nat.sub_le _ _) t.isLt)) := by
  have hN : t.val < 64 := lt_of_lt_of_eq t.isLt (show cfg1.N = 64 from N_1)
  rw [Dat.before_out_kept _ 1 rfl t (by omega) (Bool.eq_false_iff.mpr fun h => by have := (flush1_1 _).mp h; dsimp only at this; omega)
    (fun _ => rfl) (fun _ _ => rfl)]
  dsimp only [dat]

/-! ## The body obligation -/

/-- What the body is called with at point t, -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d)))

/-- and what it returns. -/
def bodyPost (c : Dev nD) (t : Fin cfg1.N) : sProp 𝕄 :=
  iprop((dat V c).Φ t.succ ∗ (dat V c).owesAt () t.succ
    ∗ owns (c : Thread nD τ) (ms_0 t) fullShare ((dat V c).after 0 t)
    ∗ owns (c : Thread nD τ) (ms_1 t) fullShare ((dat V c).after 1 t))

set_option maxHeartbeats 800000 in
/-- The body at any point: window 0 holds its block; the closed form says which case the point is in; at a later
    point of a row window 1 holds what the point before left; so the case's run applies. The invariant passes
    through unread and the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0]
  rw [show (dat V c).Φ t.succ = (dat V c).Φ t.castSucc from rfl,
    show (dat V c).owesAt () t.succ = (dat V c).owesAt () t.castSucc from rfl,
    after_0, after_1]
  have hN : t.val < 64 := lt_of_lt_of_eq t.isLt (show cfg1.N = 64 from N_1)
  by_cases h0 : t.val % 8 = 0
  · rw [outsAt_A V c t h0]
    unfold outA
    iintro ⟨HΦ, Ho, ⟨%d0, H0⟩, ⟨%d1, H1⟩⟩
    iapply ((kernelRunA c (grid1.coords t) _ _ _ _ ((hcond t).mpr h0) (iblk V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverA c _ _ _ _ _ _ _)
  · rw [outsAt_B V c t h0]
    simp only [before_1_B V c t h0]
    unfold outB
    iintro ⟨HΦ, Ho, ⟨%d0, H0⟩, ⟨%d1, H1⟩⟩
    iapply ((kernelRunB c (grid1.coords t) _ _ _ _ (fun h => h0 ((hcond t).mp h)) (iblk V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverB c _ _ _ _ _ _ _ _)

/-- The body obligation, at every point. -/
theorem body_obligation (c : Dev nD) : BodyObligation (dat (F := F) V c) (defs₀ (F := F)) Variants.none () Set.univ := fun t => by
  rw [bigSep_W1, bigSep_W1]
  exact sound_body V c t

/-! ## The invariant at the region's two ends -/

/-- The invariant at the first position is the class invariant, -/
theorem hin (c : Dev nD) : Pipeline.ΦA spec1 c ⊢ (dat V c).Φ 0 := .rfl

/-- and at the last. -/
theorem hout (c : Dev nD) : (dat V c).Φ (Fin.last cfg1.N) ⊢ Pipeline.ΦA spec1 c := .rfl

end Cert.KernelIdeal.Reg1

end
-- ==== Proof.KI.Reg2Frame.lean ====
/-
  Region 2 of the kernel program (custom_call 2, `cc2__k3_kernel`, pipeline 2), at a parameter `V`: the
  TensorCore's buffer contents when the region is entered.

  The grid is 8 × 8, point t = 8·i + j.  Window 0 (a [1024,1024] block of the scores at (i,j)), window 1 (the whole
  bf16 array, resident), window 2 (a [1024,1] block of the row factors at (i,0)) are inputs; window 3 (a [1024,1024]
  block at (i,0)) is the output, stored only at j = 7.  Two scratch buffers are carried between points: the running
  numerator [1024,1024] and the running denominator [1024,1]; both are reset at j = 0, added to at every point and
  read out at j = 7.  Three control cases: the first, a middle and the last point of a grid row.

  What is proved here: the proof data `dat`, the body obligation at every point, and that the region invariant is
  the class invariant before the first point and gives it back after the last.
-/
import proofs.«128303_j3917010174495_2_alg».proof.Proof.Gen.KernelIdeal.Launch
import proofs.«128303_j3917010174495_2_alg».proof.Proof.Gen.KernelIdeal.Skeleton
import proofs.«128303_j3917010174495_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (unfetched, the
    block index has not moved), for any proof data whose array is `V`'s and whose body leaves the block in place. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions, in closed form over the grid -/

/-- The first `scf.if`: the column coordinate is 0. -/
abbrev cond0 (i : grid2.Coords) : Prop := (Scalar.cmpi .ne (Scalar.extui (Scalar.cmpi .eq (BitVec.ofNat 32 (i 1).val) 0#32)) 0#32) = 1#1
theorem hcond0 : ∀ t : Fin cfg2.N, cond0 (grid2.coords t) ↔ t.val % 8 = 0 :=
  (by decide +kernel : ∀ t : Fin grid2.N, cond0 (grid2.coords t) ↔ t.val % 8 = 0)
/-- The last `scf.if`: the column coordinate is 7. -/
abbrev cond1 (i : grid2.Coords) : Prop := k2_cond2 i = 1#1
theorem hcond1 : ∀ t : Fin cfg2.N, cond1 (grid2.coords t) ↔ t.val % 8 = 7 :=
  (by decide +kernel : ∀ t : Fin grid2.N, cond1 (grid2.coords t) ↔ t.val % 8 = 7)

/-! ## Where the windows are idle -/

theorem liveAt_0 : ∀ t : Fin cfg2.N, cfg2.idle 0 (grid2.coords t) = false := by decide +kernel
theorem liveAt_1 : ∀ t : Fin cfg2.N, cfg2.idle 1 (grid2.coords t) = false := by decide +kernel
theorem liveAt_2 : ∀ t : Fin cfg2.N, cfg2.idle 2 (grid2.coords t) = false := by decide +kernel
/-- Off the last column the output window is idle and is not written back. -/
theorem idleAt_3 : ∀ t : Fin cfg2.N, ¬cond1 (grid2.coords t) → cfg2.idle 3 (grid2.coords t) = true := by decide +kernel
theorem noFlush_3 : ∀ t : Fin cfg2.N, ¬cond1 (grid2.coords t) → (cfg2.win 3).flush t = false := by decide +kernel
/-- On the last column it is live. -/
theorem liveAt_3 : ∀ t : Fin cfg2.N, cond1 (grid2.coords t) → cfg2.idle 3 (grid2.coords t) = false := by decide +kernel

/-! ## The memrefs the body is called with -/

/-- One staging buffer of the output window, through which its contents are stated. -/
abbrev VO : View sig .tc .vmem S1024x1024 .f32 := (Memref.whole cc2_stg3_0 : Memref sig .tc .vmem S1024x1024 .f32).view
abbrev ms0 (t : Fin cfg2.N) : Memref sig .tc .vmem S1024x1024 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S8192x1024 .bf16 := win2_1.stage (cfg2.slots t 1)
abbrev hs1 (t : Fin cfg2.N) : (ms1 t).IsWhole := hstage2_1 ((cfg2.slots t 1).cast nbuf2_1)
abbrev ms2 (t : Fin cfg2.N) : Memref sig .tc .vmem S1024x1 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S1024x1024 .f32 := win2_3.stage (cfg2.slots t 3)
abbrev hs3 (t : Fin cfg2.N) : (ms3 t).IsWhole := hstage2_3 ((cfg2.slots t 3).cast nbuf2_3)
/-- The two scratch operands: whole scoped buffers, passed beside the windows. -/
abbrev scM0 : Memref sig .tc .vmem S1024x1024 .f32 := Memref.whole cc2_scratch0
abbrev scM1 : Memref sig .tc .vmem S1024x1 .f32 := Memref.whole cc2_scratch1
abbrev VS0 : View sig .tc .vmem S1024x1024 .f32 := scM0.view
abbrev VS1 : View sig .tc .vmem S1024x1 .f32 := scM1.view

/-- The class invariant with the two scratch operands as memrefs owned at some contents. -/
theorem PhiA_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ d, owns (c : Thread nD τ) scM0 fullShare d) ∗ (∃ d, owns (c : Thread nD τ) scM1 fullShare d) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg3_1), ((c : Thread nD τ).loc cc3_stg3_1) ↦{fullShare} f) ∗ (∃ f : Buf (Elt F) ((c : Thread nD τ).loc cc3_scratch0), ((c : Thread nD τ).loc cc3_scratch0) ↦{fullShare} f) ∗ (∃ f : Buf (Elt F) ((c : Thread nD τ).loc cc3_scratch1), ((c : Thread nD τ).loc cc3_scratch1) ↦{fullShare} f)) ∗ (∃ r, prngReg c r)) := by
  unfold Pipeline.ΦA; rw [scopedRest2_eq]; simp only [scM0, scM1, owns_whole]; try rfl

/-! ## The kernel body on any whole memrefs, case by case: the pieces each buffer ends with are found by the run -/

set_option maxHeartbeats 4000000 in
/-- FIRST point of a grid row (column 0): the two scratch buffers, at anything, are reset and added to; the output
    buffer is not touched and is handed back as found. -/
noncomputable def kernelRun_A (c : Dev nD) (i : grid2.Coords) (arg2 : Memref sig .tc .vmem S1024x1024 .f32) (harg2 : arg2.IsWhole) (arg3 : Memref sig .tc .vmem S8192x1024 .bf16) (harg3 : arg3.IsWhole) (arg4 : Memref sig .tc .vmem S1024x1 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (hc0 : cond0 i) (hc1 : ¬cond1 i)
    (x0 : Vec F S1024x1024 .f32) (x1 : Vec F S8192x1024 .bf16) (x2 : Vec F S1024x1 .f32) :
    Σ' (L3 : List (View.Piece (Elt F) S1024x1024 .f32)) (LS0 : List (View.Piece (Elt F) S1024x1024 .f32)), { LS1 : List (View.Piece (Elt F) S1024x1 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc2__k3_kernel i arg2 harg2 arg3 harg3 arg4 harg4 arg5 harg5 arg6 harg6 arg7 harg7) K } := by
  refine ⟨[], ?_, ?_, fun xi3 E K => ?run⟩
  case run =>
    simp only [cc2__k3_kernel_eq_skeleton]; unfold cc2__k3_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 4000000 in
/-- A MIDDLE point of a grid row (columns 1..6): the two scratch buffers, at what the point before left, are added
    to; the output buffer is not touched. -/
noncomputable def kernelRun_B (c : Dev nD) (i : grid2.Coords) (arg2 : Memref sig .tc .vmem S1024x1024 .f32) (harg2 : arg2.IsWhole) (arg3 : Memref sig .tc .vmem S8192x1024 .bf16) (harg3 : arg3.IsWhole) (arg4 : Memref sig .tc .vmem S1024x1 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (hc0 : ¬cond0 i) (hc1 : ¬cond1 i)
    (x0 : Vec F S1024x1024 .f32) (x1 : Vec F S8192x1024 .bf16) (x2 : Vec F S1024x1 .f32) (xs0 : Vec F S1024x1024 .f32) (xs1 : Vec F S1024x1 .f32) :
    Σ' (L3 : List (View.Piece (Elt F) S1024x1024 .f32)) (LS0 : List (View.Piece (Elt F) S1024x1024 .f32)), { LS1 : List (View.Piece (Elt F) S1024x1 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc2__k3_kernel i arg2 harg2 arg3 harg3 arg4 harg4 arg5 harg5 arg6 harg6 arg7 harg7) K } := by
  refine ⟨[], ?_, ?_, fun xi3 E K => ?run⟩
  case run =>
    simp only [cc2__k3_kernel_eq_skeleton]; unfold cc2__k3_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 4000000 in
/-- The LAST point of a grid row (column 7): the two scratch buffers, at what the point before left, are added to,
    and the output buffer, at anything, is stored whole with their quotient. -/
noncomputable def kernelRun_C (c : Dev nD) (i : grid2.Coords) (arg2 : Memref sig .tc .vmem S1024x1024 .f32) (harg2 : arg2.IsWhole) (arg3 : Memref sig .tc .vmem S8192x1024 .bf16) (harg3 : arg3.IsWhole) (arg4 : Memref sig .tc .vmem S1024x1 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (hc0 : ¬cond0 i) (hc1 : cond1 i)
    (x0 : Vec F S1024x1024 .f32) (x1 : Vec F S8192x1024 .bf16) (x2 : Vec F S1024x1 .f32) (xs0 : Vec F S1024x1024 .f32) (xs1 : Vec F S1024x1 .f32) :
    Σ' (L3 : List (View.Piece (Elt F) S1024x1024 .f32)) (LS0 : List (View.Piece (Elt F) S1024x1024 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc2__k3_kernel i arg2 harg2 arg3 harg3 arg4 harg4 arg5 harg5 arg6 harg6 arg7 harg7) K } := by
  refine ⟨?_, ?_, ?_, fun E K => ?run⟩
  case run =>
    simp only [cc2__k3_kernel_eq_skeleton]; unfold cc2__k3_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

/-! ## What a point leaves: the output's buffer and the two scratch buffers, from the case's pieces -/

/-- The three buffers a point leaves: the output window's, the running numerator, the running denominator. -/
abbrev Outs (F : FTy → Type) [FloatOps F] : Type := Vec F S1024x1024 .f32 × Vec F S1024x1024 .f32 × Vec F S1024x1 .f32

/-- Pieces read back over junk (where the pieces cover the buffer the junk is never seen). -/
def readO (L : List (View.Piece (Elt F) S1024x1024 .f32)) : Vec F S1024x1024 .f32 := VO.read (Elt F) (VO.writes (Elt F) VO.junk L)
def readS0 (L : List (View.Piece (Elt F) S1024x1024 .f32)) : Vec F S1024x1024 .f32 := VS0.read (Elt F) (VS0.writes (Elt F) VS0.junk L)
def readS1 (L : List (View.Piece (Elt F) S1024x1 .f32)) : Vec F S1024x1 .f32 := VS1.read (Elt F) (VS1.writes (Elt F) VS1.junk L)

/-- The body's run at point `t` in each case, at the point's memrefs and the input windows' blocks. -/
def runA (c : Dev nD) (t : Fin cfg2.N) (h0 : t.val % 8 = 0) (h1 : ¬t.val % 8 = 7) :=
  kernelRun_A (F := F) c (grid2.coords t) (ms0 t) (hs0 t) (ms1 t) (hs1 t) (ms2 t) (hs2 t) (ms3 t) (hs3 t) scM0 (Memref.isWhole_whole _) scM1 (Memref.isWhole_whole _) ((hcond0 t).mpr h0) (fun h => h1 ((hcond1 t).mp h)) (iblk V c 0 t) (iblk V c 1 t) (iblk V c 2 t)
def runB (c : Dev nD) (t : Fin cfg2.N) (h0 : ¬t.val % 8 = 0) (h1 : ¬t.val % 8 = 7) (xs0 : Vec F S1024x1024 .f32) (xs1 : Vec F S1024x1 .f32) :=
  kernelRun_B (F := F) c (grid2.coords t) (ms0 t) (hs0 t) (ms1 t) (hs1 t) (ms2 t) (hs2 t) (ms3 t) (hs3 t) scM0 (Memref.isWhole_whole _) scM1 (Memref.isWhole_whole _) (fun h => h0 ((hcond0 t).mp h)) (fun h => h1 ((hcond1 t).mp h)) (iblk V c 0 t) (iblk V c 1 t) (iblk V c 2 t) xs0 xs1
def runC (c : Dev nD) (t : Fin cfg2.N) (h0 : ¬t.val % 8 = 0) (h1 : t.val % 8 = 7) (xs0 : Vec F S1024x1024 .f32) (xs1 : Vec F S1024x1 .f32) :=
  kernelRun_C (F := F) c (grid2.coords t) (ms0 t) (hs0 t) (ms1 t) (hs1 t) (ms2 t) (hs2 t) (ms3 t) (hs3 t) scM0 (Memref.isWhole_whole _) scM1 (Memref.isWhole_whole _) (fun h => h0 ((hcond0 t).mp h)) ((hcond1 t).mpr h1) (iblk V c 0 t) (iblk V c 1 t) (iblk V c 2 t) xs0 xs1

/-- The pieces of each case cover the buffers they are stored into. -/
theorem scoverA_0 (c : Dev nD) (t : Fin cfg2.N) (h0 : t.val % 8 = 0) (h1 : ¬t.val % 8 = 7) (y : S1024x1024.Idx) : ∃ pc ∈ (runA V c t h0 h1).2.1, y ∈ pc.1.set :=
  View.cover_of_tiledL (runA V c t h0 h1).2.1 S1024x1024.size (by sl_kernel_rfl) y
theorem scoverA_1 (c : Dev nD) (t : Fin cfg2.N) (h0 : t.val % 8 = 0) (h1 : ¬t.val % 8 = 7) (y : S1024x1.Idx) : ∃ pc ∈ (runA V c t h0 h1).2.2.1, y ∈ pc.1.set :=
  View.cover_of_tiledL (runA V c t h0 h1).2.2.1 S1024x1.size (by sl_kernel_rfl) y
theorem scoverB_0 (c : Dev nD) (t : Fin cfg2.N) (h0 : ¬t.val % 8 = 0) (h1 : ¬t.val % 8 = 7) (xs0 : Vec F S1024x1024 .f32) (xs1 : Vec F S1024x1 .f32) (y : S1024x1024.Idx) : ∃ pc ∈ (runB V c t h0 h1 xs0 xs1).2.1, y ∈ pc.1.set :=
  View.cover_of_tiledL (runB V c t h0 h1 xs0 xs1).2.1 S1024x1024.size (by sl_kernel_rfl) y
theorem scoverB_1 (c : Dev nD) (t : Fin cfg2.N) (h0 : ¬t.val % 8 = 0) (h1 : ¬t.val % 8 = 7) (xs0 : Vec F S1024x1024 .f32) (xs1 : Vec F S1024x1 .f32) (y : S1024x1.Idx) : ∃ pc ∈ (runB V c t h0 h1 xs0 xs1).2.2.1, y ∈ pc.1.set :=
  View.cover_of_tiledL (runB V c t h0 h1 xs0 xs1).2.2.1 S1024x1.size (by sl_kernel_rfl) y
theorem coverC_3 (c : Dev nD) (t : Fin cfg2.N) (h0 : ¬t.val % 8 = 0) (h1 : t.val % 8 = 7) (xs0 : Vec F S1024x1024 .f32) (xs1 : Vec F S1024x1 .f32) (y : S1024x1024.Idx) : ∃ pc ∈ (runC V c t h0 h1 xs0 xs1).1, y ∈ pc.1.set :=
  View.cover_of_tiledL (runC V c t h0 h1 xs0 xs1).1 S1024x1024.size (by sl_kernel_rfl) y
theorem scoverC_0 (c : Dev nD) (t : Fin cfg2.N) (h0 : ¬t.val % 8 = 0) (h1 : t.val % 8 = 7) (xs0 : Vec F S1024x1024 .f32) (xs1 : Vec F S1024x1 .f32) (y : S1024x1024.Idx) : ∃ pc ∈ (runC V c t h0 h1 xs0 xs1).2.1, y ∈ pc.1.set :=
  View.cover_of_tiledL (runC V c t h0 h1 xs0 xs1).2.1 S1024x1024.size (by sl_kernel_rfl) y
theorem scoverC_1 (c : Dev nD) (t : Fin cfg2.N) (h0 : ¬t.val % 8 = 0) (h1 : t.val % 8 = 7) (xs0 : Vec F S1024x1024 .f32) (xs1 : Vec F S1024x1 .f32) (y : S1024x1.Idx) : ∃ pc ∈ (runC V c t h0 h1 xs0 xs1).2.2.1, y ∈ pc.1.set :=
  View.cover_of_tiledL (runC V c t h0 h1 xs0 xs1).2.2.1 S1024x1.size (by sl_kernel_rfl) y

/-- What each case leaves in the three buffers (the output's a placeholder where the case does not store it). -/
def outA (c : Dev nD) (t : Fin cfg2.N) (h0 : t.val % 8 = 0) (h1 : ¬t.val % 8 = 7) : Outs F :=
  (readO (runA V c t h0 h1).1, readS0 (runA V c t h0 h1).2.1, readS1 (runA V c t h0 h1).2.2.1)
def outB (c : Dev nD) (t : Fin cfg2.N) (h0 : ¬t.val % 8 = 0) (h1 : ¬t.val % 8 = 7) (xs0 : Vec F S1024x1024 .f32) (xs1 : Vec F S1024x1 .f32) : Outs F :=
  (readO (runB V c t h0 h1 xs0 xs1).1, readS0 (runB V c t h0 h1 xs0 xs1).2.1, readS1 (runB V c t h0 h1 xs0 xs1).2.2.1)
def outC (c : Dev nD) (t : Fin cfg2.N) (h0 : ¬t.val % 8 = 0) (h1 : t.val % 8 = 7) (xs0 : Vec F S1024x1024 .f32) (xs1 : Vec F S1024x1 .f32) : Outs F :=
  (readO (runC V c t h0 h1 xs0 xs1).1, readS0 (runC V c t h0 h1 xs0 xs1).2.1, readS1 (runC V c t h0 h1 xs0 xs1).2.2.1)

/-- THE ACCUMULATION: what the three buffers hold after the body at position `n`, by recursion on the position —
    the case the column selects, the carried scratch at what position `n - 1` left. -/
def outsAt (c : Dev nD) : (n : ℕ) → n < cfg2.N → Outs F
  | 0, hn => outA V c ⟨0, hn⟩ (Nat.zero_mod _) (by decide : ¬(0 % 8 = 7))
  | n + 1, hn =>
    if h0 : (n + 1) % 8 = 0 then
      if h1 : (n + 1) % 8 = 7 then False.elim (by omega)
      else outA V c ⟨n + 1, hn⟩ h0 h1
    else
      if h1 : (n + 1) % 8 = 7 then
        outC V c ⟨n + 1, hn⟩ h0 h1 (outsAt c n (Nat.lt_of_succ_lt hn)).2.1 (outsAt c n (Nat.lt_of_succ_lt hn)).2.2
      else
        outB V c ⟨n + 1, hn⟩ h0 h1 (outsAt c n (Nat.lt_of_succ_lt hn)).2.1 (outsAt c n (Nat.lt_of_succ_lt hn)).2.2

theorem outsAt_A (c : Dev nD) (t : Fin cfg2.N) (h0 : t.val % 8 = 0) (h1 : ¬t.val % 8 = 7) :
    outsAt V c t.val t.isLt = outA V c t h0 h1 := by
  obtain ⟨n, hn⟩ := t
  cases n with
  | zero => rfl
  | succ n => exact (dif_pos h0).trans (dif_neg h1)

theorem outsAt_B (c : Dev nD) (t : Fin cfg2.N) (h0 : ¬t.val % 8 = 0) (h1 : ¬t.val % 8 = 7) :
    outsAt V c t.val t.isLt = outB V c t h0 h1 (outsAt V c (t.val - 1) (Nat.lt_of_le_of_lt (Nat.sub_le _ _) t.isLt)).2.1
      (outsAt V c (t.val - 1) (Nat.lt_of_le_of_lt (Nat.sub_le _ _) t.isLt)).2.2 := by
  obtain ⟨n, hn⟩ := t
  cases n with
  | zero => exact absurd (Nat.zero_mod _) h0
  | succ n => exact (dif_neg h0).trans (dif_neg h1)

theorem outsAt_C (c : Dev nD) (t : Fin cfg2.N) (h0 : ¬t.val % 8 = 0) (h1 : t.val % 8 = 7) :
    outsAt V c t.val t.isLt = outC V c t h0 h1 (outsAt V c (t.val - 1) (Nat.lt_of_le_of_lt (Nat.sub_le _ _) t.isLt)).2.1
      (outsAt V c (t.val - 1) (Nat.lt_of_le_of_lt (Nat.sub_le _ _) t.isLt)).2.2 := by
  obtain ⟨n, hn⟩ := t
  cases n with
  | zero => exact absurd (Nat.zero_mod _) h0
  | succ n => exact (dif_neg h0).trans (dif_pos h1)

/-! ## The region invariant -/

/-- Before position `n`: before the first point the class invariant (every scoped buffer at anything); afterwards
    the same with the two carried scratch buffers at what the point before left in them. -/
def PhiS (c : Dev nD) : (n : ℕ) → n ≤ cfg2.N → sProp 𝕄
  | 0, _ => Pipeline.ΦA spec2 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ owns (c : Thread nD τ) scM0 fullShare ((outsAt V c n hn).2.1) ∗ owns (c : Thread nD τ) scM1 fullShare ((outsAt V c n hn).2.2) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg3_1), ((c : Thread nD τ).loc cc3_stg3_1) ↦{fullShare} f) ∗ (∃ f : Buf (Elt F) ((c : Thread nD τ).loc cc3_scratch0), ((c : Thread nD τ).loc cc3_scratch0) ↦{fullShare} f) ∗ (∃ f : Buf (Elt F) ((c : Thread nD τ).loc cc3_scratch1), ((c : Thread nD τ).loc cc3_scratch1) ↦{fullShare} f)) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ owns (c : Thread nD τ) scM0 fullShare ((outsAt V c n hn).2.1) ∗ owns (c : Thread nD τ) scM1 fullShare ((outsAt V c n hn).2.2) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg3_1), ((c : Thread nD τ).loc cc3_stg3_1) ↦{fullShare} f) ∗ (∃ f : Buf (Elt F) ((c : Thread nD τ).loc cc3_scratch0), ((c : Thread nD τ).loc cc3_scratch0) ↦{fullShare} f) ∗ (∃ f : Buf (Elt F) ((c : Thread nD τ).loc cc3_scratch1), ((c : Thread nD τ).loc cc3_scratch1) ↦{fullShare} f)) ∗ (∃ r, prngReg c r)) := rfl

theorem PhiS_pos (c : Dev nD) (n : ℕ) (h : n ≤ cfg2.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ owns (c : Thread nD τ) scM0 fullShare ((outsAt V c (n - 1) (by omega)).2.1) ∗ owns (c : Thread nD τ) scM1 fullShare ((outsAt V c (n - 1) (by omega)).2.2) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg3_1), ((c : Thread nD τ).loc cc3_stg3_1) ↦{fullShare} f) ∗ (∃ f : Buf (Elt F) ((c : Thread nD τ).loc cc3_scratch0), ((c : Thread nD τ).loc cc3_scratch0) ↦{fullShare} f) ∗ (∃ f : Buf (Elt F) ((c : Thread nD τ).loc cc3_scratch1), ((c : Thread nD τ).loc cc3_scratch1) ↦{fullShare} f)) ∗ (∃ r, prngReg c r)) := by
  cases n with
  | zero => exact absurd rfl hz
  | succ n => rfl

/-! ## The proof data -/

/-- The proof data of pipeline 2 on core `c`: the arrays as the region finds them; after the body at point `t`
    each input's buffer at its block and the output's at `outsAt`'s first component; the invariant `PhiS`; nothing
    owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = (outsAt V c t.val t.isLt).1 := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d

/-! ## The body obligation, at a generic point -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 8000000 in
/-- The body at any point. The inputs' memrefs hold their blocks; the column says which case the point is in; the
    invariant hands the body the two carried scratch buffers (at anything before the first point, else at what the
    point before left) and takes them back at this point's contents, which the case's pieces cover; off the last
    column the output's buffer comes back untouched, on it its pieces cover it; the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg2.N = 64 from N_2)
  rw [show (dat V c).leavesExact 0 t = owns (c : Thread nD τ) (ms0 t) fullShare ((dat V c).after 0 t) from by
    unfold Dat.leavesExact; rw [liveAt_0 t], after_0]
  rw [show (dat V c).leavesExact 1 t = owns (c : Thread nD τ) (ms1 t) fullShare ((dat V c).after 1 t) from by
    unfold Dat.leavesExact; rw [liveAt_1 t], after_1]
  rw [show (dat V c).leavesExact 2 t = owns (c : Thread nD τ) (ms2 t) fullShare ((dat V c).after 2 t) from by
    unfold Dat.leavesExact; rw [liveAt_2 t], after_2]
  by_cases h0 : t.val % 8 = 0
  · have h1 : ¬t.val % 8 = 7 := by omega
    rw [Dat.leavesExact_idle (dat V c) 3 t (idleAt_3 t (fun h => h1 ((hcond1 t).mp h))) (noFlush_3 t (fun h => h1 ((hcond1 t).mp h)))]
    rw [outsAt_A V c t h0 h1]
    unfold outA readS0 readS1; (try dsimp only)
    by_cases hz : t.val = 0
    · rw [PhiS_castSucc V c t, PhiS_zero V c _ _ hz, PhiA_eq]
      iintro ⟨⟨⟨HR0, HR1, HR2, HR3, HR4, HR5, HR6, HR7, HR8, HR9, HR10, HS0, HS1, HR13, HR14, HR15, HR16, HR17, HR18, HR19, HR20, HR21⟩, Hg⟩, Ho, ⟨%d0, H0⟩, ⟨%d1, H1⟩, ⟨%d2, H2⟩, ⟨%d3, H3⟩⟩
      iapply ((runA V c t h0 h1).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HR0 HR1 HR2 HR3 HR4 HR5 HR6 HR7 HR8 HR9 HR10 HS0 HS1 HR13 HR14 HR15 HR16 HR17 HR18 HR19 HR20 HR21 Hg]
      · isplitl [HR0 HR1 HR2 HR3 HR4 HR5 HR6 HR7 HR8 HR9 HR10 HS0 HS1 HR13 HR14 HR15 HR16 HR17 HR18 HR19 HR20 HR21]
        · isplitl [HR0]
          · iexact HR0
          isplitl [HR1]
          · iexact HR1
          isplitl [HR2]
          · iexact HR2
          isplitl [HR3]
          · iexact HR3
          isplitl [HR4]
          · iexact HR4
          isplitl [HR5]
          · iexact HR5
          isplitl [HR6]
          · iexact HR6
          isplitl [HR7]
          · iexact HR7
          isplitl [HR8]
          · iexact HR8
          isplitl [HR9]
          · iexact HR9
          isplitl [HR10]
          · iexact HR10
          isplitl [HS0]
          · unfold owns; iexists _; isplitr
            swap; · iexact HS0
            ipureintro; exact View.read_writes_of_cover _ _ _ _ _ (scoverA_0 V c t h0 h1)
          isplitl [HS1]
          · unfold owns; iexists _; isplitr
            swap; · iexact HS1
            ipureintro; exact View.read_writes_of_cover _ _ _ _ _ (scoverA_1 V c t h0 h1)
          isplitl [HR13]
          · iexact HR13
          isplitl [HR14]
          · iexact HR14
          isplitl [HR15]
          · iexact HR15
          isplitl [HR16]
          · iexact HR16
          isplitl [HR17]
          · iexact HR17
          isplitl [HR18]
          · iexact HR18
          isplitl [HR19]
          · iexact HR19
          isplitl [HR20]
          · iexact HR20
          iexact HR21
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HR0, HR1, HR2, HR3, HR4, HR5, HR6, HR7, HR8, HR9, HR10, HS0, HS1, HR13, HR14, HR15, HR16, HR17, HR18, HR19, HR20, HR21⟩, Hg⟩, Ho, ⟨%d0, H0⟩, ⟨%d1, H1⟩, ⟨%d2, H2⟩, ⟨%d3, H3⟩⟩
      iapply ((runA V c t h0 h1).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HR0 HR1 HR2 HR3 HR4 HR5 HR6 HR7 HR8 HR9 HR10 HS0 HS1 HR13 HR14 HR15 HR16 HR17 HR18 HR19 HR20 HR21 Hg]
      · isplitl [HR0 HR1 HR2 HR3 HR4 HR5 HR6 HR7 HR8 HR9 HR10 HS0 HS1 HR13 HR14 HR15 HR16 HR17 HR18 HR19 HR20 HR21]
        · isplitl [HR0]
          · iexact HR0
          isplitl [HR1]
          · iexact HR1
          isplitl [HR2]
          · iexact HR2
          isplitl [HR3]
          · iexact HR3
          isplitl [HR4]
          · iexact HR4
          isplitl [HR5]
          · iexact HR5
          isplitl [HR6]
          · iexact HR6
          isplitl [HR7]
          · iexact HR7
          isplitl [HR8]
          · iexact HR8
          isplitl [HR9]
          · iexact HR9
          isplitl [HR10]
          · iexact HR10
          isplitl [HS0]
          · unfold owns; iexists _; isplitr
            swap; · iexact HS0
            ipureintro; exact View.read_writes_of_cover _ _ _ _ _ (scoverA_0 V c t h0 h1)
          isplitl [HS1]
          · unfold owns; iexists _; isplitr
            swap; · iexact HS1
            ipureintro; exact View.read_writes_of_cover _ _ _ _ _ (scoverA_1 V c t h0 h1)
          isplitl [HR13]
          · iexact HR13
          isplitl [HR14]
          · iexact HR14
          isplitl [HR15]
          · iexact HR15
          isplitl [HR16]
          · iexact HR16
          isplitl [HR17]
          · iexact HR17
          isplitl [HR18]
          · iexact HR18
          isplitl [HR19]
          · iexact HR19
          isplitl [HR20]
          · iexact HR20
          iexact HR21
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (dat V c).leavesExact 3 t = owns (c : Thread nD τ) (ms3 t) fullShare ((dat V c).after 3 t) from by
        unfold Dat.leavesExact; rw [liveAt_3 t ((hcond1 t).mpr h1)], after_3]
      rw [outsAt_C V c t h0 h1]
      unfold outC readO readS0 readS1; (try dsimp only)
      rw [PhiS_castSucc V c t, PhiS_pos V c _ _ hz]
      iintro ⟨⟨⟨HR0, HR1, HR2, HR3, HR4, HR5, HR6, HR7, HR8, HR9, HR10, HS0, HS1, HR13, HR14, HR15, HR16, HR17, HR18, HR19, HR20, HR21⟩, Hg⟩, Ho, ⟨%d0, H0⟩, ⟨%d1, H1⟩, ⟨%d2, H2⟩, ⟨%d3, H3⟩⟩
      iapply ((runC V c t h0 h1 _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HR0 HR1 HR2 HR3 HR4 HR5 HR6 HR7 HR8 HR9 HR10 HS0 HS1 HR13 HR14 HR15 HR16 HR17 HR18 HR19 HR20 HR21 Hg]
      · isplitl [HR0 HR1 HR2 HR3 HR4 HR5 HR6 HR7 HR8 HR9 HR10 HS0 HS1 HR13 HR14 HR15 HR16 HR17 HR18 HR19 HR20 HR21]
        · isplitl [HR0]
          · iexact HR0
          isplitl [HR1]
          · iexact HR1
          isplitl [HR2]
          · iexact HR2
          isplitl [HR3]
          · iexact HR3
          isplitl [HR4]
          · iexact HR4
          isplitl [HR5]
          · iexact HR5
          isplitl [HR6]
          · iexact HR6
          isplitl [HR7]
          · iexact HR7
          isplitl [HR8]
          · iexact HR8
          isplitl [HR9]
          · iexact HR9
          isplitl [HR10]
          · iexact HR10
          isplitl [HS0]
          · unfold owns; iexists _; isplitr
            swap; · iexact HS0
            ipureintro; exact View.read_writes_of_cover _ _ _ _ _ (scoverC_0 V c t h0 h1 _ _)
          isplitl [HS1]
          · unfold owns; iexists _; isplitr
            swap; · iexact HS1
            ipureintro; exact View.read_writes_of_cover _ _ _ _ _ (scoverC_1 V c t h0 h1 _ _)
          isplitl [HR13]
          · iexact HR13
          isplitl [HR14]
          · iexact HR14
          isplitl [HR15]
          · iexact HR15
          isplitl [HR16]
          · iexact HR16
          isplitl [HR17]
          · iexact HR17
          isplitl [HR18]
          · iexact HR18
          isplitl [HR19]
          · iexact HR19
          isplitl [HR20]
          · iexact HR20
          iexact HR21
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC_3 V c t h0 h1 _ _)
    · rw [Dat.leavesExact_idle (dat V c) 3 t (idleAt_3 t (fun h => h1 ((hcond1 t).mp h))) (noFlush_3 t (fun h => h1 ((hcond1 t).mp h)))]
      rw [outsAt_B V c t h0 h1]
      unfold outB readS0 readS1; (try dsimp only)
      rw [PhiS_castSucc V c t, PhiS_pos V c _ _ hz]
      iintro ⟨⟨⟨HR0, HR1, HR2, HR3, HR4, HR5, HR6, HR7, HR8, HR9, HR10, HS0, HS1, HR13, HR14, HR15, HR16, HR17, HR18, HR19, HR20, HR21⟩, Hg⟩, Ho, ⟨%d0, H0⟩, ⟨%d1, H1⟩, ⟨%d2, H2⟩, ⟨%d3, H3⟩⟩
      iapply ((runB V c t h0 h1 _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HR0 HR1 HR2 HR3 HR4 HR5 HR6 HR7 HR8 HR9 HR10 HS0 HS1 HR13 HR14 HR15 HR16 HR17 HR18 HR19 HR20 HR21 Hg]
      · isplitl [HR0 HR1 HR2 HR3 HR4 HR5 HR6 HR7 HR8 HR9 HR10 HS0 HS1 HR13 HR14 HR15 HR16 HR17 HR18 HR19 HR20 HR21]
        · isplitl [HR0]
          · iexact HR0
          isplitl [HR1]
          · iexact HR1
          isplitl [HR2]
          · iexact HR2
          isplitl [HR3]
          · iexact HR3
          isplitl [HR4]
          · iexact HR4
          isplitl [HR5]
          · iexact HR5
          isplitl [HR6]
          · iexact HR6
          isplitl [HR7]
          · iexact HR7
          isplitl [HR8]
          · iexact HR8
          isplitl [HR9]
          · iexact HR9
          isplitl [HR10]
          · iexact HR10
          isplitl [HS0]
          · unfold owns; iexists _; isplitr
            swap; · iexact HS0
            ipureintro; exact View.read_writes_of_cover _ _ _ _ _ (scoverB_0 V c t h0 h1 _ _)
          isplitl [HS1]
          · unfold owns; iexists _; isplitr
            swap; · iexact HS1
            ipureintro; exact View.read_writes_of_cover _ _ _ _ _ (scoverB_1 V c t h0 h1 _ _)
          isplitl [HR13]
          · iexact HR13
          isplitl [HR14]
          · iexact HR14
          isplitl [HR15]
          · iexact HR15
          isplitl [HR16]
          · iexact HR16
          isplitl [HR17]
          · iexact HR17
          isplitl [HR18]
          · iexact HR18
          isplitl [HR19]
          · iexact HR19
          isplitl [HR20]
          · iexact HR20
          iexact HR21
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After any point but the first the invariant gives the class invariant back: what the two carried scratch
    buffers hold is forgotten. -/
theorem Phi_out (c : Dev nD) (t : Fin (cfg2.N + 1)) (ht : t.val ≠ 0) : (dat V c).Φ t ⊢ Pipeline.ΦA spec2 c := by
  rw [show (dat V c).Φ t = PhiS V c t.val (Nat.le_of_lt_succ t.isLt) from rfl, PhiS_pos V c _ _ ht, PhiA_eq]
  iintro ⟨⟨HR0, HR1, HR2, HR3, HR4, HR5, HR6, HR7, HR8, HR9, HR10, HS0, HS1, HR13, HR14, HR15, HR16, HR17, HR18, HR19, HR20, HR21⟩, Hg⟩
  isplitl [HR0 HR1 HR2 HR3 HR4 HR5 HR6 HR7 HR8 HR9 HR10 HS0 HS1 HR13 HR14 HR15 HR16 HR17 HR18 HR19 HR20 HR21]
  · isplitl [HR0]
    · iexact HR0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HR10]
    · iexact HR10
    isplitl [HS0]
    · iexists _; iexact HS0
    isplitl [HS1]
    · iexists _; iexact HS1
    isplitl [HR13]
    · iexact HR13
    isplitl [HR14]
    · iexact HR14
    isplitl [HR15]
    · iexact HR15
    isplitl [HR16]
    · iexact HR16
    isplitl [HR17]
    · iexact HR17
    isplitl [HR18]
    · iexact HR18
    isplitl [HR19]
    · iexact HR19
    isplitl [HR20]
    · iexact HR20
    iexact HR21
  iexact Hg

/-- The same after the last point. -/
theorem hout (c : Dev nD) : (dat V c).Φ (Fin.last cfg2.N) ⊢ Pipeline.ΦA spec2 c :=
  Phi_out V c _ (by rw [Fin.val_last]; have : cfg2.N = 64 := N_2; omega)

end Cert.KernelIdeal.Reg2

end
-- ==== Proof.KI.Reg3Run.lean ====
/-
  Region 3 of the kernel program (custom_call 3: the column softmax of the scores times `im`): the windows' blocks at a
  parameter `V` (the TensorCore's buffer contents when the region is entered), the closed forms of the body's two
  conditions over the 8 × 8 grid (point t = 8·j + i: the first holds at i = 0, the second at i = 7), where the output
  window is idle, and the body's triple in each of its three control cases — first, middle and last point of a grid
  row — on whole memrefs, with the pieces its stores leave in the output block and in the two scratch buffers.
-/
import proofs.«128303_j3917010174495_2_alg».proof.Proof.Gen.KernelIdeal.Launch
import proofs.«128303_j3917010174495_2_alg».proof.Proof.Gen.KernelIdeal.Skeleton
import proofs.«128303_j3917010174495_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Reg3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof
    data whose array is `V`'s and whose body leaves the block in place. -/
theorem before_0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's first `scf.if` (the scratch buffers are zeroed), from the grid coordinates. -/
abbrev cond0 (i : grid3.Coords) : Prop := (Scalar.cmpi .ne (Scalar.extui (Scalar.cmpi .eq (BitVec.ofNat 32 (i 1).val) 0#32)) 0#32) = 1#1
/-- It holds at the first point of each grid row. -/
theorem hcond0 : ∀ t : Fin cfg3.N, cond0 (grid3.coords t) ↔ t.val % 8 = 0 :=
  (by decide +kernel : ∀ t : Fin grid3.N, cond0 (grid3.coords t) ↔ t.val % 8 = 0)

/-- The condition of the body's last `scf.if` (the quotient is stored into the output block). -/
abbrev cond1 (i : grid3.Coords) : Prop := k3_cond2 i = 1#1
/-- It holds at the last point of each grid row. -/
theorem hcond1 : ∀ t : Fin cfg3.N, cond1 (grid3.coords t) ↔ t.val % 8 = 7 :=
  (by decide +kernel : ∀ t : Fin grid3.N, cond1 (grid3.coords t) ↔ t.val % 8 = 7)

/-! ## Where the windows are idle -/

theorem liveAt_0 : ∀ t : Fin cfg3.N, cfg3.idle 0 (grid3.coords t) = false := fun _ => rfl
theorem liveAt_1 : ∀ t : Fin cfg3.N, cfg3.idle 1 (grid3.coords t) = false := fun _ => rfl
theorem liveAt_2 : ∀ t : Fin cfg3.N, cfg3.idle 2 (grid3.coords t) = false := fun _ => rfl
/-- Where the last `scf.if` is not taken the output window is idle and not written back. -/
theorem idleAt_3 : ∀ t : Fin cfg3.N, ¬cond1 (grid3.coords t) → cfg3.idle 3 (grid3.coords t) = true := by decide +kernel
theorem noFlush_3 : ∀ t : Fin cfg3.N, ¬cond1 (grid3.coords t) → (cfg3.win 3).flush t = false := by decide +kernel
/-- Where it is taken the window is live. -/
theorem liveAt_3 : ∀ t : Fin cfg3.N, cond1 (grid3.coords t) → cfg3.idle 3 (grid3.coords t) = false := by decide +kernel

/-! ## The memrefs the body is called with -/

/-- One staging buffer of the output window, through which its contents are stated. -/
abbrev VO : View sig .tc .vmem S1024x1024 .f32 := (Memref.whole cc3_stg3_0 : Memref sig .tc .vmem S1024x1024 .f32).view
abbrev ms0 (t : Fin cfg3.N) : Memref sig .tc .vmem S1024x1024 .f32 := win3_0.stage (cfg3.slots t 0)
abbrev hs0 (t : Fin cfg3.N) : (ms0 t).IsWhole := hstage3_0 ((cfg3.slots t 0).cast nbuf3_0)
abbrev ms1 (t : Fin cfg3.N) : Memref sig .tc .vmem S8192x1024 .bf16 := win3_1.stage (cfg3.slots t 1)
abbrev hs1 (t : Fin cfg3.N) : (ms1 t).IsWhole := hstage3_1 ((cfg3.slots t 1).cast nbuf3_1)
abbrev ms2 (t : Fin cfg3.N) : Memref sig .tc .vmem S1x1024 .f32 := win3_2.stage (cfg3.slots t 2)
abbrev hs2 (t : Fin cfg3.N) : (ms2 t).IsWhole := hstage3_2 ((cfg3.slots t 2).cast nbuf3_2)
abbrev ms3 (t : Fin cfg3.N) : Memref sig .tc .vmem S1024x1024 .f32 := win3_3.stage (cfg3.slots t 3)
abbrev hs3 (t : Fin cfg3.N) : (ms3 t).IsWhole := hstage3_3 ((cfg3.slots t 3).cast nbuf3_3)
/-- The two scratch operands: whole scoped buffers of the kernel's own. -/
abbrev scM0 : Memref sig .tc .vmem S1024x1024 .f32 := Memref.whole cc3_scratch0
abbrev scM1 : Memref sig .tc .vmem S1024x1 .f32 := Memref.whole cc3_scratch1
abbrev VS0 : View sig .tc .vmem S1024x1024 .f32 := scM0.view
abbrev VS1 : View sig .tc .vmem S1024x1 .f32 := scM1.view

/-- The scoped buffers that are neither a staging buffer of this call nor its scratch, unopened. -/
abbrev restBut (c : Dev nD) : sProp 𝕄 :=
  Pipeline.scopedRestBut (Ix := Unit) (Name := ℕ) (U := UR sig nD τ) (Lvl := ℕ) (Val := Elt F) spec3 c [cc3_scratch0, cc3_scratch1]

/-- The class invariant with the two scratch operands as memrefs owned at some contents. -/
theorem PhiA_eq (c : Dev nD) :
    (Pipeline.ΦA spec3 c : sProp 𝕄)
      = iprop(iprop(iprop((∃ d, owns (c : Thread nD τ) scM0 fullShare d) ∗ (∃ d, owns (c : Thread nD τ) scM1 fullShare d)) ∗ restBut (F := F) c) ∗ (∃ r, prngReg c r)) := by
  unfold Pipeline.ΦA
  rw [Pipeline.scopedRest_split_of_list spec3 c [cc3_scratch0, cc3_scratch1] (by decide) (by decide)]
  simp only [scM0, scM1, owns_whole, bigSepL_cons_cons, bigSepL_singleton]; try rfl

/-! ## The body on any staging memrefs, case by case -/

set_option maxHeartbeats 1000000 in
/-- FIRST point of a grid row (the first `scf.if` taken, the last not): the pieces the body's stores leave in the
    output block (none) and in the two scratch buffers, with the body's triple on whole memrefs — the inputs at
    their contents, the output at contents handed back untouched, the scratch buffers at anything. -/
noncomputable def kernelRun_A (c : Dev nD) (i : grid3.Coords) (arg2 : Memref sig .tc .vmem S1024x1024 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (hc0 : cond0 i) (hc1 : ¬cond1 i)
    (x0 : Vec F S1024x1024 .f32) (x1 : Vec F S8192x1024 .bf16) (x2 : Vec F S1x1024 .f32) :
    Σ' (L3 : List (View.Piece (Elt F) S1024x1024 .f32)) (LS0 : List (View.Piece (Elt F) S1024x1024 .f32)), { LS1 : List (View.Piece (Elt F) S1024x1 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc3__k4_kernel i arg2 harg2 arg3 harg3 arg4 harg4 arg5 harg5 arg6 harg6 arg7 harg7) K } := by
  refine ⟨[], ?_, ?_, fun xi3 E K => ?run⟩
  case run =>
    simp only [cc3__k4_kernel_eq_skeleton]; unfold cc3__k4_kernel_skel
    simp only [k3_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 1000000 in
/-- MIDDLE point of a grid row (neither `scf.if` taken): as the first, the scratch buffers at the contents the
    point before left. -/
noncomputable def kernelRun_B (c : Dev nD) (i : grid3.Coords) (arg2 : Memref sig .tc .vmem S1024x1024 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (hc0 : ¬cond0 i) (hc1 : ¬cond1 i)
    (x0 : Vec F S1024x1024 .f32) (x1 : Vec F S8192x1024 .bf16) (x2 : Vec F S1x1024 .f32) (xs0 : Vec F S1024x1024 .f32) (xs1 : Vec F S1024x1 .f32) :
    Σ' (L3 : List (View.Piece (Elt F) S1024x1024 .f32)) (LS0 : List (View.Piece (Elt F) S1024x1024 .f32)), { LS1 : List (View.Piece (Elt F) S1024x1 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc3__k4_kernel i arg2 harg2 arg3 harg3 arg4 harg4 arg5 harg5 arg6 harg6 arg7 harg7) K } := by
  refine ⟨[], ?_, ?_, fun xi3 E K => ?run⟩
  case run =>
    simp only [cc3__k4_kernel_eq_skeleton]; unfold cc3__k4_kernel_skel
    simp only [k3_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 1000000 in
/-- LAST point of a grid row (the last `scf.if` taken): the output block at anything, stored whole; the scratch
    buffers at the contents the point before left. -/
noncomputable def kernelRun_C (c : Dev nD) (i : grid3.Coords) (arg2 : Memref sig .tc .vmem S1024x1024 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (hc0 : ¬cond0 i) (hc1 : cond1 i)
    (x0 : Vec F S1024x1024 .f32) (x1 : Vec F S8192x1024 .bf16) (x2 : Vec F S1x1024 .f32) (xs0 : Vec F S1024x1024 .f32) (xs1 : Vec F S1024x1 .f32) :
    Σ' (L3 : List (View.Piece (Elt F) S1024x1024 .f32)) (LS0 : List (View.Piece (Elt F) S1024x1024 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc3__k4_kernel i arg2 harg2 arg3 harg3 arg4 harg4 arg5 harg5 arg6 harg6 arg7 harg7) K } := by
  refine ⟨?_, ?_, ?_, fun E K => ?run⟩
  case run =>
    simp only [cc3__k4_kernel_eq_skeleton]; unfold cc3__k4_kernel_skel
    simp only [k3_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.KernelIdeal.Reg3

end
-- ==== Proof.KI.Reg3Frame.lean ====
/-
  Region 3 of the kernel program (custom_call 3: the column softmax of the scores times `im`), its half of the frame,
  stated at a parameter `V`: the TensorCore's buffer contents when the region is entered.

  The grid is 8 × 8, point t = 8·j + i.  The body zeroes two scratch buffers at the first point of a grid row (i = 0),
  adds one block's contribution to each at every point, and at the row's last point (i = 7) divides one by the other
  into the output block, which no other point touches.  Three control cases: first, middle, last point of a row.
  The contents of the output block and of the two scratch buffers after each point are a function of the point, by
  recursion; the invariant before a point holds the two scratch buffers at what the point before left.
-/
import proofs.«128303_j3917010174495_2_alg».proof.Proof.KI.Reg3Run

set_option maxRecDepth 16384

noncomputable section

namespace Cert.KernelIdeal.Reg3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the buffers hold after the body, case by case -/

/-- In each case the pieces stored into a scratch buffer cover it, and in the last case those stored into the output
    block cover it. -/
theorem scoverA_0 (c : Dev nD) (i : grid3.Coords) (arg2 : Memref sig .tc .vmem S1024x1024 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (hc0 : cond0 i) (hc1 : ¬cond1 i) (x0 : Vec F S1024x1024 .f32) (x1 : Vec F S8192x1024 .bf16) (x2 : Vec F S1x1024 .f32) (y : S1024x1024.Idx) :
    ∃ pc ∈ (kernelRun_A c i arg2 harg2 arg3 harg3 arg4 harg4 arg5 harg5 arg6 harg6 arg7 harg7 hc0 hc1 x0 x1 x2).2.1, y ∈ pc.1.set :=
  View.cover_of_tiledL (kernelRun_A c i arg2 harg2 arg3 harg3 arg4 harg4 arg5 harg5 arg6 harg6 arg7 harg7 hc0 hc1 x0 x1 x2).2.1 S1024x1024.size (by sl_kernel_rfl) y
theorem scoverA_1 (c : Dev nD) (i : grid3.Coords) (arg2 : Memref sig .tc .vmem S1024x1024 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (hc0 : cond0 i) (hc1 : ¬cond1 i) (x0 : Vec F S1024x1024 .f32) (x1 : Vec F S8192x1024 .bf16) (x2 : Vec F S1x1024 .f32) (y : S1024x1.Idx) :
    ∃ pc ∈ (kernelRun_A c i arg2 harg2 arg3 harg3 arg4 harg4 arg5 harg5 arg6 harg6 arg7 harg7 hc0 hc1 x0 x1 x2).2.2.1, y ∈ pc.1.set :=
  View.cover_of_tiledL (kernelRun_A c i arg2 harg2 arg3 harg3 arg4 harg4 arg5 harg5 arg6 harg6 arg7 harg7 hc0 hc1 x0 x1 x2).2.2.1 S1024x1.size (by sl_kernel_rfl) y
theorem scoverB_0 (c : Dev nD) (i : grid3.Coords) (arg2 : Memref sig .tc .vmem S1024x1024 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (hc0 : ¬cond0 i) (hc1 : ¬cond1 i) (x0 : Vec F S1024x1024 .f32) (x1 : Vec F S8192x1024 .bf16) (x2 : Vec F S1x1024 .f32) (xs0 : Vec F S1024x1024 .f32) (xs1 : Vec F S1024x1 .f32) (y : S1024x1024.Idx) :
    ∃ pc ∈ (kernelRun_B c i arg2 harg2 arg3 harg3 arg4 harg4 arg5 harg5 arg6 harg6 arg7 harg7 hc0 hc1 x0 x1 x2 xs0 xs1).2.1, y ∈ pc.1.set :=
  View.cover_of_tiledL (kernelRun_B c i arg2 harg2 arg3 harg3 arg4 harg4 arg5 harg5 arg6 harg6 arg7 harg7 hc0 hc1 x0 x1 x2 xs0 xs1).2.1 S1024x1024.size (by sl_kernel_rfl) y
theorem scoverB_1 (c : Dev nD) (i : grid3.Coords) (arg2 : Memref sig .tc .vmem S1024x1024 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (hc0 : ¬cond0 i) (hc1 : ¬cond1 i) (x0 : Vec F S1024x1024 .f32) (x1 : Vec F S8192x1024 .bf16) (x2 : Vec F S1x1024 .f32) (xs0 : Vec F S1024x1024 .f32) (xs1 : Vec F S1024x1 .f32) (y : S1024x1.Idx) :
    ∃ pc ∈ (kernelRun_B c i arg2 harg2 arg3 harg3 arg4 harg4 arg5 harg5 arg6 harg6 arg7 harg7 hc0 hc1 x0 x1 x2 xs0 xs1).2.2.1, y ∈ pc.1.set :=
  View.cover_of_tiledL (kernelRun_B c i arg2 harg2 arg3 harg3 arg4 harg4 arg5 harg5 arg6 harg6 arg7 harg7 hc0 hc1 x0 x1 x2 xs0 xs1).2.2.1 S1024x1.size (by sl_kernel_rfl) y
theorem coverC_3 (c : Dev nD) (i : grid3.Coords) (arg2 : Memref sig .tc .vmem S1024x1024 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (hc0 : ¬cond0 i) (hc1 : cond1 i) (x0 : Vec F S1024x1024 .f32) (x1 : Vec F S8192x1024 .bf16) (x2 : Vec F S1x1024 .f32) (xs0 : Vec F S1024x1024 .f32) (xs1 : Vec F S1024x1 .f32) (y : S1024x1024.Idx) :
    ∃ pc ∈ (kernelRun_C c i arg2 harg2 arg3 harg3 arg4 harg4 arg5 harg5 arg6 harg6 arg7 harg7 hc0 hc1 x0 x1 x2 xs0 xs1).1, y ∈ pc.1.set :=
  View.cover_of_tiledL (kernelRun_C c i arg2 harg2 arg3 harg3 arg4 harg4 arg5 harg5 arg6 harg6 arg7 harg7 hc0 hc1 x0 x1 x2 xs0 xs1).1 S1024x1024.size (by sl_kernel_rfl) y
theorem scoverC_0 (c : Dev nD) (i : grid3.Coords) (arg2 : Memref sig .tc .vmem S1024x1024 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (hc0 : ¬cond0 i) (hc1 : cond1 i) (x0 : Vec F S1024x1024 .f32) (x1 : Vec F S8192x1024 .bf16) (x2 : Vec F S1x1024 .f32) (xs0 : Vec F S1024x1024 .f32) (xs1 : Vec F S1024x1 .f32) (y : S1024x1024.Idx) :
    ∃ pc ∈ (kernelRun_C c i arg2 harg2 arg3 harg3 arg4 harg4 arg5 harg5 arg6 harg6 arg7 harg7 hc0 hc1 x0 x1 x2 xs0 xs1).2.1, y ∈ pc.1.set :=
  View.cover_of_tiledL (kernelRun_C c i arg2 harg2 arg3 harg3 arg4 harg4 arg5 harg5 arg6 harg6 arg7 harg7 hc0 hc1 x0 x1 x2 xs0 xs1).2.1 S1024x1024.size (by sl_kernel_rfl) y
theorem scoverC_1 (c : Dev nD) (i : grid3.Coords) (arg2 : Memref sig .tc .vmem S1024x1024 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (hc0 : ¬cond0 i) (hc1 : cond1 i) (x0 : Vec F S1024x1024 .f32) (x1 : Vec F S8192x1024 .bf16) (x2 : Vec F S1x1024 .f32) (xs0 : Vec F S1024x1024 .f32) (xs1 : Vec F S1024x1 .f32) (y : S1024x1.Idx) :
    ∃ pc ∈ (kernelRun_C c i arg2 harg2 arg3 harg3 arg4 harg4 arg5 harg5 arg6 harg6 arg7 harg7 hc0 hc1 x0 x1 x2 xs0 xs1).2.2.1, y ∈ pc.1.set :=
  View.cover_of_tiledL (kernelRun_C c i arg2 harg2 arg3 harg3 arg4 harg4 arg5 harg5 arg6 harg6 arg7 harg7 hc0 hc1 x0 x1 x2 xs0 xs1).2.2.1 S1024x1.size (by sl_kernel_rfl) y

/-- What a list of pieces leaves in the output block, in scratch 0, in scratch 1: the pieces read back over junk. -/
abbrev rdO (L : List (View.Piece (Elt F) S1024x1024 .f32)) : Vec F S1024x1024 .f32 := VO.read (Elt F) (VO.writes (Elt F) VO.junk L)
abbrev rdS0 (L : List (View.Piece (Elt F) S1024x1024 .f32)) : Vec F S1024x1024 .f32 := VS0.read (Elt F) (VS0.writes (Elt F) VS0.junk L)
abbrev rdS1 (L : List (View.Piece (Elt F) S1024x1 .f32)) : Vec F S1024x1 .f32 := VS1.read (Elt F) (VS1.writes (Elt F) VS1.junk L)

/-- The three buffers (output block, scratch 0, scratch 1) after the body at a point of each case, at the point's
    memrefs and input blocks; in the first two cases the output component is a placeholder nothing consults (the
    window is idle there). -/
def outsA (c : Dev nD) (t : Fin cfg3.N) (h0 : t.val % 8 = 0) (h1 : ¬t.val % 8 = 7) : Vec F S1024x1024 .f32 × Vec F S1024x1024 .f32 × Vec F S1024x1 .f32 :=
  (rdO (kernelRun_A c (grid3.coords t) (ms0 t) (hs0 t) (ms1 t) (hs1 t) (ms2 t) (hs2 t) (ms3 t) (hs3 t) scM0 (Memref.isWhole_whole _) scM1 (Memref.isWhole_whole _) ((hcond0 t).mpr h0) (fun h => h1 ((hcond1 t).mp h)) (iblk V c 0 t) (iblk V c 1 t) (iblk V c 2 t)).1,
   rdS0 (kernelRun_A c (grid3.coords t) (ms0 t) (hs0 t) (ms1 t) (hs1 t) (ms2 t) (hs2 t) (ms3 t) (hs3 t) scM0 (Memref.isWhole_whole _) scM1 (Memref.isWhole_whole _) ((hcond0 t).mpr h0) (fun h => h1 ((hcond1 t).mp h)) (iblk V c 0 t) (iblk V c 1 t) (iblk V c 2 t)).2.1,
   rdS1 (kernelRun_A c (grid3.coords t) (ms0 t) (hs0 t) (ms1 t) (hs1 t) (ms2 t) (hs2 t) (ms3 t) (hs3 t) scM0 (Memref.isWhole_whole _) scM1 (Memref.isWhole_whole _) ((hcond0 t).mpr h0) (fun h => h1 ((hcond1 t).mp h)) (iblk V c 0 t) (iblk V c 1 t) (iblk V c 2 t)).2.2.1)
def outsB (c : Dev nD) (t : Fin cfg3.N) (h0 : ¬t.val % 8 = 0) (h1 : ¬t.val % 8 = 7) (xs0 : Vec F S1024x1024 .f32) (xs1 : Vec F S1024x1 .f32) : Vec F S1024x1024 .f32 × Vec F S1024x1024 .f32 × Vec F S1024x1 .f32 :=
  (rdO (kernelRun_B c (grid3.coords t) (ms0 t) (hs0 t) (ms1 t) (hs1 t) (ms2 t) (hs2 t) (ms3 t) (hs3 t) scM0 (Memref.isWhole_whole _) scM1 (Memref.isWhole_whole _) (fun h => h0 ((hcond0 t).mp h)) (fun h => h1 ((hcond1 t).mp h)) (iblk V c 0 t) (iblk V c 1 t) (iblk V c 2 t) xs0 xs1).1,
   rdS0 (kernelRun_B c (grid3.coords t) (ms0 t) (hs0 t) (ms1 t) (hs1 t) (ms2 t) (hs2 t) (ms3 t) (hs3 t) scM0 (Memref.isWhole_whole _) scM1 (Memref.isWhole_whole _) (fun h => h0 ((hcond0 t).mp h)) (fun h => h1 ((hcond1 t).mp h)) (iblk V c 0 t) (iblk V c 1 t) (iblk V c 2 t) xs0 xs1).2.1,
   rdS1 (kernelRun_B c (grid3.coords t) (ms0 t) (hs0 t) (ms1 t) (hs1 t) (ms2 t) (hs2 t) (ms3 t) (hs3 t) scM0 (Memref.isWhole_whole _) scM1 (Memref.isWhole_whole _) (fun h => h0 ((hcond0 t).mp h)) (fun h => h1 ((hcond1 t).mp h)) (iblk V c 0 t) (iblk V c 1 t) (iblk V c 2 t) xs0 xs1).2.2.1)
def outsC (c : Dev nD) (t : Fin cfg3.N) (h0 : ¬t.val % 8 = 0) (h1 : t.val % 8 = 7) (xs0 : Vec F S1024x1024 .f32) (xs1 : Vec F S1024x1 .f32) : Vec F S1024x1024 .f32 × Vec F S1024x1024 .f32 × Vec F S1024x1 .f32 :=
  (rdO (kernelRun_C c (grid3.coords t) (ms0 t) (hs0 t) (ms1 t) (hs1 t) (ms2 t) (hs2 t) (ms3 t) (hs3 t) scM0 (Memref.isWhole_whole _) scM1 (Memref.isWhole_whole _) (fun h => h0 ((hcond0 t).mp h)) ((hcond1 t).mpr h1) (iblk V c 0 t) (iblk V c 1 t) (iblk V c 2 t) xs0 xs1).1,
   rdS0 (kernelRun_C c (grid3.coords t) (ms0 t) (hs0 t) (ms1 t) (hs1 t) (ms2 t) (hs2 t) (ms3 t) (hs3 t) scM0 (Memref.isWhole_whole _) scM1 (Memref.isWhole_whole _) (fun h => h0 ((hcond0 t).mp h)) ((hcond1 t).mpr h1) (iblk V c 0 t) (iblk V c 1 t) (iblk V c 2 t) xs0 xs1).2.1,
   rdS1 (kernelRun_C c (grid3.coords t) (ms0 t) (hs0 t) (ms1 t) (hs1 t) (ms2 t) (hs2 t) (ms3 t) (hs3 t) scM0 (Memref.isWhole_whole _) scM1 (Memref.isWhole_whole _) (fun h => h0 ((hcond0 t).mp h)) ((hcond1 t).mpr h1) (iblk V c 0 t) (iblk V c 1 t) (iblk V c 2 t) xs0 xs1).2.2.1)

/-! ## What the buffers hold after each point -/

/-- THE ACCUMULATION: the three buffers after the body at position `n` — the case `n mod 8` selects, the scratch
    buffers it reads at what position `n - 1` left. -/
def outsAt (c : Dev nD) : (n : ℕ) → n < cfg3.N → Vec F S1024x1024 .f32 × Vec F S1024x1024 .f32 × Vec F S1024x1 .f32
  | 0, hn => outsA V c ⟨0, hn⟩ (Nat.zero_mod _) (show ¬(0 : ℕ) % 8 = 7 by decide)
  | n + 1, hn =>
    if h0 : (n + 1) % 8 = 0 then
      if h1 : (n + 1) % 8 = 7 then False.elim (by omega)
      else outsA V c ⟨n + 1, hn⟩ h0 h1
    else
      if h1 : (n + 1) % 8 = 7 then
        outsC V c ⟨n + 1, hn⟩ h0 h1 (outsAt c n (Nat.lt_of_succ_lt hn)).2.1 (outsAt c n (Nat.lt_of_succ_lt hn)).2.2
      else
        outsB V c ⟨n + 1, hn⟩ h0 h1 (outsAt c n (Nat.lt_of_succ_lt hn)).2.1 (outsAt c n (Nat.lt_of_succ_lt hn)).2.2

theorem outsAt_A (c : Dev nD) (t : Fin cfg3.N) (h0 : t.val % 8 = 0) (h1 : ¬t.val % 8 = 7) :
    outsAt V c t.val t.isLt = outsA V c t h0 h1 := by
  obtain ⟨n, hn⟩ := t
  cases n with
  | zero => exact rfl
  | succ n => exact (dif_pos h0).trans ((dif_neg h1).trans rfl)

theorem outsAt_B (c : Dev nD) (t : Fin cfg3.N) (h0 : ¬t.val % 8 = 0) (h1 : ¬t.val % 8 = 7) :
    outsAt V c t.val t.isLt = outsB V c t h0 h1 (outsAt V c (t.val - 1) (Nat.lt_of_le_of_lt (Nat.sub_le _ _) t.isLt)).2.1 (outsAt V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg3.N) (h0 : ¬t.val % 8 = 0) (h1 : t.val % 8 = 7) :
    outsAt V c t.val t.isLt = outsC V c t h0 h1 (outsAt V c (t.val - 1) (Nat.lt_of_le_of_lt (Nat.sub_le _ _) t.isLt)).2.1 (outsAt V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch buffer at
    anything); afterwards the two scratch buffers at what the point before left, the other scoped buffers at
    anything, the generator register at some state. -/
def PhiS (c : Dev nD) : (n : ℕ) → n ≤ cfg3.N → sProp 𝕄
  | 0, _ => Pipeline.ΦA spec3 c
  | n + 1, hn => iprop(iprop(iprop(owns (c : Thread nD τ) scM0 fullShare ((outsAt V c n hn).2.1) ∗ owns (c : Thread nD τ) scM1 fullShare ((outsAt V c n hn).2.2)) ∗ restBut (F := F) c) ∗ (∃ r, prngReg c r))

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop(iprop(iprop(owns (c : Thread nD τ) scM0 fullShare ((outsAt V c n hn).2.1) ∗ owns (c : Thread nD τ) scM1 fullShare ((outsAt V c n hn).2.2)) ∗ restBut (F := F) c) ∗ (∃ r, prngReg c r)) := rfl

theorem PhiS_pos (c : Dev nD) (n : ℕ) (h : n ≤ cfg3.N) (hz : n ≠ 0) :
    PhiS V c n h = iprop(iprop(iprop(owns (c : Thread nD τ) scM0 fullShare ((outsAt V c (n - 1) (by omega)).2.1) ∗ owns (c : Thread nD τ) scM1 fullShare ((outsAt V c (n - 1) (by omega)).2.2)) ∗ restBut (F := F) c) ∗ (∃ r, prngReg c r)) := by
  cases n with
  | zero => exact absurd rfl hz
  | succ n => rfl

/-! ## The pipeline's proof data -/

/-- The proof data of this pipeline on core `c`: the arrays as the region finds them; after the body at point `t`
    each input's buffer at its block and the output's at `outsAt`'s first component; the invariant `PhiS`; nothing
    owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg3.W) : (dat V c).A w = V c (Pipeline.arrRef spec3 w) := by
  dsimp only [dat]

theorem PhiS_castSucc (c : Dev nD) (t : Fin cfg3.N) :
    (dat V c).Φ t.castSucc = PhiS V c t.val (Nat.le_of_lt t.isLt) := by
  dsimp only [dat]; simp only [Fin.coe_castSucc]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = (outsAt V c t.val t.isLt).1 := by dsimp only [dat]

theorem before_0 (c : Dev nD) (t : Fin cfg3.N) (d) : (dat V c).before 0 t d = iblk V c 0 t :=
  before_0_of V (dat V c) (A_eq V c 0) (after_0 V c) t d
theorem before_1 (c : Dev nD) (t : Fin cfg3.N) (d) : (dat V c).before 1 t d = iblk V c 1 t :=
  before_1_of V (dat V c) (A_eq V c 1) (after_1 V c) t d
theorem before_2 (c : Dev nD) (t : Fin cfg3.N) (d) : (dat V c).before 2 t d = iblk V c 2 t :=
  before_2_of V (dat V c) (A_eq V c 2) (after_2 V c) t d

/-! ## The body obligation, at a generic point -/

/-- What the body is called with at point `t`, the windows one by one, -/
def bodyPre (c : Dev nD) (t : Fin cfg3.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point: the inputs' memrefs hold their blocks; `t mod 8` says which case the point is in; the
    invariant hands the body the two scratch buffers (at anything at the very first point, else at what the point
    before left, which a row's first point does not read) and takes them back at this point's contents; at the
    points that do not store the output block its buffer is handed back as found. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [liveAt_0 t], after_0]
  rw [show (dat V c).leavesExact 1 t = owns (c : Thread nD τ) (ms1 t) fullShare ((dat V c).after 1 t) from by
    unfold Dat.leavesExact; rw [liveAt_1 t], after_1]
  rw [show (dat V c).leavesExact 2 t = owns (c : Thread nD τ) (ms2 t) fullShare ((dat V c).after 2 t) from by
    unfold Dat.leavesExact; rw [liveAt_2 t], after_2]
  have hN : t.val < 64 := lt_of_lt_of_eq t.isLt (show cfg3.N = 64 from N_3)
  by_cases h0 : t.val % 8 = 0
  · have h1 : ¬t.val % 8 = 7 := by omega
    rw [Dat.leavesExact_idle (dat V c) 3 t (idleAt_3 t (fun h => h1 ((hcond1 t).mp h))) (noFlush_3 t (fun h => h1 ((hcond1 t).mp h)))]
    rw [outsAt_A V c t h0 h1]
    unfold outsA; (try dsimp only)
    by_cases hz : t.val = 0
    · rw [PhiS_castSucc V c t, PhiS_zero V c _ _ hz, PhiA_eq]
      iintro ⟨⟨⟨⟨HS0, HS1⟩, HR⟩, Hg⟩, Ho, ⟨%d0, H0⟩, ⟨%d1, H1⟩, ⟨%d2, H2⟩, ⟨%d3, H3⟩⟩
      iapply ((kernelRun_A c (grid3.coords t) _ _ _ _ _ _ _ _ _ _ _ _ ((hcond0 t).mpr h0) (fun h => h1 ((hcond1 t).mp h)) (iblk V c 0 t) (iblk V c 1 t) (iblk V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scoverA_0 c _ _ _ _ _ _ _ _ _ _ _ _ _ _ _ _ _ _)
            · unfold owns; iexists _; isplitr
              swap; · iexact HS1
              ipureintro; exact View.read_writes_of_cover _ _ _ _ _ (scoverA_1 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨⟨HS0, HS1⟩, HR⟩, Hg⟩, Ho, ⟨%d0, H0⟩, ⟨%d1, H1⟩, ⟨%d2, H2⟩, ⟨%d3, H3⟩⟩
      iapply ((kernelRun_A c (grid3.coords t) _ _ _ _ _ _ _ _ _ _ _ _ ((hcond0 t).mpr h0) (fun h => h1 ((hcond1 t).mp h)) (iblk V c 0 t) (iblk V c 1 t) (iblk V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scoverA_0 c _ _ _ _ _ _ _ _ _ _ _ _ _ _ _ _ _ _)
            · unfold owns; iexists _; isplitr
              swap; · iexact HS1
              ipureintro; exact View.read_writes_of_cover _ _ _ _ _ (scoverA_1 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    by_cases h1 : t.val % 8 = 7
    · rw [show (dat V c).leavesExact 3 t = owns (c : Thread nD τ) (ms3 t) fullShare ((dat V c).after 3 t) from by
        unfold Dat.leavesExact; rw [liveAt_3 t ((hcond1 t).mpr h1)], after_3]
      rw [outsAt_C V c t h0 h1]
      unfold outsC; (try dsimp only)
      rw [PhiS_castSucc V c t, PhiS_pos V c _ _ hz]
      iintro ⟨⟨⟨⟨HS0, HS1⟩, HR⟩, Hg⟩, Ho, ⟨%d0, H0⟩, ⟨%d1, H1⟩, ⟨%d2, H2⟩, ⟨%d3, H3⟩⟩
      iapply ((kernelRun_C c (grid3.coords t) _ _ _ _ _ _ _ _ _ _ _ _ (fun h => h0 ((hcond0 t).mp h)) ((hcond1 t).mpr h1) (iblk V c 0 t) (iblk V c 1 t) (iblk V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scoverC_0 c _ _ _ _ _ _ _ _ _ _ _ _ _ _ _ _ _ _ _ _)
            · unfold owns; iexists _; isplitr
              swap; · iexact HS1
              ipureintro; exact View.read_writes_of_cover _ _ _ _ _ (scoverC_1 c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC_3 c _ _ _ _ _ _ _ _ _ _ _ _ _ _ _ _ _ _ _ _)
    · rw [Dat.leavesExact_idle (dat V c) 3 t (idleAt_3 t (fun h => h1 ((hcond1 t).mp h))) (noFlush_3 t (fun h => h1 ((hcond1 t).mp h)))]
      rw [outsAt_B V c t h0 h1]
      unfold outsB; (try dsimp only)
      rw [PhiS_castSucc V c t, PhiS_pos V c _ _ hz]
      iintro ⟨⟨⟨⟨HS0, HS1⟩, HR⟩, Hg⟩, Ho, ⟨%d0, H0⟩, ⟨%d1, H1⟩, ⟨%d2, H2⟩, ⟨%d3, H3⟩⟩
      iapply ((kernelRun_B c (grid3.coords t) _ _ _ _ _ _ _ _ _ _ _ _ (fun h => h0 ((hcond0 t).mp h)) (fun h => h1 ((hcond1 t).mp h)) (iblk V c 0 t) (iblk V c 1 t) (iblk V c 2 t) _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scoverB_0 c _ _ _ _ _ _ _ _ _ _ _ _ _ _ _ _ _ _ _ _)
            · unfold owns; iexists _; isplitr
              swap; · iexact HS1
              ipureintro; exact View.read_writes_of_cover _ _ _ _ _ (scoverB_1 c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W3, bigSep_W3]
  exact sound_body V c t

/-- What the launch hands the region is the invariant before the first point. -/
theorem hin (c : Dev nD) : Pipeline.ΦA spec3 c ⊢ (dat V c).Φ 0 := by
  rw [show (dat V c).Φ 0 = PhiS V c 0 (Nat.zero_le _) from rfl, PhiS_zero V c 0 _ rfl]
  try exact Idealize.SL.BI.Entails.refl _

/-- After any point but the first the invariant gives the class's back: the scratch buffers' contents are forgotten. -/
theorem Phi_out (c : Dev nD) (t : Fin (cfg3.N + 1)) (ht : t.val ≠ 0) : (dat V c).Φ t ⊢ Pipeline.ΦA spec3 c := by
  rw [show (dat V c).Φ t = PhiS V c t.val (Nat.le_of_lt_succ t.isLt) from rfl, PhiS_pos V c _ _ ht, PhiA_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

/-- The same after the last point. -/
theorem hout (c : Dev nD) : (dat V c).Φ (Fin.last cfg3.N) ⊢ Pipeline.ΦA spec3 c :=
  Phi_out V c _ (by rw [Fin.val_last]; have : cfg3.N = 64 := N_3; omega)

end Cert.KernelIdeal.Reg3

end
-- ==== Proof.KI.Run.lean ====
/-
  The kernel program's run, at any float instance: @main is two host conversions, region 0 (scores and row sums of
  squares), region 1 (column sums of squares), fifteen host operations (the two reciprocal norms), region 2 (row path)
  and region 3 (column path).  The contents of every unscoped buffer are followed through these six items as a fold
  from the launch memory: a host stretch applies its operations; a region replaces its windows' arrays by what its
  write-backs leave and keeps everything else.  Each region is one segment whose proof data are that region's half at
  the contents it is entered with; the launch theorem for a list of segments then says every weakly fair execution
  terminates, faulting nowhere, with every unscoped buffer at the fold's last value.
-/
import proofs.«128303_j3917010174495_2_alg».proof.Proof.KI.Reg0Frame
import proofs.«128303_j3917010174495_2_alg».proof.Proof.KI.Reg1Frame
import proofs.«128303_j3917010174495_2_alg».proof.Proof.KI.Reg2Frame
import proofs.«128303_j3917010174495_2_alg».proof.Proof.KI.Reg3Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- At launch. -/
abbrev W0 : Dev nD → Valuation τ sig (Elt F) := fun c b => m ((c : Dev nD), b)
/-- After the two conversions (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- After region 0: its windows' arrays at what the pipeline leaves (an input as entered, an output's write-backs folded), every
    other buffer as entered. -/
def W2 (c : Dev nD) : Valuation τ sig (Elt F) :=
  Pipeline.withArrays spec0 c (W1 m c) fun w => (Reg0.dat (V1 m) c).arrAt w cfg0.N
theorem W2_arr (c : Dev nD) (w : Fin cfg0.W) :
    W2 m c (Proc.devRef .tc (Pipeline.arrRef spec0 w)) = (Reg0.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (Reg0.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After region 1: its windows' arrays at what the pipeline leaves (an input as entered, an output's write-backs folded), every
    other buffer as entered. -/
def W3 (c : Dev nD) : Valuation τ sig (Elt F) :=
  Pipeline.withArrays spec1 c (W2 m c) fun w => (Reg1.dat (V2 m) c).arrAt w cfg1.N
theorem W3_arr (c : Dev nD) (w : Fin cfg1.W) :
    W3 m c (Proc.devRef .tc (Pipeline.arrRef spec1 w)) = (Reg1.dat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m c b
theorem hF1 (c : Dev nD) (w : Fin cfg1.W) : (Reg1.dat (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the fifteen host operations (region 2's entry). -/
abbrev W4 : Dev nD → Valuation τ sig (Elt F) := fun c => StableHlo.after hostOps2 (W3 m c)
abbrev V4 : (c : Dev nD) → (b : Ref sig .tc) → Buf (Elt F) ((c : Thread nD τ).loc b) := fun c b => W4 m c b

/-- After region 2: its windows' arrays at what the pipeline leaves (an input as entered, an output's write-backs folded), every
    other buffer as entered. -/
def W5 (c : Dev nD) : Valuation τ sig (Elt F) :=
  Pipeline.withArrays spec2 c (W4 m c) fun w => (Reg2.dat (V4 m) c).arrAt w cfg2.N
theorem W5_arr (c : Dev nD) (w : Fin cfg2.W) :
    W5 m c (Proc.devRef .tc (Pipeline.arrRef spec2 w)) = (Reg2.dat (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
/-- The same read at the TensorCore's references. -/
abbrev V5 : (c : Dev nD) → (b : Ref sig .tc) → Buf (Elt F) ((c : Thread nD τ).loc b) := fun c b => W5 m c b
theorem hF2 (c : Dev nD) (w : Fin cfg2.W) : (Reg2.dat (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-- After region 3: its windows' arrays at what the pipeline leaves (an input as entered, an output's write-backs folded), every
    other buffer as entered. -/
def W6 (c : Dev nD) : Valuation τ sig (Elt F) :=
  Pipeline.withArrays spec3 c (W5 m c) fun w => (Reg3.dat (V5 m) c).arrAt w cfg3.N
theorem W6_arr (c : Dev nD) (w : Fin cfg3.W) :
    W6 m c (Proc.devRef .tc (Pipeline.arrRef spec3 w)) = (Reg3.dat (V5 m) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m c (Proc.devRef .tc b) = W5 m c (Proc.devRef .tc b) := by
  unfold W6; exact Pipeline.withArrays_of_ne spec3 c _ _ b hb
/-- The same read at the TensorCore's references. -/
abbrev V6 : (c : Dev nD) → (b : Ref sig .tc) → Buf (Elt F) ((c : Thread nD τ).loc b) := fun c b => W6 m c b
theorem hF3 (c : Dev nD) (w : Fin cfg3.W) : (Reg3.dat (V5 m) c).arrAt w cfg3.N = V6 m c (Pipeline.arrRef spec3 w) :=
  (W6_arr m c w).symm
theorem hrest3 (c : Dev nD) : ∀ b, b ∉ Finset.univ.image (Pipeline.arrRef spec3) → V6 m c b = V5 m c b :=
  fun b hb => W6_of_ne m c b fun w e => hb (Finset.mem_image.mpr ⟨w, Finset.mem_univ _, e⟩)

/-! ## The proof data family and the thread state -/

abbrev adm : (p : Fin 4) → (pcfgs (F := F) p).Adm := fun p => (cfgs p).toPCfg_adm
/-- Every pipeline's proof data, each at its region's entry contents (a literal match, so that the pinned configuration at
    a numeral reduces to the printed one). -/
def pdats : (p : Fin 4) → (c : Dev nD) → Dat τ (Elt F) Unit ℕ (UR sig nD τ) ℕ (Pipeline.pin (pcfgs (F := F)) adm p) c
  | ⟨0, _⟩ => fun c => Reg0.dat (V1 m) c
  | ⟨1, _⟩ => fun c => Reg1.dat (V2 m) c
  | ⟨2, _⟩ => fun c => Reg2.dat (V4 m) c
  | ⟨3, _⟩ => fun c => Reg3.dat (V5 m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m c) ∗ ∃ r, prngReg c r)

/-- No host operation allocates a buffer. -/
theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-- The generator register, the (empty) tables and the scoped rest, regrouped as the class invariant (the scoped rest beside the
    register), and back. -/
theorem rest_gen_in (G P S : sProp 𝕄) : iprop(G ∗ P ∗ S) ⊢ iprop(S ∗ G) := by
  iintro ⟨Hp, -, Hr⟩
  isplitl [Hr]; · iexact Hr
  iexact Hp
theorem rest_gen_out (G S : sProp 𝕄) : iprop(S ∗ G) ⊢ iprop(G ∗ emp ∗ S) := by
  iintro ⟨Hr, Hp⟩
  isplitl [Hp]; · iexact Hp
  isplitr; · iempintro
  iexact Hr

/-! ## The regions as segments -/

-- unification of the library's statements over `pin pcs a p` with the pinned configuration needs plain definitions unfolded in a metavariable's type
set_option backward.isDefEq.respectTransparency.types false in
/-- Region 0 as a segment: entered with every unscoped buffer at `W1`, left with them at `W2`: its windows' arrays are split out
    of the unscoped buffers and put back at what the write-backs leave; the generator register goes into the class invariant and
    comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (rest_gen_in _ _ _).trans (Reg0.hin (V1 m) c)
  hout c := by
    rw [Pipeline.ownSems0_none]
    exact (Reg0.hout (V1 m) c).trans (rest_gen_out _ _)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of the library's statements over `pin pcs a p` with the pinned configuration needs plain definitions unfolded in a metavariable's type
set_option backward.isDefEq.respectTransparency.types false in
/-- Region 1 as a segment: entered with every unscoped buffer at `W2`, left with them at `W3`: its windows' arrays are split out
    of the unscoped buffers and put back at what the write-backs leave; the generator register goes into the class invariant and
    comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (rest_gen_in _ _ _).trans (Reg1.hin (V2 m) c)
  hout c := by
    rw [Pipeline.ownSems0_none]
    exact (Reg1.hout (V2 m) c).trans (rest_gen_out _ _)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of the library's statements over `pin pcs a p` with the pinned configuration needs plain definitions unfolded in a metavariable's type
set_option backward.isDefEq.respectTransparency.types false in
/-- Region 2 as a segment: entered with every unscoped buffer at `W4`, left with them at `W5`: its windows' arrays are split out
    of the unscoped buffers and put back at what the write-backs leave; the generator register goes into the class invariant and
    comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Reg2.body_obligation (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (rest_gen_in _ _ _).trans (Reg2.hin (V4 m) c)
  hout c := by
    rw [Pipeline.ownSems0_none]
    exact (Reg2.hout (V4 m) c).trans (rest_gen_out _ _)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of the library's statements over `pin pcs a p` with the pinned configuration needs plain definitions unfolded in a metavariable's type
set_option backward.isDefEq.respectTransparency.types false in
/-- Region 3 as a segment: entered with every unscoped buffer at `W5`, left with them at `W6`: its windows' arrays are split out
    of the unscoped buffers and put back at what the write-backs leave; the generator register goes into the class invariant and
    comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (Reg3.body_obligation (V5 m) c).loose
  hwaits := Pipeline.hwaits_of_owed_zero _ _ _ _ L lv 3 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V5 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (rest_gen_in _ _ _).trans (Reg3.hin (V5 m) c)
  hout c := by
    rw [Pipeline.ownSems0_none]
    exact (Reg3.hout (V5 m) c).trans (rest_gen_out _ _)
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V5 m c) (V6 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .region (reg2 m),
    .region (reg3 m) ]
theorem main_run (c : Dev nD) : main (F := F) c = Pipeline.Seg.run (segs m) := (main_chain c).trans (by chain_rfl)

set_option backward.isDefEq.respectTransparency.types false in
/-- From any memory with zero counters every weakly fair execution of @main terminates, nothing faulting, and every final
    state holds every unscoped buffer at the fold's last value. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.KernelIdeal.Run

end
-- ==== Proof.KI.Frame.lean ====
/-
  The frame claim of the kernel program, at any float instance: after the run every unscoped buffer holds the fold's last
  value, and at an argument's buffer the fold walks back to the launch memory — no host operation writes an argument and
  no region has one among its windows' arrays.
-/
import proofs.«128303_j3917010174495_2_alg».proof.Proof.KI.Run
import proofs.«128303_j3917010174495_2_alg».proof.Proof.Gen.KernelIdeal.Regions

noncomputable section

namespace Cert.KernelIdeal.RunFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable (m : (ℓ : Loc nD τ sig) → Buf (Elt F) ℓ)

/-- A buffer the two conversions do not write is as launched; one the fifteen host operations do not write is as region 1 left it. -/
theorem W1_of (c : Dev nD) (r : Ref sig .tc) (h : r ∉ hostOps0_W) : Run.W1 m c (Proc.devRef .tc r) = Run.W0 m c (Proc.devRef .tc r) :=
  StableHlo.after_of_writes_sub hostOps0 _ hostOps0_writes h
theorem W4_of (c : Dev nD) (r : Ref sig .tc) (h : r ∉ hostOps2_W) : Run.W4 m c (Proc.devRef .tc r) = Run.W3 m c (Proc.devRef .tc r) :=
  StableHlo.after_of_writes_sub hostOps2 _ hostOps2_writes h

/-- Each argument reaches the end as launched. -/
theorem W6_arg0 (c : Dev nD) : Run.W6 m c (Proc.devRef .tc main_arg0) = m ((c : Thread nD τ).loc main_arg0) :=
  (Run.W6_of_ne m c main_arg0 (by decide)).trans <| (Run.W5_of_ne m c main_arg0 (by decide)).trans <|
    (W4_of m c main_arg0 (by decide)).trans <| (Run.W3_of_ne m c main_arg0 (by decide)).trans <|
    (Run.W2_of_ne m c main_arg0 (by decide)).trans <| (W1_of m c main_arg0 (by decide)).trans rfl
theorem W6_arg1 (c : Dev nD) : Run.W6 m c (Proc.devRef .tc main_arg1) = m ((c : Thread nD τ).loc main_arg1) :=
  (Run.W6_of_ne m c main_arg1 (by decide)).trans <| (Run.W5_of_ne m c main_arg1 (by decide)).trans <|
    (W4_of m c main_arg1 (by decide)).trans <| (Run.W3_of_ne m c main_arg1 (by decide)).trans <|
    (Run.W2_of_ne m c main_arg1 (by decide)).trans <| (W1_of m c main_arg1 (by decide)).trans rfl

/-- Every weakly fair execution of @main terminates, nothing faulting, with both argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (Run.mem_uc main_arg0 (by decide))).trans (W6_arg0 m c),
     (h c _ (Run.mem_uc main_arg1 (by decide))).trans (W6_arg1 m c)⟩) (Run.run m ρ)

end Cert.KernelIdeal.RunFrame

end
-- ==== Proof.Spec.lean ====
/-
  The mathematics both programs compute, entry by entry on the extended reals, as functions of the two argument
  arrays `im`, `aud` : [8192, 1024].

  Shared part.  score n m = Σ_d im[n,d] · aud[m,d];  s n m = leaky(score n m) with leaky x = x for 0 ≤ x and
  c·x otherwise (c the float 0.1);  rowsq n = Σ_m s n m ²;  colsq m = Σ_n s n m ².

  The kernel's form (max-free softmax, normalised AFTER the product):
    rowinv n = 1 / (√rowsq n + ε),  p1 n m = exp (s n m · rowinv n · 6),
    imRecK n d = (Σ_m p1 n m · aud[m,d]) / (Σ_m p1 n m);  the column path the same with n and m exchanged.
  The reference's form (row scaled by division, softmax shifted by the row maximum, normalised BEFORE the product):
    x1 n m = (s n m / (√rowsq n + ε)) · 6,  mx1 n = max ⊥ (sup_m x1 n m),  e1 n m = exp (x1 n m − mx1 n),
    imRecR n d = Σ_m (e1 n m / Σ_m' e1 n m') · aud[m,d];  the column path over the transposed scores.
  For finite inputs every quantity is a real and the two forms agree (proved elsewhere); here only the definitions.
-/
import Idealize.ShloMosaic.PureOps.Ideal
import Idealize.ShloMosaic.Lib.ValueIdx

noncomputable section

open scoped BigOperators

namespace Cert.Spec

open Idealize.ShloMosaic Idealize.ShloMosaic.ValueIdx

/-- An [8192, 1024] array of extended reals. -/
abbrev Arr : Type := (⟨2, ![8192, 1024]⟩ : Shape).Idx → EReal

/-- The float 0.1 (the leaky slope), 1e-8 (the norm's guard) and 6 (the softmax scale), as the extended reals
    their binary patterns denote. -/
def c01 : EReal := Ideal.ofBits .f32 0x3DCCCCCD#32
def eps : EReal := Ideal.ofBits .f32 0x322BCC77#32
def six : EReal := Ideal.ofBits .f32 0x40C00000#32

/-- leaky relu: the identity on the non-negative, the slope times the value below zero. -/
def leaky (x : EReal) : EReal := if (0 : EReal) ≤ x then x else c01 * x

variable (im aud : Arr)

/-- The score of row `n` of `im` against row `m` of `aud`. -/
def score (n m : Fin 8192) : EReal := ∑ d : Fin 1024, im (ix2 n d) * aud (ix2 m d)
def s (n m : Fin 8192) : EReal := leaky (score im aud n m)
def rowsq (n : Fin 8192) : EReal := ∑ m : Fin 8192, s im aud n m * s im aud n m
def colsq (m : Fin 8192) : EReal := ∑ n : Fin 8192, s im aud n m * s im aud n m

/-! ## The kernel's form -/

def rowinv (n : Fin 8192) : EReal := Ideal.div 1 (Ideal.sqrt (rowsq im aud n) + eps)
def colinv (m : Fin 8192) : EReal := Ideal.div 1 (Ideal.sqrt (colsq im aud m) + eps)
def p1 (n m : Fin 8192) : EReal := Ideal.exp (s im aud n m * rowinv im aud n * six)
def p2 (n m : Fin 8192) : EReal := Ideal.exp (s im aud n m * colinv im aud m * six)
def imRecK (n : Fin 8192) (d : Fin 1024) : EReal :=
  Ideal.div (∑ m : Fin 8192, p1 im aud n m * aud (ix2 m d)) (∑ m : Fin 8192, p1 im aud n m)
def audRecK (m : Fin 8192) (d : Fin 1024) : EReal :=
  Ideal.div (∑ n : Fin 8192, p2 im aud n m * im (ix2 n d)) (∑ n : Fin 8192, p2 im aud n m)

/-! ## The reference's form -/

def x1 (n m : Fin 8192) : EReal := Ideal.div (s im aud n m) (Ideal.sqrt (rowsq im aud n) + eps) * six
def x2 (m n : Fin 8192) : EReal := Ideal.div (s im aud n m) (Ideal.sqrt (colsq im aud m) + eps) * six
def mx1 (n : Fin 8192) : EReal := max ⊥ (Finset.univ.sup fun m : Fin 8192 => x1 im aud n m)
def mx2 (m : Fin 8192) : EReal := max ⊥ (Finset.univ.sup fun n : Fin 8192 => x2 im aud m n)
def e1 (n m : Fin 8192) : EReal := Ideal.exp (x1 im aud n m - mx1 im aud n)
def e2 (m n : Fin 8192) : EReal := Ideal.exp (x2 im aud m n - mx2 im aud m)
def imRecR (n : Fin 8192) (d : Fin 1024) : EReal :=
  ∑ m : Fin 8192, Ideal.div (e1 im aud n m) (∑ m' : Fin 8192, e1 im aud n m') * aud (ix2 m d)
def audRecR (m : Fin 8192) (d : Fin 1024) : EReal :=
  ∑ n : Fin 8192, Ideal.div (e2 im aud m n) (∑ n' : Fin 8192, e2 im aud m n') * im (ix2 n d)

/-! ## Each kernel region's result as a function of the arrays it is handed -/

/-- An [8192, 8192] array, an [8192, 1] column and a [1, 8192] row of extended reals. -/
abbrev Sq : Type := (⟨2, ![8192, 8192]⟩ : Shape).Idx → EReal
abbrev Col : Type := (⟨2, ![8192, 1]⟩ : Shape).Idx → EReal
abbrev Row : Type := (⟨2, ![1, 8192]⟩ : Shape).Idx → EReal

/-- Region 0: the leaky scores and each row's sum of squares, from `im` and `aud`. -/
def reg0s (I A : Arr) : Sq := fun i => s I A (i 0) (i 1)
def reg0rowsq (I A : Arr) : Col := fun i => rowsq I A (i 0)
/-- Region 1: each column's sum of squares of an [8192, 8192] array, as a column. -/
def reg1colsq (S : Sq) : Col := fun i => ∑ n : Fin 8192, S (ix2 n (i 0)) * S (ix2 n (i 0))
/-- Region 2: rows of `S` scaled by the column `R` and by 6, exponentiated, multiplied into `A`, divided by the row's sum. -/
def reg2out (S : Sq) (A : Arr) (R : Col) : Arr := fun i =>
  Ideal.div (∑ m : Fin 8192, Ideal.exp (S (ix2 (i 0) m) * R (ix2 (i 0) 0) * six) * A (ix2 m (i 1)))
    (∑ m : Fin 8192, Ideal.exp (S (ix2 (i 0) m) * R (ix2 (i 0) 0) * six))
/-- Region 3: columns of `S` scaled by the row `C` and by 6, exponentiated, multiplied into `I`, divided by the column's sum. -/
def reg3out (S : Sq) (I : Arr) (C : Row) : Arr := fun i =>
  Ideal.div (∑ n : Fin 8192, Ideal.exp (S (ix2 n (i 0)) * C (ix2 0 (i 0)) * six) * I (ix2 n (i 1)))
    (∑ n : Fin 8192, Ideal.exp (S (ix2 n (i 0)) * C (ix2 0 (i 0)) * six))

/-- Every entry of an array is a real number. -/
def Finite (a : Arr) : Prop := ∀ i, a i ≠ ⊤ ∧ a i ≠ ⊥

end Cert.Spec

end
-- ==== Proof.Consts.lean ====
/-
  The float literals that occur, as the extended reals their binary patterns denote: one, zero and −∞ in closed form,
  and the leaky slope, the norm's guard and the softmax scale by the names the specification gives them.
-/
import proofs.«128303_j3917010174495_2_alg».proof.Proof.Spec

noncomputable section

namespace Cert.Spec

open Idealize.ShloMosaic

theorem ofBits_one : Ideal.ofBits .f32 0x3F800000#32 = (1 : EReal) := by
  have h : Ideal.ofBits .f32 0x3F800000#32 = ((8388608 * (2 ^ 23)⁻¹ : ℝ) : EReal) := by
    simp [Ideal.ofBits, Ideal.ieee]
  rw [h, ← EReal.coe_one]
  congr 1
  norm_num

theorem ofBits_zero : Ideal.ofBits .f32 0x00000000#32 = (0 : EReal) := by
  simp [Ideal.ofBits, Ideal.ieee]

theorem ofBits_neg_inf : Ideal.ofBits .f32 0xFF800000#32 = (⊥ : EReal) := by
  simp [Ideal.ofBits, Ideal.ieee]

theorem c01_def : Ideal.ofBits .f32 0x3DCCCCCD#32 = c01 := rfl
theorem eps_def : Ideal.ofBits .f32 0x322BCC77#32 = eps := rfl
theorem six_def : Ideal.ofBits .f32 0x40C00000#32 = six := rfl

end Cert.Spec

end
-- ==== Proof.LibDotRows.lean ====
/-
  A matrix product that contracts the LAST axis of both operands, read at one entry.

  For `x : M × K` and `y : N × K` the product with dimension numbers "contract axis 1 of the left with axis 1 of the right, keep
  axis 0 of each" is the `M × N` array of inner products of ROWS: entry `(p, q)` is `∑ k, x[p, k] · y[q, k]`. Over the extended
  reals, accumulated into the zero array, that is the whole statement (`matmul_rows_apply`); the work is only to identify the
  product's own operand indices — computed from the dimension numbers — with the coordinate pairs `(p, k)` and `(q, k)`, and its
  one-axis contraction index with the coordinate `k`.
-/
import Idealize.ShloMosaic.PureOps.Ideal.Laws
import Idealize.ShloMosaic.Lib.ValueIdx

noncomputable section

open scoped BigOperators

namespace Cert.Lib.DotRows

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.transposedRhs M K N).contr.Idx) :
    ((DotDims.transposedRhs M K N).lhsIdx i c 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_cons_self)]
  rfl

/-- The right operand's kept axis 0 follows the output's axis 1. -/
theorem rhs_axis0 (i : (⟨2, ![M, N]⟩ : Shape).Idx) (c : (DotDims.transposedRhs M K N).contr.Idx) :
    ((DotDims.transposedRhs M K N).rhsIdx i c 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_cons_self)]
  rfl

/-- Each operand's contracted axis 1 follows the contraction index's one coordinate. -/
theorem lhs_axis1 (i : (⟨2, ![M, N]⟩ : Shape).Idx) (c : (DotDims.transposedRhs M K N).contr.Idx) :
    ((DotDims.transposedRhs M K N).lhsIdx i c 1).val = (c ⟨0, Nat.zero_lt_one⟩).val :=
  (DotDims.transposedRhs M K N).lhsIdx_val_of_single rfl i c
theorem rhs_axis1 (i : (⟨2, ![M, N]⟩ : Shape).Idx) (c : (DotDims.transposedRhs M K N).contr.Idx) :
    ((DotDims.transposedRhs M K N).rhsIdx i c 1).val = (c ⟨0, Nat.zero_lt_one⟩).val :=
  (DotDims.transposedRhs M K N).rhsIdx_val_of_single rfl i c

/-- So at output entry `(p, q)` and contraction coordinate `k` the left operand is read at `(p, k)` … -/
theorem lhsIdx_rows (p : Fin M) (q : Fin N) (k : Fin K) :
    (DotDims.transposedRhs M K N).lhsIdx (ix2 p q) ((contrEquiv1 (DotDims.transposedRhs M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.transposedRhs M K N) K rfl rfl k))

/-- … and the right operand at `(q, k)`. -/
theorem rhsIdx_rows (p : Fin M) (q : Fin N) (k : Fin K) :
    (DotDims.transposedRhs M K N).rhsIdx (ix2 p q) ((contrEquiv1 (DotDims.transposedRhs M K N) K rfl rfl).symm k) = ix2 q k :=
  funext fun a => Fin.ext (by
    match a with
    | ⟨0, _⟩ => exact rhs_axis0 _ _
    | ⟨1, _⟩ => exact (rhs_axis1 _ _).trans (contrEquiv1_symm_val (DotDims.transposedRhs M K N) K rfl rfl k))

/-- THE PRODUCT OF ROWS AT AN ENTRY. Over the extended reals, a matrix product with these dimension numbers (any record `D`
    that spells them: `hD`), accumulated into the zero array, holds at `(p, q)` the inner product of row `p` of the left operand
    and row `q` of the right: `∑ k, x[p, k] · y[q, k]`. -/
theorem matmul_rows_apply {φ₁ φ₂ : FTy} (D : DotDims ⟨2, ![M, K]⟩ ⟨2, ![N, K]⟩ ⟨2, ![M, N]⟩) (hD : D = DotDims.transposedRhs M K N)
    (prec : Option ContractPrecision) (x : FVec Ideal ⟨2, ![M, K]⟩ φ₁) (y : FVec Ideal ⟨2, ![N, K]⟩ φ₂) (p : Fin M) (q : Fin N) :
    FloatOps.matmul D prec x y (constant ⟨2, ![M, N]⟩ .f32 0x00000000#32) (ix2 p q) = ∑ k : Fin K, x (ix2 p k) * y (ix2 q k) := by
  subst hD
  rw [Ideal.matmul_constant_zero_apply, ← Equiv.sum_comp (contrEquiv1 (DotDims.transposedRhs M K N) K rfl rfl).symm]
  refine Finset.sum_congr rfl fun k _ => ?_
  rw [lhsIdx_rows, rhsIdx_rows]

/-- The same for the host's `dot_general`, which has no accumulator. -/
theorem dotGeneral_rows_apply {φ₁ φ₂ : FTy} (D : DotDims ⟨2, ![M, K]⟩ ⟨2, ![N, K]⟩ ⟨2, ![M, N]⟩) (hD : D = DotDims.transposedRhs M K N)
    (prec : Option ContractPrecision) (sched : HostSchedule) (x : FVec Ideal ⟨2, ![M, K]⟩ φ₁) (y : FVec Ideal ⟨2, ![N, K]⟩ φ₂)
    (p : Fin M) (q : Fin N) :
    FloatOps.dotGeneral D prec sched x y (ix2 p q) = ∑ k : Fin K, x (ix2 p k) * y (ix2 q k) := by
  subst hD
  rw [Ideal.dotGeneral_apply, ← Equiv.sum_comp (contrEquiv1 (DotDims.transposedRhs M K N) K rfl rfl).symm]
  refine Finset.sum_congr rfl fun k _ => ?_
  rw [lhsIdx_rows, rhsIdx_rows]

end Cert.Lib.DotRows

end
-- ==== Proof.LibSegSup.lean ====
/-
  The supremum of an extended-real function of the natural numbers over a run of consecutive positions,
  `segSup f a n = sup { f (a + k) | k < n }` (the bottom element when the run is empty), and the one law a
  pooling argument needs of it: a run of `n + n'` positions is its first `n` positions followed by the next
  `n'`, so its supremum is the larger of the two parts' suprema. Only the order structure is used — the supremum
  of a finite family does not depend on how the family is cut or grouped, and holds at the infinities as anywhere
  else. Also: a left fold of `max` from the bottom element over a finite family is that family's supremum, and a
  supremum over `Fin n` is the supremum over the run of `n` positions.
-/
import Mathlib.Data.EReal.Basic
import Mathlib.Order.Interval.Finset.Nat

namespace SegSup

/-- The supremum of `f` over the `n` consecutive positions `a, a + 1, …, a + n - 1`. -/
noncomputable def segSup (f : ℕ → EReal) (a n : ℕ) : EReal := (Finset.range n).sup fun k => f (a + k)

theorem segSup_zero (f : ℕ → EReal) (a : ℕ) : segSup f a 0 = ⊥ := by
  unfold segSup; rw [Finset.range_zero, Finset.sup_empty]

theorem segSup_succ (f : ℕ → EReal) (a n : ℕ) : segSup f a (n + 1) = segSup f a n ⊔ f (a + n) := by
  unfold segSup; rw [Finset.range_add_one, Finset.sup_insert, sup_comm]

/-- A run of `n + n'` positions is a run of `n` followed by a run of `n'`. -/
theorem segSup_add (f : ℕ → EReal) (a n n' : ℕ) : segSup f a (n + n') = segSup f a n ⊔ segSup f (a + n) n' := by
  induction n' with
  | zero => rw [Nat.add_zero, segSup_zero, sup_bot_eq]
  | succ k ih => rw [← Nat.add_assoc, segSup_succ, ih, segSup_succ, sup_assoc, Nat.add_assoc]

/-- Two runs of equal length whose entries agree position by position have one supremum. -/
theorem segSup_congr {f g : ℕ → EReal} {a b n : ℕ} (h : ∀ k, k < n → f (a + k) = g (b + k)) : segSup f a n = segSup g b n := by
  unfold segSup; exact Finset.sup_congr rfl fun k hk => h k (Finset.mem_range.1 hk)

/-- The supremum over `Fin n` of the entries at `a + k` is the supremum over the run. -/
theorem sup_univ_fin (f : ℕ → EReal) (a n : ℕ) : (Finset.univ : Finset (Fin n)).sup (fun k => f (a + k.val)) = segSup f a n := by
  unfold segSup
  apply le_antisymm
  · exact Finset.sup_le fun k _ => Finset.le_sup (f := fun k => f (a + k)) (Finset.mem_range.2 k.isLt)
  · exact Finset.sup_le fun k hk =>
      Finset.le_sup (f := fun k : Fin n => f (a + k.val)) (Finset.mem_univ (⟨k, Finset.mem_range.1 hk⟩ : Fin n))

/-- Folding `max` from the bottom element over a finite family gives its supremum. -/
theorem fold_max_bot {ι : Type*} (s : Finset ι) (g : ι → EReal) : s.fold max ⊥ g = s.sup g := rfl

end SegSup
-- ==== Proof.LibHostMax.lean ====
/-
  A host reduction with a maximum body, started from the bottom element (the pattern of −∞), read at an index over the
  extended reals: reducing the LAST axis of an [n, w] array gives at row `r` the supremum of that row's `w` entries, and
  reducing the last axis of an [n, q, w] array gives at (r, i) the supremum of the `w` entries of group `i` of row `r`. The
  reduction is a fold of `max` over the reduced axis's coordinates in some order; a fold of `max` from the bottom element
  over a finite family is the family's supremum, whatever the order. The same for a lane reduction of an [n, w] vector
  (`multiReduction_rows`), and a vector cast to one column read back (`shapeCast_col_apply`). Also: two arrays of `q` columns and of one column set
  side by side, read at column `j`, give the first array's column `j` when `j < q` and the second's only column otherwise.
-/
import Idealize.ShloMosaic.Lib.ValueIdx
import Idealize.ShloMosaic.Lib.Pipeline.Value
import Idealize.ShloMosaic.PureOps.Ideal.Laws
import proofs.«128303_j3917010174495_2_alg».proof.Proof.LibSegSup

noncomputable section

namespace HostMax

open Idealize.ShloMosaic Idealize.ShloMosaic.ValueIdx SegSup

/-- The pattern of −∞ denotes the bottom element of the extended reals. -/
theorem ofBits_neg_inf : Ideal.ofBits .f32 0xFF800000#32 = (⊥ : EReal) := by
  simp [Ideal.ofBits, Ideal.ieee]

/-- Row `r` of an [n, w] array with coordinate `k` put back on the reduced (last) axis is (r, k). -/
theorem lift_rows {n w : ℕ} (h : (⟨2, ![n, w]⟩ : Shape).Reduces [1] (⟨1, ![n]⟩ : Shape)) (r : Fin n)
    (k : Fin ((⟨2, ![n, w]⟩ : Shape).size 1)) : h.lift (ix1 r) k = ix2 r (⟨k.val, k.isLt⟩ : Fin w) := by
  funext c; apply Fin.ext
  fin_cases c <;> rfl

/-- Group (r, i) of an [n, q, w] array with coordinate `k` put back on the reduced (last) axis is (r, i, k). -/
theorem lift_groups {n q w : ℕ} (h : (⟨3, ![n, q, w]⟩ : Shape).Reduces [2] (⟨2, ![n, q]⟩ : Shape)) (r : Fin n) (i : Fin q)
    (k : Fin ((⟨3, ![n, q, w]⟩ : Shape).size 2)) : h.lift (ix2 r i) k = ix3 r i (⟨k.val, k.isLt⟩ : Fin w) := by
  funext c; apply Fin.ext
  fin_cases c <;> rfl

/-- From −∞ the host's maximum over the last axis of an [n, w] array, at row `r`, is the supremum of the row. -/
theorem reduce_rows {n w : ℕ} (v : FVec Ideal ⟨2, ![n, w]⟩ .f32) (init : (⟨0, ![]⟩ : Shape).Idx → Ideal .f32)
    (hinit : ∀ i, init i = (⊥ : EReal))
    (h' : (⟨2, ![n, w]⟩ : Shape).ReducesTo [1] (⟨1, ![n]⟩ : Shape)) (h : (⟨2, ![n, w]⟩ : Shape).Reduces [1] (⟨1, ![n]⟩ : Shape))
    (hu : 0 < (⟨0, ![]⟩ : Shape).numel) (r : Fin n) :
    Host.reduce FloatOps.maximumf v init h' hu (ix1 r) = (Finset.univ : Finset (Fin w)).sup fun k => v (ix2 r k) := by
  rw [Host.reduce_eq_fold_single FloatOps.maximumf v init h' h hu, hinit]
  have hf : (v ∘ h.lift (ix1 r)) = fun k : Fin w => v (ix2 r k) := funext fun k => congrArg v (lift_rows h r k)
  exact congrArg (fun f => Finset.fold max (⊥ : EReal) f (Finset.univ : Finset (Fin w))) hf

/-- From −∞ the host's maximum over the last axis of an [n, q, w] array, at (r, i), is the supremum of that group. -/
theorem reduce_groups {n q w : ℕ} (v : FVec Ideal ⟨3, ![n, q, w]⟩ .f32) (init : (⟨0, ![]⟩ : Shape).Idx → Ideal .f32)
    (hinit : ∀ i, init i = (⊥ : EReal))
    (h' : (⟨3, ![n, q, w]⟩ : Shape).ReducesTo [2] (⟨2, ![n, q]⟩ : Shape))
    (h : (⟨3, ![n, q, w]⟩ : Shape).Reduces [2] (⟨2, ![n, q]⟩ : Shape))
    (hu : 0 < (⟨0, ![]⟩ : Shape).numel) (r : Fin n) (i : Fin q) :
    Host.reduce FloatOps.maximumf v init h' hu (ix2 r i) = (Finset.univ : Finset (Fin w)).sup fun k => v (ix3 r i k) := by
  rw [Host.reduce_eq_fold_single FloatOps.maximumf v init h' h hu, hinit]
  have hf : (v ∘ h.lift (ix2 r i)) = fun k : Fin w => v (ix3 r i k) := funext fun k => congrArg v (lift_groups h r i k)
  exact congrArg (fun f => Finset.fold max (⊥ : EReal) f (Finset.univ : Finset (Fin w))) hf

/-- From −∞ a lane reduction with a maximum body over the last axis of an [n, w] vector, at row `r`, is the supremum of
    the row: the kernel-side reading of the same fold. -/
theorem multiReduction_rows {n w : ℕ} (P : FVec Ideal ⟨2, ![n, w]⟩ .f32)
    (h : (⟨2, ![n, w]⟩ : Shape).Reduces [1] (⟨1, ![n]⟩ : Shape)) (hφ : FKind.Formats .f32)
    (hacc : (0xFF800000#32 : BitVec FTy.f32.bits) = FKind.maximumf.neutral .f32 hφ) (r : Fin n) :
    multiReduction (F := Ideal) .maximumf [1] (⟨1, ![n]⟩ : Shape) P 0xFF800000#32 h hφ hacc (ix1 r)
      = (Finset.univ : Finset (Fin w)).sup fun k => P (ix2 r k) := by
  refine (Ideal.multiReduction_maximumf_single (φ := .f32) P 0xFF800000#32 h hφ hacc (ix1 r)).trans ?_
  have hf : (P ∘ h.lift (ix1 r)) = fun k : Fin w => P (ix2 r k) := funext fun k => congrArg P (lift_rows h r k)
  have hb : FloatOps.ofBits (F := Ideal) .f32 0xFF800000#32 = (⊥ : EReal) := ofBits_neg_inf
  rw [hb]
  exact congrArg (fun f => Finset.fold max (⊥ : EReal) f (Finset.univ : Finset (Fin w))) hf

/-- A vector of `n` entries cast to one column, read at (r, 0), is entry `r`. -/
theorem shapeCast_col_apply {α : Type} {n : ℕ} (v : (⟨1, ![n]⟩ : Shape).Idx → α)
    (h : (⟨1, ![n]⟩ : Shape).ShapeCasts (⟨2, ![n, 1]⟩ : Shape)) (y : (⟨2, ![n, 1]⟩ : Shape).Idx) (r : Fin n)
    (hy : (y 0).val = r.val) : shapeCast (⟨2, ![n, 1]⟩ : Shape) v h y = v (ix1 r) := by
  refine shapeCast_apply v h y (ix1 r) ?_
  rw [Shape.rowMajor_val_one, Shape.rowMajor_val_two]
  have h1 : (y 1).val < 1 := (y 1).isLt
  show r.val = (y 0).val * 1 + (y 1).val
  omega

/-- An array of `q` columns and an array of one column set side by side: column `j` of the join is the first array's
    column `j` when `j < q`, and otherwise (`j = q`) the second array's only column. -/
theorem join_cols {α : Type} {n q : ℕ} (A : (⟨2, ![n, q]⟩ : Shape).Idx → α) (B : (⟨2, ![n, 1]⟩ : Shape).Idx → α)
    (h : Shape.Concatenates [(⟨2, ![n, q]⟩ : Shape), (⟨2, ![n, 1]⟩ : Shape)] (⟨2, ![n, q + 1]⟩ : Shape) (1 : Fin 2))
    (r : Fin n) (j : Fin (q + 1)) :
    concatenate (⟨2, ![n, q + 1]⟩ : Shape) (1 : Fin 2) [⟨(⟨2, ![n, q]⟩ : Shape), A⟩, ⟨(⟨2, ![n, 1]⟩ : Shape), B⟩] h (ix2 r j)
      = if hj : j.val < q then A (ix2 r ⟨j.val, hj⟩) else B (ix2 r (0 : Fin 1)) := by
  split
  · rename_i hj
    exact concatenate_pair_apply_left (1 : Fin 2) A B h (ix2 r j) rfl (ix2 r ⟨j.val, hj⟩) (fun b => by fin_cases b <;> rfl)
  · rename_i hj
    refine concatenate_pair_apply_right (1 : Fin 2) A B h (ix2 r j) rfl rfl (ix2 r (0 : Fin 1)) (fun b hb => ?_) ?_
    · fin_cases b
      · rfl
      · exact absurd rfl hb
    · show 0 + q = j.val
      have := j.isLt; omega

end HostMax

end
-- ==== Proof.LibLaneRows.lean ====
/-
  Two readings of an [n, w] vector over the extended reals, row by row.

  A lane reduction with an addition body over the last axis, from the neutral accumulator, holds at row `r` the plain sum of that
  row's `w` entries: the reduction sums the entries whose index drops to `r`, and those are exactly (r, 0), …, (r, w − 1).
  A one-column array [n, 1] broadcast to [n, w] holds at (r, t) the column's entry of row `r`, whatever `t`.
-/
import Idealize.ShloMosaic.Lib.ValueIdx
import Idealize.ShloMosaic.Lib.Pipeline.Value
import Idealize.ShloMosaic.PureOps.Ideal.Laws
import proofs.«128303_j3917010174495_2_alg».proof.Proof.LibHostMax

noncomputable section

open scoped BigOperators

namespace LaneRows

open Idealize.ShloMosaic Idealize.ShloMosaic.ValueIdx

/-- From the neutral accumulator, a lane sum over the last axis of an [n, w] vector, at row `r`, is the sum of the row. -/
theorem multiReduction_add_rows {n w : ℕ} (P : FVec Ideal ⟨2, ![n, w]⟩ .f32) (acc : BitVec FTy.f32.bits)
    (h : (⟨2, ![n, w]⟩ : Shape).Reduces [1] (⟨1, ![n]⟩ : Shape)) (hφ : FKind.Formats .f32)
    (hacc : acc = FKind.add.neutral .f32 hφ) (r : Fin n) :
    multiReduction (F := Ideal) .add [1] (⟨1, ![n]⟩ : Shape) P acc h hφ hacc (ix1 r) = ∑ k : Fin w, P (ix2 r k) := by
  refine (Ideal.multiReduction_add_single (φ := .f32) P acc h hφ hacc (ix1 r)).trans ?_
  have hf : (P ∘ h.lift (ix1 r)) = fun k : Fin w => P (ix2 r k) :=
    funext fun k => congrArg P (HostMax.lift_rows h r k)
  exact congrArg (fun f => ∑ k : Fin w, f k) hf

/-- One column broadcast across `w` columns: entry (r, t) is the column's entry of row `r`. -/
theorem broadcastTo_col_apply {α : Type} {n w : ℕ} (v : (⟨2, ![n, 1]⟩ : Shape).Idx → α)
    (h : (⟨2, ![n, 1]⟩ : Shape).Broadcasts ⟨2, ![n, w]⟩) (r : Fin n) (t : Fin w) :
    broadcastTo ⟨2, ![n, w]⟩ v h (ix2 r t) = v (ix2 r (0 : Fin 1)) := by
  refine broadcastTo_apply v h (ix2 r t) (ix2 r (0 : Fin 1)) fun ax => ?_
  match ax with
  | ⟨0, _⟩ =>
    show r.val = if n = 1 then 0 else r.val
    split
    · have := r.isLt; omega
    · rfl
  | ⟨1, _⟩ =>
    show (0 : ℕ) = if (1 : ℕ) = 1 then 0 else t.val
    rw [if_pos rfl]

end LaneRows

end
-- ==== Proof.KI.Reg0Value.lean ====
/-
  Region 0's result arrays as functions of the two arrays it is handed, over the extended reals.

  At grid point (i, j) the body forms the block of scores of rows 1024·i … 1024·i + 1023 of the first array
  against rows 1024·j … 1024·j + 1023 of the second — entry (r, q) is leaky(Σ_d im[1024·i + r, d] · aud[1024·j + q, d]) —
  and writes it back as block (i, j) of the score array; and it adds to the row-sum block of row block i the sum of
  the squares of each row of that score block, starting from zero at j = 0.  After j = 7 the row-sum block holds,
  for each row, the sum over the eight column blocks of the block's sum of squares: the sum over all 8192 columns,
  regrouped.  Only commutativity and associativity of + on the extended reals are used.
-/
import proofs.«128303_j3917010174495_2_alg».proof.Proof.KI.Reg0Frame
import proofs.«128303_j3917010174495_2_alg».proof.Proof.Spec
import proofs.«128303_j3917010174495_2_alg».proof.Proof.Consts
import proofs.«128303_j3917010174495_2_alg».proof.Proof.LibDotRows
import proofs.«128303_j3917010174495_2_alg».proof.Proof.LibLaneRows
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Reg0

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen

/-! ## What each case's stores leave, as the payloads of the input blocks (at any float model) -/

section Pieces

variable {F : FTy → Type} [FloatOps F]

theorem hz : (![0, 0] : Fin 2 → Nat) = fun _ => 0 := funext fun a => by fin_cases a <;> rfl

/-- The rows of the resident block of the second array that the body loads at grid point `i`. -/
abbrev rAud (i : grid0.Coords) : Rect S8192x1024 := Rect.unit (s := S8192x1024) (k0_off1 i) S1024x1024.size (k0_off1_inb i)

/-- The score block either case leaves: the score payload of the loaded rows and the first array's block. -/
theorem outA_2_eq (c : Dev nD) (i : grid0.Coords) (arg2 : Memref sig .tc .vmem S1024x1024 .bf16) (harg2 : arg2.IsWhole) (arg3 : Memref sig .tc .vmem S8192x1024 .bf16) (harg3 : arg3.IsWhole) (arg4 : Memref sig .tc .vmem S1024x1024 .f32) (harg4 : arg4.IsWhole) (arg5 : Memref sig .tc .vmem S1024x1 .f32) (harg5 : arg5.IsWhole) (hc0 : cond0 i) (x0 : Vec F S1024x1024 .bf16) (x1 : Vec F S8192x1024 .bf16) :
    outA_2 c i arg2 harg2 arg3 harg3 arg4 harg4 arg5 harg5 hc0 x0 x1 = k0_pay2 (View.ld x1 (rAud i)) x0 := by
  unfold outA_2
  rw [View.read_writes_eq_canon _ _ _ (coverA_2 c i arg2 harg2 arg3 harg3 arg4 harg4 arg5 harg5 hc0 x0 x1)]
  unfold kernelRunA
  dsimp only
  rw [View.canon_unit_zero hz]
  simp only [View.readAt_eq_ld, harg2.read_unread, harg3.read_unread, View.ld_unit_zero (S := S1024x1024) hz]

theorem outB_2_eq (c : Dev nD) (i : grid0.Coords) (arg2 : Memref sig .tc .vmem S1024x1024 .bf16) (harg2 : arg2.IsWhole) (arg3 : Memref sig .tc .vmem S8192x1024 .bf16) (harg3 : arg3.IsWhole) (arg4 : Memref sig .tc .vmem S1024x1024 .f32) (harg4 : arg4.IsWhole) (arg5 : Memref sig .tc .vmem S1024x1 .f32) (harg5 : arg5.IsWhole) (hc0 : ¬cond0 i) (x0 : Vec F S1024x1024 .bf16) (x1 : Vec F S8192x1024 .bf16) (xo3 : Vec F S1024x1 .f32) :
    outB_2 c i arg2 harg2 arg3 harg3 arg4 harg4 arg5 harg5 hc0 x0 x1 xo3 = k0_pay2 (View.ld x1 (rAud i)) x0 := by
  unfold outB_2
  rw [View.read_writes_eq_canon _ _ _ (coverB_2 c i arg2 harg2 arg3 harg3 arg4 harg4 arg5 harg5 hc0 x0 x1 xo3)]
  unfold kernelRunB
  dsimp only
  rw [View.canon_unit_zero hz]
  simp only [View.readAt_eq_ld, harg2.read_unread, harg3.read_unread, View.ld_unit_zero (S := S1024x1024) hz]

/-- The row-sum block the add case leaves: the row-sum payload over what the buffer held. -/
theorem outB_3_eq (c : Dev nD) (i : grid0.Coords) (arg2 : Memref sig .tc .vmem S1024x1024 .bf16) (harg2 : arg2.IsWhole) (arg3 : Memref sig .tc .vmem S8192x1024 .bf16) (harg3 : arg3.IsWhole) (arg4 : Memref sig .tc .vmem S1024x1024 .f32) (harg4 : arg4.IsWhole) (arg5 : Memref sig .tc .vmem S1024x1 .f32) (harg5 : arg5.IsWhole) (hc0 : ¬cond0 i) (x0 : Vec F S1024x1024 .bf16) (x1 : Vec F S8192x1024 .bf16) (xo3 : Vec F S1024x1 .f32) :
    outB_3 c i arg2 harg2 arg3 harg3 arg4 harg4 arg5 harg5 hc0 x0 x1 xo3 = k0_pay3 (View.ld x1 (rAud i)) x0 xo3 := by
  unfold outB_3
  rw [View.read_writes_eq_canon _ _ _ (coverB_3 c i arg2 harg2 arg3 harg3 arg4 harg4 arg5 harg5 hc0 x0 x1 xo3)]
  unfold kernelRunB
  dsimp only
  rw [View.canon_unit_zero hz]
  simp only [View.readAt_eq_ld, harg2.read_unread, harg3.read_unread, harg5.read_unread, View.ld_unit_zero (S := S1024x1024) hz,
    View.ld_unit_zero (S := S1024x1) hz]

/-- The row-sum block the reset case leaves: the row-sum payload over the zero block it has just stored. -/
theorem outA_3_eq (c : Dev nD) (i : grid0.Coords) (arg2 : Memref sig .tc .vmem S1024x1024 .bf16) (harg2 : arg2.IsWhole) (arg3 : Memref sig .tc .vmem S8192x1024 .bf16) (harg3 : arg3.IsWhole) (arg4 : Memref sig .tc .vmem S1024x1024 .f32) (harg4 : arg4.IsWhole) (arg5 : Memref sig .tc .vmem S1024x1 .f32) (harg5 : arg5.IsWhole) (hc0 : cond0 i) (x0 : Vec F S1024x1024 .bf16) (x1 : Vec F S8192x1024 .bf16) :
    outA_3 c i arg2 harg2 arg3 harg3 arg4 harg4 arg5 harg5 hc0 x0 x1 = k0_pay3 (View.ld x1 (rAud i)) x0 k0_pay1 := by
  unfold outA_3
  rw [View.read_writes_eq_canon _ _ _ (coverA_3 c i arg2 harg2 arg3 harg3 arg4 harg4 arg5 harg5 hc0 x0 x1)]
  unfold kernelRunA
  dsimp only
  sl_unfold_words
  rw [View.canon_cons_unit_zero (S := S1024x1) hz, View.readCov_unit_zero (S := S1024x1) _ hz]
  simp only [View.readAt_eq_ld, harg2.read_unread, harg3.read_unread, View.ld_unit_zero (S := S1024x1024) hz]
  rfl

end Pieces

/-! ## The payloads at an entry, over the extended reals -/

section Value

/-- The body's contraction keeps axis 0 of each operand and contracts axis 1 of both. -/
theorem dot_eq : dot_S1024x1024_S1024x1024_S1024x1024_1_1_0_0_n_n = DotDims.transposedRhs 1024 1024 1024 := rfl

/-- The body's select of `x` where `0 ≤ x` and of the slope times `x` elsewhere is the leaky relu. -/
theorem leaky_apply (M : FVec Ideal S1024x1024 .f32) (j : S1024x1024.Idx) :
    select (cmpf .oge M (broadcast S1024x1024 (Scalar.ofBits .f32 0x00000000#32))) M
        (mulf (broadcast S1024x1024 (Scalar.ofBits .f32 0x3DCCCCCD#32)) M) j = Spec.leaky (M j) := by
  show (if BitVec.ofBool (decide (Ideal.ofBits .f32 0x00000000#32 ≤ M j)) = 1#1 then M j else Ideal.ofBits .f32 0x3DCCCCCD#32 * M j)
      = if (0 : EReal) ≤ M j then M j else Spec.c01 * M j
  rw [Spec.ofBits_zero]
  by_cases h : (0 : EReal) ≤ M j
  · have hb : BitVec.ofBool (decide ((0 : EReal) ≤ M j)) = 1#1 := by rw [decide_eq_true h]; rfl
    rw [if_pos hb, if_pos h]
  · have hb : ¬BitVec.ofBool (decide ((0 : EReal) ≤ M j)) = 1#1 := by rw [decide_eq_false h]; decide
    rw [if_neg hb, if_neg h]; rfl

/-- Entry (r, q) of the score payload: the leaky inner product of row `r` of the first operand's block and row `q`
    of the loaded rows of the second. -/
theorem pay2_apply (v6 v8 : Vec Ideal S1024x1024 .bf16) (r q : Fin 1024) :
    k0_pay2 (F := Ideal) v6 v8 (ix2 r q) = Spec.leaky (∑ d : Fin 1024, v8 (ix2 r d) * v6 (ix2 q d)) := by
  have hM : matmul (F := Ideal) (φ₁ := .bf16) (φ₂ := .bf16) dot_S1024x1024_S1024x1024_S1024x1024_1_1_0_0_n_n none
      (shapeCast S1024x1024 v8 shapeCasts_S1024x1024_S1024x1024 : FVec Ideal S1024x1024 .bf16)
      (shapeCast S1024x1024 v6 shapeCasts_S1024x1024_S1024x1024 : FVec Ideal S1024x1024 .bf16) (constant S1024x1024 .f32 0x00000000#32) (ix2 r q)
        = ∑ d : Fin 1024, v8 (ix2 r d) * v6 (ix2 q d) := by
    rw [shapeCast_self, shapeCast_self]
    exact Cert.Lib.DotRows.matmul_rows_apply _ dot_eq none v8 v6 r q
  unfold k0_pay2
  exact (leaky_apply _ _).trans (congrArg Spec.leaky hM)

/-- The zero block reads zero. -/
theorem pay1_apply (r : Fin 1024) (u : Fin 1) : k0_pay1 (F := Ideal) (ix2 r u) = 0 := Spec.ofBits_zero

/-- Entry (r, ·) of the row-sum payload: what the buffer held there plus the sum of the squares of row `r` of the
    score payload. -/
theorem pay3_apply (v6 v8 : Vec Ideal S1024x1024 .bf16) (v17 : Vec Ideal S1024x1 .f32) (r : Fin 1024) (u : Fin 1) :
    k0_pay3 (F := Ideal) v6 v8 v17 (ix2 r u) = v17 (ix2 r u) + ∑ q : Fin 1024, k0_pay2 (F := Ideal) v6 v8 (ix2 r q) * k0_pay2 (F := Ideal) v6 v8 (ix2 r q) := by
  unfold k0_pay3
  show shapeCast S1024x1 v17 shapeCasts_S1024x1_S1024x1 (ix2 r u)
      + shapeCast S1024x1 (multiReduction (F := Ideal) .add [1] S1024 (mulf (k0_pay2 v6 v8) (k0_pay2 v6 v8)) 0x00000000#32 reduces_S1024x1024_S1024 (.inl rfl) rfl) shapeCasts_S1024_S1024x1 (ix2 r u) = _
  rw [shapeCast_self]
  refine congrArg (v17 (ix2 r u) + ·) ?_
  refine (HostMax.shapeCast_col_apply _ shapeCasts_S1024_S1024x1 (ix2 r u) r rfl).trans ?_
  exact LaneRows.multiReduction_add_rows (mulf (k0_pay2 (F := Ideal) v6 v8) (k0_pay2 (F := Ideal) v6 v8)) 0x00000000#32 reduces_S1024x1024_S1024 (.inl rfl) rfl r

end Value

/-! ## The blocks at a point, as entries of the two arrays -/

section Blocks

variable (V : (c : Dev nD) → (b : Ref sig .tc) → Buf (Elt Ideal) ((c : Thread nD τ).loc b))

/-- The two arrays the region is handed, as arrays of extended reals. -/
abbrev imA (c : Dev nD) : Spec.Arr := V c main_v0
abbrev audA (c : Dev nD) : Spec.Arr := V c main_v1

/-- Row `r` of block `b` of an axis of 8192 cut into eight blocks of 1024. -/
def blkRow (b : ℕ) (r : Fin 1024) : Fin 8192 := ⟨(1024 * b + r.val) % 8192, Nat.mod_lt _ (by norm_num)⟩

theorem blkRow_val (b : ℕ) (hb : b < 8) (r : Fin 1024) : (blkRow b r).val = 1024 * b + r.val := by
  have := r.isLt
  show (1024 * b + r.val) % 8192 = _
  exact Nat.mod_eq_of_lt (by omega)

/-- The windows' block indices and the grid's second coordinate at a point, decided over the 64 points. -/
theorem idx_facts : ∀ t : Fin cfg0.N,
    win0_0.index t 0 = t.val / 8 ∧ win0_0.index t 1 = 0 ∧ win0_1.index t 0 = 0 ∧ win0_1.index t 1 = 0
      ∧ win0_2.index t 0 = t.val / 8 ∧ win0_2.index t 1 = t.val % 8 ∧ win0_3.index t 0 = t.val / 8 ∧ win0_3.index t 1 = 0
      ∧ (grid0.coords t 1).val = t.val % 8 :=
  (by decide +kernel : ∀ t : Fin grid0.N, _)

/-- The first array's block at point `t`: its rows 1024·(t / 8) …. -/
theorem iblk0_apply (c : Dev nD) (t : Fin cfg0.N) (r d : Fin 1024) :
    (iblk V c 0 t : Vec Ideal S1024x1024 .bf16) (ix2 r d) = imA V c (ix2 (blkRow (t.val / 8) r) d) := by
  obtain ⟨h00, h01, -⟩ := idx_facts t
  have hN : t.val < 64 := lt_of_lt_of_eq t.isLt (show cfg0.N = 64 from N_0)
  unfold iblk
  rw [View.read_apply]
  show V c main_v0 _ = V c main_v0 _
  congr 1
  funext a
  apply Fin.ext
  match a with
  | ⟨0, _⟩ =>
    show win0_0.index t 0 * 1024 + 1 * r.val = (blkRow (t.val / 8) r).val
    rw [h00, blkRow_val _ (by omega)]; omega
  | ⟨1, _⟩ =>
    show win0_0.index t 1 * 1024 + 1 * d.val = d.val
    rw [h01]; omega

/-- The second array's block at any point is the whole array. -/
theorem iblk1_apply (c : Dev nD) (t : Fin cfg0.N) (j : S8192x1024.Idx) :
    (iblk V c 1 t : Vec Ideal S8192x1024 .bf16) j = audA V c j := by
  obtain ⟨-, -, h10, h11, -⟩ := idx_facts t
  unfold iblk
  rw [View.read_apply]
  show V c main_v1 _ = V c main_v1 _
  congr 1
  funext a
  apply Fin.ext
  match a with
  | ⟨0, _⟩ =>
    show win0_1.index t 0 * 8192 + 1 * (j 0).val = (j 0).val
    rw [h10]; omega
  | ⟨1, _⟩ =>
    show win0_1.index t 1 * 1024 + 1 * (j 1).val = (j 1).val
    rw [h11]; omega

/-- The rows of it the body loads at point `t`: rows 1024·(t % 8) …. -/
theorem aud_apply (c : Dev nD) (t : Fin cfg0.N) (q d : Fin 1024) :
    View.ld (iblk V c 1 t : Vec Ideal S8192x1024 .bf16) (rAud (grid0.coords t)) (ix2 q d) = audA V c (ix2 (blkRow (t.val % 8) q) d) := by
  obtain ⟨-, -, -, -, -, -, -, -, hj⟩ := idx_facts t
  show (iblk V c 1 t : Vec Ideal S8192x1024 .bf16) ((rAud (grid0.coords t)).idx (ix2 q d)) = _
  rw [iblk1_apply]
  congr 1
  funext a
  apply Fin.ext
  match a with
  | ⟨0, _⟩ =>
    show k0_off1 (grid0.coords t) 0 + 1 * q.val = (blkRow (t.val % 8) q).val
    rw [k0_off1_eq, blkRow_val _ (Nat.mod_lt _ (by norm_num))]
    show 1024 * (grid0.coords t 1).val + 1 * q.val = _
    rw [hj]; omega
  | ⟨1, _⟩ =>
    show k0_off1 (grid0.coords t) 1 + 1 * d.val = d.val
    rw [k0_off1_eq]
    show 0 + 1 * d.val = d.val
    omega

/-- The score of a row of the first array against a row of the second, as the specification names it. -/
abbrev sc (c : Dev nD) (n m : Fin 8192) : EReal := Spec.s (imA V c) (audA V c) n m

/-- Entry (r, q) of the score payload at point `t` is the score of row 1024·(t / 8) + r against row 1024·(t % 8) + q. -/
theorem pay2_at (c : Dev nD) (t : Fin cfg0.N) (r q : Fin 1024) :
    k0_pay2 (F := Ideal) (View.ld (iblk V c 1 t : Vec Ideal S8192x1024 .bf16) (rAud (grid0.coords t))) (iblk V c 0 t) (ix2 r q)
      = sc V c (blkRow (t.val / 8) r) (blkRow (t.val % 8) q) := by
  refine (pay2_apply _ _ r q).trans ?_
  show Spec.leaky _ = Spec.leaky (∑ d : Fin 1024, imA V c (ix2 (blkRow (t.val / 8) r) d) * audA V c (ix2 (blkRow (t.val % 8) q) d))
  refine congrArg Spec.leaky (Finset.sum_congr rfl fun d _ => ?_)
  rw [iblk0_apply V c t r d, aud_apply V c t q d]

end Blocks

/-! ## The outputs' buffers point by point, and the arrays after the last point -/

section Result

variable (V : (c : Dev nD) → (b : Ref sig .tc) → Buf (Elt Ideal) ((c : Thread nD τ).loc b))

/-- The sum of the squares of the scores of row `n` over the first `k` column blocks. -/
def acc (c : Dev nD) (n : Fin 8192) (k : ℕ) : EReal :=
  ∑ j ∈ Finset.range k, ∑ q : Fin 1024, sc V c n (blkRow j q) * sc V c n (blkRow j q)

/-- The score block after the body at point `t`. -/
theorem outsAt2_apply (c : Dev nD) (t : Fin cfg0.N) (r q : Fin 1024) :
    outsAt2 V c t (ix2 r q) = sc V c (blkRow (t.val / 8) r) (blkRow (t.val % 8) q) := by
  by_cases h0 : t.val % 8 = 0
  · have e := (outsAt2_A V c t h0).trans (outA_2_eq c (grid0.coords t) (ms0 t) (hs0 t) (ms1 t) (hs1 t) (ms2 t) (hs2 t) (ms3 t) (hs3 t) ((hcond0 t).mpr h0) (iblk V c 0 t) (iblk V c 1 t))
    exact (congrFun e (ix2 r q)).trans (pay2_at V c t r q)
  · have e := (outsAt2_B V c t h0).trans (outB_2_eq c (grid0.coords t) (ms0 t) (hs0 t) (ms1 t) (hs1 t) (ms2 t) (hs2 t) (ms3 t) (hs3 t) (fun h => h0 ((hcond0 t).mp h)) (iblk V c 0 t) (iblk V c 1 t)
      (outsAt3 V c (t.val - 1) (Nat.lt_of_le_of_lt (Nat.sub_le _ _) t.isLt)))
    exact (congrFun e (ix2 r q)).trans (pay2_at V c t r q)

/-- At the first point of a row of the grid the row-sum block holds the first column block's sums. -/
theorem outsAt3_A_apply (c : Dev nD) (t : Fin cfg0.N) (h0 : t.val % 8 = 0) (r : Fin 1024) (u : Fin 1) :
    outsAt3 V c t.val t.isLt (ix2 r u) = acc V c (blkRow (t.val / 8) r) (t.val % 8 + 1) := by
  have e := (outsAt3_A V c t h0).trans (outA_3_eq c (grid0.coords t) (ms0 t) (hs0 t) (ms1 t) (hs1 t) (ms2 t) (hs2 t) (ms3 t) (hs3 t) ((hcond0 t).mpr h0) (iblk V c 0 t) (iblk V c 1 t))
  refine (congrFun e (ix2 r u)).trans ?_
  refine (pay3_apply _ _ _ r u).trans ?_
  rw [pay1_apply, zero_add]
  unfold acc
  rw [h0, Nat.zero_add, Finset.sum_range_one]
  refine Finset.sum_congr rfl fun q _ => ?_
  have hp := pay2_at V c t r q
  rw [h0] at hp
  exact congrArg₂ (· * ·) hp hp

/-- At any other point it holds what the point before left plus this column block's sums. -/
theorem outsAt3_B_apply (c : Dev nD) (t : Fin cfg0.N) (h0 : ¬t.val % 8 = 0) (r : Fin 1024) (u : Fin 1)
    (ih : outsAt3 V c (t.val - 1) (Nat.lt_of_le_of_lt (Nat.sub_le _ _) t.isLt) (ix2 r u)
      = acc V c (blkRow ((t.val - 1) / 8) r) ((t.val - 1) % 8 + 1)) :
    outsAt3 V c t.val t.isLt (ix2 r u) = acc V c (blkRow (t.val / 8) r) (t.val % 8 + 1) := by
  have e := (outsAt3_B V c t h0).trans (outB_3_eq c (grid0.coords t) (ms0 t) (hs0 t) (ms1 t) (hs1 t) (ms2 t) (hs2 t) (ms3 t) (hs3 t) (fun h => h0 ((hcond0 t).mp h)) (iblk V c 0 t) (iblk V c 1 t)
    (outsAt3 V c (t.val - 1) (Nat.lt_of_le_of_lt (Nat.sub_le _ _) t.isLt)))
  refine (congrFun e (ix2 r u)).trans ?_
  refine (pay3_apply _ _ _ r u).trans ?_
  rw [ih]
  have e1 : (t.val - 1) / 8 = t.val / 8 := by omega
  have e2 : (t.val - 1) % 8 + 1 = t.val % 8 := by omega
  rw [e1, e2]
  unfold acc
  rw [Finset.sum_range_succ]
  refine congrArg (_ + ·) ?_
  refine Finset.sum_congr rfl fun q _ => ?_
  have hp := pay2_at V c t r q
  exact congrArg₂ (· * ·) hp hp

/-- So after the body at position `n` the row-sum block holds the sums over the column blocks 0 … n % 8. -/
theorem outsAt3_apply (c : Dev nD) : ∀ (n : ℕ) (h : n < cfg0.N) (r : Fin 1024) (u : Fin 1),
    outsAt3 V c n h (ix2 r u) = acc V c (blkRow (n / 8) r) (n % 8 + 1)
  | 0, h, r, u => outsAt3_A_apply V c ⟨0, h⟩ rfl r u
  | n + 1, h, r, u => by
    by_cases h0 : (n + 1) % 8 = 0
    · exact outsAt3_A_apply V c ⟨n + 1, h⟩ h0 r u
    · exact outsAt3_B_apply V c ⟨n + 1, h⟩ h0 r u (outsAt3_apply c n (Nat.lt_of_succ_lt h) r u)

/-- The sums over all eight column blocks are the sum over all 8192 columns, regrouped. -/
theorem acc_eight (c : Dev nD) (n : Fin 8192) : acc V c n 8 = Spec.rowsq (imA V c) (audA V c) n := by
  unfold acc Spec.rowsq
  rw [← Fin.sum_univ_eq_sum_range (fun j => ∑ q : Fin 1024, sc V c n (blkRow j q) * sc V c n (blkRow j q)) 8,
    ← Fintype.sum_prod_type' (fun (j : Fin 8) (q : Fin 1024) => sc V c n (blkRow j.val q) * sc V c n (blkRow j.val q))]
  refine Fintype.sum_equiv (finProdFinEquiv : Fin 8 × Fin 1024 ≃ Fin 8192) _ _ fun p => ?_
  have hp : blkRow p.1.val p.2 = (finProdFinEquiv : Fin 8 × Fin 1024 ≃ Fin 8192) p := by
    apply Fin.ext
    rw [blkRow_val _ p.1.isLt]
    show 1024 * p.1.val + p.2.val = p.2.val + 1024 * p.1.val
    omega
  rw [hp]

end Result

/-! ## The two result arrays -/

section Arrays

variable (V : (c : Dev nD) → (b : Ref sig .tc) → Buf (Elt Ideal) ((c : Thread nD τ).loc b))

/-- No output block is cut at the arrays' ends: the moved extents are the blocks', decided over the points. -/
theorem xs_facts : ∀ t : Fin cfg0.N,
    win0_2.xsize (grid0.coords t) 0 = 1024 ∧ win0_2.xsize (grid0.coords t) 1 = 1024
      ∧ win0_3.xsize (grid0.coords t) 0 = 1024 ∧ win0_3.xsize (grid0.coords t) 1 = 1 :=
  (by decide +kernel : ∀ t : Fin grid0.N, _)

/-- The score array and the row-sum column as contents of the two result arrays. -/
abbrev G2 (c : Dev nD) : Buf (Elt Ideal) ((cfg0.win 2).arr.view.loc (c.tc : Thread nD τ)) := Spec.reg0s (imA V c) (audA V c)
abbrev G3 (c : Dev nD) : Buf (Elt Ideal) ((cfg0.win 3).arr.view.loc (c.tc : Thread nD τ)) := Spec.reg0rowsq (imA V c) (audA V c)

/-- What every point writes back of the scores is its block of the score array. -/
theorem flushed2_eq (c : Dev nD) (t : Fin cfg0.N) (hf : (cfg0.win 2).flush t = true) :
    (dat V c).flushed 2 t = ((cfg0.win 2).blk t).view.read (Elt Ideal) (G2 V c) := by
  obtain ⟨-, -, -, -, h20, h21, -⟩ := idx_facts t
  have hN : t.val < 64 := lt_of_lt_of_eq t.isLt (show cfg0.N = 64 from N_0)
  show (cfg0.win 2).cut (grid0.coords t) ((dat V c).after 2 t) = _
  rw [after_2]
  refine funext fun (y : S1024x1024.Idx) => ?_
  obtain ⟨r, q, rfl⟩ : ∃ r q, y = ix2 r q := ⟨y 0, y 1, eq_ix2 y⟩
  rw [View.read_apply]
  refine (outsAt2_apply V c t r q).trans ?_
  show Spec.s (imA V c) (audA V c) _ _ = Spec.s (imA V c) (audA V c) _ _
  congr 1
  · apply Fin.ext
    show (blkRow (t.val / 8) r).val = win0_2.index t 0 * 1024 + 1 * r.val
    rw [h20, blkRow_val _ (by omega)]; omega
  · apply Fin.ext
    show (blkRow (t.val % 8) q).val = win0_2.index t 1 * 1024 + 1 * q.val
    rw [h21, blkRow_val _ (by omega)]; omega

/-- Every entry of the score array lies in the block of the point of its row block and column block. -/
theorem cover2 (c : Dev nD) (i : ((cfg0.win 2).arr.view.loc (c.tc : Thread nD τ)).2.ty.Idx) :
    ∃ t : Fin cfg0.N, (cfg0.win 2).flush t = true ∧ i ∈ ((cfg0.win 2).blk t).view.set := by
  have hi0 : (i 0 : Nat) < 8192 := (i 0).isLt
  have hi1 : (i 1 : Nat) < 8192 := (i 1).isLt
  have hN : cfg0.N = 64 := N_0
  obtain ⟨t, ht⟩ : ∃ t : Fin cfg0.N, t.val = 8 * ((i 0 : Nat) / 1024) + (i 1 : Nat) / 1024 :=
    ⟨⟨8 * ((i 0 : Nat) / 1024) + (i 1 : Nat) / 1024, by rw [hN]; omega⟩, rfl⟩
  refine ⟨t, flush0_2 t, ?_⟩
  obtain ⟨-, -, -, -, h20, h21, -⟩ := idx_facts t
  obtain ⟨x20, x21, -, -⟩ := xs_facts t
  show i ∈ ((View.whole main_v2_0).slice (win0_2.rect t)).set
  rw [View.set_slice_whole, Rect.mem_set_unit]
  intro a
  match a with
  | ⟨0, _⟩ =>
    show win0_2.index t 0 * win0_2.size 0 ≤ (i 0 : Nat) ∧ (i 0 : Nat) < win0_2.index t 0 * win0_2.size 0 + win0_2.xsize (grid0.coords t) 0
    rw [h20, x20, show win0_2.size 0 = 1024 from rfl]; omega
  | ⟨1, _⟩ =>
    show win0_2.index t 1 * win0_2.size 1 ≤ (i 1 : Nat) ∧ (i 1 : Nat) < win0_2.index t 1 * win0_2.size 1 + win0_2.xsize (grid0.coords t) 1
    rw [h21, x21, show win0_2.size 1 = 1024 from rfl]; omega

/-- The score array after the region's last point: entry (n, m) is the leaky score of row `n` of the first array
    against row `m` of the second. -/
theorem arrAt_s (c : Dev nD) : (dat (F := Ideal) V c).arrAt 2 cfg0.N = Cert.Spec.reg0s (V c main_v0) (V c main_v1) :=
  (dat V c).arrAt_eq_of_cover 2 (G2 V c) (flushed2_eq V c) (cover2 c)

/-- What the last point of a row of the grid writes back of the row sums is its block of the row-sum column. -/
theorem flushed3_eq (c : Dev nD) (t : Fin cfg0.N) (hf : (cfg0.win 3).flush t = true) :
    (dat V c).flushed 3 t = ((cfg0.win 3).blk t).view.read (Elt Ideal) (G3 V c) := by
  obtain ⟨-, -, -, -, -, -, h30, h31, -⟩ := idx_facts t
  have hN : t.val < 64 := lt_of_lt_of_eq t.isLt (show cfg0.N = 64 from N_0)
  have h7 : t.val % 8 = 7 := (flush0_3 t).mp hf
  show (cfg0.win 3).cut (grid0.coords t) ((dat V c).after 3 t) = _
  rw [after_3]
  refine funext fun (y : S1024x1.Idx) => ?_
  obtain ⟨r, u, rfl⟩ : ∃ r u, y = ix2 r u := ⟨y 0, y 1, eq_ix2 y⟩
  rw [View.read_apply]
  refine (outsAt3_apply V c t.val t.isLt r u).trans ?_
  rw [h7]
  refine (acc_eight V c _).trans ?_
  show Spec.rowsq (imA V c) (audA V c) _ = Spec.rowsq (imA V c) (audA V c) _
  congr 1
  apply Fin.ext
  show (blkRow (t.val / 8) r).val = win0_3.index t 0 * 1024 + 1 * r.val
  rw [h30, blkRow_val _ (by omega)]; omega

/-- Every entry of the row-sum column lies in the block written back at the last point of its row block. -/
theorem cover3 (c : Dev nD) (i : ((cfg0.win 3).arr.view.loc (c.tc : Thread nD τ)).2.ty.Idx) :
    ∃ t : Fin cfg0.N, (cfg0.win 3).flush t = true ∧ i ∈ ((cfg0.win 3).blk t).view.set := by
  have hi0 : (i 0 : Nat) < 8192 := (i 0).isLt
  have hi1 : (i 1 : Nat) < 1 := (i 1).isLt
  have hN : cfg0.N = 64 := N_0
  obtain ⟨t, ht⟩ : ∃ t : Fin cfg0.N, t.val = 8 * ((i 0 : Nat) / 1024) + 7 :=
    ⟨⟨8 * ((i 0 : Nat) / 1024) + 7, by rw [hN]; omega⟩, rfl⟩
  refine ⟨t, (flush0_3 t).mpr (by omega), ?_⟩
  obtain ⟨-, -, -, -, -, -, h30, h31, -⟩ := idx_facts t
  obtain ⟨-, -, x30, x31⟩ := xs_facts t
  show i ∈ ((View.whole main_v2_1).slice (win0_3.rect t)).set
  rw [View.set_slice_whole, Rect.mem_set_unit]
  intro a
  match a with
  | ⟨0, _⟩ =>
    show win0_3.index t 0 * win0_3.size 0 ≤ (i 0 : Nat) ∧ (i 0 : Nat) < win0_3.index t 0 * win0_3.size 0 + win0_3.xsize (grid0.coords t) 0
    rw [h30, x30, show win0_3.size 0 = 1024 from rfl]; omega
  | ⟨1, _⟩ =>
    show win0_3.index t 1 * win0_3.size 1 ≤ (i 1 : Nat) ∧ (i 1 : Nat) < win0_3.index t 1 * win0_3.size 1 + win0_3.xsize (grid0.coords t) 1
    rw [h31, x31, show win0_3.size 1 = 1 from rfl]; omega

/-- The row-sum column after the region's last point: entry (n, ·) is the sum over all columns of the squared
    leaky scores of row `n`. -/
theorem arrAt_rowsq (c : Dev nD) : (dat (F := Ideal) V c).arrAt 3 cfg0.N = Cert.Spec.reg0rowsq (V c main_v0) (V c main_v1) :=
  (dat V c).arrAt_eq_of_cover 3 (G3 V c) (flushed3_eq V c) (cover3 c)

end Arrays

end Cert.KernelIdeal.Reg0

end
-- ==== Proof.KI.Reg1Value.lean ====
/-
  Region 1 on the extended reals: the result array is the column sums of squares of the scores.

  Write S for the [8192, 8192] array of scores the region is entered with.  At position t = 8·j + i of the grid the
  body reads the [1024, 1024] block of S with rows 1024·i … 1024·i + 1023 and columns 1024·j … 1024·j + 1023, squares
  it entrywise and multiplies it, contracting the ROW axis, with a column of ones: at row r of the result block this
  is Σ_k S[1024·i + k, 1024·j + r]².  The sum is added to what the result block holds — zero at i = 0.  So after
  position t the block holds at row r the sum of the squares of column 1024·j + r of S over its first 1024·(i + 1)
  rows (induction on the position), and at i = 7, where the block is written back, over all 8192 rows.  The eight
  written blocks tile the [8192, 1] result, so the result at column index m is Σ_n S[n, m]².

  On the extended reals addition and multiplication are commutative and associative, 0 + x = x and x · 1 = x
  without any finiteness condition, so no hypothesis on S is needed.
-/
import proofs.«128303_j3917010174495_2_alg».proof.Proof.KI.Reg1Frame
import proofs.«128303_j3917010174495_2_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

set_option maxRecDepth 16384

noncomputable section

namespace Cert.KernelIdeal.Reg1

open Idealize.ShloMosaic Idealize.ShloMosaic.TcCoe Idealize.SL.Sem
open Idealize.ShloMosaic.Pipeline (Dat)
open Idealize.ShloMosaic.ValueIdx
open Cert.KernelIdeal Cert.KernelIdeal.Gen
open scoped BigOperators

/-! ## What each case of the body leaves in window 1, as the body's payloads -/

theorem hz : (![0, 0] : Fin 2 → Nat) = fun _ => 0 := funext fun a => by fin_cases a <;> rfl

section Pieces
variable {F : FTy → Type} [FloatOps F]

/-- A later point of a grid row leaves in window 1, holding xo, the body's one covering store: its payload at the
    block x and at xo. -/
theorem outB_eq (c : Dev nD) (i : grid1.Coords) (a2 : Memref sig .tc .vmem S1024x1024 .f32) (h2 : a2.IsWhole)
    (a3 : Memref sig .tc .vmem S1024x1 .f32) (h3 : a3.IsWhole) (hc : ¬cond i) (x : Vec F S1024x1024 .f32) (xo : Vec F S1024x1 .f32) :
    outB c i a2 h2 a3 h3 hc x xo = k1_pay2 x xo := by
  unfold outB
  rw [View.read_writes_eq_canon _ _ _ (coverB c i a2 h2 a3 h3 hc x xo)]
  unfold kernelRunB
  dsimp only
  rw [View.canon_unit_zero hz]
  simp only [View.readAt_eq_ld, h2.read_unread, h3.read_unread, View.ld_unit_zero (S := S1024x1024) hz,
    View.ld_unit_zero (S := S1024x1) hz]

/-- The first point of a grid row stores the zero column, reads it back, and leaves the payload at the block x and
    at the zero column. -/
theorem outA_eq (c : Dev nD) (i : grid1.Coords) (a2 : Memref sig .tc .vmem S1024x1024 .f32) (h2 : a2.IsWhole)
    (a3 : Memref sig .tc .vmem S1024x1 .f32) (h3 : a3.IsWhole) (hc : cond i) (x : Vec F S1024x1024 .f32) :
    outA c i a2 h2 a3 h3 hc x = k1_pay2 x (k1_pay1 (F := F)) := by
  unfold outA
  rw [View.read_writes_eq_canon _ _ _ (coverA c i a2 h2 a3 h3 hc x)]
  unfold kernelRunA
  dsimp only
  sl_unfold_words
  rw [View.canon_cons_unit_zero (S := S1024x1) hz, View.readCov_unit_zero (S := S1024x1) _ hz]
  simp only [View.readAt_eq_ld, h2.read_unread, View.ld_unit_zero (S := S1024x1024) hz]

end Pieces

/-! ## The payloads at an index, on the extended reals -/

/-- The contraction of the body's product: the first axis of both operands. -/
abbrev D := Cert.KernelIdeal.dot_S1024x1024_S1024x1_S1024x1_0_0_1_1_n_n

theorem lhsD_0 (j : S1024x1.Idx) (k : D.contr.Idx) : (D.lhsIdx j k 0 : ℕ) = k ⟨0, by decide⟩ := by
  simp [DotDims.lhsIdx, D, Cert.KernelIdeal.dot_S1024x1024_S1024x1_S1024x1_0_0_1_1_n_n]; rfl
theorem lhsD_1 (j : S1024x1.Idx) (k : D.contr.Idx) : (D.lhsIdx j k 1 : ℕ) = j 0 := by
  simp [DotDims.lhsIdx, D, Cert.KernelIdeal.dot_S1024x1024_S1024x1_S1024x1_0_0_1_1_n_n]; rfl

/-- The contraction index is one coordinate below 1024. -/
def eD : D.contr.Idx ≃ Fin 1024 := contrEquiv1 D 1024 (by decide) (by decide)

/-- The left operand's index at output row r and contraction position k is (k, r). -/
theorem lhsD_ix (r : Fin 1024) (z : Fin 1) (k : Fin 1024) : D.lhsIdx (ix2 r z) (eD.symm k) = ix2 k r := by
  funext a
  apply Fin.ext
  match a with
  | ⟨0, _⟩ => exact (lhsD_0 (ix2 r z) (eD.symm k)).trans (contrEquiv1_symm_val D 1024 (by decide) (by decide) k)
  | ⟨1, _⟩ => exact lhsD_1 (ix2 r z) (eD.symm k)

/-- The zero column at an index. -/
theorem pay1_apply (j : S1024x1.Idx) : k1_pay1 (F := Ideal) j = 0 := Ideal.ofBits_zero_f32

/-- The body's payload at row r: what window 1 held there plus the sum over the block's rows k of the squared
    entry (k, r) — the column of ones contributes the factor one. -/
theorem pay2_apply (x : Vec Ideal S1024x1024 .f32) (xo : Vec Ideal S1024x1 .f32) (r : Fin 1024) (z : Fin 1) :
    k1_pay2 (F := Ideal) x xo (ix2 r z) = xo (ix2 r z) + ∑ k : Fin 1024, x (ix2 k r) * x (ix2 k r) := by
  unfold k1_pay2
  simp only [shapeCast_self]
  refine (addf_apply _ _ _).trans ?_
  refine congrArg (xo (ix2 r z) + ·) ?_
  refine (Ideal.matmul_constant_zero_apply D none _ _ (ix2 r z)).trans ?_
  refine (Equiv.sum_comp eD.symm _).symm.trans ?_
  refine Finset.sum_congr rfl fun k _ => ?_
  rw [lhsD_ix r z k]
  show x (ix2 k r) * x (ix2 k r) * Ideal.ofBits .f32 0x3F800000#32 = _
  rw [Ideal.ofBits_one_f32, mul_one]

/-! ## The blocks of the scores -/

/-- Window 0's block index at position t is (t % 8, t / 8); window 1's is (t / 8, 0). -/
theorem idx0 : ∀ t : Fin cfg1.N, win1_0.index t 0 = t.val % 8 ∧ win1_0.index t 1 = t.val / 8 :=
  (by decide +kernel : ∀ t : Fin grid1.N, win1_0.index t 0 = t.val % 8 ∧ win1_0.index t 1 = t.val / 8)
theorem idx1 : ∀ t : Fin cfg1.N, win1_1.index t 0 = t.val / 8 ∧ win1_1.index t 1 = 0 :=
  (by decide +kernel : ∀ t : Fin grid1.N, win1_1.index t 0 = t.val / 8 ∧ win1_1.index t 1 = 0)

/-- An [8192, 8192] array read at natural coordinates (zero outside the array). -/
def atN (S : Cert.Spec.Sq) (n m : ℕ) : EReal := if h : n < 8192 ∧ m < 8192 then S (ix2 ⟨n, h.1⟩ ⟨m, h.2⟩) else 0

theorem atN_fin (S : Cert.Spec.Sq) (n m : Fin 8192) : atN S n.val m.val = S (ix2 n m) := by
  unfold atN; rw [dif_pos ⟨n.isLt, m.isLt⟩]

variable (V : (c : Dev nD) → (b : Ref sig .tc) → Buf (Elt Ideal) ((c : Thread nD τ).loc b))

/-- Entry (k, r) of window 0's block at position t is entry (1024·(t % 8) + k, 1024·(t / 8) + r) of the scores. -/
theorem iblk_apply (c : Dev nD) (t : Fin cfg1.N) (k r : Fin 1024) :
    (iblk V c 0 t : Vec Ideal S1024x1024 .f32) (ix2 k r)
      = atN (V c main_v2_0) (1024 * (t.val % 8) + k.val) (1024 * (t.val / 8) + r.val) := by
  have hN : t.val < 64 := lt_of_lt_of_eq t.isLt (show cfg1.N = 64 from N_1)
  obtain ⟨h0, h1⟩ := idx0 t
  unfold atN
  rw [dif_pos ⟨by omega, by omega⟩]
  unfold iblk
  rw [View.read_apply]
  show V c main_v2_0 _ = V c main_v2_0 _
  congr 1
  funext a
  apply Fin.ext
  match a with
  | ⟨0, _⟩ => show win1_0.index t 0 * 1024 + 1 * k.val = 1024 * (t.val % 8) + k.val; rw [h0]; omega
  | ⟨1, _⟩ => show win1_0.index t 1 * 1024 + 1 * r.val = 1024 * (t.val / 8) + r.val; rw [h1]; omega

/-! ## What window 1 holds after each point: a partial column sum -/

/-- A sum over the first 1024·(i + 1) naturals is the sum over the first 1024·i and the next 1024. -/
theorem sum_block (f : ℕ → EReal) (i : ℕ) :
    ∑ m ∈ Finset.range (1024 * (i + 1)), f m
      = ∑ m ∈ Finset.range (1024 * i), f m + ∑ k : Fin 1024, f (1024 * i + k.val) := by
  rw [show 1024 * (i + 1) = 1024 * i + 1024 by ring, Finset.sum_range_add,
    Fin.sum_univ_eq_sum_range (fun k => f (1024 * i + k)) 1024]

/-- The squares of column m of S summed over its first 1024·(t % 8 + 1) rows, m = 1024·(t / 8) + r. -/
def part (S : Cert.Spec.Sq) (t r : ℕ) : EReal :=
  ∑ n ∈ Finset.range (1024 * (t % 8 + 1)), atN S n (1024 * (t / 8) + r) * atN S n (1024 * (t / 8) + r)

/-- After the body at position t window 1 holds at row r the partial sum: by induction on the position, the
    first point of a grid row starting from zero, a later point adding its block's 1024 rows. -/
theorem outsAt_apply (c : Dev nD) : ∀ (n : ℕ) (h : n < cfg1.N) (r : Fin 1024) (z : Fin 1),
    (outsAt V c n h : Vec Ideal S1024x1 .f32) (ix2 r z) = part (V c main_v2_0) n r.val
  | 0, h, r, z => by
    rw [outsAt_A V c ⟨0, h⟩ rfl, outA_eq, pay2_apply, pay1_apply, zero_add]
    unfold part
    rw [show 1024 * (0 % 8 + 1) = 1024 * (0 + 1) from rfl, sum_block, Finset.range_zero, Finset.sum_empty, zero_add]
    exact Finset.sum_congr rfl fun k _ => by rw [iblk_apply]; rfl
  | n + 1, h, r, z => by
    have hN : cfg1.N = 64 := N_1
    by_cases h0 : (n + 1) % 8 = 0
    · rw [outsAt_A V c ⟨n + 1, h⟩ h0, outA_eq, pay2_apply, pay1_apply, zero_add]
      unfold part
      rw [show 1024 * ((n + 1) % 8 + 1) = 1024 * (0 + 1) by rw [h0], sum_block, Finset.range_zero, Finset.sum_empty, zero_add]
      refine Finset.sum_congr rfl fun k _ => ?_
      rw [iblk_apply]
      show atN _ (1024 * ((n + 1) % 8) + k.val) _ * atN _ (1024 * ((n + 1) % 8) + k.val) _ = _
      rw [h0]
    · rw [outsAt_B V c ⟨n + 1, h⟩ h0, outB_eq, pay2_apply]
      have ih := outsAt_apply c n (Nat.lt_of_succ_lt h) r z
      show (outsAt V c n _ : Vec Ideal S1024x1 .f32) (ix2 r z) + _ = _
      rw [ih]
      unfold part
      have e1 : n % 8 + 1 = (n + 1) % 8 := by omega
      have e2 : n / 8 = (n + 1) / 8 := by omega
      rw [e1, e2, sum_block]
      refine congrArg (_ + ·) (Finset.sum_congr rfl fun k _ => ?_)
      rw [iblk_apply]

/-! ## The result array -/

/-- The same at any index of the block. -/
theorem outsAt_apply' (c : Dev nD) (n : ℕ) (h : n < cfg1.N) (j : S1024x1.Idx) :
    (outsAt V c n h : Vec Ideal S1024x1 .f32) j = part (V c main_v2_0) n (j 0).val :=
  (congrArg (outsAt V c n h : Vec Ideal S1024x1 .f32) (eq_ix2 j)).trans (outsAt_apply V c n h (j 0) (j 1))

/-- At the last point of a grid row the partial sum is the whole column's. -/
theorem part_last (S : Cert.Spec.Sq) (t : ℕ) (r : Fin 1024) (h7 : t % 8 = 7) (m : Fin 8192) (hm : m.val = 1024 * (t / 8) + r.val) :
    part S t r.val = ∑ n : Fin 8192, S (ix2 n m) * S (ix2 n m) := by
  unfold part
  rw [h7, ← hm, show 1024 * (7 + 1) = 8192 from rfl, ← Fin.sum_univ_eq_sum_range (fun n => atN S n m.val * atN S n m.val) 8192]
  exact Finset.sum_congr rfl fun n _ => by rw [atN_fin]

/-- What a write-back writes is its block of the column sums of squares: the write-backs are at the last points
    of the grid rows, where window 1 holds the whole column sums of the row's 1024 columns. -/
theorem flushed_eq (c : Dev nD) (t : Fin cfg1.N) (hf : (cfg1.win 1).flush t = true) :
    (dat (F := Ideal) V c).flushed 1 t = ((cfg1.win 1).blk t).view.read (Elt Ideal) (Cert.Spec.reg1colsq (V c main_v2_0)) := by
  have hN : t.val < 64 := lt_of_lt_of_eq t.isLt (show cfg1.N = 64 from N_1)
  have h7 : t.val % 8 = 7 := (flush1_1 t).mp hf
  obtain ⟨e0, e1⟩ := idx1 t
  show (cfg1.win 1).cut (grid1.coords t) ((dat V c).after 1 t) = _
  rw [after_1]
  refine funext fun (y : S1024x1.Idx) => ?_
  rw [View.read_apply]
  have hy : ((((cfg1.win 1).blk t).view.emb y) 0 : ℕ) = 1024 * (t.val / 8) + (y 0).val := by
    refine (win1_1.rect_emb_val t y 0).trans ?_
    rw [e0]; show t.val / 8 * 1024 + (y 0).val = _; omega
  show (outsAt V c t.val t.isLt : Vec Ideal S1024x1 .f32) ((cfg1.win 1).xinj (grid1.coords t) y)
    = Cert.Spec.reg1colsq (V c main_v2_0) (((cfg1.win 1).blk t).view.emb y)
  rw [outsAt_apply']
  exact part_last (V c main_v2_0) t.val (y 0) h7 (((cfg1.win 1).blk t).view.emb y 0) hy

/-- Every row of the result lies in the block written back at the last point of its grid row. -/
theorem cover (c : Dev nD) (i : ((cfg1.win 1).arr.view.loc (c.tc : Thread nD τ)).2.ty.Idx) : ∃ t : Fin cfg1.N, (cfg1.win 1).flush t = true ∧ i ∈ ((cfg1.win 1).blk t).view.set := by
  have h0 : (i 0 : ℕ) < 8192 := (i 0).isLt
  have h1 : (i 1 : ℕ) < 1 := (i 1).isLt
  have hlt : 8 * ((i 0 : ℕ) / 1024) + 7 < cfg1.N := by rw [show cfg1.N = 64 from N_1]; omega
  obtain ⟨e0, e1⟩ := idx1 ⟨8 * ((i 0 : ℕ) / 1024) + 7, hlt⟩
  refine ⟨⟨8 * ((i 0 : ℕ) / 1024) + 7, hlt⟩, (flush1_1 _).mpr (by show (8 * ((i 0 : ℕ) / 1024) + 7) % 8 = 7; omega), ?_⟩
  show i ∈ ((View.whole main_v3).slice (win1_1.rect ⟨8 * ((i 0 : ℕ) / 1024) + 7, hlt⟩)).set
  rw [View.set_slice_whole, Rect.mem_set_unit]
  intro a
  match a with
  | ⟨0, _⟩ =>
    show win1_1.index ⟨8 * ((i 0 : ℕ) / 1024) + 7, hlt⟩ 0 * 1024 ≤ (i 0 : ℕ) ∧ (i 0 : ℕ) < win1_1.index ⟨8 * ((i 0 : ℕ) / 1024) + 7, hlt⟩ 0 * 1024 + 1024
    rw [e0]; dsimp only; omega
  | ⟨1, _⟩ =>
    show win1_1.index ⟨8 * ((i 0 : ℕ) / 1024) + 7, hlt⟩ 1 * 1 ≤ (i 1 : ℕ) ∧ (i 1 : ℕ) < win1_1.index ⟨8 * ((i 0 : ℕ) / 1024) + 7, hlt⟩ 1 * 1 + 1
    rw [e1]; omega

/-- After the region's last point the result array holds, at every column index, the sum over all 8192 rows of
    the squared scores of that column. -/
theorem arrAt_colsq (c : Dev nD) : (dat (F := Ideal) V c).arrAt 1 cfg1.N = Cert.Spec.reg1colsq (V c main_v2_0) :=
  (dat V c).arrAt_eq_of_cover 1 (Cert.Spec.reg1colsq (V c main_v2_0)) (flushed_eq V c) fun i => cover c i

end Cert.KernelIdeal.Reg1

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.LibGridAcc.lean ====
/-
  Two facts about finite sums in an additive commutative monoid (used over the extended reals; nothing here asks the
  summands to be finite).

  A sum over `B · J` consecutive positions is the sum, over the `B` blocks, of each block's `J` entries: position
  `J · j + k` is entry `k` of block `j`. Stated for any `B` and `J`, and once more for 8192 = 8 · 1024 positions over
  `Fin 8192` itself, so that no change of index type is left to the user.

  An accumulator that starts from zero plus the first summand and then adds one summand per step holds, after step
  `n`, the sum of the summands `0, …, n`. Stated for sequences indexed by the natural numbers (with the step law for
  every `j`, or only below a bound), for sequences indexed by `Fin (n + 1)`, and in the variant where every summand
  arrives as zero plus itself.
-/
import Mathlib.Algebra.BigOperators.Fin
import Mathlib.Algebra.BigOperators.Intervals
import Mathlib.Logic.Equiv.Fin.Basic
import Idealize.ShloMosaic.PureOps.Ideal

open scoped BigOperators

namespace Cert.Lib.GridAcc

variable {M : Type*} [AddCommMonoid M]

/-! ## A sum cut into equal blocks -/

/-- Entry `k` of block `j` lies inside the `B · J` positions. -/
theorem blk_lt {B J : ℕ} (j : Fin B) (k : Fin J) : J * j.val + k.val < B * J := by
  have hj := j.isLt
  have hk := k.isLt
  calc J * j.val + k.val < J * j.val + J := by omega
    _ = J * (j.val + 1) := by ring
    _ ≤ J * B := Nat.mul_le_mul_left _ hj
    _ = B * J := Nat.mul_comm _ _

/-- The same position written block index first. -/
theorem blk_lt' {B J : ℕ} (j : Fin B) (k : Fin J) : j.val * J + k.val < B * J := by
  rw [Nat.mul_comm j.val J]; exact blk_lt j k

/-- A sum over `B · J` positions is the sum over the blocks of each block's entries. -/
theorem sum_blocks {B J : ℕ} (g : Fin (B * J) → M) :
    ∑ x : Fin (B * J), g x = ∑ j : Fin B, ∑ k : Fin J, g ⟨J * j.val + k.val, blk_lt j k⟩ := by
  rw [← (finProdFinEquiv (m := B) (n := J)).sum_comp g, Fintype.sum_prod_type]
  refine Finset.sum_congr rfl fun j _ => Finset.sum_congr rfl fun k _ => congrArg g (Fin.ext ?_)
  show k.val + J * j.val = J * j.val + k.val
  exact Nat.add_comm _ _

/-- The same with the position written block index first. -/
theorem sum_blocks' {B J : ℕ} (g : Fin (B * J) → M) :
    ∑ x : Fin (B * J), g x = ∑ j : Fin B, ∑ k : Fin J, g ⟨j.val * J + k.val, blk_lt' j k⟩ := by
  rw [sum_blocks]
  exact Finset.sum_congr rfl fun j _ => Finset.sum_congr rfl fun k _ => congrArg g (Fin.ext (by
    show J * j.val + k.val = j.val * J + k.val
    rw [Nat.mul_comm]))

/-- 8192 positions as 8 blocks of 1024. -/
theorem sum_8192 (g : Fin 8192 → M) :
    ∑ n : Fin 8192, g n = ∑ j : Fin 8, ∑ k : Fin 1024, g ⟨1024 * j.val + k.val, by omega⟩ :=
  sum_blocks (B := 8) (J := 1024) g

/-- The same with the position written block index first. -/
theorem sum_8192' (g : Fin 8192 → M) :
    ∑ n : Fin 8192, g n = ∑ j : Fin 8, ∑ k : Fin 1024, g ⟨j.val * 1024 + k.val, by omega⟩ :=
  sum_blocks' (B := 8) (J := 1024) g

/-! ## An accumulator run step by step -/

/-- With the step law below a bound `N`: after step `n ≤ N` the accumulator holds the sum of the summands `0, …, n`. -/
theorem acc_eq_sum_of_lt (a b : ℕ → M) (N : ℕ) (h0 : a 0 = 0 + b 0) (hs : ∀ j, j < N → a (j + 1) = a j + b (j + 1)) :
    ∀ n, n ≤ N → a n = ∑ j ∈ Finset.range (n + 1), b j := by
  intro n
  induction n with
  | zero => intro _; rw [h0, zero_add, Finset.sum_range_one]
  | succ n ih =>
    intro hn
    rw [hs n (by omega), ih (by omega), Finset.sum_range_succ _ (n + 1)]

/-- With the step law at every `j`: after step `n` the accumulator holds the sum of the summands `0, …, n`. -/
theorem acc_eq_sum (a b : ℕ → M) (h0 : a 0 = 0 + b 0) (hs : ∀ j, a (j + 1) = a j + b (j + 1)) (n : ℕ) :
    a n = ∑ j ∈ Finset.range (n + 1), b j :=
  acc_eq_sum_of_lt a b n h0 (fun j _ => hs j) n (le_refl n)

/-- After the eighth step (step 7), as a sum over `Fin 8`; the step law is needed only below 7. -/
theorem acc7_eq_sum (a b : ℕ → M) (h0 : a 0 = 0 + b 0) (hs : ∀ j, j < 7 → a (j + 1) = a j + b (j + 1)) :
    a 7 = ∑ j : Fin 8, b j.val := by
  rw [acc_eq_sum_of_lt a b 7 h0 hs 7 (le_refl 7), Finset.sum_range]

/-- The variant where every summand arrives as zero plus itself (a product added into a zero accumulator before it is
    added to the running one). -/
theorem acc_eq_sum_zero_add_of_lt (a b : ℕ → M) (N : ℕ) (h0 : a 0 = 0 + (0 + b 0))
    (hs : ∀ j, j < N → a (j + 1) = a j + (0 + b (j + 1))) : ∀ n, n ≤ N → a n = ∑ j ∈ Finset.range (n + 1), b j :=
  acc_eq_sum_of_lt a b N (by rw [h0, zero_add]) (fun j hj => by rw [hs j hj, zero_add])

theorem acc_eq_sum_zero_add (a b : ℕ → M) (h0 : a 0 = 0 + (0 + b 0)) (hs : ∀ j, a (j + 1) = a j + (0 + b (j + 1))) (n : ℕ) :
    a n = ∑ j ∈ Finset.range (n + 1), b j :=
  acc_eq_sum_zero_add_of_lt a b n h0 (fun j _ => hs j) n (le_refl n)

theorem acc7_eq_sum_zero_add (a b : ℕ → M) (h0 : a 0 = 0 + (0 + b 0))
    (hs : ∀ j, j < 7 → a (j + 1) = a j + (0 + b (j + 1))) : a 7 = ∑ j : Fin 8, b j.val := by
  rw [acc_eq_sum_zero_add_of_lt a b 7 h0 hs 7 (le_refl 7), Finset.sum_range]

/-- The accumulator and the summands indexed by `Fin (n + 1)`: the last value is the sum of all the summands. -/
theorem acc_fin_eq_sum {n : ℕ} (a b : Fin (n + 1) → M) (h0 : a 0 = 0 + b 0)
    (hs : ∀ j : Fin n, a j.succ = a j.castSucc + b j.succ) : a (Fin.last n) = ∑ j, b j := by
  have key : ∀ (k : ℕ) (hk : k < n + 1),
      a ⟨k, hk⟩ = ∑ j ∈ Finset.range (k + 1), (if h : j < n + 1 then b ⟨j, h⟩ else 0) := by
    intro k
    induction k with
    | zero =>
      intro hk
      rw [Finset.sum_range_one, dif_pos hk]
      exact h0.trans (zero_add _)
    | succ k ih =>
      intro hk
      have hk' : k < n := by omega
      rw [Finset.sum_range_succ, ← ih (by omega), dif_pos hk]
      exact hs ⟨k, hk'⟩
  rw [show Fin.last n = ⟨n, Nat.lt_succ_self n⟩ from rfl, key n _, Finset.sum_range]
  exact Finset.sum_congr rfl fun j _ => by rw [dif_pos j.isLt]

/-- The same in the variant where every summand arrives as zero plus itself. -/
theorem acc_fin_eq_sum_zero_add {n : ℕ} (a b : Fin (n + 1) → M) (h0 : a 0 = 0 + (0 + b 0))
    (hs : ∀ j : Fin n, a j.succ = a j.castSucc + (0 + b j.succ)) : a (Fin.last n) = ∑ j, b j :=
  acc_fin_eq_sum a b (by rw [h0, zero_add]) (fun j => by rw [hs j, zero_add])

/-- Eight steps over blocks of 1024: an accumulator that adds, at step `j`, the sum of block `j` of a family over
    8192 positions ends at the sum over all 8192 positions. -/
theorem acc8_blocks_eq_sum_8192 (a : Fin 8 → M) (g : Fin 8192 → M)
    (h0 : a 0 = 0 + ∑ k : Fin 1024, g ⟨1024 * (0 : Fin 8).val + k.val, by omega⟩)
    (hs : ∀ j : Fin 7, a j.succ = a j.castSucc + ∑ k : Fin 1024, g ⟨1024 * j.succ.val + k.val, by omega⟩) :
    a 7 = ∑ n : Fin 8192, g n := by
  rw [sum_8192 g]
  exact acc_fin_eq_sum (n := 7) a (fun j => ∑ k : Fin 1024, g ⟨1024 * j.val + k.val, by omega⟩) h0 hs

end Cert.Lib.GridAcc
-- ==== Proof.KI.Reg2Cover.lean ====
/-
  Region 2, the output window's end.

  Window 3 is the [1024, 1024] block (i, 0) of the [8192, 1024] result, written back at the last point t = 8·i + 7
  of each grid row.  Entry (r, d) of the block at position t is entry (1024·(t / 8) + r, d) of the result, and the
  eight written blocks tile the result: row n lies in the block written at t = 8·(n / 1024) + 7.  So if every
  write-back writes its block of one array G, the result array ends holding G.
-/
import proofs.«128303_j3917010174495_2_alg».proof.Proof.KI.Reg2Frame
import Idealize.ShloMosaic.Lib.Pipeline.Value
import Idealize.ShloMosaic.Lib.ValueIdx

set_option maxRecDepth 16384

noncomputable section

namespace Cert.KernelIdeal.Reg2

open Idealize.ShloMosaic Idealize.ShloMosaic.TcCoe Idealize.SL.Sem
open Idealize.ShloMosaic.Pipeline (Dat)
open Idealize.ShloMosaic.ValueIdx
open Cert.KernelIdeal Cert.KernelIdeal.Gen

variable {F : FTy → Type} [FloatOps F]
variable (V : (c : Dev nD) → (b : Ref sig .tc) → Buf (Elt F) ((c : Thread nD τ).loc b))

/-- Window 3's block index at position t is (t / 8, 0). -/
theorem win3_index : ∀ t : Fin cfg2.N, win2_3.index t 0 = t.val / 8 ∧ win2_3.index t 1 = 0 :=
  (by decide +kernel : ∀ t : Fin grid2.N, win2_3.index t 0 = t.val / 8 ∧ win2_3.index t 1 = 0)

/-- Every entry of the result lies in the block written back at the last point of its grid row. -/
theorem win3_cover (c : Dev nD) (i : ((cfg2.win 3).arr.view.loc (c.tc : Thread nD τ)).2.ty.Idx) :
    ∃ t : Fin cfg2.N, (cfg2.win 3).flush t = true ∧ i ∈ ((cfg2.win 3).blk t).view.set := by
  have h0 : (i 0 : ℕ) < 8192 := (i 0).isLt
  have h1 : (i 1 : ℕ) < 1024 := (i 1).isLt
  have hlt : 8 * ((i 0 : ℕ) / 1024) + 7 < cfg2.N := by rw [show cfg2.N = 64 from N_2]; omega
  obtain ⟨e0, e1⟩ := win3_index ⟨8 * ((i 0 : ℕ) / 1024) + 7, hlt⟩
  refine ⟨⟨8 * ((i 0 : ℕ) / 1024) + 7, hlt⟩, (flush2_3 _).mpr (by show (8 * ((i 0 : ℕ) / 1024) + 7) % 8 = 7; omega), ?_⟩
  show i ∈ ((View.whole main_v15).slice (win2_3.rect ⟨8 * ((i 0 : ℕ) / 1024) + 7, hlt⟩)).set
  rw [View.set_slice_whole, Rect.mem_set_unit]
  intro a
  match a with
  | ⟨0, _⟩ =>
    show win2_3.index ⟨8 * ((i 0 : ℕ) / 1024) + 7, hlt⟩ 0 * 1024 ≤ (i 0 : ℕ) ∧ (i 0 : ℕ) < win2_3.index ⟨8 * ((i 0 : ℕ) / 1024) + 7, hlt⟩ 0 * 1024 + 1024
    rw [e0]; dsimp only; omega
  | ⟨1, _⟩ =>
    show win2_3.index ⟨8 * ((i 0 : ℕ) / 1024) + 7, hlt⟩ 1 * 1024 ≤ (i 1 : ℕ) ∧ (i 1 : ℕ) < win2_3.index ⟨8 * ((i 0 : ℕ) / 1024) + 7, hlt⟩ 1 * 1024 + 1024
    rw [e1]; omega

/-- If every write-back writes its block of G, the result array ends holding G. -/
theorem arrAt_of_flushed (c : Dev nD) (G : Buf (Elt F) ((cfg2.win 3).arr.view.loc (c.tc : Thread nD τ)))
    (hG : ∀ t : Fin cfg2.N, (cfg2.win 3).flush t = true → (dat V c).flushed 3 t = ((cfg2.win 3).blk t).view.read (Elt F) G) :
    (dat V c).arrAt 3 cfg2.N = G :=
  (dat V c).arrAt_eq_of_cover 3 G hG (win3_cover c)

/-- Entry (r, d) of window 3's block at position t is entry (1024·(t / 8) + r, d) of the array. -/
theorem blk3_read_apply (c : Dev nD) (G : Buf (Elt F) ((cfg2.win 3).arr.view.loc (c.tc : Thread nD τ))) (t : Fin cfg2.N) (r d : Fin 1024) :
    ((cfg2.win 3).blk t).view.read (Elt F) G (ix2 r d)
      = G (ix2 (⟨1024 * (t.val / 8) + r.val, by have := t.isLt; have : cfg2.N = 64 := N_2; omega⟩ : Fin 8192) d) := by
  obtain ⟨e0, e1⟩ := win3_index t
  rw [View.read_apply]
  show G _ = G _
  congr 1
  funext a
  apply Fin.ext
  match a with
  | ⟨0, _⟩ => show win2_3.index t 0 * 1024 + 1 * r.val = 1024 * (t.val / 8) + r.val; rw [e0]; omega
  | ⟨1, _⟩ => show win2_3.index t 1 * 1024 + 1 * d.val = d.val; rw [e1]; omega

end Cert.KernelIdeal.Reg2

end
-- ==== Proof.KI.Reg2Value.lean ====
/-
  The value of region 2 over the extended reals.

  The region is handed the scores S : [8192, 8192], the resident array A : [8192, 1024] and the row factors
  R : [8192, 1].  Write w(n, m) = exp (S[n,m] · R[n,0] · 6).  The grid runs, for each row block q of 1024 rows, through the
  eight column blocks j = 0..7 of 1024 columns.  At column block j the body adds to the running numerator, at (r, d),
  the 1024-term sum  Σ_k w(n, 1024·j + k) · A[1024·j + k, d]  (n = 1024·q + r; a plain matrix product into zero), and to
  the running denominator, at (r, 0), the row sum  Σ_k w(n, 1024·j + k);  both start from zero at j = 0.  After j = 7 the
  numerator is ((0 + B₀) + B₁) + … + B₇ with B_j the block sums: over the extended reals, where addition is commutative
  and associative, that is the sum over all 8192 columns, and likewise the denominator.  The output block written back
  at j = 7 is their quotient, which is the region's result at rows of block q; the eight write-backs tile the result array.

  Order of the file: what each control case's stores read back to (the payloads at the input blocks, any instance);
  the blocks at natural coordinates; each payload at an entry over the extended reals; the accumulation along a grid
  row; the result array.
-/
import proofs.«128303_j3917010174495_2_alg».proof.Proof.KI.Reg2Frame
import proofs.«128303_j3917010174495_2_alg».proof.Proof.Spec
import proofs.«128303_j3917010174495_2_alg».proof.Proof.LibDotCols
import proofs.«128303_j3917010174495_2_alg».proof.Proof.LibLaneRows
import proofs.«128303_j3917010174495_2_alg».proof.Proof.LibGridAcc
import proofs.«128303_j3917010174495_2_alg».proof.Proof.KI.Reg2Cover
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Reg2

open Idealize.ShloMosaic Idealize.ShloMosaic.TcCoe Idealize.ShloMosaic.Tactic Idealize.SL.Sem
open Idealize.ShloMosaic.ValueIdx
open Idealize.ShloMosaic.Pipeline (Dat)
open Cert.KernelIdeal Cert.KernelIdeal.Gen

/-! ## What each case's pieces read back to: the payloads at the input blocks (any instance) -/

section Pieces
variable {F : FTy → Type} [FloatOps F]
variable (V : (c : Dev nD) → (b : Ref sig .tc) → Buf (Elt F) ((c : Thread nD τ).loc b))

theorem hz2 : (![0, 0] : Fin 2 → Nat) = fun _ => 0 := funext fun a => by fin_cases a <;> rfl

/-- The 1024 rows of the resident bf16 array the point reads: rows [1024·j, 1024·j + 1024). -/
def audBlk (c : Dev nD) (t : Fin cfg2.N) : Vec F S1024x1024 .bf16 :=
  View.ld (iblk V c 1 t) (Rect.unit (s := S8192x1024) (k2_off1 (grid2.coords t)) S1024x1024.size (k2_off1_inb (grid2.coords t)))

/-- The running numerator and denominator after a point, from what they held before it. -/
abbrev num (c : Dev nD) (t : Fin cfg2.N) (acc : Vec F S1024x1024 .f32) : Vec F S1024x1024 .f32 :=
  k2_pay6 (iblk V c 0 t) (iblk V c 2 t) (audBlk V c t) acc
abbrev den (c : Dev nD) (t : Fin cfg2.N) (acc : Vec F S1024x1 .f32) : Vec F S1024x1 .f32 :=
  k2_pay5 (iblk V c 0 t) (iblk V c 2 t) acc

theorem sA0 (c : Dev nD) (t : Fin cfg2.N) (h0 : t.val % 8 = 0) (h1 : ¬t.val % 8 = 7) :
    readS0 (runA V c t h0 h1).2.1 = num V c t k2_pay2 := by
  unfold readS0
  rw [View.read_writes_eq_canon _ _ _ (scoverA_0 V c t h0 h1)]
  unfold runA kernelRun_A
  dsimp only
  sl_unfold_run_names
  rw [View.canon_cons_unit_zero (S := S1024x1024) hz2, View.readCov_unit_zero (S := S1024x1024) _ hz2]
  simp only [View.readAt_eq_ld, (hs0 t).read_unread, (hs1 t).read_unread, (hs2 t).read_unread, (hs3 t).read_unread, Memref.IsWhole.read_unread, View.ld_unit_zero (S := S1024x1024) hz2, View.ld_unit_zero (S := S1024x1) hz2]
  rfl

theorem sA1 (c : Dev nD) (t : Fin cfg2.N) (h0 : t.val % 8 = 0) (h1 : ¬t.val % 8 = 7) :
    readS1 (runA V c t h0 h1).2.2.1 = den V c t k2_pay3 := by
  unfold readS1
  rw [View.read_writes_eq_canon _ _ _ (scoverA_1 V c t h0 h1)]
  unfold runA kernelRun_A
  dsimp only
  sl_unfold_run_names
  rw [View.canon_cons_unit_zero (S := S1024x1) hz2, View.readCov_unit_zero (S := S1024x1) _ hz2]
  simp only [View.readAt_eq_ld, (hs0 t).read_unread, (hs1 t).read_unread, (hs2 t).read_unread, (hs3 t).read_unread, Memref.IsWhole.read_unread, View.ld_unit_zero (S := S1024x1024) hz2, View.ld_unit_zero (S := S1024x1) hz2]

theorem sB0 (c : Dev nD) (t : Fin cfg2.N) (h0 : ¬t.val % 8 = 0) (h1 : ¬t.val % 8 = 7) (xs0 : Vec F S1024x1024 .f32) (xs1 : Vec F S1024x1 .f32) :
    readS0 (runB V c t h0 h1 xs0 xs1).2.1 = num V c t xs0 := by
  unfold readS0
  rw [View.read_writes_eq_canon _ _ _ (scoverB_0 V c t h0 h1 xs0 xs1)]
  unfold runB kernelRun_B
  dsimp only
  sl_unfold_run_names
  rw [View.canon_unit_zero (S := S1024x1024) hz2]
  have e0 : View.read (Elt F) (View.whole cc2_scratch0) ((Memref.isWhole_whole cc2_scratch0).unread xs0) = xs0 := (Memref.isWhole_whole cc2_scratch0).read_unread xs0
  have e1 : View.read (Elt F) (View.whole cc2_scratch1) ((Memref.isWhole_whole cc2_scratch1).unread xs1) = xs1 := (Memref.isWhole_whole cc2_scratch1).read_unread xs1
  simp only [View.readAt_eq_ld, (hs0 t).read_unread, (hs1 t).read_unread, (hs2 t).read_unread, (hs3 t).read_unread, Memref.IsWhole.read_unread, View.ld_unit_zero (S := S1024x1024) hz2, View.ld_unit_zero (S := S1024x1) hz2, e0, e1]
  rfl

theorem sB1 (c : Dev nD) (t : Fin cfg2.N) (h0 : ¬t.val % 8 = 0) (h1 : ¬t.val % 8 = 7) (xs0 : Vec F S1024x1024 .f32) (xs1 : Vec F S1024x1 .f32) :
    readS1 (runB V c t h0 h1 xs0 xs1).2.2.1 = den V c t xs1 := by
  unfold readS1
  rw [View.read_writes_eq_canon _ _ _ (scoverB_1 V c t h0 h1 xs0 xs1)]
  unfold runB kernelRun_B
  dsimp only
  sl_unfold_run_names
  rw [View.canon_unit_zero (S := S1024x1) hz2]
  have e0 : View.read (Elt F) (View.whole cc2_scratch0) ((Memref.isWhole_whole cc2_scratch0).unread xs0) = xs0 := (Memref.isWhole_whole cc2_scratch0).read_unread xs0
  have e1 : View.read (Elt F) (View.whole cc2_scratch1) ((Memref.isWhole_whole cc2_scratch1).unread xs1) = xs1 := (Memref.isWhole_whole cc2_scratch1).read_unread xs1
  simp only [View.readAt_eq_ld, (hs0 t).read_unread, (hs1 t).read_unread, (hs2 t).read_unread, (hs3 t).read_unread, Memref.IsWhole.read_unread, View.ld_unit_zero (S := S1024x1024) hz2, View.ld_unit_zero (S := S1024x1) hz2, e0, e1]

theorem sC0 (c : Dev nD) (t : Fin cfg2.N) (h0 : ¬t.val % 8 = 0) (h1 : t.val % 8 = 7) (xs0 : Vec F S1024x1024 .f32) (xs1 : Vec F S1024x1 .f32) :
    readS0 (runC V c t h0 h1 xs0 xs1).2.1 = num V c t xs0 := by
  unfold readS0
  rw [View.read_writes_eq_canon _ _ _ (scoverC_0 V c t h0 h1 xs0 xs1)]
  unfold runC kernelRun_C
  dsimp only
  sl_unfold_run_names
  rw [View.canon_unit_zero (S := S1024x1024) hz2]
  have e0 : View.read (Elt F) (View.whole cc2_scratch0) ((Memref.isWhole_whole cc2_scratch0).unread xs0) = xs0 := (Memref.isWhole_whole cc2_scratch0).read_unread xs0
  have e1 : View.read (Elt F) (View.whole cc2_scratch1) ((Memref.isWhole_whole cc2_scratch1).unread xs1) = xs1 := (Memref.isWhole_whole cc2_scratch1).read_unread xs1
  simp only [View.readAt_eq_ld, (hs0 t).read_unread, (hs1 t).read_unread, (hs2 t).read_unread, (hs3 t).read_unread, Memref.IsWhole.read_unread, View.ld_unit_zero (S := S1024x1024) hz2, View.ld_unit_zero (S := S1024x1) hz2, e0, e1]
  rfl

theorem sC1 (c : Dev nD) (t : Fin cfg2.N) (h0 : ¬t.val % 8 = 0) (h1 : t.val % 8 = 7) (xs0 : Vec F S1024x1024 .f32) (xs1 : Vec F S1024x1 .f32) :
    readS1 (runC V c t h0 h1 xs0 xs1).2.2.1 = den V c t xs1 := by
  unfold readS1
  rw [View.read_writes_eq_canon _ _ _ (scoverC_1 V c t h0 h1 xs0 xs1)]
  unfold runC kernelRun_C
  dsimp only
  sl_unfold_run_names
  rw [View.canon_unit_zero (S := S1024x1) hz2]
  have e0 : View.read (Elt F) (View.whole cc2_scratch0) ((Memref.isWhole_whole cc2_scratch0).unread xs0) = xs0 := (Memref.isWhole_whole cc2_scratch0).read_unread xs0
  have e1 : View.read (Elt F) (View.whole cc2_scratch1) ((Memref.isWhole_whole cc2_scratch1).unread xs1) = xs1 := (Memref.isWhole_whole cc2_scratch1).read_unread xs1
  simp only [View.readAt_eq_ld, (hs0 t).read_unread, (hs1 t).read_unread, (hs2 t).read_unread, (hs3 t).read_unread, Memref.IsWhole.read_unread, View.ld_unit_zero (S := S1024x1024) hz2, View.ld_unit_zero (S := S1024x1) hz2, e0, e1]

theorem oC (c : Dev nD) (t : Fin cfg2.N) (h0 : ¬t.val % 8 = 0) (h1 : t.val % 8 = 7) (xs0 : Vec F S1024x1024 .f32) (xs1 : Vec F S1024x1 .f32) :
    readO (runC V c t h0 h1 xs0 xs1).1 = k2_pay1 (num V c t xs0) (den V c t xs1) := by
  unfold readO
  rw [View.read_writes_eq_canon _ _ _ (coverC_3 V c t h0 h1 xs0 xs1)]
  unfold runC kernelRun_C
  dsimp only
  sl_unfold_run_names
  rw [View.canon_unit_zero (S := S1024x1024) hz2, View.readCov_unit_zero (S := S1024x1024) _ hz2, View.readCov_unit_zero (S := S1024x1) _ hz2]
  have e0 : View.read (Elt F) (View.whole cc2_scratch0) ((Memref.isWhole_whole cc2_scratch0).unread xs0) = xs0 := (Memref.isWhole_whole cc2_scratch0).read_unread xs0
  have e1 : View.read (Elt F) (View.whole cc2_scratch1) ((Memref.isWhole_whole cc2_scratch1).unread xs1) = xs1 := (Memref.isWhole_whole cc2_scratch1).read_unread xs1
  simp only [View.readAt_eq_ld, (hs0 t).read_unread, (hs1 t).read_unread, (hs2 t).read_unread, (hs3 t).read_unread, Memref.IsWhole.read_unread, View.ld_unit_zero (S := S1024x1024) hz2, View.ld_unit_zero (S := S1024x1) hz2, e0, e1]
  rfl

end Pieces

/-! ## The blocks at natural coordinates -/

section Blocks
variable {F : FTy → Type} [FloatOps F]
variable (V : (c : Dev nD) → (b : Ref sig .tc) → Buf (Elt F) ((c : Thread nD τ).loc b))

theorem tlt (t : Fin cfg2.N) : t.val < 64 := lt_of_lt_of_eq t.isLt N_2

/-- Row `r` of the point's row block and column `k` of its column block, in the arrays. -/
abbrev rowOf (t : Fin cfg2.N) (r : Fin 1024) : Fin 8192 := ⟨1024 * (t.val / 8) + r.val, by have := tlt t; omega⟩
abbrev colOf (t : Fin cfg2.N) (k : Fin 1024) : Fin 8192 := ⟨1024 * (t.val % 8) + k.val, by omega⟩

theorem idx0 : ∀ t : Fin cfg2.N, win2_0.index t 0 = t.val / 8 ∧ win2_0.index t 1 = t.val % 8 :=
  (by decide +kernel : ∀ t : Fin grid2.N, win2_0.index t 0 = t.val / 8 ∧ win2_0.index t 1 = t.val % 8)
theorem idx1 : ∀ t : Fin cfg2.N, win2_1.index t 0 = 0 ∧ win2_1.index t 1 = 0 :=
  (by decide +kernel : ∀ t : Fin grid2.N, win2_1.index t 0 = 0 ∧ win2_1.index t 1 = 0)
theorem idx2 : ∀ t : Fin cfg2.N, win2_2.index t 0 = t.val / 8 ∧ win2_2.index t 1 = 0 :=
  (by decide +kernel : ∀ t : Fin grid2.N, win2_2.index t 0 = t.val / 8 ∧ win2_2.index t 1 = 0)
theorem off1 : ∀ t : Fin cfg2.N, k2_off1 (grid2.coords t) 0 = 1024 * (t.val % 8) ∧ k2_off1 (grid2.coords t) 1 = 0 :=
  (by decide +kernel : ∀ t : Fin grid2.N, k2_off1 (grid2.coords t) 0 = 1024 * (t.val % 8) ∧ k2_off1 (grid2.coords t) 1 = 0)

/-- The scores' block at point `t`: rows of row block `t / 8`, columns of column block `t % 8`. -/
theorem iblk0_apply (c : Dev nD) (t : Fin cfg2.N) (r k : Fin 1024) :
    iblk V c 0 t (ix2 r k) = V c main_v2_0 (ix2 (rowOf t r) (colOf t k)) := by
  unfold iblk
  rw [View.read_apply]
  show V c main_v2_0 _ = V c main_v2_0 _
  congr 1
  funext a
  apply Fin.ext
  match a with
  | ⟨0, _⟩ => show win2_0.index t 0 * 1024 + 1 * r.val = 1024 * (t.val / 8) + r.val; rw [(idx0 t).1]; omega
  | ⟨1, _⟩ => show win2_0.index t 1 * 1024 + 1 * k.val = 1024 * (t.val % 8) + k.val; rw [(idx0 t).2]; omega

/-- The row factors' block at point `t`: rows of row block `t / 8`. -/
theorem iblk2_apply (c : Dev nD) (t : Fin cfg2.N) (r : Fin 1024) (u : Fin 1) :
    iblk V c 2 t (ix2 r u) = V c main_v8 (ix2 (rowOf t r) (0 : Fin 1)) := by
  unfold iblk
  rw [View.read_apply]
  show V c main_v8 _ = V c main_v8 _
  congr 1
  funext a
  apply Fin.ext
  match a with
  | ⟨0, _⟩ => show win2_2.index t 0 * 1024 + 1 * r.val = 1024 * (t.val / 8) + r.val; rw [(idx2 t).1]; omega
  | ⟨1, _⟩ => show win2_2.index t 1 * 1 + 1 * u.val = 0; rw [(idx2 t).2]; omega

/-- The 1024 rows the point reads of the resident array: rows of block `t % 8`. -/
theorem audBlk_apply (c : Dev nD) (t : Fin cfg2.N) (k d : Fin 1024) :
    audBlk V c t (ix2 k d) = V c main_v1 (ix2 (colOf t k) d) := by
  show iblk V c 1 t ((Rect.unit (s := S8192x1024) (k2_off1 (grid2.coords t)) S1024x1024.size (k2_off1_inb (grid2.coords t))).emb (ix2 k d)) = _
  unfold iblk
  rw [View.read_apply]
  show V c main_v1 _ = V c main_v1 _
  congr 1
  funext a
  apply Fin.ext
  match a with
  | ⟨0, _⟩ => show win2_1.index t 0 * 8192 + 1 * (k2_off1 (grid2.coords t) 0 + 1 * k.val) = 1024 * (t.val % 8) + k.val; rw [(idx1 t).1, (off1 t).1]; omega
  | ⟨1, _⟩ => show win2_1.index t 1 * 1024 + 1 * (k2_off1 (grid2.coords t) 1 + 1 * d.val) = d.val; rw [(idx1 t).2, (off1 t).2]; omega

end Blocks

/-! ## The payloads at an entry, over the extended reals -/

section AtIdeal

/-- An `[a]` array cast to `[a, 1]` reads, at `(i, u)`, the operand at `i`. -/
theorem cast_col {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- The exponentiated, scaled score: exp (s · rowinv · 6). -/
theorem pay4_apply (x0 : Vec Ideal S1024x1024 .f32) (x2 : Vec Ideal S1024x1 .f32) (r k : Fin 1024) :
    k2_pay4 (F := Ideal) x0 x2 (ix2 r k) = Ideal.exp (x0 (ix2 r k) * x2 (ix2 r (0 : Fin 1)) * Cert.Spec.six) := by
  have e1 : shapeCast S1024x1024 x0 shapeCasts_S1024x1024_S1024x1024 = x0 := shapeCast_self _ _
  have e2 : shapeCast S1024x1 x2 shapeCasts_S1024x1_S1024x1 = x2 := shapeCast_self _ _
  have e3 : broadcastTo S1024x1024 x2 broadcasts_S1024x1_S1024x1024 (ix2 r k) = x2 (ix2 r (0 : Fin 1)) :=
    LaneRows.broadcastTo_col_apply x2 _ r k
  unfold k2_pay4
  show Ideal.exp (shapeCast S1024x1024 x0 shapeCasts_S1024x1024_S1024x1024 (ix2 r k)
      * broadcastTo S1024x1024 (shapeCast S1024x1 x2 shapeCasts_S1024x1_S1024x1) broadcasts_S1024x1_S1024x1024 (ix2 r k)
      * Ideal.ofBits .f32 0x40C00000#32) = _
  rw [e1, e2, e3]
  rfl

/-- The zero fills. -/
theorem pay2_apply (y : S1024x1024.Idx) : k2_pay2 (F := Ideal) y = 0 := by
  have e1 : ∀ v : FVec Ideal S1024x1024 .f32, shapeCast S1024x1024 v shapeCasts_S1024x1024_S1024x1024 = v := fun v => shapeCast_self _ _
  unfold k2_pay2
  show shapeCast S1024x1024 (broadcast S1024x1024 (Ideal.ofBits .f32 0x00000000#32)) shapeCasts_S1024x1024_S1024x1024 y = 0
  rw [e1]
  exact Ideal.ofBits_zero_f32
theorem pay3_apply (y : S1024x1.Idx) : k2_pay3 (F := Ideal) y = 0 := by
  have e1 : ∀ v : FVec Ideal S1024x1 .f32, shapeCast S1024x1 v shapeCasts_S1024x1_S1024x1 = v := fun v => shapeCast_self _ _
  unfold k2_pay3
  show shapeCast S1024x1 (broadcast S1024x1 (Ideal.ofBits .f32 0x00000000#32)) shapeCasts_S1024x1_S1024x1 y = 0
  rw [e1]
  exact Ideal.ofBits_zero_f32

/-- The denominator's step: what it held plus the row sum of the point's 1024 weights. -/
theorem pay5_apply (x0 : Vec Ideal S1024x1024 .f32) (x2 : Vec Ideal S1024x1 .f32) (acc : Vec Ideal S1024x1 .f32) (r : Fin 1024) (u : Fin 1) :
    k2_pay5 (F := Ideal) x0 x2 acc (ix2 r u) = acc (ix2 r u) + ∑ k : Fin 1024, k2_pay4 (F := Ideal) x0 x2 (ix2 r k) := by
  have e1 : ∀ v : FVec Ideal S1024x1 .f32, shapeCast S1024x1 v shapeCasts_S1024x1_S1024x1 = v := fun v => shapeCast_self _ _
  unfold k2_pay5
  show shapeCast S1024x1 (addf acc (shapeCast S1024x1 (multiReduction .add [1] S1024 (k2_pay4 (F := Ideal) x0 x2) 0x00000000#32 reduces_S1024x1024_S1024 (.inl rfl) rfl) shapeCasts_S1024_S1024x1)) shapeCasts_S1024x1_S1024x1 (ix2 r u) = _
  rw [e1]
  show acc (ix2 r u) + shapeCast S1024x1 (multiReduction .add [1] S1024 (k2_pay4 (F := Ideal) x0 x2) 0x00000000#32 reduces_S1024x1024_S1024 (.inl rfl) rfl) shapeCasts_S1024_S1024x1 (ix2 r u) = _
  refine congrArg (acc (ix2 r u) + ·) ?_
  refine (cast_col _ _ r u).trans ?_
  exact LaneRows.multiReduction_add_rows (k2_pay4 (F := Ideal) x0 x2) _ _ _ _ r

/-- The numerator's step: what it held plus the point's 1024 weights times the 1024 rows it reads. -/
theorem pay6_apply (x0 : Vec Ideal S1024x1024 .f32) (x2 : Vec Ideal S1024x1 .f32) (v23 : Vec Ideal S1024x1024 .bf16) (acc : Vec Ideal S1024x1024 .f32) (r d : Fin 1024) :
    k2_pay6 (F := Ideal) x0 x2 v23 acc (ix2 r d) = acc (ix2 r d) + ∑ k : Fin 1024, k2_pay4 (F := Ideal) x0 x2 (ix2 r k) * v23 (ix2 k d) := by
  have e1 : ∀ v : FVec Ideal S1024x1024 .f32, shapeCast S1024x1024 v shapeCasts_S1024x1024_S1024x1024 = v := fun v => shapeCast_self _ _
  have e2 : ∀ v : FVec Ideal S1024x1024 .bf16, shapeCast S1024x1024 v shapeCasts_S1024x1024_S1024x1024 = v := fun v => shapeCast_self _ _
  unfold k2_pay6
  show shapeCast S1024x1024 (addf acc (matmul dot_S1024x1024_S1024x1024_S1024x1024_1_0_0_1_n_n none
      (truncf .bf16 (k2_pay4 (F := Ideal) x0 x2) bitsLt_bf16_f32) (shapeCast S1024x1024 v23 shapeCasts_S1024x1024_S1024x1024)
      (constant S1024x1024 .f32 0x00000000#32))) shapeCasts_S1024x1024_S1024x1024 (ix2 r d) = _
  rw [e1, e2]
  show acc (ix2 r d) + matmul dot_S1024x1024_S1024x1024_S1024x1024_1_0_0_1_n_n none
      (truncf .bf16 (k2_pay4 (F := Ideal) x0 x2) bitsLt_bf16_f32) v23 (constant S1024x1024 .f32 0x00000000#32) (ix2 r d) = _
  refine congrArg (acc (ix2 r d) + ·) ?_
  exact Cert.Lib.DotCols.matmul_cols_apply (M := 1024) (K := 1024) (N := 1024) dot_S1024x1024_S1024x1024_S1024x1024_1_0_0_1_n_n rfl none
    (truncf .bf16 (k2_pay4 (F := Ideal) x0 x2) bitsLt_bf16_f32) v23 r d

/-- The read-out: the numerator over the row's denominator. -/
theorem pay1_apply (v34 : Vec Ideal S1024x1024 .f32) (v35 : Vec Ideal S1024x1 .f32) (r d : Fin 1024) :
    k2_pay1 (F := Ideal) v34 v35 (ix2 r d) = Ideal.div (v34 (ix2 r d)) (v35 (ix2 r (0 : Fin 1))) := by
  have e3 : broadcastTo S1024x1024 v35 broadcasts_S1024x1_S1024x1024 (ix2 r d) = v35 (ix2 r (0 : Fin 1)) :=
    LaneRows.broadcastTo_col_apply v35 _ r d
  unfold k2_pay1
  show Ideal.div (v34 (ix2 r d)) (broadcastTo S1024x1024 v35 broadcasts_S1024x1_S1024x1024 (ix2 r d)) = _
  rw [e3]

end AtIdeal

/-! ## The accumulation over a grid row, and the result -/

section Acc
variable (V : (c : Dev nD) → (b : Ref sig .tc) → Buf (Elt Ideal) ((c : Thread nD τ).loc b))

/-- The three arrays the region is handed: the scores, the resident array, the row factors. -/
abbrev Sg (c : Dev nD) : Cert.Spec.Sq := V c main_v2_0
abbrev Ag (c : Dev nD) : Cert.Spec.Arr := V c main_v1
abbrev Rg (c : Dev nD) : Cert.Spec.Col := V c main_v8

/-- The weight of column `m` in row `n`: exp (S[n,m] · R[n,0] · 6). -/
def wt (c : Dev nD) (n m : Fin 8192) : EReal :=
  Ideal.exp (Sg V c (ix2 n m) * Rg V c (ix2 n (0 : Fin 1)) * Cert.Spec.six)

theorem pay4_blk (c : Dev nD) (t : Fin cfg2.N) (r k : Fin 1024) :
    k2_pay4 (F := Ideal) (iblk V c 0 t) (iblk V c 2 t) (ix2 r k) = wt V c (rowOf t r) (colOf t k) := by
  rw [pay4_apply, iblk0_apply, iblk2_apply]
  rfl

/-- One point's step of the numerator and of the denominator, at an entry. -/
theorem num_apply (c : Dev nD) (t : Fin cfg2.N) (acc : Vec Ideal S1024x1024 .f32) (r d : Fin 1024) :
    num V c t acc (ix2 r d) = acc (ix2 r d) + ∑ k : Fin 1024, wt V c (rowOf t r) (colOf t k) * Ag V c (ix2 (colOf t k) d) := by
  show k2_pay6 (F := Ideal) (iblk V c 0 t) (iblk V c 2 t) (audBlk V c t) acc (ix2 r d) = _
  rw [pay6_apply]
  refine congrArg (acc (ix2 r d) + ·) (Finset.sum_congr rfl fun k _ => ?_)
  rw [pay4_blk, audBlk_apply]

theorem den_apply (c : Dev nD) (t : Fin cfg2.N) (acc : Vec Ideal S1024x1 .f32) (r : Fin 1024) (u : Fin 1) :
    den V c t acc (ix2 r u) = acc (ix2 r u) + ∑ k : Fin 1024, wt V c (rowOf t r) (colOf t k) := by
  show k2_pay5 (F := Ideal) (iblk V c 0 t) (iblk V c 2 t) acc (ix2 r u) = _
  rw [pay5_apply]
  refine congrArg (acc (ix2 r u) + ·) (Finset.sum_congr rfl fun k _ => ?_)
  rw [pay4_blk]

/-- `outsAt` does not depend on how its position is spelt. -/
theorem outsAt_congr (c : Dev nD) {n n' : ℕ} (e : n = n') (h : n < cfg2.N) (h' : n' < cfg2.N) :
    outsAt V c n h = outsAt V c n' h' := by subst e; rfl

/-- The two scratch buffers after a point: at the first point of a grid row from zero, later from what the point
    before left. -/
theorem s0_first (c : Dev nD) (t : Fin cfg2.N) (h0 : t.val % 8 = 0) :
    (outsAt V c t.val t.isLt).2.1 = num V c t (k2_pay2 (F := Ideal)) := by
  have h1 : ¬t.val % 8 = 7 := by omega
  rw [outsAt_A V c t h0 h1]
  unfold outA; dsimp only
  exact sA0 V c t h0 h1
theorem s1_first (c : Dev nD) (t : Fin cfg2.N) (h0 : t.val % 8 = 0) :
    (outsAt V c t.val t.isLt).2.2 = den V c t (k2_pay3 (F := Ideal)) := by
  have h1 : ¬t.val % 8 = 7 := by omega
  rw [outsAt_A V c t h0 h1]
  unfold outA; dsimp only
  exact sA1 V c t h0 h1
theorem s0_step (c : Dev nD) (t : Fin cfg2.N) (h0 : ¬t.val % 8 = 0) :
    (outsAt V c t.val t.isLt).2.1 = num V c t (outsAt V c (t.val - 1) (Nat.lt_of_le_of_lt (Nat.sub_le _ _) t.isLt)).2.1 := by
  by_cases h1 : t.val % 8 = 7
  · rw [outsAt_C V c t h0 h1]
    unfold outC; dsimp only
    exact sC0 V c t h0 h1 (outsAt V c (t.val - 1) (Nat.lt_of_le_of_lt (Nat.sub_le _ _) t.isLt)).2.1 (outsAt V c (t.val - 1) (Nat.lt_of_le_of_lt (Nat.sub_le _ _) t.isLt)).2.2
  · rw [outsAt_B V c t h0 h1]
    unfold outB; dsimp only
    exact sB0 V c t h0 h1 (outsAt V c (t.val - 1) (Nat.lt_of_le_of_lt (Nat.sub_le _ _) t.isLt)).2.1 (outsAt V c (t.val - 1) (Nat.lt_of_le_of_lt (Nat.sub_le _ _) t.isLt)).2.2
theorem s1_step (c : Dev nD) (t : Fin cfg2.N) (h0 : ¬t.val % 8 = 0) :
    (outsAt V c t.val t.isLt).2.2 = den V c t (outsAt V c (t.val - 1) (Nat.lt_of_le_of_lt (Nat.sub_le _ _) t.isLt)).2.2 := by
  by_cases h1 : t.val % 8 = 7
  · rw [outsAt_C V c t h0 h1]
    unfold outC; dsimp only
    exact sC1 V c t h0 h1 (outsAt V c (t.val - 1) (Nat.lt_of_le_of_lt (Nat.sub_le _ _) t.isLt)).2.1 (outsAt V c (t.val - 1) (Nat.lt_of_le_of_lt (Nat.sub_le _ _) t.isLt)).2.2
  · rw [outsAt_B V c t h0 h1]
    unfold outB; dsimp only
    exact sB1 V c t h0 h1 (outsAt V c (t.val - 1) (Nat.lt_of_le_of_lt (Nat.sub_le _ _) t.isLt)).2.1 (outsAt V c (t.val - 1) (Nat.lt_of_le_of_lt (Nat.sub_le _ _) t.isLt)).2.2
/-- At the last point of a grid row the output buffer is the quotient of the two scratch buffers as that point leaves them. -/
theorem out_last (c : Dev nD) (t : Fin cfg2.N) (h1 : t.val % 8 = 7) :
    (outsAt V c t.val t.isLt).1 = k2_pay1 (outsAt V c t.val t.isLt).2.1 (outsAt V c t.val t.isLt).2.2 := by
  have h0 : ¬t.val % 8 = 0 := by omega
  rw [s0_step V c t h0, s1_step V c t h0, outsAt_C V c t h0 h1]
  unfold outC; dsimp only
  exact oC V c t h0 h1 (outsAt V c (t.val - 1) (Nat.lt_of_le_of_lt (Nat.sub_le _ _) t.isLt)).2.1 (outsAt V c (t.val - 1) (Nat.lt_of_le_of_lt (Nat.sub_le _ _) t.isLt)).2.2

/-- Point `j` of grid row `q`. -/
def pt (q j : Fin 8) : Fin cfg2.N := ⟨8 * q.val + j.val, lt_of_lt_of_eq (by omega : 8 * q.val + j.val < 64) N_2.symm⟩
theorem pt_val (q j : Fin 8) : (pt q j).val = 8 * q.val + j.val := rfl

/-- Row `r` of row block `q`, and column `k` of column block `j`, in the arrays. -/
abbrev rowQ (q : Fin 8) (r : Fin 1024) : Fin 8192 := ⟨1024 * q.val + r.val, by omega⟩
theorem rowOf_pt (q j : Fin 8) (r : Fin 1024) : rowOf (pt q j) r = rowQ q r := Fin.ext (by show 1024 * ((8 * q.val + j.val) / 8) + r.val = 1024 * q.val + r.val; omega)
theorem colOf_pt (q j : Fin 8) (k : Fin 1024) : colOf (pt q j) k = (⟨1024 * j.val + k.val, by omega⟩ : Fin 8192) := Fin.ext (by show 1024 * ((8 * q.val + j.val) % 8) + k.val = 1024 * j.val + k.val; omega)

/-- THE NUMERATOR after the last point of grid row `q`: the sum over all 8192 columns. -/
theorem num_row (c : Dev nD) (q : Fin 8) (r d : Fin 1024) :
    (outsAt V c (pt q 7).val (pt q 7).isLt).2.1 (ix2 r d) = ∑ m : Fin 8192, wt V c (rowQ q r) m * Ag V c (ix2 m d) := by
  have key := Cert.Lib.GridAcc.acc_fin_eq_sum (n := 7)
    (fun j : Fin 8 => (outsAt V c (pt q j).val (pt q j).isLt).2.1 (ix2 r d))
    (fun j : Fin 8 => ∑ k : Fin 1024, wt V c (rowQ q r) (⟨1024 * j.val + k.val, by omega⟩ : Fin 8192) * Ag V c (ix2 (⟨1024 * j.val + k.val, by omega⟩ : Fin 8192) d))
    (by
      show (outsAt V c (pt q 0).val (pt q 0).isLt).2.1 (ix2 r d) = _
      rw [s0_first V c (pt q 0) (by rw [pt_val]; omega), num_apply, pay2_apply]
      refine congrArg ((0 : EReal) + ·) (Finset.sum_congr rfl fun k _ => ?_)
      rw [rowOf_pt, colOf_pt])
    (fun j => by
      show (outsAt V c (pt q j.succ).val (pt q j.succ).isLt).2.1 (ix2 r d) = (outsAt V c (pt q j.castSucc).val (pt q j.castSucc).isLt).2.1 (ix2 r d) + _
      rw [s0_step V c (pt q j.succ) (by rw [pt_val, Fin.val_succ]; omega), num_apply,
        outsAt_congr V c (show (pt q j.succ).val - 1 = (pt q j.castSucc).val by rw [pt_val, pt_val, Fin.val_succ, Fin.coe_castSucc]; omega) _ (pt q j.castSucc).isLt]
      refine congrArg (_ + ·) (Finset.sum_congr rfl fun k _ => ?_)
      rw [rowOf_pt, colOf_pt])
  refine (key.trans ?_)
  exact (Cert.Lib.GridAcc.sum_8192 (fun m : Fin 8192 => wt V c (rowQ q r) m * Ag V c (ix2 m d))).symm

/-- THE DENOMINATOR after the last point of grid row `q`. -/
theorem den_row (c : Dev nD) (q : Fin 8) (r : Fin 1024) (u : Fin 1) :
    (outsAt V c (pt q 7).val (pt q 7).isLt).2.2 (ix2 r u) = ∑ m : Fin 8192, wt V c (rowQ q r) m := by
  have key := Cert.Lib.GridAcc.acc_fin_eq_sum (n := 7)
    (fun j : Fin 8 => (outsAt V c (pt q j).val (pt q j).isLt).2.2 (ix2 r u))
    (fun j : Fin 8 => ∑ k : Fin 1024, wt V c (rowQ q r) (⟨1024 * j.val + k.val, by omega⟩ : Fin 8192))
    (by
      show (outsAt V c (pt q 0).val (pt q 0).isLt).2.2 (ix2 r u) = _
      rw [s1_first V c (pt q 0) (by rw [pt_val]; omega), den_apply, pay3_apply]
      refine congrArg ((0 : EReal) + ·) (Finset.sum_congr rfl fun k _ => ?_)
      rw [rowOf_pt, colOf_pt])
    (fun j => by
      show (outsAt V c (pt q j.succ).val (pt q j.succ).isLt).2.2 (ix2 r u) = (outsAt V c (pt q j.castSucc).val (pt q j.castSucc).isLt).2.2 (ix2 r u) + _
      rw [s1_step V c (pt q j.succ) (by rw [pt_val, Fin.val_succ]; omega), den_apply,
        outsAt_congr V c (show (pt q j.succ).val - 1 = (pt q j.castSucc).val by rw [pt_val, pt_val, Fin.val_succ, Fin.coe_castSucc]; omega) _ (pt q j.castSucc).isLt]
      refine congrArg (_ + ·) (Finset.sum_congr rfl fun k _ => ?_)
      rw [rowOf_pt, colOf_pt])
  refine (key.trans ?_)
  exact (Cert.Lib.GridAcc.sum_8192 (fun m : Fin 8192 => wt V c (rowQ q r) m)).symm

/-- What the last point of grid row `q` leaves in the output buffer: the region's result at rows of row block `q`. -/
theorem out_row (c : Dev nD) (q : Fin 8) (r d : Fin 1024) :
    (outsAt V c (pt q 7).val (pt q 7).isLt).1 (ix2 r d)
      = Cert.Spec.reg2out (V c main_v2_0) (V c main_v1) (V c main_v8) (ix2 (rowQ q r) d) := by
  rw [out_last V c (pt q 7) (by rw [pt_val]; show (8 * q.val + 7) % 8 = 7; omega), pay1_apply, num_row, den_row]
  rfl

end Acc

/-! ## The result array -/

section Final
variable (V : (c : Dev nD) → (b : Ref sig .tc) → Buf (Elt Ideal) ((c : Thread nD τ).loc b))

/-- Each write-back (the last point of a grid row) writes the region's result at its block. -/
theorem flushed_eq (c : Dev nD) (t : Fin cfg2.N) (hf : (cfg2.win 3).flush t = true) :
    (dat V c).flushed 3 t
      = ((cfg2.win 3).blk t).view.read (Elt Ideal) (Cert.Spec.reg2out (V c main_v2_0) (V c main_v1) (V c main_v8)) := by
  have h7 : t.val % 8 = 7 := (flush2_3 t).mp hf
  have hlt := tlt t
  obtain ⟨q, rfl⟩ : ∃ q : Fin 8, t = pt q 7 :=
    ⟨⟨t.val / 8, by omega⟩, Fin.ext (by show t.val = 8 * (t.val / 8) + 7; omega)⟩
  show (cfg2.win 3).cut (grid2.coords (pt q 7)) ((dat V c).after 3 (pt q 7)) = _
  rw [after_3]
  refine funext fun (y : S1024x1024.Idx) => ?_
  obtain ⟨r, d, rfl⟩ : ∃ (r d : Fin 1024), y = ix2 r d := ⟨y 0, y 1, eq_ix2 y⟩
  show (outsAt V c (pt q 7).val (pt q 7).isLt).1 (ix2 r d) = _
  refine ((out_row V c q r d).trans ?_).trans
    (blk3_read_apply (F := Ideal) c (Cert.Spec.reg2out (V c main_v2_0) (V c main_v1) (V c main_v8)) (pt q 7) r d).symm
  exact congrArg (fun n : Fin 8192 => Cert.Spec.reg2out (V c main_v2_0) (V c main_v1) (V c main_v8) (ix2 n d))
    (Fin.ext (by show 1024 * q.val + r.val = 1024 * ((8 * q.val + 7) / 8) + r.val; omega))

/-- THE REGION'S VALUE: after the last point the result array holds, at (n, d), the exponentiated scaled scores of
    row n multiplied into column d of the resident array, divided by the row's sum of them. -/
theorem arrAt_out (c : Dev nD) :
    (dat (F := Ideal) V c).arrAt 3 cfg2.N = Cert.Spec.reg2out (V c main_v2_0) (V c main_v1) (V c main_v8) :=
  arrAt_of_flushed V c _ (flushed_eq V c)

end Final

end Cert.KernelIdeal.Reg2

end
-- ==== Proof.KI.Reg3Pieces.lean ====
/-
  Region 3, what the body's stores leave, read as values (for any float interpretation).

  In each of the three control cases every buffer the body stores into ends at ONE payload of the blocks it reads: the
  last store into it covers it whole, and each load before it reads a whole buffer (or, for `im`, the 1024 rows from
  row `1024·i` of the resident block).  So scratch 0 ends at "what it held (zero at a row's first point) plus the
  block's weights against the rows of `im`", scratch 1 at "what it held plus the column sums of the block's weights",
  and at a row's last point the output block at their quotient.  Then the three input blocks at a grid point
  t = 8·j + i, entry by entry: the scores' block (i, j), rows `1024·i ..` of `im`, block j of the row of column norms.
-/
import proofs.«128303_j3917010174495_2_alg».proof.Proof.KI.Reg3Frame
import Idealize.ShloMosaic.Lib.ValueIdx
import Idealize.ShloMosaic.Lib.Pipeline.Value

set_option maxRecDepth 16384

noncomputable section

namespace Cert.KernelIdeal.Reg3

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen

/-! ## What each case's stores leave, as the payloads' values

Generic in the float interpretation: each buffer ends at ONE payload of the blocks read — the last store into it
covers it, and the loads before it read whole buffers. -/

section Pieces
variable {F : FTy → Type} [FloatOps F]

theorem hz2 : (![0, 0] : Fin 2 → Nat) = fun _ => 0 := funext fun a => by fin_cases a <;> rfl

/-- The rows of `im`'s resident block the body reads at grid point `i`: 1024 rows from row `1024·i₁`. -/
abbrev imRect (i : grid3.Coords) : Rect S8192x1024 := Rect.unit (s := S8192x1024) (k3_off1 i) S1024x1024.size (k3_off1_inb i)
abbrev imRows (i : grid3.Coords) (x1 : Vec F S8192x1024 .bf16) : Vec F S1024x1024 .bf16 := View.ld x1 (imRect i)

theorem sB_1 (c : Dev nD) (i : grid3.Coords) (arg2 : Memref sig .tc .vmem S1024x1024 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (hc0 : ¬cond0 i) (hc1 : ¬cond1 i) (x0 : Vec F S1024x1024 .f32) (x1 : Vec F S8192x1024 .bf16) (x2 : Vec F S1x1024 .f32) (xs0 : Vec F S1024x1024 .f32) (xs1 : Vec F S1024x1 .f32) :
    rdS1 (kernelRun_B c i arg2 harg2 arg3 harg3 arg4 harg4 arg5 harg5 arg6 harg6 arg7 harg7 hc0 hc1 x0 x1 x2 xs0 xs1).2.2.1 = k3_pay5 x0 x2 xs1 := by
  unfold rdS1
  rw [View.read_writes_eq_canon _ _ _ (scoverB_1 c i arg2 harg2 arg3 harg3 arg4 harg4 arg5 harg5 arg6 harg6 arg7 harg7 hc0 hc1 x0 x1 x2 xs0 xs1)]
  unfold kernelRun_B
  dsimp only
  rw [View.canon_unit_zero hz2]
  simp only [View.readAt_eq_ld, harg2.read_unread, harg4.read_unread, harg7.read_unread, View.ld_unit_zero (S := S1024x1024) hz2, View.ld_unit_zero (S := S1x1024) hz2, View.ld_unit_zero (S := S1024x1) hz2]

theorem sB_0 (c : Dev nD) (i : grid3.Coords) (arg2 : Memref sig .tc .vmem S1024x1024 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (hc0 : ¬cond0 i) (hc1 : ¬cond1 i) (x0 : Vec F S1024x1024 .f32) (x1 : Vec F S8192x1024 .bf16) (x2 : Vec F S1x1024 .f32) (xs0 : Vec F S1024x1024 .f32) (xs1 : Vec F S1024x1 .f32) :
    rdS0 (kernelRun_B c i arg2 harg2 arg3 harg3 arg4 harg4 arg5 harg5 arg6 harg6 arg7 harg7 hc0 hc1 x0 x1 x2 xs0 xs1).2.1 = k3_pay6 x0 x2 (imRows i x1) xs0 := by
  unfold rdS0
  rw [View.read_writes_eq_canon _ _ _ (scoverB_0 c i arg2 harg2 arg3 harg3 arg4 harg4 arg5 harg5 arg6 harg6 arg7 harg7 hc0 hc1 x0 x1 x2 xs0 xs1)]
  unfold kernelRun_B
  dsimp only
  rw [View.canon_unit_zero hz2]
  simp only [View.readAt_eq_ld, harg2.read_unread, harg3.read_unread, harg4.read_unread, harg6.read_unread, View.ld_unit_zero (S := S1024x1024) hz2, View.ld_unit_zero (S := S1x1024) hz2]

theorem sA_1 (c : Dev nD) (i : grid3.Coords) (arg2 : Memref sig .tc .vmem S1024x1024 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (hc0 : cond0 i) (hc1 : ¬cond1 i) (x0 : Vec F S1024x1024 .f32) (x1 : Vec F S8192x1024 .bf16) (x2 : Vec F S1x1024 .f32) :
    rdS1 (kernelRun_A c i arg2 harg2 arg3 harg3 arg4 harg4 arg5 harg5 arg6 harg6 arg7 harg7 hc0 hc1 x0 x1 x2).2.2.1 = k3_pay5 x0 x2 (k3_pay3 (F := F)) := by
  unfold rdS1
  rw [View.read_writes_eq_canon _ _ _ (scoverA_1 c i arg2 harg2 arg3 harg3 arg4 harg4 arg5 harg5 arg6 harg6 arg7 harg7 hc0 hc1 x0 x1 x2)]
  unfold kernelRun_A
  dsimp only
  sl_unfold_run_names
  rw [View.canon_cons_unit_zero (S := S1024x1) hz2, View.readCov_unit_zero (S := S1024x1) _ hz2]
  simp only [View.readAt_eq_ld, harg2.read_unread, harg3.read_unread, harg4.read_unread, harg6.read_unread, harg7.read_unread, View.ld_unit_zero (S := S1024x1024) hz2, View.ld_unit_zero (S := S1x1024) hz2, View.ld_unit_zero (S := S1024x1) hz2]

theorem sA_0 (c : Dev nD) (i : grid3.Coords) (arg2 : Memref sig .tc .vmem S1024x1024 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (hc0 : cond0 i) (hc1 : ¬cond1 i) (x0 : Vec F S1024x1024 .f32) (x1 : Vec F S8192x1024 .bf16) (x2 : Vec F S1x1024 .f32) :
    rdS0 (kernelRun_A c i arg2 harg2 arg3 harg3 arg4 harg4 arg5 harg5 arg6 harg6 arg7 harg7 hc0 hc1 x0 x1 x2).2.1 = k3_pay6 x0 x2 (imRows i x1) (k3_pay2 (F := F)) := by
  unfold rdS0
  rw [View.read_writes_eq_canon _ _ _ (scoverA_0 c i arg2 harg2 arg3 harg3 arg4 harg4 arg5 harg5 arg6 harg6 arg7 harg7 hc0 hc1 x0 x1 x2)]
  unfold kernelRun_A
  dsimp only
  sl_unfold_run_names
  rw [View.canon_cons_unit_zero (S := S1024x1024) hz2, View.readCov_unit_zero (S := S1024x1024) _ hz2]
  simp only [View.readAt_eq_ld, harg2.read_unread, harg3.read_unread, harg4.read_unread, harg6.read_unread, harg7.read_unread, View.ld_unit_zero (S := S1024x1024) hz2, View.ld_unit_zero (S := S1x1024) hz2, View.ld_unit_zero (S := S1024x1) hz2]

theorem sC_1 (c : Dev nD) (i : grid3.Coords) (arg2 : Memref sig .tc .vmem S1024x1024 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (hc0 : ¬cond0 i) (hc1 : cond1 i) (x0 : Vec F S1024x1024 .f32) (x1 : Vec F S8192x1024 .bf16) (x2 : Vec F S1x1024 .f32) (xs0 : Vec F S1024x1024 .f32) (xs1 : Vec F S1024x1 .f32) :
    rdS1 (kernelRun_C c i arg2 harg2 arg3 harg3 arg4 harg4 arg5 harg5 arg6 harg6 arg7 harg7 hc0 hc1 x0 x1 x2 xs0 xs1).2.2.1 = k3_pay5 x0 x2 xs1 := by
  unfold rdS1
  rw [View.read_writes_eq_canon _ _ _ (scoverC_1 c i arg2 harg2 arg3 harg3 arg4 harg4 arg5 harg5 arg6 harg6 arg7 harg7 hc0 hc1 x0 x1 x2 xs0 xs1)]
  unfold kernelRun_C
  dsimp only
  sl_unfold_run_names
  rw [View.canon_unit_zero hz2]
  simp only [View.readAt_eq_ld, harg2.read_unread, harg3.read_unread, harg4.read_unread, harg6.read_unread, harg7.read_unread, View.ld_unit_zero (S := S1024x1024) hz2, View.ld_unit_zero (S := S1x1024) hz2, View.ld_unit_zero (S := S1024x1) hz2]

theorem sC_0 (c : Dev nD) (i : grid3.Coords) (arg2 : Memref sig .tc .vmem S1024x1024 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (hc0 : ¬cond0 i) (hc1 : cond1 i) (x0 : Vec F S1024x1024 .f32) (x1 : Vec F S8192x1024 .bf16) (x2 : Vec F S1x1024 .f32) (xs0 : Vec F S1024x1024 .f32) (xs1 : Vec F S1024x1 .f32) :
    rdS0 (kernelRun_C c i arg2 harg2 arg3 harg3 arg4 harg4 arg5 harg5 arg6 harg6 arg7 harg7 hc0 hc1 x0 x1 x2 xs0 xs1).2.1 = k3_pay6 x0 x2 (imRows i x1) xs0 := by
  unfold rdS0
  rw [View.read_writes_eq_canon _ _ _ (scoverC_0 c i arg2 harg2 arg3 harg3 arg4 harg4 arg5 harg5 arg6 harg6 arg7 harg7 hc0 hc1 x0 x1 x2 xs0 xs1)]
  unfold kernelRun_C
  dsimp only
  sl_unfold_run_names
  rw [View.canon_unit_zero hz2]
  simp only [View.readAt_eq_ld, harg2.read_unread, harg3.read_unread, harg4.read_unread, harg6.read_unread, harg7.read_unread, View.ld_unit_zero (S := S1024x1024) hz2, View.ld_unit_zero (S := S1x1024) hz2, View.ld_unit_zero (S := S1024x1) hz2]

theorem oC_3 (c : Dev nD) (i : grid3.Coords) (arg2 : Memref sig .tc .vmem S1024x1024 .f32) (harg2 : arg2.IsWhole) (arg3 : Memref sig .tc .vmem S8192x1024 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (hc0 : ¬cond0 i) (hc1 : cond1 i) (x0 : Vec F S1024x1024 .f32) (x1 : Vec F S8192x1024 .bf16) (x2 : Vec F S1x1024 .f32) (xs0 : Vec F S1024x1024 .f32) (xs1 : Vec F S1024x1 .f32) :
    rdO (kernelRun_C c i arg2 harg2 arg3 harg3 arg4 harg4 arg5 harg5 arg6 harg6 arg7 harg7 hc0 hc1 x0 x1 x2 xs0 xs1).1 = k3_pay1 (k3_pay6 x0 x2 (imRows i x1) xs0) (k3_pay5 x0 x2 xs1) := by
  unfold rdO
  rw [View.read_writes_eq_canon _ _ _ (coverC_3 c i arg2 harg2 arg3 harg3 arg4 harg4 arg5 harg5 arg6 harg6 arg7 harg7 hc0 hc1 x0 x1 x2 xs0 xs1)]
  unfold kernelRun_C
  dsimp only
  sl_unfold_run_names
  rw [View.canon_unit_zero hz2, View.readCov_unit_zero (S := S1024x1024) _ hz2, View.readCov_unit_zero (S := S1024x1) _ hz2]
  simp only [View.readAt_eq_ld, harg2.read_unread, harg3.read_unread, harg4.read_unread, harg6.read_unread, harg7.read_unread, View.ld_unit_zero (S := S1024x1024) hz2, View.ld_unit_zero (S := S1x1024) hz2, View.ld_unit_zero (S := S1024x1) hz2]

end Pieces

/-! ## The cases' buffers at a point, as payloads of the point's blocks -/

section AtPoint
variable {F : FTy → Type} [FloatOps F]
variable (V : (c : Dev nD) → (b : Ref sig .tc) → Buf (Elt F) ((c : Thread nD τ).loc b))

theorem outsA_21 (c : Dev nD) (t : Fin cfg3.N) (h0 : t.val % 8 = 0) (h1 : ¬t.val % 8 = 7) :
    (outsA V c t h0 h1).2.1 = k3_pay6 (iblk V c 0 t) (iblk V c 2 t) (imRows (grid3.coords t) (iblk V c 1 t)) (k3_pay2 (F := F)) := by
  unfold outsA; dsimp only
  exact sA_0 c (grid3.coords t) (ms0 t) (hs0 t) (ms1 t) (hs1 t) (ms2 t) (hs2 t) (ms3 t) (hs3 t) scM0 (Memref.isWhole_whole _) scM1 (Memref.isWhole_whole _) ((hcond0 t).mpr h0) (fun h => h1 ((hcond1 t).mp h)) (iblk V c 0 t) (iblk V c 1 t) (iblk V c 2 t)
theorem outsA_22 (c : Dev nD) (t : Fin cfg3.N) (h0 : t.val % 8 = 0) (h1 : ¬t.val % 8 = 7) :
    (outsA V c t h0 h1).2.2 = k3_pay5 (iblk V c 0 t) (iblk V c 2 t) (k3_pay3 (F := F)) := by
  unfold outsA; dsimp only
  exact sA_1 c (grid3.coords t) (ms0 t) (hs0 t) (ms1 t) (hs1 t) (ms2 t) (hs2 t) (ms3 t) (hs3 t) scM0 (Memref.isWhole_whole _) scM1 (Memref.isWhole_whole _) ((hcond0 t).mpr h0) (fun h => h1 ((hcond1 t).mp h)) (iblk V c 0 t) (iblk V c 1 t) (iblk V c 2 t)
theorem outsB_21 (c : Dev nD) (t : Fin cfg3.N) (h0 : ¬t.val % 8 = 0) (h1 : ¬t.val % 8 = 7) (xs0 : Vec F S1024x1024 .f32) (xs1 : Vec F S1024x1 .f32) :
    (outsB V c t h0 h1 xs0 xs1).2.1 = k3_pay6 (iblk V c 0 t) (iblk V c 2 t) (imRows (grid3.coords t) (iblk V c 1 t)) xs0 := by
  unfold outsB; dsimp only
  exact sB_0 c (grid3.coords t) (ms0 t) (hs0 t) (ms1 t) (hs1 t) (ms2 t) (hs2 t) (ms3 t) (hs3 t) scM0 (Memref.isWhole_whole _) scM1 (Memref.isWhole_whole _) (fun h => h0 ((hcond0 t).mp h)) (fun h => h1 ((hcond1 t).mp h)) (iblk V c 0 t) (iblk V c 1 t) (iblk V c 2 t) xs0 xs1
theorem outsB_22 (c : Dev nD) (t : Fin cfg3.N) (h0 : ¬t.val % 8 = 0) (h1 : ¬t.val % 8 = 7) (xs0 : Vec F S1024x1024 .f32) (xs1 : Vec F S1024x1 .f32) :
    (outsB V c t h0 h1 xs0 xs1).2.2 = k3_pay5 (iblk V c 0 t) (iblk V c 2 t) xs1 := by
  unfold outsB; dsimp only
  exact sB_1 c (grid3.coords t) (ms0 t) (hs0 t) (ms1 t) (hs1 t) (ms2 t) (hs2 t) (ms3 t) (hs3 t) scM0 (Memref.isWhole_whole _) scM1 (Memref.isWhole_whole _) (fun h => h0 ((hcond0 t).mp h)) (fun h => h1 ((hcond1 t).mp h)) (iblk V c 0 t) (iblk V c 1 t) (iblk V c 2 t) xs0 xs1
theorem outsC_21 (c : Dev nD) (t : Fin cfg3.N) (h0 : ¬t.val % 8 = 0) (h1 : t.val % 8 = 7) (xs0 : Vec F S1024x1024 .f32) (xs1 : Vec F S1024x1 .f32) :
    (outsC V c t h0 h1 xs0 xs1).2.1 = k3_pay6 (iblk V c 0 t) (iblk V c 2 t) (imRows (grid3.coords t) (iblk V c 1 t)) xs0 := by
  unfold outsC; dsimp only
  exact sC_0 c (grid3.coords t) (ms0 t) (hs0 t) (ms1 t) (hs1 t) (ms2 t) (hs2 t) (ms3 t) (hs3 t) scM0 (Memref.isWhole_whole _) scM1 (Memref.isWhole_whole _) (fun h => h0 ((hcond0 t).mp h)) ((hcond1 t).mpr h1) (iblk V c 0 t) (iblk V c 1 t) (iblk V c 2 t) xs0 xs1
theorem outsC_22 (c : Dev nD) (t : Fin cfg3.N) (h0 : ¬t.val % 8 = 0) (h1 : t.val % 8 = 7) (xs0 : Vec F S1024x1024 .f32) (xs1 : Vec F S1024x1 .f32) :
    (outsC V c t h0 h1 xs0 xs1).2.2 = k3_pay5 (iblk V c 0 t) (iblk V c 2 t) xs1 := by
  unfold outsC; dsimp only
  exact sC_1 c (grid3.coords t) (ms0 t) (hs0 t) (ms1 t) (hs1 t) (ms2 t) (hs2 t) (ms3 t) (hs3 t) scM0 (Memref.isWhole_whole _) scM1 (Memref.isWhole_whole _) (fun h => h0 ((hcond0 t).mp h)) ((hcond1 t).mpr h1) (iblk V c 0 t) (iblk V c 1 t) (iblk V c 2 t) xs0 xs1
theorem outsC_1 (c : Dev nD) (t : Fin cfg3.N) (h0 : ¬t.val % 8 = 0) (h1 : t.val % 8 = 7) (xs0 : Vec F S1024x1024 .f32) (xs1 : Vec F S1024x1 .f32) :
    (outsC V c t h0 h1 xs0 xs1).1 = k3_pay1 (outsC V c t h0 h1 xs0 xs1).2.1 (outsC V c t h0 h1 xs0 xs1).2.2 := by
  rw [outsC_21 V c t h0 h1 xs0 xs1, outsC_22 V c t h0 h1 xs0 xs1]
  unfold outsC; dsimp only
  exact oC_3 c (grid3.coords t) (ms0 t) (hs0 t) (ms1 t) (hs1 t) (ms2 t) (hs2 t) (ms3 t) (hs3 t) scM0 (Memref.isWhole_whole _) scM1 (Memref.isWhole_whole _) (fun h => h0 ((hcond0 t).mp h)) ((hcond1 t).mpr h1) (iblk V c 0 t) (iblk V c 1 t) (iblk V c 2 t) xs0 xs1

end AtPoint

/-! ## The windows' blocks at an entry

Point t = 8·j + i of the grid reads the scores' block (i, j), rows `1024·i ..` of `im`, and the row's block j. -/

section Blocks
variable {F : FTy → Type} [FloatOps F]
variable (V : (c : Dev nD) → (b : Ref sig .tc) → Buf (Elt F) ((c : Thread nD τ).loc b))

theorem coords3 : ∀ t : Fin cfg3.N, (grid3.coords t 0).val = t.val / 8 ∧ (grid3.coords t 1).val = t.val % 8 :=
  (by decide +kernel : ∀ t : Fin grid3.N, (grid3.coords t 0).val = t.val / 8 ∧ (grid3.coords t 1).val = t.val % 8)
theorem idx3_0 : ∀ t : Fin cfg3.N, win3_0.index t 0 = t.val % 8 ∧ win3_0.index t 1 = t.val / 8 :=
  (by decide +kernel : ∀ t : Fin grid3.N, win3_0.index t 0 = t.val % 8 ∧ win3_0.index t 1 = t.val / 8)
theorem idx3_1 : ∀ t : Fin cfg3.N, win3_1.index t 0 = 0 ∧ win3_1.index t 1 = 0 :=
  (by decide +kernel : ∀ t : Fin grid3.N, win3_1.index t 0 = 0 ∧ win3_1.index t 1 = 0)
theorem idx3_2 : ∀ t : Fin cfg3.N, win3_2.index t 0 = 0 ∧ win3_2.index t 1 = t.val / 8 :=
  (by decide +kernel : ∀ t : Fin grid3.N, win3_2.index t 0 = 0 ∧ win3_2.index t 1 = t.val / 8)

theorem row_lt (t : Fin cfg3.N) (r : Fin 1024) : 1024 * (t.val % 8) + r.val < 8192 := by have := r.isLt; omega
theorem col_lt (t : Fin cfg3.N) (q : Fin 1024) : 1024 * (t.val / 8) + q.val < 8192 := by
  have := q.isLt; have := t.isLt; have h : cfg3.N = 64 := N_3; omega

theorem iblk0_apply (c : Dev nD) (t : Fin cfg3.N) (r q : Fin 1024) :
    (iblk V c 0 t : Vec F S1024x1024 .f32) (ix2 r q)
      = V c main_v2_0 (ix2 ⟨1024 * (t.val % 8) + r.val, row_lt t r⟩ ⟨1024 * (t.val / 8) + q.val, col_lt t q⟩) := by
  unfold iblk
  rw [View.read_apply]
  show V c main_v2_0 _ = V c main_v2_0 _
  refine congrArg (V c main_v2_0) (funext fun a => Fin.ext ?_)
  match a with
  | ⟨0, _⟩ => show win3_0.index t 0 * 1024 + 1 * r.val = 1024 * (t.val % 8) + r.val; rw [(idx3_0 t).1]; omega
  | ⟨1, _⟩ => show win3_0.index t 1 * 1024 + 1 * q.val = 1024 * (t.val / 8) + q.val; rw [(idx3_0 t).2]; omega

theorem iblk2_apply (c : Dev nD) (t : Fin cfg3.N) (q : Fin 1024) :
    (iblk V c 2 t : Vec F S1x1024 .f32) (ix2 (0 : Fin 1) q)
      = V c main_v14 (ix2 (0 : Fin 1) ⟨1024 * (t.val / 8) + q.val, col_lt t q⟩) := by
  unfold iblk
  rw [View.read_apply]
  show V c main_v14 _ = V c main_v14 _
  refine congrArg (V c main_v14) (funext fun a => Fin.ext ?_)
  match a with
  | ⟨0, _⟩ => show win3_2.index t 0 * 1 + 1 * 0 = 0; rw [(idx3_2 t).1]
  | ⟨1, _⟩ => show win3_2.index t 1 * 1024 + 1 * q.val = 1024 * (t.val / 8) + q.val; rw [(idx3_2 t).2]; omega

theorem imRows_apply (c : Dev nD) (t : Fin cfg3.N) (r d : Fin 1024) :
    imRows (grid3.coords t) (iblk V c 1 t : Vec F S8192x1024 .bf16) (ix2 r d)
      = V c main_v0 (ix2 ⟨1024 * (t.val % 8) + r.val, row_lt t r⟩ d) := by
  show (iblk V c 1 t : Vec F S8192x1024 .bf16) ((imRect (grid3.coords t)).idx (ix2 r d)) = _
  unfold iblk
  rw [View.read_apply]
  show V c main_v0 _ = V c main_v0 _
  refine congrArg (V c main_v0) (funext fun a => Fin.ext ?_)
  match a with
  | ⟨0, _⟩ =>
    show win3_1.index t 0 * 8192 + 1 * (k3_off1 (grid3.coords t) 0 + 1 * r.val) = 1024 * (t.val % 8) + r.val
    rw [(idx3_1 t).1, k3_off1_eq]
    show 0 * 8192 + 1 * (1024 * (grid3.coords t 1).val + 1 * r.val) = _
    rw [(coords3 t).2]; omega
  | ⟨1, _⟩ =>
    show win3_1.index t 1 * 1024 + 1 * (k3_off1 (grid3.coords t) 1 + 1 * d.val) = d.val
    rw [(idx3_1 t).2, k3_off1_eq]
    show 0 * 1024 + 1 * (0 + 1 * d.val) = _
    omega

end Blocks

end Cert.KernelIdeal.Reg3

end
-- ==== Proof.KI.Reg3Cover.lean ====
/-
  Region 3, the output window's end.

  Window 3 is the [1024, 1024] block (j, 0) of the [8192, 1024] result, written back at the last point t = 8·j + 7
  of each grid row, where the body has stored it.  Entry (q, d) of the block at position t is entry
  (1024·(t / 8) + q, d) of the result, and the eight written blocks tile the result: row n lies in the block written
  at t = 8·(n / 1024) + 7.  So if at every last point of a row the stored block agrees entry by entry with one array
  G, the result array ends holding G.
-/
import proofs.«128303_j3917010174495_2_alg».proof.Proof.KI.Reg3Frame
import Idealize.ShloMosaic.Lib.Pipeline.Value
import Idealize.ShloMosaic.Lib.ValueIdx

set_option maxRecDepth 16384

noncomputable section

namespace Cert.KernelIdeal.Reg3

open Idealize.ShloMosaic Idealize.ShloMosaic.TcCoe Idealize.SL.Sem
open Idealize.ShloMosaic.Pipeline (Dat)
open Idealize.ShloMosaic.ValueIdx
open Cert.KernelIdeal Cert.KernelIdeal.Gen

variable {F : FTy → Type} [FloatOps F]
variable (V : (c : Dev nD) → (b : Ref sig .tc) → Buf (Elt F) ((c : Thread nD τ).loc b))

/-- Window 3's block index at position t is (t / 8, 0). -/
theorem win3_index : ∀ t : Fin cfg3.N, win3_3.index t 0 = t.val / 8 ∧ win3_3.index t 1 = 0 :=
  (by decide +kernel : ∀ t : Fin grid3.N, win3_3.index t 0 = t.val / 8 ∧ win3_3.index t 1 = 0)

/-- Every entry of the result lies in the block written back at the last point of its grid row. -/
theorem win3_cover (c : Dev nD) (i : ((cfg3.win 3).arr.view.loc (c.tc : Thread nD τ)).2.ty.Idx) :
    ∃ t : Fin cfg3.N, (cfg3.win 3).flush t = true ∧ i ∈ ((cfg3.win 3).blk t).view.set := by
  have h0 : (i 0 : ℕ) < 8192 := (i 0).isLt
  have h1 : (i 1 : ℕ) < 1024 := (i 1).isLt
  have hlt : 8 * ((i 0 : ℕ) / 1024) + 7 < cfg3.N := by rw [show cfg3.N = 64 from N_3]; omega
  obtain ⟨e0, e1⟩ := win3_index ⟨8 * ((i 0 : ℕ) / 1024) + 7, hlt⟩
  refine ⟨⟨8 * ((i 0 : ℕ) / 1024) + 7, hlt⟩, (flush3_3 _).mpr (by show (8 * ((i 0 : ℕ) / 1024) + 7) % 8 = 7; omega), ?_⟩
  show i ∈ ((View.whole main_v16).slice (win3_3.rect ⟨8 * ((i 0 : ℕ) / 1024) + 7, hlt⟩)).set
  rw [View.set_slice_whole, Rect.mem_set_unit]
  intro a
  match a with
  | ⟨0, _⟩ =>
    show win3_3.index ⟨8 * ((i 0 : ℕ) / 1024) + 7, hlt⟩ 0 * 1024 ≤ (i 0 : ℕ) ∧ (i 0 : ℕ) < win3_3.index ⟨8 * ((i 0 : ℕ) / 1024) + 7, hlt⟩ 0 * 1024 + 1024
    rw [e0]; dsimp only; omega
  | ⟨1, _⟩ =>
    show win3_3.index ⟨8 * ((i 0 : ℕ) / 1024) + 7, hlt⟩ 1 * 1024 ≤ (i 1 : ℕ) ∧ (i 1 : ℕ) < win3_3.index ⟨8 * ((i 0 : ℕ) / 1024) + 7, hlt⟩ 1 * 1024 + 1024
    rw [e1]; omega

/-- Entry (q, d) of window 3's block at position t is entry (1024·(t / 8) + q, d) of the array. -/
theorem blk3_read_apply (G : Vec F S8192x1024 .f32) (t : Fin cfg3.N) (q d : Fin 1024) :
    ((cfg3.win 3).blk t).view.read (Elt F) G (ix2 q d)
      = G (ix2 (⟨1024 * (t.val / 8) + q.val, by have := q.isLt; have := t.isLt; have h64 : cfg3.N = 64 := N_3; omega⟩ : Fin 8192) d) := by
  obtain ⟨e0, e1⟩ := win3_index t
  rw [View.read_apply]
  show G _ = G _
  congr 1
  funext a
  apply Fin.ext
  match a with
  | ⟨0, _⟩ => show win3_3.index t 0 * 1024 + 1 * q.val = 1024 * (t.val / 8) + q.val; rw [e0]; omega
  | ⟨1, _⟩ => show win3_3.index t 1 * 1024 + 1 * d.val = d.val; rw [e1]; omega

/-- If at the last point of every grid row the stored block is, entry by entry, the block of rows
    1024·(t / 8) … of G, the result array ends holding G. -/
theorem arrAt_of_rows (c : Dev nD) (G : Vec F S8192x1024 .f32)
    (h : ∀ (t : Fin cfg3.N), t.val % 8 = 7 → ∀ (q d : Fin 1024),
      (outsAt V c t.val t.isLt).1 (ix2 q d) = G (ix2 ⟨1024 * (t.val / 8) + q.val, by have := q.isLt; have := t.isLt; have h64 : cfg3.N = 64 := N_3; omega⟩ d)) :
    (dat V c).arrAt 3 cfg3.N = G :=
  (dat V c).arrAt_eq_of_cover 3 G (fun t hf => by
    have h7 : t.val % 8 = 7 := (flush3_3 t).mp hf
    show (cfg3.win 3).cut (grid3.coords t) ((dat V c).after 3 t) = _
    rw [after_3]
    refine funext fun (y : S1024x1024.Idx) => ?_
    obtain ⟨q, d, rfl⟩ : ∃ q d : Fin 1024, y = ix2 q d := ⟨y 0, y 1, eq_ix2 y⟩
    exact (h t h7 q d).trans (blk3_read_apply G t q d).symm) (win3_cover c)

end Cert.KernelIdeal.Reg3

end
-- ==== Proof.LibDotAxis0.lean ====
/-
  A matrix product that contracts the FIRST axis of both operands, read at one entry.

  For `x : K × M` and `y : K × N` the product with dimension numbers "contract axis 0 of the left with axis 0 of the right, keep
  axis 1 of each" is the `M × N` array of inner products of COLUMNS: entry `(p, q)` is `∑ k, x[k, p] · y[k, q]` (the transpose of
  the left operand times the right). Over the extended reals, accumulated into the zero array, that is the whole statement
  (`matmul_axis0_apply`); the work is only to identify the product's own operand indices — computed from the dimension numbers —
  with the coordinate pairs `(k, p)` and `(k, q)`, and its one-axis contraction index with the coordinate `k`.
-/
import Idealize.ShloMosaic.PureOps.Ideal.Laws
import Idealize.ShloMosaic.Lib.ValueIdx

noncomputable section

open scoped BigOperators

namespace Cert.Lib.DotAxis0

open Idealize.ShloMosaic Idealize.ShloMosaic.ValueIdx

/-- The dimension numbers: `K×M` by `K×N`, each contracted on its first axis, the result `M×N`. -/
def dims (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

variable {K M N : Nat}

/-- The left operand's kept axis 1 follows the output's axis 0, whatever the contraction index. -/
theorem lhs_axis1 (i : (⟨2, ![M, N]⟩ : Shape).Idx) (c : (dims K M N).contr.Idx) :
    ((dims K M N).lhsIdx i c 1).val = (i 0).val := by
  unfold DotDims.lhsIdx
  rw [dif_neg (show ¬(1 : Fin (⟨2, ![K, M]⟩ : Shape).rank) ∈ (dims K M N).lhsBatch from List.not_mem_nil),
    dif_pos (show (1 : Fin (⟨2, ![K, M]⟩ : Shape).rank) ∈ (dims K M N).lhsNonContracting from List.mem_cons_self)]
  rfl

/-- The right operand's kept axis 1 follows the output's axis 1. -/
theorem rhs_axis1 (i : (⟨2, ![M, N]⟩ : Shape).Idx) (c : (dims K M N).contr.Idx) :
    ((dims K M N).rhsIdx i c 1).val = (i 1).val := by
  unfold DotDims.rhsIdx
  rw [dif_neg (show ¬(1 : Fin (⟨2, ![K, N]⟩ : Shape).rank) ∈ (dims K M N).rhsBatch from List.not_mem_nil),
    dif_pos (show (1 : Fin (⟨2, ![K, N]⟩ : Shape).rank) ∈ (dims K M N).rhsNonContracting from List.mem_cons_self)]
  rfl

/-- Each operand's contracted axis 0 follows the contraction index's one coordinate. -/
theorem lhs_axis0 (i : (⟨2, ![M, N]⟩ : Shape).Idx) (c : (dims K M N).contr.Idx) :
    ((dims K M N).lhsIdx i c 0).val = (c ⟨0, Nat.zero_lt_one⟩).val :=
  (dims K M N).lhsIdx_val_of_single rfl i c
theorem rhs_axis0 (i : (⟨2, ![M, N]⟩ : Shape).Idx) (c : (dims K M N).contr.Idx) :
    ((dims K M N).rhsIdx i c 0).val = (c ⟨0, Nat.zero_lt_one⟩).val :=
  (dims K M N).rhsIdx_val_of_single rfl i c

/-- So at output entry `(p, q)` and contraction coordinate `k` the left operand is read at `(k, p)` … -/
theorem lhsIdx_axis0 (p : Fin M) (q : Fin N) (k : Fin K) :
    (dims K M N).lhsIdx (ix2 p q) ((contrEquiv1 (dims K M N) K rfl rfl).symm k) = ix2 k p :=
  funext fun a => Fin.ext (by
    match a with
    | ⟨0, _⟩ => exact (lhs_axis0 _ _).trans (contrEquiv1_symm_val (dims K M N) K rfl rfl k)
    | ⟨1, _⟩ => exact lhs_axis1 _ _)

/-- … and the right operand at `(k, q)`. -/
theorem rhsIdx_axis0 (p : Fin M) (q : Fin N) (k : Fin K) :
    (dims K M N).rhsIdx (ix2 p q) ((contrEquiv1 (dims K M N) K rfl rfl).symm k) = ix2 k q :=
  funext fun a => Fin.ext (by
    match a with
    | ⟨0, _⟩ => exact (rhs_axis0 _ _).trans (contrEquiv1_symm_val (dims K M N) K rfl rfl k)
    | ⟨1, _⟩ => exact rhs_axis1 _ _)

/-- THE PRODUCT OF COLUMNS AT AN ENTRY. Over the extended reals, a matrix product with these dimension numbers (any record `D`
    that spells them: `hD`), accumulated into the zero array, holds at `(p, q)` the inner product of column `p` of the left
    operand and column `q` of the right: `∑ k, x[k, p] · y[k, q]`. -/
theorem matmul_axis0_apply {φ₁ φ₂ : FTy} (D : DotDims ⟨2, ![K, M]⟩ ⟨2, ![K, N]⟩ ⟨2, ![M, N]⟩) (hD : D = dims K M N)
    (prec : Option ContractPrecision) (x : FVec Ideal ⟨2, ![K, M]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 k p) * y (ix2 k q) := by
  subst hD
  rw [Ideal.matmul_constant_zero_apply, ← Equiv.sum_comp (contrEquiv1 (dims K M N) K rfl rfl).symm]
  refine Finset.sum_congr rfl fun k _ => ?_
  rw [lhsIdx_axis0, rhsIdx_axis0]

end Cert.Lib.DotAxis0

end
-- ==== Proof.KI.Pay3.lean ====
/-
  What the fourth region's body stores, entry by entry, over the extended reals.

  The body holds a 1024 × 1024 block `v3` of scores (rows t, columns q), the ROW `v5` of the columns' scale factors, a block
  `v23` of weights (rows t) and the running accumulators `v13` (a column indexed by q) and `v25` (a block, rows q).  Its
  exponentials are E[t, q] = exp (v3[t, q] · v5[q] · 6), the row of scale factors being repeated down the rows.  Both products
  contract the FIRST axis of both operands, so they sum over the block's row index t and are indexed by its column index q:
  the column accumulator gains ∑ₜ E[t, q] (a product against a column of ones), the block accumulator gains
  ∑ₜ E[t, q] · v23[t, d]; the first visit clears both accumulators and the last divides the block accumulator's row q by the
  column accumulator's entry q.  Casts between equal shapes and the narrowing of the exponentials before the product change
  nothing here.
-/
import proofs.«128303_j3917010174495_2_alg».proof.Proof.Gen.KernelIdeal.Skeleton
import proofs.«128303_j3917010174495_2_alg».proof.Proof.Spec
import proofs.«128303_j3917010174495_2_alg».proof.Proof.Consts
import proofs.«128303_j3917010174495_2_alg».proof.Proof.LibDotAxis0
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay3

open Idealize.ShloMosaic Idealize.ShloMosaic.ValueIdx Cert.KernelIdeal Cert.KernelIdeal.Gen

/-- One column broadcast across `w` columns: entry `(r, t)` is the column's entry of row `r`. -/
theorem broadcastTo_a1_ab_apply {α : Type} {n w : ℕ} (v : (⟨2, ![n, 1]⟩ : Shape).Idx → α)
    (h : (⟨2, ![n, 1]⟩ : Shape).Broadcasts ⟨2, ![n, w]⟩) (r : Fin n) (t : Fin w) :
    broadcastTo ⟨2, ![n, w]⟩ v h (ix2 r t) = v (ix2 r (0 : Fin 1)) := by
  refine broadcastTo_apply v h (ix2 r t) (ix2 r (0 : Fin 1)) fun ax => ?_
  match ax with
  | ⟨0, _⟩ =>
    show r.val = if n = 1 then 0 else r.val
    split
    · have := r.isLt; omega
    · rfl
  | ⟨1, _⟩ =>
    show (0 : ℕ) = if (1 : ℕ) = 1 then 0 else t.val
    rw [if_pos rfl]

/-- The exponentials: E[t, q] = exp (v3[t, q] · v5[q] · 6). -/
theorem pay4_apply (v3 : Vec Ideal S1024x1024 .f32) (v5 : Vec Ideal S1x1024 .f32) (t q : Fin 1024) :
    k3_pay4 (F := Ideal) v3 v5 (ix2 t q) = Ideal.exp (v3 (ix2 t q) * v5 (ix2 0 q) * Cert.Spec.six) := by
  unfold k3_pay4
  show Ideal.exp (shapeCast S1024x1024 v3 _ (ix2 t q) * broadcastTo S1024x1024 (shapeCast S1x1024 v5 _) _ (ix2 t q)
    * Ideal.ofBits .f32 0x40C00000#32) = _
  rw [shapeCast_self, shapeCast_self, broadcastTo_1b_ab_apply]
  rfl

/-- The column accumulator gains the column's total of the exponentials. -/
theorem pay5_apply (v3 : Vec Ideal S1024x1024 .f32) (v5 : Vec Ideal S1x1024 .f32) (v13 : Vec Ideal S1024x1 .f32) (q : Fin 1024) :
    k3_pay5 (F := Ideal) v3 v5 v13 (ix2 q 0)
      = v13 (ix2 q 0) + ∑ t : Fin 1024, Ideal.exp (v3 (ix2 t q) * v5 (ix2 0 q) * Cert.Spec.six) := by
  unfold k3_pay5
  rw [shapeCast_self]
  show v13 (ix2 q 0) + FloatOps.matmul dot_S1024x1024_S1024x1_S1024x1_0_0_1_1_n_n none
      (k3_pay4 (F := Ideal) v3 v5) (broadcast S1024x1 (Ideal.ofBits .f32 0x3F800000#32))
      (constant (F := Ideal) S1024x1 .f32 0x00000000#32) (ix2 q 0) = _
  refine congrArg (v13 (ix2 q 0) + ·) ?_
  refine (Cert.Lib.DotAxis0.matmul_axis0_apply (φ₁ := .f32) (φ₂ := .f32) dot_S1024x1024_S1024x1_S1024x1_0_0_1_1_n_n rfl none
    (k3_pay4 (F := Ideal) v3 v5) (broadcast S1024x1 (Ideal.ofBits .f32 0x3F800000#32)) q 0).trans ?_
  refine Finset.sum_congr rfl fun t _ => ?_
  show k3_pay4 (F := Ideal) v3 v5 (ix2 t q) * Ideal.ofBits .f32 0x3F800000#32 = _
  rw [Cert.Spec.ofBits_one, mul_one, pay4_apply]

/-- The block accumulator gains the product of the exponentials, summed down the rows, with the weights. -/
theorem pay6_apply (v3 : Vec Ideal S1024x1024 .f32) (v5 : Vec Ideal S1x1024 .f32) (v23 : Vec Ideal S1024x1024 .bf16)
    (v25 : Vec Ideal S1024x1024 .f32) (q d : Fin 1024) :
    k3_pay6 (F := Ideal) v3 v5 v23 v25 (ix2 q d)
      = v25 (ix2 q d) + ∑ t : Fin 1024, Ideal.exp (v3 (ix2 t q) * v5 (ix2 0 q) * Cert.Spec.six) * v23 (ix2 t d) := by
  unfold k3_pay6
  rw [shapeCast_self, shapeCast_self]
  show v25 (ix2 q d) + FloatOps.matmul dot_S1024x1024_S1024x1024_S1024x1024_0_0_1_1_n_n none
      (truncf .bf16 (k3_pay4 (F := Ideal) v3 v5) _) v23 (constant (F := Ideal) S1024x1024 .f32 0x00000000#32) (ix2 q d) = _
  refine congrArg (v25 (ix2 q d) + ·) ?_
  refine (Cert.Lib.DotAxis0.matmul_axis0_apply (φ₁ := .bf16) (φ₂ := .bf16) dot_S1024x1024_S1024x1024_S1024x1024_0_0_1_1_n_n rfl none
    (truncf .bf16 (k3_pay4 (F := Ideal) v3 v5) bitsLt_bf16_f32) (v23 : FVec Ideal S1024x1024 .bf16) q d).trans ?_
  exact Finset.sum_congr rfl fun t _ => congrArg (· * v23 (ix2 t d)) (pay4_apply v3 v5 t q)

/-- The last visit divides the block accumulator's row by the column accumulator's entry. -/
theorem pay1_apply (v34 : Vec Ideal S1024x1024 .f32) (v35 : Vec Ideal S1024x1 .f32) (q d : Fin 1024) :
    k3_pay1 (F := Ideal) v34 v35 (ix2 q d) = Ideal.div (v34 (ix2 q d)) (v35 (ix2 q 0)) := by
  unfold k3_pay1
  show Ideal.div (v34 (ix2 q d)) (broadcastTo S1024x1024 v35 _ (ix2 q d)) = _
  rw [broadcastTo_a1_ab_apply]

/-- The first visit clears the block accumulator … -/
theorem pay2_apply (q d : Fin 1024) : k3_pay2 (F := Ideal) (ix2 q d) = 0 := by
  unfold k3_pay2
  rw [shapeCast_self]
  exact Cert.Spec.ofBits_zero

/-- … and the column accumulator. -/
theorem pay3_apply (q : Fin 1024) : k3_pay3 (F := Ideal) (ix2 q 0) = 0 := by
  unfold k3_pay3
  rw [shapeCast_self]
  exact Cert.Spec.ofBits_zero

end Cert.KernelIdeal.Pay3

end
-- ==== Proof.KI.Reg3Value.lean ====
/-
  Region 3 at the ideal interpretation: the result array after the region's last point is the specification's
  `reg3out` of the three arrays the region is handed — entry (m, d) is
      (Σ_n exp(S[n,m]·C[0,m]·6) · I[n,d]) / (Σ_n exp(S[n,m]·C[0,m]·6)),   both sums over all 8192 rows n.

  Grid point t = 8·j + i adds, to the two scratch buffers, the terms of the 1024 rows n = 1024·i + r for the 1024
  columns m = 1024·j + q; a row's first point starts from zero.  By induction on the point, after point t scratch 0
  holds at (q, d) the numerator's sum over the rows n < 1024·(i+1) and scratch 1 at (q, 0) the denominator's; at
  i = 7 these are the sums over all rows, and the output block holds their quotient — rows 1024·j .. of `reg3out`.
  Only associativity and commutativity of + on the extended reals are used, 0 + x = x and x · 1 = x.
-/
import proofs.«128303_j3917010174495_2_alg».proof.Proof.KI.Reg3Pieces
import proofs.«128303_j3917010174495_2_alg».proof.Proof.KI.Reg3Cover
import proofs.«128303_j3917010174495_2_alg».proof.Proof.KI.Pay3
import proofs.«128303_j3917010174495_2_alg».proof.Proof.Spec
import proofs.«128303_j3917010174495_2_alg».proof.Proof.Consts
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Reg3

open Idealize.ShloMosaic Idealize.ShloMosaic.TcCoe Idealize.SL.Sem
open Idealize.ShloMosaic.Pipeline (Dat)
open Idealize.ShloMosaic.ValueIdx
open Cert.KernelIdeal Cert.KernelIdeal.Gen

/-! ## The two running sums

At `F := Ideal`.  For a column `m` of the scores, `wt m n` is the weight of row `n` — exp of the score times the
row's entry of column `m` times 6 — and `nm m d n` is that weight times `im[n, d]`; both read at NATURAL coordinates
(zero outside the arrays), so that the sum over the rows seen so far is a sum over an initial segment of ℕ and a
block's rows are `1024·i + r`. -/

section Sums
variable (V : (c : Dev nD) → (b : Ref sig .tc) → Buf (Elt Ideal) ((c : Thread nD τ).loc b))

/-- The three arrays the region is handed, as arrays of extended reals. -/
abbrev Sc (c : Dev nD) : Cert.Spec.Sq := V c main_v2_0
abbrev Im (c : Dev nD) : Cert.Spec.Arr := V c main_v0
abbrev Cr (c : Dev nD) : Cert.Spec.Row := V c main_v14

def wt (c : Dev nD) (m n : ℕ) : EReal :=
  if h : n < 8192 ∧ m < 8192 then
    Ideal.exp (Sc V c (ix2 ⟨n, h.1⟩ ⟨m, h.2⟩) * Cr V c (ix2 (0 : Fin 1) ⟨m, h.2⟩) * Cert.Spec.six)
  else 0

def nm (c : Dev nD) (m : ℕ) (d : Fin 1024) (n : ℕ) : EReal :=
  if h : n < 8192 ∧ m < 8192 then
    Ideal.exp (Sc V c (ix2 ⟨n, h.1⟩ ⟨m, h.2⟩) * Cr V c (ix2 (0 : Fin 1) ⟨m, h.2⟩) * Cert.Spec.six) * Im V c (ix2 ⟨n, h.1⟩ d)
  else 0

/-- The first `1024·(i+1)` terms are the first `1024·i` and then block `i`'s 1024. -/
theorem sum_block_succ (f : ℕ → EReal) (i : ℕ) :
    ∑ k ∈ Finset.range (1024 * (i + 1)), f k = ∑ k ∈ Finset.range (1024 * i), f k + ∑ r : Fin 1024, f (1024 * i + r.val) := by
  rw [Nat.mul_succ, Finset.sum_range_add, Finset.sum_range (fun r => f (1024 * i + r))]

/-- One point's contribution to the numerator: the payload adds, to what scratch 0 held, the block's 1024 terms. -/
theorem step0 (c : Dev nD) (t : Fin cfg3.N) (xs0 : Vec Ideal S1024x1024 .f32) (q d : Fin 1024) :
    k3_pay6 (F := Ideal) (iblk V c 0 t) (iblk V c 2 t) (imRows (grid3.coords t) (iblk V c 1 t)) xs0 (ix2 q d)
      = xs0 (ix2 q d) + ∑ r : Fin 1024, nm V c (1024 * (t.val / 8) + q.val) d (1024 * (t.val % 8) + r.val) := by
  refine (Pay3.pay6_apply _ _ _ _ q d).trans (congrArg (xs0 (ix2 q d) + ·) (Finset.sum_congr rfl fun r _ => ?_))
  rw [iblk0_apply V c t r q, iblk2_apply V c t q, imRows_apply V c t r d]
  unfold nm
  rw [dif_pos ⟨row_lt t r, col_lt t q⟩]

/-- One point's contribution to the denominator. -/
theorem step1 (c : Dev nD) (t : Fin cfg3.N) (xs1 : Vec Ideal S1024x1 .f32) (q : Fin 1024) :
    k3_pay5 (F := Ideal) (iblk V c 0 t) (iblk V c 2 t) xs1 (ix2 q (0 : Fin 1))
      = xs1 (ix2 q (0 : Fin 1)) + ∑ r : Fin 1024, wt V c (1024 * (t.val / 8) + q.val) (1024 * (t.val % 8) + r.val) := by
  refine (Pay3.pay5_apply _ _ _ q).trans (congrArg (xs1 (ix2 q (0 : Fin 1)) + ·) (Finset.sum_congr rfl fun r _ => ?_))
  rw [iblk0_apply V c t r q, iblk2_apply V c t q]
  unfold wt
  rw [dif_pos ⟨row_lt t r, col_lt t q⟩]

end Sums

/-! ## The scratch buffers after each point are the running sums -/

section Invariant
variable (V : (c : Dev nD) → (b : Ref sig .tc) → Buf (Elt Ideal) ((c : Thread nD τ).loc b))

/-- One point: from the sums over the blocks before it to the sums through it. -/
theorem inv_step (c : Dev nD) (t : Fin cfg3.N) (a0 : Vec Ideal S1024x1024 .f32) (a1 : Vec Ideal S1024x1 .f32)
    (prev0 : ∀ q d : Fin 1024, a0 (ix2 q d) = ∑ k ∈ Finset.range (1024 * (t.val % 8)), nm V c (1024 * (t.val / 8) + q.val) d k)
    (prev1 : ∀ q : Fin 1024, a1 (ix2 q (0 : Fin 1)) = ∑ k ∈ Finset.range (1024 * (t.val % 8)), wt V c (1024 * (t.val / 8) + q.val) k) :
    (∀ q d : Fin 1024, k3_pay6 (F := Ideal) (iblk V c 0 t) (iblk V c 2 t) (imRows (grid3.coords t) (iblk V c 1 t)) a0 (ix2 q d)
        = ∑ k ∈ Finset.range (1024 * (t.val % 8 + 1)), nm V c (1024 * (t.val / 8) + q.val) d k)
    ∧ (∀ q : Fin 1024, k3_pay5 (F := Ideal) (iblk V c 0 t) (iblk V c 2 t) a1 (ix2 q (0 : Fin 1))
        = ∑ k ∈ Finset.range (1024 * (t.val % 8 + 1)), wt V c (1024 * (t.val / 8) + q.val) k) :=
  ⟨fun q d => by rw [step0 V c t a0 q d, prev0 q d, sum_block_succ],
   fun q => by rw [step1 V c t a1 q, prev1 q, sum_block_succ]⟩

/-- What the invariant says after position `n`: scratch 0 holds, at (q, d), the numerator's sum over the rows of the
    blocks 0 … n mod 8 for column `1024·(n / 8) + q`; scratch 1 the denominator's. -/
def SumsAt (c : Dev nD) (n : ℕ) (a0 : Vec Ideal S1024x1024 .f32) (a1 : Vec Ideal S1024x1 .f32) : Prop :=
  (∀ q d : Fin 1024, a0 (ix2 q d) = ∑ k ∈ Finset.range (1024 * (n % 8 + 1)), nm V c (1024 * (n / 8) + q.val) d k)
  ∧ (∀ q : Fin 1024, a1 (ix2 q (0 : Fin 1)) = ∑ k ∈ Finset.range (1024 * (n % 8 + 1)), wt V c (1024 * (n / 8) + q.val) k)

theorem sums_A (c : Dev nD) (t : Fin cfg3.N) (h0 : t.val % 8 = 0) (h1 : ¬t.val % 8 = 7) :
    SumsAt V c t.val (outsA V c t h0 h1).2.1 (outsA V c t h0 h1).2.2 := by
  rw [outsA_21 V c t h0 h1, outsA_22 V c t h0 h1]
  refine inv_step V c t _ _ (fun q d => ?_) (fun q => ?_)
  · rw [Pay3.pay2_apply, h0]; rfl
  · rw [Pay3.pay3_apply, h0]; rfl

theorem sums_BC (c : Dev nD) (t : Fin cfg3.N) (h0 : ¬t.val % 8 = 0) (a0 : Vec Ideal S1024x1024 .f32) (a1 : Vec Ideal S1024x1 .f32)
    (ih : SumsAt V c (t.val - 1) a0 a1) :
    SumsAt V c t.val (k3_pay6 (F := Ideal) (iblk V c 0 t) (iblk V c 2 t) (imRows (grid3.coords t) (iblk V c 1 t)) a0)
      (k3_pay5 (F := Ideal) (iblk V c 0 t) (iblk V c 2 t) a1) := by
  have e1 : (t.val - 1) % 8 + 1 = t.val % 8 := by omega
  have e2 : (t.val - 1) / 8 = t.val / 8 := by omega
  refine inv_step V c t a0 a1 (fun q d => ?_) (fun q => ?_)
  · rw [ih.1 q d, e1, e2]
  · rw [ih.2 q, e1, e2]

/-- THE INVARIANT, by induction on the position. -/
theorem sums_at (c : Dev nD) : ∀ (n : ℕ) (hn : n < cfg3.N), SumsAt V c n (outsAt V c n hn).2.1 (outsAt V c n hn).2.2
  | 0, hn => by
    have e : outsAt V c 0 hn = outsA V c ⟨0, hn⟩ (Nat.zero_mod _) (show ¬(0 : ℕ) % 8 = 7 by decide) := rfl
    rw [e]
    exact sums_A V c ⟨0, hn⟩ _ _
  | n + 1, hn => by
    by_cases h0 : (n + 1) % 8 = 0
    · have h1 : ¬(n + 1) % 8 = 7 := by omega
      have e : outsAt V c (n + 1) hn = outsA V c ⟨n + 1, hn⟩ h0 h1 := outsAt_A V c ⟨n + 1, hn⟩ h0 h1
      rw [e]
      exact sums_A V c ⟨n + 1, hn⟩ h0 h1
    · have ih := sums_at c n (Nat.lt_of_succ_lt hn)
      by_cases h1 : (n + 1) % 8 = 7
      · have e : outsAt V c (n + 1) hn = outsC V c ⟨n + 1, hn⟩ h0 h1 (outsAt V c n (Nat.lt_of_succ_lt hn)).2.1 (outsAt V c n (Nat.lt_of_succ_lt hn)).2.2 :=
          outsAt_C V c ⟨n + 1, hn⟩ h0 h1
        rw [e, outsC_21 V c ⟨n + 1, hn⟩ h0 h1, outsC_22 V c ⟨n + 1, hn⟩ h0 h1]
        exact sums_BC V c ⟨n + 1, hn⟩ h0 _ _ ih
      · have e : outsAt V c (n + 1) hn = outsB V c ⟨n + 1, hn⟩ h0 h1 (outsAt V c n (Nat.lt_of_succ_lt hn)).2.1 (outsAt V c n (Nat.lt_of_succ_lt hn)).2.2 :=
          outsAt_B V c ⟨n + 1, hn⟩ h0 h1
        rw [e, outsB_21 V c ⟨n + 1, hn⟩ h0 h1, outsB_22 V c ⟨n + 1, hn⟩ h0 h1]
        exact sums_BC V c ⟨n + 1, hn⟩ h0 _ _ ih

end Invariant

/-! ## The output array -/

section Output
variable (V : (c : Dev nD) → (b : Ref sig .tc) → Buf (Elt Ideal) ((c : Thread nD τ).loc b))

/-- Over all 8192 rows the sums at natural coordinates are the specification's sums over `Fin 8192`. -/
theorem sum_nm (c : Dev nD) (m : Fin 8192) (d : Fin 1024) :
    ∑ k ∈ Finset.range 8192, nm V c m.val d k
      = ∑ n : Fin 8192, Ideal.exp (Sc V c (ix2 n m) * Cr V c (ix2 (0 : Fin 1) m) * Cert.Spec.six) * Im V c (ix2 n d) := by
  rw [Finset.sum_range (fun k => nm V c m.val d k)]
  refine Finset.sum_congr rfl fun n _ => ?_
  unfold nm
  rw [dif_pos ⟨n.isLt, m.isLt⟩]
theorem sum_wt (c : Dev nD) (m : Fin 8192) :
    ∑ k ∈ Finset.range 8192, wt V c m.val k
      = ∑ n : Fin 8192, Ideal.exp (Sc V c (ix2 n m) * Cr V c (ix2 (0 : Fin 1) m) * Cert.Spec.six) := by
  rw [Finset.sum_range (fun k => wt V c m.val k)]
  refine Finset.sum_congr rfl fun n _ => ?_
  unfold wt
  rw [dif_pos ⟨n.isLt, m.isLt⟩]

/-- At the last point of grid row `j` the body leaves, in the output block, rows `1024·j ..` of the specification's
    array: the numerator's sum over all rows divided by the denominator's. -/
theorem out_at (c : Dev nD) (t : Fin cfg3.N) (h1 : t.val % 8 = 7) (q d : Fin 1024) :
    (outsAt V c t.val t.isLt).1 (ix2 q d)
      = Cert.Spec.reg3out (V c main_v2_0) (V c main_v0) (V c main_v14) (ix2 ⟨1024 * (t.val / 8) + q.val, col_lt t q⟩ d) := by
  have h0 : ¬t.val % 8 = 0 := by omega
  have hs := sums_at V c t.val t.isLt
  have e := outsAt_C V c t h0 h1
  have e1 : (outsAt V c t.val t.isLt).1 = k3_pay1 (F := Ideal) (outsAt V c t.val t.isLt).2.1 (outsAt V c t.val t.isLt).2.2 := by
    rw [e]; exact outsC_1 V c t h0 h1 _ _
  rw [e1, Pay3.pay1_apply, hs.1 q d, hs.2 q, h1]
  show Ideal.div (∑ k ∈ Finset.range 8192, nm V c (1024 * (t.val / 8) + q.val) d k) (∑ k ∈ Finset.range 8192, wt V c (1024 * (t.val / 8) + q.val) k) = _
  rw [sum_nm V c ⟨1024 * (t.val / 8) + q.val, col_lt t q⟩ d, sum_wt V c ⟨1024 * (t.val / 8) + q.val, col_lt t q⟩]
  rfl

/-- REGION 3's result: after the region's last point the result array is the specification's `reg3out` of the
    scores, of `im` and of the row of inverse column norms the region is handed. -/
theorem arrAt_out (c : Dev nD) :
    (dat (F := Ideal) V c).arrAt 3 cfg3.N = Cert.Spec.reg3out (V c main_v2_0) (V c main_v0) (V c main_v14) :=
  arrAt_of_rows V c (Cert.Spec.reg3out (V c main_v2_0) (V c main_v0) (V c main_v14)) fun t h1 q d => out_at V c t h1 q d

end Output

end Cert.KernelIdeal.Reg3

end
-- ==== Proof.LibColRow.lean ====
/-
  A column read as a row, and a row read as a column.

  General facts about a shape cast between the two rank-2 shapes [a, 1] and [1, a], for any extent `a` and any type of
  entries: both shapes list the same `a` entries in the same row-major order, entry `k` sitting at (k, 0) in the column and
  at (0, k) in the row, so the cast of a column read at (u, k) is the column at (k, 0), and the cast of a row read at
  (k, u) is the row at (0, k) — whatever the unit coordinate `u`, which can only be 0.  Each is the library's
  "a shape cast read at an index is the operand at the index of equal row-major position", with both positions
  written out: k · 1 + 0 on the column side and 0 · a + k on the row side.
-/
import Idealize.ShloMosaic.Lib.Pipeline.Value
import Idealize.ShloMosaic.Lib.ValueIdx
import Idealize.ShloMosaic.Lib.ValueLayout

namespace Cert.Lib.ColRow

open Idealize.ShloMosaic Idealize.ShloMosaic.ValueIdx

variable {α : Type}

/-- An `[a, 1]` array cast to `[1, a]` reads, at `(u, k)`, the operand at `(k, 0)`, whatever the unit coordinate `u`. -/
theorem shapeCast_col_row_apply {a : ℕ} (x : (⟨2, ![a, 1]⟩ : Shape).Idx → α)
    (h : (⟨2, ![a, 1]⟩ : Shape).ShapeCasts ⟨2, ![1, a]⟩) (u : Fin 1) (k : Fin a) :
    shapeCast ⟨2, ![1, a]⟩ x h (ix2 u k) = x (ix2 k (0 : Fin 1)) :=
  shapeCast_apply x h _ _ (by
    have hu : u.val = 0 := by omega
    rw [Shape.rowMajor_val_two, Shape.rowMajor_val_two]
    show k.val * 1 + 0 = u.val * a + k.val
    rw [hu, Nat.zero_mul, Nat.zero_add, Nat.mul_one, Nat.add_zero])

/-- A `[1, a]` array cast to `[a, 1]` reads, at `(k, u)`, the operand at `(0, k)`, whatever the unit coordinate `u`. -/
theorem shapeCast_row_col_apply {a : ℕ} (x : (⟨2, ![1, a]⟩ : Shape).Idx → α)
    (h : (⟨2, ![1, a]⟩ : Shape).ShapeCasts ⟨2, ![a, 1]⟩) (k : Fin a) (u : Fin 1) :
    shapeCast ⟨2, ![a, 1]⟩ x h (ix2 k u) = x (ix2 (0 : Fin 1) k) :=
  shapeCast_apply x h _ _ (by
    have hu : u.val = 0 := by omega
    rw [Shape.rowMajor_val_two, Shape.rowMajor_val_two]
    show 0 * a + k.val = k.val * 1 + u.val
    rw [hu, Nat.zero_mul, Nat.zero_add, Nat.mul_one, Nat.add_zero])

end Cert.Lib.ColRow
-- ==== Proof.KI.Value.lean ====
/-
  The kernel program's two results at the ideal instance, as functions of the argument arrays.  Following the fold of
  the run: the two conversions are the identity on the extended reals, so region 0 is handed im and aud and leaves the
  leaky scores s and the row sums of squares; region 1 is handed s and leaves the column sums of squares; the host
  operations turn the two sums into rowinv = 1/(√rowsq + ε) (a column) and colinv (reshaped to a row); region 2 is
  handed s, aud and rowinv, region 3 s, im and colinv.  Composed, result 0 at (n,d) is the specification's kernel form
  imRecK and result 1 at (m,d) is audRecK.
-/
import proofs.«128303_j3917010174495_2_alg».proof.Proof.KI.Frame
import proofs.«128303_j3917010174495_2_alg».proof.Proof.KI.Reg0Value
import proofs.«128303_j3917010174495_2_alg».proof.Proof.KI.Reg1Value
import proofs.«128303_j3917010174495_2_alg».proof.Proof.KI.Reg2Value
import proofs.«128303_j3917010174495_2_alg».proof.Proof.KI.Reg3Value
import proofs.«128303_j3917010174495_2_alg».proof.Proof.Spec
import proofs.«128303_j3917010174495_2_alg».proof.Proof.Consts
import proofs.«128303_j3917010174495_2_alg».proof.Proof.LibColRow
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.Spec

variable (m : (ℓ : Loc nD τ sig) → Buf (Elt Ideal) ℓ)

/-- The two argument arrays on core `c`. -/
abbrev im (c : Dev nD) : Arr := m ((c : Thread nD τ).loc main_arg0)
abbrev aud (c : Dev nD) : Arr := m ((c : Thread nD τ).loc main_arg1)

/-! ## Region 0's entry: the conversions are the identity -/

theorem W1_v0 (c : Dev nD) : (Run.W1 m c (Proc.devRef .tc main_v0) : Arr) = im m c := by
  show (StableHlo.after hostOps0 (Run.W0 m c) (Proc.devRef .tc main_v0) : Arr) = _
  after_results; rfl
theorem W1_v1 (c : Dev nD) : (Run.W1 m c (Proc.devRef .tc main_v1) : Arr) = aud m c := by
  show (StableHlo.after hostOps0 (Run.W0 m c) (Proc.devRef .tc main_v1) : Arr) = _
  after_results; rfl

/-! ## After region 0 -/

theorem W2_s (c : Dev nD) : (Run.W2 m c (Proc.devRef .tc main_v2_0) : Sq) = reg0s (im m c) (aud m c) := by
  refine (Run.W2_arr m c 2).trans ((Reg0.arrAt_s (Run.V1 m) c).trans ?_)
  rw [show (Run.V1 m c main_v0 : Arr) = im m c from W1_v0 m c, show (Run.V1 m c main_v1 : Arr) = aud m c from W1_v1 m c]
theorem W2_rowsq (c : Dev nD) : (Run.W2 m c (Proc.devRef .tc main_v2_1) : Col) = reg0rowsq (im m c) (aud m c) := by
  refine (Run.W2_arr m c 3).trans ((Reg0.arrAt_rowsq (Run.V1 m) c).trans ?_)
  rw [show (Run.V1 m c main_v0 : Arr) = im m c from W1_v0 m c, show (Run.V1 m c main_v1 : Arr) = aud m c from W1_v1 m c]
/-- Region 0's inputs pass through it. -/
theorem W2_v0 (c : Dev nD) : (Run.W2 m c (Proc.devRef .tc main_v0) : Arr) = im m c :=
  ((Run.W2_arr m c 0).trans (((Reg0.dat (Run.V1 m) c).arrAt_in 0 rfl _).trans (Reg0.A_eq (Run.V1 m) c 0))).trans (W1_v0 m c)
theorem W2_v1 (c : Dev nD) : (Run.W2 m c (Proc.devRef .tc main_v1) : Arr) = aud m c :=
  ((Run.W2_arr m c 1).trans (((Reg0.dat (Run.V1 m) c).arrAt_in 1 rfl _).trans (Reg0.A_eq (Run.V1 m) c 1))).trans (W1_v1 m c)

/-! ## After region 1 -/

theorem W3_s (c : Dev nD) : (Run.W3 m c (Proc.devRef .tc main_v2_0) : Sq) = reg0s (im m c) (aud m c) :=
  ((Run.W3_arr m c 0).trans (((Reg1.dat (Run.V2 m) c).arrAt_in 0 rfl _).trans (Reg1.A_eq (Run.V2 m) c 0))).trans (W2_s m c)
theorem W3_colsq (c : Dev nD) : (Run.W3 m c (Proc.devRef .tc main_v3) : Col) = reg1colsq (reg0s (im m c) (aud m c)) := by
  refine (Run.W3_arr m c 1).trans ((Reg1.arrAt_colsq (Run.V2 m) c).trans ?_)
  rw [show (Run.V2 m c main_v2_0 : Sq) = reg0s (im m c) (aud m c) from W2_s m c]
theorem W3_rowsq (c : Dev nD) : (Run.W3 m c (Proc.devRef .tc main_v2_1) : Col) = reg0rowsq (im m c) (aud m c) :=
  (Run.W3_of_ne m c main_v2_1 (by decide)).trans (W2_rowsq m c)
theorem W3_v0 (c : Dev nD) : (Run.W3 m c (Proc.devRef .tc main_v0) : Arr) = im m c :=
  (Run.W3_of_ne m c main_v0 (by decide)).trans (W2_v0 m c)
theorem W3_v1 (c : Dev nD) : (Run.W3 m c (Proc.devRef .tc main_v1) : Arr) = aud m c :=
  (Run.W3_of_ne m c main_v1 (by decide)).trans (W2_v1 m c)

/-! ## After the host operations: the two reciprocal norms -/

theorem W4_s (c : Dev nD) : (Run.W4 m c (Proc.devRef .tc main_v2_0) : Sq) = reg0s (im m c) (aud m c) :=
  (RunFrame.W4_of m c main_v2_0 (by decide)).trans (W3_s m c)
theorem W4_v0 (c : Dev nD) : (Run.W4 m c (Proc.devRef .tc main_v0) : Arr) = im m c :=
  (RunFrame.W4_of m c main_v0 (by decide)).trans (W3_v0 m c)
theorem W4_v1 (c : Dev nD) : (Run.W4 m c (Proc.devRef .tc main_v1) : Arr) = aud m c :=
  (RunFrame.W4_of m c main_v1 (by decide)).trans (W3_v1 m c)

/-- The reciprocal of a guarded norm, entry by entry, of a column of sums of squares. -/
def recipNorm (q : Col) : Col := fun i => Ideal.div 1 (Ideal.sqrt (q i) + eps)

theorem W4_rowinv (c : Dev nD) : (Run.W4 m c (Proc.devRef .tc main_v8) : Col) = recipNorm (reg0rowsq (im m c) (aud m c)) := by
  show (StableHlo.after hostOps2 (Run.W3 m c) (Proc.devRef .tc main_v8) : Col) = _
  after_results
  rw [show (Run.W3 m c (Proc.devRef .tc main_v2_1) : Col) = reg0rowsq (im m c) (aud m c) from W3_rowsq m c]
  funext i
  simp only [recipNorm, Host.divf, Host.sqrt, addf, broadcastInDim, constant, Ideal.hostDivf_def, Ideal.ofBits_def, ofBits_one, eps_def]
  rfl

theorem W4_colinvRow (c : Dev nD) : (Run.W4 m c (Proc.devRef .tc main_v14) : Row)
    = fun i => recipNorm (reg1colsq (reg0s (im m c) (aud m c))) (ix2 (i 1) 0) := by
  show (StableHlo.after hostOps2 (Run.W3 m c) (Proc.devRef .tc main_v14) : Row) = _
  after_results
  rw [show (Run.W3 m c (Proc.devRef .tc main_v3) : Col) = reg1colsq (reg0s (im m c) (aud m c)) from W3_colsq m c]
  funext i
  obtain ⟨u, k, rfl⟩ : ∃ (u : Fin 1) (k : Fin 8192), i = ix2 u k := ⟨i 0, i 1, eq_ix2 i⟩
  refine (Cert.Lib.ColRow.shapeCast_col_row_apply _ _ u k).trans ?_
  simp only [recipNorm, Host.divf, Host.sqrt, addf, broadcastInDim, constant, Ideal.hostDivf_def, Ideal.ofBits_def, ofBits_one, eps_def]
  rfl

/-! ## After region 2 -/

theorem W5_out (c : Dev nD) : (Run.W5 m c (Proc.devRef .tc main_v15) : Arr)
    = reg2out (reg0s (im m c) (aud m c)) (aud m c) (recipNorm (reg0rowsq (im m c) (aud m c))) := by
  refine (Run.W5_arr m c 3).trans ((Reg2.arrAt_out (Run.V4 m) c).trans ?_)
  rw [show (Run.V4 m c main_v2_0 : Sq) = reg0s (im m c) (aud m c) from W4_s m c,
    show (Run.V4 m c main_v1 : Arr) = aud m c from W4_v1 m c,
    show (Run.V4 m c main_v8 : Col) = recipNorm (reg0rowsq (im m c) (aud m c)) from W4_rowinv m c]
theorem W5_s (c : Dev nD) : (Run.W5 m c (Proc.devRef .tc main_v2_0) : Sq) = reg0s (im m c) (aud m c) :=
  ((Run.W5_arr m c 0).trans (((Reg2.dat (Run.V4 m) c).arrAt_in 0 rfl _).trans (Reg2.A_eq (Run.V4 m) c 0))).trans (W4_s m c)
theorem W5_v0 (c : Dev nD) : (Run.W5 m c (Proc.devRef .tc main_v0) : Arr) = im m c :=
  (Run.W5_of_ne m c main_v0 (by decide)).trans (W4_v0 m c)
theorem W5_colinvRow (c : Dev nD) : (Run.W5 m c (Proc.devRef .tc main_v14) : Row)
    = fun i => recipNorm (reg1colsq (reg0s (im m c) (aud m c))) (ix2 (i 1) 0) :=
  (Run.W5_of_ne m c main_v14 (by decide)).trans (W4_colinvRow m c)

/-! ## After region 3 -/

theorem W6_out1 (c : Dev nD) : (Run.W6 m c (Proc.devRef .tc main_v16) : Arr)
    = reg3out (reg0s (im m c) (aud m c)) (im m c) (fun i => recipNorm (reg1colsq (reg0s (im m c) (aud m c))) (ix2 (i 1) 0)) := by
  refine (Run.W6_arr m c 3).trans ((Reg3.arrAt_out (Run.V5 m) c).trans ?_)
  rw [show (Run.V5 m c main_v2_0 : Sq) = reg0s (im m c) (aud m c) from W5_s m c,
    show (Run.V5 m c main_v0 : Arr) = im m c from W5_v0 m c,
    show (Run.V5 m c main_v14 : Row) = _ from W5_colinvRow m c]
  rfl
theorem W6_out0 (c : Dev nD) : (Run.W6 m c (Proc.devRef .tc main_v15) : Arr)
    = reg2out (reg0s (im m c) (aud m c)) (aud m c) (recipNorm (reg0rowsq (im m c) (aud m c))) :=
  (Run.W6_of_ne m c main_v15 (by decide)).trans (W5_out m c)

/-! ## The regions composed are the specification's kernel form -/

theorem row_path (I A : Arr) : reg2out (reg0s I A) A (recipNorm (reg0rowsq I A)) = fun i => imRecK I A (i 0) (i 1) := by
  funext i; rfl
theorem col_path (I A : Arr) :
    reg3out (reg0s I A) I (fun i => recipNorm (reg1colsq (reg0s I A)) (ix2 (i 1) 0)) = fun i => audRecK I A (i 0) (i 1) := by
  funext i; rfl

/-- The kernel program at the ideal instance: every weakly fair execution terminates, nothing faulting, result 0 at (n,d)
    is imRecK, result 1 at (m,d) is audRecK, of the launch's argument arrays, which end unchanged. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v15) = (fun i => imRecK (im m c) (aud m c) (i 0) (i 1))
      ∧ r.2.mem ((c.tc : Thread nD τ).loc main_v16) = (fun i => audRecK (im m c) (aud m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c _ (Run.mem_uc main_v15 (by decide))).trans (W6_out0 m c)).trans (row_path _ _),
     ((h c _ (Run.mem_uc main_v16 (by decide))).trans (W6_out1 m c)).trans (col_path _ _),
     (h c _ (Run.mem_uc main_arg0 (by decide))).trans (RunFrame.W6_arg0 m c),
     (h c _ (Run.mem_uc main_arg1 (by decide))).trans (RunFrame.W6_arg1 m c)⟩) (Run.run m ρ)

end Cert.KernelIdeal.RunValue

end
-- ==== Proof.RefRun.lean ====
/-
  The reference program's run. Its entry point is a straight line of sixty-seven tensor operations once the two
  functions it calls (the leaky rectifier, and the select inside it) are unfolded at their call sites, each
  value of an unfolded body in the buffer the call names for it. Every execution of that line terminates, and each
  buffer then holds the composition of the operations that lead to it, applied to the two argument arrays as they
  were at the start; the arguments themselves are never written.

  The composition is stated through a few named stages, because the same sub-computation is used twice: the leaky
  scores `lk`; then, for ANY square array `S`, the row-wise scaled softmax `soft S` (each row divided by its
  norm-plus-guard and multiplied by six, shifted by its maximum, exponentiated, divided by its sum). The first
  result is `soft (lk I A)` multiplied into `A`, the second `soft` of the transposed scores multiplied into `I`.
-/
import proofs.«128303_j3917010174495_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The entry point's sixty-seven operations, in order; the fourth to the tenth are the two called functions' bodies
    over the buffers their one call names. -/
abbrev ops : List (HloOp τ sig (Elt F)) :=
  [ unary main_arg1 main_v0 ((transpose S1024x8192 [1, 0] · transposes_S8192x1024_S1024x8192_1_0) : (⟨S8192x1024, .f32⟩ : BufTy).Contents (Elt F) → (⟨S1024x8192, .f32⟩ : BufTy).Contents (Elt F)),
    binary main_arg0 main_v0 main_v1 ((fun l r => Host.dotGeneral dot_S8192x1024_S1024x8192_S8192x8192_1_0_0_1_n_n none l r) : (⟨S8192x1024, .f32⟩ : BufTy).Contents (Elt F) → (⟨S1024x8192, .f32⟩ : BufTy).Contents (Elt F) → (⟨S8192x8192, .f32⟩ : BufTy).Contents (Elt F)),
    nullary main_cst (constant S_ .f32 0x3DCCCCCD#32),
    TRef.nullary main_call0.cst (constant S_ .f32 0x00000000#32),
    TRef.unary main_call0.cst main_call0.v0 (broadcastInDim S8192x8192 ![] bcast_S_S8192x8192),
    TRef.binary (.of main_v1 : TRef sig ⟨S8192x8192, .f32⟩) main_call0.v0 main_call0.v1 (cmpf .oge),
    TRef.unary (.of main_cst : TRef sig ⟨S_, .f32⟩) main_call0.v2 id,
    TRef.unary main_call0.v2 main_call0.v3 (broadcastInDim S8192x8192 ![] bcast_S_S8192x8192),
    TRef.binary main_call0.v3 (.of main_v1 : TRef sig ⟨S8192x8192, .f32⟩) main_call0.v4 mulf,
    TRef.ternary main_call0.v1 (.of main_v1 : TRef sig ⟨S8192x8192, .f32⟩) main_call0.v4 main_call0.call0.v0 select,
    binary main_v2 main_v2 main_v3 (mulf : (⟨S8192x8192, .f32⟩ : BufTy).Contents (Elt F) → (⟨S8192x8192, .f32⟩ : BufTy).Contents (Elt F) → (⟨S8192x8192, .f32⟩ : BufTy).Contents (Elt F)),
    nullary main_cst_0 (constant S_ .f32 0x00000000#32),
    binary main_v3 main_cst_0 main_v4 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v4 main_v5 (broadcastInDim S8192x1 ![0] bcast_S8192_S8192x1_0 : (⟨S8192, .f32⟩ : BufTy).Contents (Elt F) → (⟨S8192x1, .f32⟩ : BufTy).Contents (Elt F)),
    unary main_v5 main_v6 (Host.sqrt : (⟨S8192x1, .f32⟩ : BufTy).Contents (Elt F) → (⟨S8192x1, .f32⟩ : BufTy).Contents (Elt F)),
    nullary main_cst_1 (constant S_ .f32 0x322BCC77#32),
    unary main_cst_1 main_v7 (broadcastInDim S8192x1 ![] bcast_S_S8192x1 : (⟨S_, .f32⟩ : BufTy).Contents (Elt F) → (⟨S8192x1, .f32⟩ : BufTy).Contents (Elt F)),
    binary main_v6 main_v7 main_v8 (addf : (⟨S8192x1, .f32⟩ : BufTy).Contents (Elt F) → (⟨S8192x1, .f32⟩ : BufTy).Contents (Elt F) → (⟨S8192x1, .f32⟩ : BufTy).Contents (Elt F)),
    unary main_v8 main_v9 (broadcastInDim S8192x8192 ![0, 1] bcast_S8192x1_S8192x8192_0_1 : (⟨S8192x1, .f32⟩ : BufTy).Contents (Elt F) → (⟨S8192x8192, .f32⟩ : BufTy).Contents (Elt F)),
    binary main_v2 main_v9 main_v10 (Host.divf : (⟨S8192x8192, .f32⟩ : BufTy).Contents (Elt F) → (⟨S8192x8192, .f32⟩ : BufTy).Contents (Elt F) → (⟨S8192x8192, .f32⟩ : BufTy).Contents (Elt F)),
    nullary main_cst_2 (constant S_ .f32 0x40C00000#32),
    unary main_cst_2 main_v11 (broadcastInDim S8192x8192 ![] bcast_S_S8192x8192 : (⟨S_, .f32⟩ : BufTy).Contents (Elt F) → (⟨S8192x8192, .f32⟩ : BufTy).Contents (Elt F)),
    binary main_v10 main_v11 main_v12 (mulf : (⟨S8192x8192, .f32⟩ : BufTy).Contents (Elt F) → (⟨S8192x8192, .f32⟩ : BufTy).Contents (Elt F) → (⟨S8192x8192, .f32⟩ : BufTy).Contents (Elt F)),
    nullary main_cst_3 (constant S_ .f32 0xFF800000#32),
    binary main_v12 main_cst_3 main_v13 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_4 (constant S_ .f32 0xFF800000#32),
    unary main_cst_4 main_v14 (broadcastInDim S8192 ![] bcast_S_S8192 : (⟨S_, .f32⟩ : BufTy).Contents (Elt F) → (⟨S8192, .f32⟩ : BufTy).Contents (Elt F)),
    binary main_v14 main_v13 main_v15 (maximumf : (⟨S8192, .f32⟩ : BufTy).Contents (Elt F) → (⟨S8192, .f32⟩ : BufTy).Contents (Elt F) → (⟨S8192, .f32⟩ : BufTy).Contents (Elt F)),
    unary main_v15 main_v16 (broadcastInDim S8192x1 ![0] bcast_S8192_S8192x1_0 : (⟨S8192, .f32⟩ : BufTy).Contents (Elt F) → (⟨S8192x1, .f32⟩ : BufTy).Contents (Elt F)),
    unary main_v16 main_v17 (broadcastInDim S8192x8192 ![0, 1] bcast_S8192x1_S8192x8192_0_1 : (⟨S8192x1, .f32⟩ : BufTy).Contents (Elt F) → (⟨S8192x8192, .f32⟩ : BufTy).Contents (Elt F)),
    binary main_v12 main_v17 main_v18 (subf : (⟨S8192x8192, .f32⟩ : BufTy).Contents (Elt F) → (⟨S8192x8192, .f32⟩ : BufTy).Contents (Elt F) → (⟨S8192x8192, .f32⟩ : BufTy).Contents (Elt F)),
    unary main_v18 main_v19 (Host.exp : (⟨S8192x8192, .f32⟩ : BufTy).Contents (Elt F) → (⟨S8192x8192, .f32⟩ : BufTy).Contents (Elt F)),
    nullary main_cst_5 (constant S_ .f32 0x00000000#32),
    binary main_v19 main_cst_5 main_v20 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v20 main_v21 (broadcastInDim S8192x1 ![0] bcast_S8192_S8192x1_0 : (⟨S8192, .f32⟩ : BufTy).Contents (Elt F) → (⟨S8192x1, .f32⟩ : BufTy).Contents (Elt F)),
    unary main_v21 main_v22 (broadcastInDim S8192x8192 ![0, 1] bcast_S8192x1_S8192x8192_0_1 : (⟨S8192x1, .f32⟩ : BufTy).Contents (Elt F) → (⟨S8192x8192, .f32⟩ : BufTy).Contents (Elt F)),
    binary main_v19 main_v22 main_v23 (Host.divf : (⟨S8192x8192, .f32⟩ : BufTy).Contents (Elt F) → (⟨S8192x8192, .f32⟩ : BufTy).Contents (Elt F) → (⟨S8192x8192, .f32⟩ : BufTy).Contents (Elt F)),
    unary main_v2 main_v24 ((transpose S8192x8192 [1, 0] · transposes_S8192x8192_S8192x8192_1_0) : (⟨S8192x8192, .f32⟩ : BufTy).Contents (Elt F) → (⟨S8192x8192, .f32⟩ : BufTy).Contents (Elt F)),
    binary main_v24 main_v24 main_v25 (mulf : (⟨S8192x8192, .f32⟩ : BufTy).Contents (Elt F) → (⟨S8192x8192, .f32⟩ : BufTy).Contents (Elt F) → (⟨S8192x8192, .f32⟩ : BufTy).Contents (Elt F)),
    nullary main_cst_6 (constant S_ .f32 0x00000000#32),
    binary main_v25 main_cst_6 main_v26 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v26 main_v27 (broadcastInDim S8192x1 ![0] bcast_S8192_S8192x1_0 : (⟨S8192, .f32⟩ : BufTy).Contents (Elt F) → (⟨S8192x1, .f32⟩ : BufTy).Contents (Elt F)),
    unary main_v27 main_v28 (Host.sqrt : (⟨S8192x1, .f32⟩ : BufTy).Contents (Elt F) → (⟨S8192x1, .f32⟩ : BufTy).Contents (Elt F)),
    nullary main_cst_7 (constant S_ .f32 0x322BCC77#32),
    unary main_cst_7 main_v29 (broadcastInDim S8192x1 ![] bcast_S_S8192x1 : (⟨S_, .f32⟩ : BufTy).Contents (Elt F) → (⟨S8192x1, .f32⟩ : BufTy).Contents (Elt F)),
    binary main_v28 main_v29 main_v30 (addf : (⟨S8192x1, .f32⟩ : BufTy).Contents (Elt F) → (⟨S8192x1, .f32⟩ : BufTy).Contents (Elt F) → (⟨S8192x1, .f32⟩ : BufTy).Contents (Elt F)),
    unary main_v30 main_v31 (broadcastInDim S8192x8192 ![0, 1] bcast_S8192x1_S8192x8192_0_1 : (⟨S8192x1, .f32⟩ : BufTy).Contents (Elt F) → (⟨S8192x8192, .f32⟩ : BufTy).Contents (Elt F)),
    binary main_v24 main_v31 main_v32 (Host.divf : (⟨S8192x8192, .f32⟩ : BufTy).Contents (Elt F) → (⟨S8192x8192, .f32⟩ : BufTy).Contents (Elt F) → (⟨S8192x8192, .f32⟩ : BufTy).Contents (Elt F)),
    nullary main_cst_8 (constant S_ .f32 0x40C00000#32),
    unary main_cst_8 main_v33 (broadcastInDim S8192x8192 ![] bcast_S_S8192x8192 : (⟨S_, .f32⟩ : BufTy).Contents (Elt F) → (⟨S8192x8192, .f32⟩ : BufTy).Contents (Elt F)),
    binary main_v32 main_v33 main_v34 (mulf : (⟨S8192x8192, .f32⟩ : BufTy).Contents (Elt F) → (⟨S8192x8192, .f32⟩ : BufTy).Contents (Elt F) → (⟨S8192x8192, .f32⟩ : BufTy).Contents (Elt F)),
    nullary main_cst_9 (constant S_ .f32 0xFF800000#32),
    binary main_v34 main_cst_9 main_v35 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_10 (constant S_ .f32 0xFF800000#32),
    unary main_cst_10 main_v36 (broadcastInDim S8192 ![] bcast_S_S8192 : (⟨S_, .f32⟩ : BufTy).Contents (Elt F) → (⟨S8192, .f32⟩ : BufTy).Contents (Elt F)),
    binary main_v36 main_v35 main_v37 (maximumf : (⟨S8192, .f32⟩ : BufTy).Contents (Elt F) → (⟨S8192, .f32⟩ : BufTy).Contents (Elt F) → (⟨S8192, .f32⟩ : BufTy).Contents (Elt F)),
    unary main_v37 main_v38 (broadcastInDim S8192x1 ![0] bcast_S8192_S8192x1_0 : (⟨S8192, .f32⟩ : BufTy).Contents (Elt F) → (⟨S8192x1, .f32⟩ : BufTy).Contents (Elt F)),
    unary main_v38 main_v39 (broadcastInDim S8192x8192 ![0, 1] bcast_S8192x1_S8192x8192_0_1 : (⟨S8192x1, .f32⟩ : BufTy).Contents (Elt F) → (⟨S8192x8192, .f32⟩ : BufTy).Contents (Elt F)),
    binary main_v34 main_v39 main_v40 (subf : (⟨S8192x8192, .f32⟩ : BufTy).Contents (Elt F) → (⟨S8192x8192, .f32⟩ : BufTy).Contents (Elt F) → (⟨S8192x8192, .f32⟩ : BufTy).Contents (Elt F)),
    unary main_v40 main_v41 (Host.exp : (⟨S8192x8192, .f32⟩ : BufTy).Contents (Elt F) → (⟨S8192x8192, .f32⟩ : BufTy).Contents (Elt F)),
    nullary main_cst_11 (constant S_ .f32 0x00000000#32),
    binary main_v41 main_cst_11 main_v42 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v42 main_v43 (broadcastInDim S8192x1 ![0] bcast_S8192_S8192x1_0 : (⟨S8192, .f32⟩ : BufTy).Contents (Elt F) → (⟨S8192x1, .f32⟩ : BufTy).Contents (Elt F)),
    unary main_v43 main_v44 (broadcastInDim S8192x8192 ![0, 1] bcast_S8192x1_S8192x8192_0_1 : (⟨S8192x1, .f32⟩ : BufTy).Contents (Elt F) → (⟨S8192x8192, .f32⟩ : BufTy).Contents (Elt F)),
    binary main_v41 main_v44 main_v45 (Host.divf : (⟨S8192x8192, .f32⟩ : BufTy).Contents (Elt F) → (⟨S8192x8192, .f32⟩ : BufTy).Contents (Elt F) → (⟨S8192x8192, .f32⟩ : BufTy).Contents (Elt F)),
    binary main_v23 main_arg1 main_v46 ((fun l r => Host.dotGeneral dot_S8192x8192_S8192x1024_S8192x1024_1_0_0_1_n_n none l r) : (⟨S8192x8192, .f32⟩ : BufTy).Contents (Elt F) → (⟨S8192x1024, .f32⟩ : BufTy).Contents (Elt F) → (⟨S8192x1024, .f32⟩ : BufTy).Contents (Elt F)),
    binary main_v45 main_arg0 main_v47 ((fun l r => Host.dotGeneral dot_S8192x8192_S8192x1024_S8192x1024_1_0_0_1_n_n none l r) : (⟨S8192x8192, .f32⟩ : BufTy).Contents (Elt F) → (⟨S8192x1024, .f32⟩ : BufTy).Contents (Elt F) → (⟨S8192x1024, .f32⟩ : BufTy).Contents (Elt F)) ]

set_option maxRecDepth 8192 in
set_option maxHeartbeats 4000000 in
/-- The entry point is that straight line: its two parts and the two called functions unfold, and sequencing
    re-associates. -/
theorem main_eq (c : Dev nD) : main (F := F) c = seq ops := by
  simp only [main, main_part0, main_part1, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨
    unary_bufs_sub .., binary_bufs_sub .., nullary_bufs_sub .., nullary_bufs_sub .., unary_bufs_sub .., binary_bufs_sub ..,
    unary_bufs_sub .., unary_bufs_sub .., binary_bufs_sub .., ternary_bufs_sub .., binary_bufs_sub .., nullary_bufs_sub ..,
    binary_bufs_sub .., unary_bufs_sub .., unary_bufs_sub .., nullary_bufs_sub .., unary_bufs_sub .., binary_bufs_sub ..,
    unary_bufs_sub .., binary_bufs_sub .., nullary_bufs_sub .., unary_bufs_sub .., binary_bufs_sub .., nullary_bufs_sub ..,
    binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub ..,
    binary_bufs_sub .., unary_bufs_sub .., binary_bufs_sub .., nullary_bufs_sub .., binary_bufs_sub .., unary_bufs_sub ..,
    unary_bufs_sub .., nullary_bufs_sub .., unary_bufs_sub .., binary_bufs_sub .., unary_bufs_sub .., binary_bufs_sub ..,
    nullary_bufs_sub .., unary_bufs_sub .., binary_bufs_sub .., nullary_bufs_sub .., binary_bufs_sub .., nullary_bufs_sub ..,
    unary_bufs_sub .., binary_bufs_sub .., unary_bufs_sub .., unary_bufs_sub .., binary_bufs_sub .., unary_bufs_sub ..,
    nullary_bufs_sub .., binary_bufs_sub .., unary_bufs_sub .., unary_bufs_sub .., binary_bufs_sub .., binary_bufs_sub ..,
    binary_bufs_sub ..⟩

set_option maxRecDepth 8192 in
set_option maxHeartbeats 4000000 in
/-- Every execution of the entry point terminates, and every buffer then holds the fold of the operations' results
    over what the device's buffers held at the start. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-! ## The stages -/

/-- The leaky scores: the product of `I` with the transpose of `A`, each entry kept where it is at least zero and
    multiplied by the slope otherwise. -/
def lk (I A : FVec F S8192x1024 .f32) : FVec F S8192x8192 .f32 :=
  select
    (cmpf .oge (Host.dotGeneral dot_S8192x1024_S1024x8192_S8192x8192_1_0_0_1_n_n none I (transpose S1024x8192 [1, 0] A transposes_S8192x1024_S1024x8192_1_0))
      (broadcastInDim S8192x8192 ![] bcast_S_S8192x8192 (constant S_ .f32 0x00000000#32)))
    (Host.dotGeneral dot_S8192x1024_S1024x8192_S8192x8192_1_0_0_1_n_n none I (transpose S1024x8192 [1, 0] A transposes_S8192x1024_S1024x8192_1_0))
    (mulf (broadcastInDim S8192x8192 ![] bcast_S_S8192x8192 (id (constant S_ .f32 0x3DCCCCCD#32)))
      (Host.dotGeneral dot_S8192x1024_S1024x8192_S8192x8192_1_0_0_1_n_n none I (transpose S1024x8192 [1, 0] A transposes_S8192x1024_S1024x8192_1_0)))

/-- Each row's norm plus the guard, as a column: the root of the row's sum of squares, plus the small constant. -/
def nrm (S : FVec F S8192x8192 .f32) : FVec F S8192x1 .f32 :=
  addf
    (Host.sqrt (broadcastInDim S8192x1 ![0] bcast_S8192_S8192x1_0
      (Host.reduceAdd (mulf S S) (constant S_ .f32 0x00000000#32) reducesTo_S8192x8192_S8192_d1 h_S_)))
    (broadcastInDim S8192x1 ![] bcast_S_S8192x1 (constant S_ .f32 0x322BCC77#32))

/-- Each row divided by its norm-plus-guard, times six. -/
def scl (S : FVec F S8192x8192 .f32) : FVec F S8192x8192 .f32 :=
  mulf (Host.divf S (broadcastInDim S8192x8192 ![0, 1] bcast_S8192x1_S8192x8192_0_1 (nrm S)))
    (broadcastInDim S8192x8192 ![] bcast_S_S8192x8192 (constant S_ .f32 0x40C00000#32))

/-- Each row's maximum, taken from the bottom element and once more against it. -/
def rmax (X : FVec F S8192x8192 .f32) : FVec F S8192 .f32 :=
  maximumf (broadcastInDim S8192 ![] bcast_S_S8192 (constant S_ .f32 0xFF800000#32))
    (Host.reduce FloatOps.maximumf X (constant S_ .f32 0xFF800000#32) reducesTo_S8192x8192_S8192_d1 h_S_)

/-- Each entry minus its row's maximum, exponentiated. -/
def ex (X : FVec F S8192x8192 .f32) : FVec F S8192x8192 .f32 :=
  Host.exp (subf X (broadcastInDim S8192x8192 ![0, 1] bcast_S8192x1_S8192x8192_0_1
    (broadcastInDim S8192x1 ![0] bcast_S8192_S8192x1_0 (rmax X))))

/-- Each entry divided by its row's sum. -/
def sm (E : FVec F S8192x8192 .f32) : FVec F S8192x8192 .f32 :=
  Host.divf E (broadcastInDim S8192x8192 ![0, 1] bcast_S8192x1_S8192x8192_0_1
    (broadcastInDim S8192x1 ![0] bcast_S8192_S8192x1_0
      (Host.reduceAdd E (constant S_ .f32 0x00000000#32) reducesTo_S8192x8192_S8192_d1 h_S_)))

/-- The row-wise scaled softmax of a square array. -/
def soft (S : FVec F S8192x8192 .f32) : FVec F S8192x8192 .f32 := sm (ex (scl S))

/-- The first result: the softmax of the leaky scores, multiplied into `A`. -/
def out0 (I A : FVec F S8192x1024 .f32) : FVec F S8192x1024 .f32 :=
  Host.dotGeneral dot_S8192x8192_S8192x1024_S8192x1024_1_0_0_1_n_n none (soft (lk I A)) A

/-- The second result: the softmax of the transposed leaky scores, multiplied into `I`. -/
def out1 (I A : FVec F S8192x1024 .f32) : FVec F S8192x1024 .f32 :=
  Host.dotGeneral dot_S8192x8192_S8192x1024_S8192x1024_1_0_0_1_n_n none
    (soft (transpose S8192x8192 [1, 0] (lk I A) transposes_S8192x8192_S8192x8192_1_0)) I

/-! ## What the fold leaves in the result and argument buffers -/

set_option maxRecDepth 8192 in
set_option maxHeartbeats 20000000 in
theorem after_v46 (V : Valuation τ sig (Elt F)) :
    after ops V (Proc.devRef .tc main_v46) = out0 (V (Proc.devRef .tc main_arg0)) (V (Proc.devRef .tc main_arg1)) := by
  after_results_simp <;> rfl

set_option maxRecDepth 8192 in
set_option maxHeartbeats 20000000 in
theorem after_v47 (V : Valuation τ sig (Elt F)) :
    after ops V (Proc.devRef .tc main_v47) = out1 (V (Proc.devRef .tc main_arg0)) (V (Proc.devRef .tc main_arg1)) := by
  after_results_simp <;> rfl

set_option maxRecDepth 8192 in
set_option maxHeartbeats 20000000 in
theorem after_arg0 (V : Valuation τ sig (Elt F)) :
    after ops V (Proc.devRef .tc main_arg0) = V (Proc.devRef .tc main_arg0) := by
  after_results_simp

set_option maxRecDepth 8192 in
set_option maxHeartbeats 20000000 in
theorem after_arg1 (V : Valuation τ sig (Elt F)) :
    after ops V (Proc.devRef .tc main_arg1) = V (Proc.devRef .tc main_arg1) := by
  after_results_simp

/-- Every execution of the entry point terminates with the two results at `out0` and `out1` of the argument arrays
    as they were at the start, and the arguments unchanged. -/
theorem run_terms (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v46) = out0 (m ((c.tc : Thread nD τ).loc main_arg0)) (m ((c.tc : Thread nD τ).loc main_arg1))
      ∧ r.2.mem ((c.tc : Thread nD τ).loc main_v47) = out1 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v46).trans (after_v46 _), (h c main_v47).trans (after_v47 _),
      (h c main_arg0).trans (after_arg0 _), (h c main_arg1).trans (after_arg1 _)⟩)
    (run_ops m ρ)

end Cert.ReferenceIdeal.RefRun

end
-- ==== Proof.LibDotColsHost.lean ====
/-
  The host's plain matrix product read at one entry.

  For `x : M × K` and `y : K × N` the host's `dot_general` with dimension numbers "contract axis 1 of the left with axis 0 of
  the right, keep axis 0 of the left and axis 1 of the right" has no accumulator: over the extended reals its entry `(p, q)` is
  `∑ k, x[p, k] · y[k, q]`. The operand indices are those of the plain product (the companion module identifies them with the
  coordinate pairs `(p, k)` and `(k, q)`); only the operation differs.
-/
import proofs.«128303_j3917010174495_2_alg».proof.Proof.LibDotCols

noncomputable section

open scoped BigOperators

namespace Cert.Lib.DotColsHost

open Idealize.ShloMosaic Idealize.ShloMosaic.ValueIdx Cert.Lib.DotCols

variable {M K N : Nat}

/-- THE HOST'S PLAIN PRODUCT AT AN ENTRY. Over the extended reals, a `dot_general` with these dimension numbers (any record `D`
    that spells them: `hD`), whatever its precision and schedule, holds at `(p, q)` the sum `∑ k, x[p, k] · y[k, q]`. -/
theorem dotGeneral_cols_apply {φ₁ φ₂ : FTy} (D : DotDims ⟨2, ![M, K]⟩ ⟨2, ![K, N]⟩ ⟨2, ![M, N]⟩) (hD : D = DotDims.plain M K N)
    (prec : Option ContractPrecision) (sched : HostSchedule) (x : FVec Ideal ⟨2, ![M, K]⟩ φ₁) (y : FVec Ideal ⟨2, ![K, N]⟩ φ₂)
    (p : Fin M) (q : Fin N) :
    FloatOps.dotGeneral D prec sched x y (ix2 p q) = ∑ k : Fin K, x (ix2 p k) * y (ix2 k q) := by
  subst hD
  rw [Ideal.dotGeneral_apply, ← Equiv.sum_comp (contrEquiv1 (DotDims.plain M K N) K rfl rfl).symm]
  refine Finset.sum_congr rfl fun k _ => ?_
  rw [lhsIdx_cols, rhsIdx_cols]

end Cert.Lib.DotColsHost

end
-- ==== Proof.RefValue.lean ====
/-
  The reference program's two results, read entry by entry over the extended reals.

  Each operation of the program, read at one index, is the textbook operation on the entries it depends on: a product of
  two arrays is the sum over the contracted coordinate; a transpose exchanges the two coordinates; a broadcast repeats; a
  sum over the last axis is the sum of the row; a maximum over the last axis taken from the bottom element is the row's
  supremum; the remaining operations act entry by entry. Composing these readings along the program gives, for the
  row-wise scaled softmax of ANY square array, a closed form in the array's entries; at the leaky scores it is the
  specification's row path, at their transpose the column path, and the final product with an argument array is the
  specification's sum.
-/
import proofs.«128303_j3917010174495_2_alg».proof.Proof.Spec
import proofs.«128303_j3917010174495_2_alg».proof.Proof.RefRun
import proofs.«128303_j3917010174495_2_alg».proof.Proof.LibHostMax
import proofs.«128303_j3917010174495_2_alg».proof.Proof.LibDotColsHost

noncomputable section

open scoped BigOperators

namespace Cert.ReferenceIdeal.RefRun

open Cert.ReferenceIdeal Cert.ReferenceIdeal.Gen Idealize.ShloMosaic Idealize.ShloMosaic.ValueIdx Idealize.ShloMosaic.TcCoe Idealize.SL.Sem Idealize.ShloMosaic.StableHlo

/-! ## Constants, broadcasts and transposes at an index -/

/-- A scalar constant broadcast to any shape reads the constant's value everywhere. -/
theorem bcast0_apply {t : Shape} (h : S_.BroadcastsInDim t (![] : Fin 0 → Fin t.rank)) (w : BitVec 32) (j : t.Idx) :
    broadcastInDim t ![] h (constant (F := Ideal) S_ .f32 w) j = Ideal.ofBits .f32 w :=
  broadcastInDim_apply ![] h (constant (F := Ideal) S_ .f32 w) j ix0 (fun a => a.elim0)

/-- A vector made a column reads entry `n` at `(n, ·)`. -/
theorem bcast_col_apply (v : FVec Ideal S8192 .f32) (n : Fin 8192) (z : Fin 1) :
    broadcastInDim S8192x1 ![0] bcast_S8192_S8192x1_0 v (ix2 n z) = v (ix1 n) :=
  broadcastInDim_apply ![0] bcast_S8192_S8192x1_0 v (ix2 n z) (ix1 n) (fun a => match a with | ⟨0, _⟩ => rfl)

/-- A column repeated along the rows reads entry `(n, 0)` at `(n, m)`. -/
theorem bcast_row_apply (v : FVec Ideal S8192x1 .f32) (n m : Fin 8192) :
    broadcastInDim S8192x8192 ![0, 1] bcast_S8192x1_S8192x8192_0_1 v (ix2 n m) = v (ix2 n (0 : Fin 1)) :=
  broadcastInDim_apply ![0, 1] bcast_S8192x1_S8192x8192_0_1 v (ix2 n m) (ix2 n (0 : Fin 1))
    (fun a => match a with | ⟨0, _⟩ => rfl | ⟨1, _⟩ => rfl)

/-- The transpose of an argument array exchanges the coordinates. -/
theorem transpose_arg_apply (A : FVec Ideal S8192x1024 .f32) (k : Fin 1024) (m : Fin 8192) :
    transpose S1024x8192 [1, 0] A transposes_S8192x1024_S1024x8192_1_0 (ix2 k m) = A (ix2 m k) :=
  transpose_apply [1, 0] A transposes_S8192x1024_S1024x8192_1_0 (ix2 k m) (ix2 m k)
    (fun b => match b with | ⟨0, _⟩ => rfl | ⟨1, _⟩ => rfl)

/-- The transpose of a square array exchanges the coordinates. -/
theorem transpose_sq_apply (S : FVec Ideal S8192x8192 .f32) (m n : Fin 8192) :
    transpose S8192x8192 [1, 0] S transposes_S8192x8192_S8192x8192_1_0 (ix2 m n) = S (ix2 n m) :=
  transpose_apply [1, 0] S transposes_S8192x8192_S8192x8192_1_0 (ix2 m n) (ix2 n m)
    (fun b => match b with | ⟨0, _⟩ => rfl | ⟨1, _⟩ => rfl)

/-! ## The host's entrywise root, exponential and quotient at an index -/

theorem hsqrt_apply {s : Shape} (x : FVec Ideal s .f32) (i : s.Idx) : Host.sqrt x i = Ideal.sqrt (x i) := rfl
theorem hexp_apply {s : Shape} (x : FVec Ideal s .f32) (i : s.Idx) : Host.exp x i = Ideal.exp (x i) := rfl
theorem hdivf_apply {s : Shape} (a b : FVec Ideal s .f32) (i : s.Idx) : Host.divf a b i = Ideal.div (a i) (b i) := rfl

/-! ## The two reductions over a row -/

/-- The sum over the last axis from zero, at row `n`, is the sum of the row. -/
theorem reduceAdd_rows_apply (X : FVec Ideal S8192x8192 .f32) (n : Fin 8192) :
    Host.reduceAdd X (constant S_ .f32 0x00000000#32) reducesTo_S8192x8192_S8192_d1 h_S_ (ix1 n)
      = ∑ m : Fin 8192, X (ix2 n m) := by
  have h : S8192x8192.Reduces [1] S8192 := by decide
  show Ideal.hostReduceAdd reducesTo_S8192x8192_S8192_d1 X (Ideal.ofBits .f32 0x00000000#32) (ix1 n) = _
  rw [Ideal.hostReduceAdd_single reducesTo_S8192x8192_S8192_d1 h, Ideal.ofBits_zero_f32, zero_add]
  have hf : (fun k => X (h.lift (ix1 n) k)) = fun k : Fin 8192 => X (ix2 n k) :=
    funext fun k => congrArg X (HostMax.lift_rows h n k)
  exact congrArg (fun f => ∑ k : Fin 8192, f k) hf

/-- The maximum over the last axis from the bottom element, at row `n`, is the supremum of the row. -/
theorem reduceMax_rows_apply (X : FVec Ideal S8192x8192 .f32) (n : Fin 8192) :
    Host.reduce FloatOps.maximumf X (constant S_ .f32 0xFF800000#32) reducesTo_S8192x8192_S8192_d1 h_S_ (ix1 n)
      = Finset.univ.sup fun m : Fin 8192 => X (ix2 n m) :=
  HostMax.reduce_rows X (constant S_ .f32 0xFF800000#32) (fun _ => HostMax.ofBits_neg_inf)
    reducesTo_S8192x8192_S8192_d1 (by decide) h_S_ n

/-! ## The row-wise scaled softmax of a family of entries -/

section Family
variable (σ : Fin 8192 → Fin 8192 → EReal)

/-- Entry `(r, k)` divided by row `r`'s norm-plus-guard, times six. -/
def gx (r k : Fin 8192) : EReal :=
  Ideal.div (σ r k) (Ideal.sqrt (∑ k' : Fin 8192, σ r k' * σ r k') + Spec.eps) * Spec.six
/-- Row `r`'s maximum of those, against the bottom element. -/
def gmx (r : Fin 8192) : EReal := max ⊥ (Finset.univ.sup fun k : Fin 8192 => gx σ r k)
/-- The shifted exponential. -/
def ge (r k : Fin 8192) : EReal := Ideal.exp (gx σ r k - gmx σ r)
/-- The shifted exponential over its row's sum. -/
def gsoft (r k : Fin 8192) : EReal := Ideal.div (ge σ r k) (∑ k' : Fin 8192, ge σ r k')

end Family

/-- The specification's row path is the softmax of the leaky scores … -/
theorem imRecR_eq (I A : Spec.Arr) (n : Fin 8192) (d : Fin 1024) :
    Spec.imRecR I A n d = ∑ m : Fin 8192, gsoft (Spec.s I A) n m * A (ix2 m d) := rfl
/-- … and its column path the softmax of the transposed leaky scores. -/
theorem audRecR_eq (I A : Spec.Arr) (m : Fin 8192) (d : Fin 1024) :
    Spec.audRecR I A m d = ∑ n : Fin 8192, gsoft (fun m n => Spec.s I A n m) m n * I (ix2 n d) := rfl

/-! ## The stages at an index -/

theorem nrm_apply (S : FVec Ideal S8192x8192 .f32) (n : Fin 8192) (z : Fin 1) :
    nrm S (ix2 n z) = Ideal.sqrt (∑ m : Fin 8192, S (ix2 n m) * S (ix2 n m)) + Spec.eps := by
  unfold nrm
  rw [addf_apply, bcast0_apply, hsqrt_apply, bcast_col_apply, reduceAdd_rows_apply]
  rfl

theorem scl_apply (S : FVec Ideal S8192x8192 .f32) (n m : Fin 8192) :
    scl S (ix2 n m) = gx (fun r k => S (ix2 r k)) n m := by
  unfold scl gx
  rw [mulf_apply, bcast0_apply, hdivf_apply, bcast_row_apply, nrm_apply]
  rfl

theorem rmax_apply (X : FVec Ideal S8192x8192 .f32) (n : Fin 8192) :
    rmax X (ix1 n) = max ⊥ (Finset.univ.sup fun m : Fin 8192 => X (ix2 n m)) := by
  unfold rmax
  rw [maximumf_apply, bcast0_apply, reduceMax_rows_apply, HostMax.ofBits_neg_inf]

theorem ex_apply (X : FVec Ideal S8192x8192 .f32) (n m : Fin 8192) :
    ex X (ix2 n m) = Ideal.exp (X (ix2 n m) - max ⊥ (Finset.univ.sup fun m' : Fin 8192 => X (ix2 n m'))) := by
  unfold ex
  rw [hexp_apply, subf_apply, bcast_row_apply, bcast_col_apply, rmax_apply]

theorem sm_apply (E : FVec Ideal S8192x8192 .f32) (n m : Fin 8192) :
    sm E (ix2 n m) = Ideal.div (E (ix2 n m)) (∑ m' : Fin 8192, E (ix2 n m')) := by
  unfold sm
  rw [hdivf_apply, bcast_row_apply, bcast_col_apply, reduceAdd_rows_apply]

/-- The program's row-wise softmax of a square array is the family's, entry by entry. -/
theorem soft_apply (S : FVec Ideal S8192x8192 .f32) (n m : Fin 8192) :
    soft S (ix2 n m) = gsoft (fun r k => S (ix2 r k)) n m := by
  have hx : ∀ r k, scl S (ix2 r k) = gx (fun r k => S (ix2 r k)) r k := scl_apply S
  have he : ∀ r k, ex (scl S) (ix2 r k) = ge (fun r k => S (ix2 r k)) r k := fun r k => by
    rw [ex_apply, hx]
    unfold ge gmx
    rw [show (fun m' : Fin 8192 => scl S (ix2 r m')) = fun m' => gx (fun r k => S (ix2 r k)) r m' from funext fun m' => hx r m']
  unfold soft gsoft
  rw [sm_apply, he]
  rw [show (fun m' : Fin 8192 => ex (scl S) (ix2 n m')) = fun m' => ge (fun r k => S (ix2 r k)) n m' from funext fun m' => he n m']

/-- The leaky scores at `(n, m)` are the specification's. -/
theorem lk_apply (I A : FVec Ideal S8192x1024 .f32) (n m : Fin 8192) : lk I A (ix2 n m) = Spec.s I A n m := by
  have hsc : Host.dotGeneral dot_S8192x1024_S1024x8192_S8192x8192_1_0_0_1_n_n none I
      (transpose S1024x8192 [1, 0] A transposes_S8192x1024_S1024x8192_1_0) (ix2 n m) = Spec.score I A n m := by
    refine (Cert.Lib.DotColsHost.dotGeneral_cols_apply dot_S8192x1024_S1024x8192_S8192x8192_1_0_0_1_n_n rfl none .single I
      (transpose S1024x8192 [1, 0] A transposes_S8192x1024_S1024x8192_1_0) n m).trans ?_
    unfold Spec.score
    exact Finset.sum_congr rfl fun d _ => by rw [transpose_arg_apply]
  unfold lk
  rw [select_apply, cmpf_apply, mulf_apply, bcast0_apply, id_eq, bcast0_apply, hsc, Ideal.ofBits_zero_f32]
  unfold Spec.s Spec.leaky
  by_cases h0 : (0 : EReal) ≤ Spec.score I A n m
  · rw [if_pos h0]
    have : FloatOps.cmpf (F := Ideal) (φ := .f32) .oge (Spec.score I A n m) 0 = 1#1 := by
      show BitVec.ofBool (decide ((0 : EReal) ≤ Spec.score I A n m)) = 1#1
      rw [decide_eq_true h0]; rfl
    rw [this, select_one]
  · rw [if_neg h0]
    have : FloatOps.cmpf (F := Ideal) (φ := .f32) .oge (Spec.score I A n m) 0 = 0#1 := by
      show BitVec.ofBool (decide ((0 : EReal) ≤ Spec.score I A n m)) = 0#1
      rw [decide_eq_false h0]; rfl
    rw [this, select_zero]
    rfl

/-! ## The two results -/

theorem out0_apply (I A : FVec Ideal S8192x1024 .f32) (n : Fin 8192) (d : Fin 1024) :
    out0 I A (ix2 n d) = Spec.imRecR I A n d := by
  unfold out0
  refine (Cert.Lib.DotColsHost.dotGeneral_cols_apply dot_S8192x8192_S8192x1024_S8192x1024_1_0_0_1_n_n rfl none .single
    (soft (lk I A)) A n d).trans ?_
  rw [imRecR_eq]
  refine Finset.sum_congr rfl fun m _ => ?_
  rw [soft_apply, show (fun r k => lk I A (ix2 r k)) = Spec.s I A from funext fun r => funext fun k => lk_apply I A r k]

theorem out1_apply (I A : FVec Ideal S8192x1024 .f32) (m : Fin 8192) (d : Fin 1024) :
    out1 I A (ix2 m d) = Spec.audRecR I A m d := by
  unfold out1
  refine (Cert.Lib.DotColsHost.dotGeneral_cols_apply dot_S8192x8192_S8192x1024_S8192x1024_1_0_0_1_n_n rfl none .single
    (soft (transpose S8192x8192 [1, 0] (lk I A) transposes_S8192x8192_S8192x8192_1_0)) I m d).trans ?_
  rw [audRecR_eq]
  refine Finset.sum_congr rfl fun n _ => ?_
  rw [soft_apply, show (fun r k => transpose S8192x8192 [1, 0] (lk I A) transposes_S8192x8192_S8192x8192_1_0 (ix2 r k))
      = (fun m n => Spec.s I A n m) from funext fun r => funext fun k => (transpose_sq_apply (lk I A) r k).trans (lk_apply I A k r)]

theorem out0_eq (I A : FVec Ideal S8192x1024 .f32) : out0 I A = fun i => Spec.imRecR I A (i 0) (i 1) :=
  funext fun i => (congrArg (out0 I A) (eq_ix2 i)).trans (out0_apply I A (i 0) (i 1))

theorem out1_eq (I A : FVec Ideal S8192x1024 .f32) : out1 I A = fun i => Spec.audRecR I A (i 0) (i 1) :=
  funext fun i => (congrArg (out1 I A) (eq_ix2 i)).trans (out1_apply I A (i 0) (i 1))

/-- Every execution of the reference program terminates; the first result then holds, at each index, the
    specification's row form of the two argument arrays as they were at the start, the second its column form, and the
    arguments are unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v46) = (fun i => Cert.Spec.imRecR (m ((c.tc : Thread nD τ).loc main_arg0)) (m ((c.tc : Thread nD τ).loc main_arg1)) (i 0) (i 1))
      ∧ r.2.mem ((c.tc : Thread nD τ).loc main_v47) = (fun i => Cert.Spec.audRecR (m ((c.tc : Thread nD τ).loc main_arg0)) (m ((c.tc : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (out0_eq _ _), (h c).2.1.trans (out1_eq _ _), (h c).2.2.1, (h c).2.2.2⟩)
    (run_terms m ρ)

end Cert.ReferenceIdeal.RefRun

end
-- ==== Proof.LibRealSums.lean ====
/-
  Finite sums of real numbers inside the extended reals, and a quotient moved across such a sum.

  General facts, with no program in sight: `Fin' x` says that the extended real `x` is a real; a finite sum and a sum of two such are
  again real (`fin'_sum`, `fin'_add`), the coercion of a finite real sum is the sum of the coercions (`coe_sum`), the inverse of any
  extended real is a real (`fin'_inv`), and `div_sum_mul`: for real `a c`, `h c` and any `D ≠ 0`,
  `(∑ c, a c · h c) / D = ∑ c, (a c / D) · h c` for the extended reals' own division.  The use: a row normalised before a
  matrix product against the same row normalised after it.

  One program divides every entry of a row of `a` by the row's total `D` and then takes the row's inner product with a
  column of `h`; the other takes the inner product first and divides once.  On the extended reals a quotient by a nonzero
  `D` is the product with the inverse of `D`, which is always a real, and a real factor moves across a finite sum of REAL
  terms — but not across a sum that may hold both infinities, which is why every entry of `a` and `h` is asked to be a real here.
  (Division by zero is not a product at all on the extended reals, hence `D ≠ 0`.)
-/
import Idealize.ShloMosaic.PureOps.Ideal

noncomputable section

open scoped BigOperators

namespace Cert.Lib.RealSums

open Idealize.ShloMosaic

/-- "Neither infinity": the extended real is a real number. -/
def Fin' (x : EReal) : Prop := x ≠ ⊤ ∧ x ≠ ⊥

theorem Fin'.exists_real {x : EReal} (h : Fin' x) : ∃ r : ℝ, x = (r : EReal) :=
  ⟨x.toReal, (EReal.coe_toReal h.1 h.2).symm⟩

theorem fin'_coe (r : ℝ) : Fin' (r : EReal) := ⟨EReal.coe_ne_top r, EReal.coe_ne_bot r⟩

/-- The coercion of a finite sum of reals is the sum of the coercions. -/
theorem coe_sum {ι : Type*} (s : Finset ι) (f : ι → ℝ) : ((∑ c ∈ s, f c : ℝ) : EReal) = ∑ c ∈ s, (f c : EReal) := by
  classical
  induction s using Finset.induction_on with
  | empty => simp
  | insert a s ha ih => rw [Finset.sum_insert ha, Finset.sum_insert ha, EReal.coe_add, ih]

/-- A finite sum of reals is a real. -/
theorem fin'_sum {ι : Type*} (s : Finset ι) (a : ι → EReal) (ha : ∀ c, Fin' (a c)) : Fin' (∑ c ∈ s, a c) := by
  choose a' ha' using fun c => (ha c).exists_real
  have : (∑ c ∈ s, a c) = ((∑ c ∈ s, a' c : ℝ) : EReal) := by
    rw [coe_sum]; exact Finset.sum_congr rfl fun c _ => ha' c
  rw [this]; exact fin'_coe _

theorem fin'_add {x y : EReal} (hx : Fin' x) (hy : Fin' y) : Fin' (x + y) := by
  obtain ⟨a, rfl⟩ := hx.exists_real
  obtain ⟨b, rfl⟩ := hy.exists_real
  rw [← EReal.coe_add]; exact fin'_coe _

theorem fin'_zero : Fin' (0 : EReal) := by
  rw [← EReal.coe_zero]; exact fin'_coe _

/-- The inverse of an extended real is never an infinity (the inverses of both infinities, and of zero, are zero). -/
theorem fin'_inv (D : EReal) : Fin' D⁻¹ := by
  induction D using EReal.rec
  · rw [EReal.inv_bot]; exact fin'_zero
  · rw [← EReal.coe_inv]; exact fin'_coe _
  · rw [EReal.inv_top]; exact fin'_zero

/-- THE LAW. For real entries and a nonzero divisor, dividing the inner product is the inner product of the divided entries:
    off zero a quotient is the product with the divisor's inverse, which is a real, and a real factor moves across a sum of reals. -/
theorem div_sum_mul {ι : Type*} (s : Finset ι) (a h : ι → EReal) (D : EReal)
    (ha : ∀ c, Fin' (a c)) (hh : ∀ c, Fin' (h c)) (hD0 : D ≠ 0) :
    Ideal.div (∑ c ∈ s, a c * h c) D = ∑ c ∈ s, Ideal.div (a c) D * h c := by
  obtain ⟨e, he⟩ := (fin'_inv D).exists_real
  choose a' ha' using fun c => (ha c).exists_real
  choose h' hh' using fun c => (hh c).exists_real
  have e1 : (∑ c ∈ s, a c * h c) = ((∑ c ∈ s, a' c * h' c : ℝ) : EReal) := by
    rw [coe_sum]; exact Finset.sum_congr rfl fun c _ => by rw [ha' c, hh' c, EReal.coe_mul]
  have e2 : (∑ c ∈ s, Ideal.div (a c) D * h c) = ((∑ c ∈ s, a' c * e * h' c : ℝ) : EReal) := by
    rw [coe_sum]
    exact Finset.sum_congr rfl fun c _ => by rw [Ideal.div, if_neg hD0, he, ha' c, hh' c, EReal.coe_mul, EReal.coe_mul]
  rw [e1, e2, Ideal.div, if_neg hD0, he, ← EReal.coe_mul, Finset.sum_mul]
  exact congrArg _ (Finset.sum_congr rfl fun c _ => by ring)

end Cert.Lib.RealSums

end
-- ==== Proof.SoftmaxLaw.lean ====
/-
  The law that joins the two spellings of a scaled softmax followed by a weighted sum.

  One spelling scales a row of scores by the reciprocal of its guarded norm, exponentiates, multiplies into the
  weights and divides the weighted sum by the row's total.  The other divides the row by the guarded norm, subtracts
  the row's maximum before exponentiating, normalises each entry by the total and only then multiplies into the
  weights.  When every score and weight is a real number all intermediate quantities are real: the guarded norm
  √(Σ s²) + ε is a positive real, so the reciprocal and the quotient are the same real product; the maximum over a
  nonempty finite family of reals is one of them; exp (x − M) = exp x · exp (−M) with exp (−M) a positive real that
  cancels between an entry and the total; and a quotient by a nonzero real total moves across a finite sum of reals.
-/
import proofs.«128303_j3917010174495_2_alg».proof.Proof.Spec
import proofs.«128303_j3917010174495_2_alg».proof.Proof.LibRealSums

noncomputable section

open scoped BigOperators

namespace Cert.Spec

open Idealize.ShloMosaic Idealize.ShloMosaic.ValueIdx Cert.Lib.RealSums

/-! ## Reals inside the extended reals -/

theorem fin'_mul {x y : EReal} (hx : Fin' x) (hy : Fin' y) : Fin' (x * y) := by
  obtain ⟨a, rfl⟩ := hx.exists_real
  obtain ⟨b, rfl⟩ := hy.exists_real
  rw [← EReal.coe_mul]; exact fin'_coe _

/-- The three literals are real numbers; the guard is positive. -/
theorem c01_eq : c01 = ((13421773 * (2 ^ 27)⁻¹ : ℝ) : EReal) := by
  simp [c01, Ideal.ofBits, Ideal.ieee]

theorem eps_eq : eps = ((11258999 * (2 ^ 50)⁻¹ : ℝ) : EReal) := by
  simp [eps, Ideal.ofBits, Ideal.ieee]

theorem six_eq : six = ((12582912 * (2 ^ 21)⁻¹ : ℝ) : EReal) := by
  simp [six, Ideal.ofBits, Ideal.ieee]

theorem eps_pos : ∃ e : ℝ, 0 < e ∧ eps = (e : EReal) := ⟨_, by positivity, eps_eq⟩

theorem fin'_leaky {x : EReal} (hx : Fin' x) : Fin' (leaky x) := by
  unfold leaky
  split
  · exact hx
  · exact fin'_mul (c01_eq ▸ fin'_coe _) hx

/-! ## The abstract law -/

/-- The supremum of a nonempty finite family of reals, taken in the extended reals and joined with ⊥, is a real. -/
theorem max_bot_sup_real {ι : Type*} [Fintype ι] [Nonempty ι] (x : ι → ℝ) :
    ∃ M : ℝ, max ⊥ (Finset.univ.sup fun j => (x j : EReal)) = (M : EReal) := by
  obtain ⟨i, -, hi⟩ := Finset.exists_mem_eq_sup Finset.univ Finset.univ_nonempty (fun j => (x j : EReal))
  exact ⟨x i, by rw [hi]; exact max_eq_right bot_le⟩

/-- For real scores `x` and real weights `v` over a nonempty finite index type: the weighted sum of the exponentials divided by
    their total equals the sum of the weights against the exponentials of the scores shifted by their maximum, each divided by the
    total of those. -/
theorem softmax_law {ι : Type*} [Fintype ι] [Nonempty ι] (x v : ι → ℝ) :
    Ideal.div (∑ i, Ideal.exp (x i : EReal) * (v i : EReal)) (∑ i, Ideal.exp (x i : EReal))
      = ∑ i, Ideal.div (Ideal.exp ((x i : EReal) - max ⊥ (Finset.univ.sup fun j => (x j : EReal))))
          (∑ j, Ideal.exp ((x j : EReal) - max ⊥ (Finset.univ.sup fun j' => (x j' : EReal)))) * (v i : EReal) := by
  obtain ⟨M, hM⟩ := max_bot_sup_real x
  rw [hM]
  -- the total of the exponentials is a positive real
  have hZpos : 0 < ∑ i, Real.exp (x i) := Finset.sum_pos (fun i _ => Real.exp_pos _) Finset.univ_nonempty
  have hZ : (∑ i, Ideal.exp (x i : EReal)) = ((∑ i, Real.exp (x i) : ℝ) : EReal) := by
    rw [coe_sum]; rfl
  have hZ0 : (∑ i, Ideal.exp (x i : EReal)) ≠ 0 := by
    rw [hZ]; exact_mod_cast hZpos.ne'
  rw [div_sum_mul Finset.univ (fun i => Ideal.exp (x i : EReal)) (fun i => (v i : EReal)) _
    (fun i => fin'_coe _) (fun i => fin'_coe _) hZ0]
  -- the shifted exponentials are the unshifted ones times the positive real exp (−M)
  have hsh : ∀ i, Ideal.exp ((x i : EReal) - (M : EReal)) = ((Real.exp (x i) * Real.exp (-M) : ℝ) : EReal) := by
    intro i
    rw [← EReal.coe_sub, Ideal.exp_coe, sub_eq_add_neg, Real.exp_add]
  have hZ' : (∑ j, Ideal.exp ((x j : EReal) - (M : EReal))) = (((∑ j, Real.exp (x j)) * Real.exp (-M) : ℝ) : EReal) := by
    rw [Finset.sum_mul, coe_sum]; exact Finset.sum_congr rfl fun j _ => hsh j
  rw [hZ', hZ]
  refine Finset.sum_congr rfl fun i _ => ?_
  rw [hsh i, Ideal.exp_coe]
  have hc : Real.exp (-M) ≠ 0 := (Real.exp_pos _).ne'
  have hne : (∑ j, Real.exp (x j)) * Real.exp (-M) ≠ 0 := mul_ne_zero hZpos.ne' hc
  rw [Ideal.div_coe hZpos.ne', Ideal.div_coe hne, ← EReal.coe_mul, ← EReal.coe_mul]
  congr 2
  field_simp

/-! ## The two spellings over one row -/

/-- A sum of squares of reals has a real non-negative root, and with the positive guard added it is a positive real. -/
theorem guarded_norm_real {ι : Type*} [Fintype ι] (sv : ι → EReal) (hs : ∀ i, Fin' (sv i)) :
    ∃ ρ : ℝ, 0 < ρ ∧ Ideal.sqrt (∑ i, sv i * sv i) + eps = (ρ : EReal) := by
  choose S hS using fun i => (hs i).exists_real
  obtain ⟨e, he, hee⟩ := eps_pos
  have hsum : (∑ i, sv i * sv i) = ((∑ i, S i * S i : ℝ) : EReal) := by
    rw [coe_sum]; exact Finset.sum_congr rfl fun i _ => by rw [hS i, EReal.coe_mul]
  have hnn : 0 ≤ ∑ i, S i * S i := Finset.sum_nonneg fun i _ => mul_self_nonneg _
  refine ⟨Real.sqrt (∑ i, S i * S i) + e, by positivity, ?_⟩
  rw [hsum, Ideal.sqrt_coe, if_neg (not_lt.mpr hnn), hee, EReal.coe_add]

/-- The row law: scaling by the reciprocal of the guarded norm, exponentiating and normalising after the weighted sum,
    against dividing by the guarded norm, shifting by the maximum, and normalising before it. -/
theorem rec_core {ι : Type*} [Fintype ι] [Nonempty ι] (sv a : ι → EReal) (R : EReal)
    (hs : ∀ i, Fin' (sv i)) (ha : ∀ i, Fin' (a i)) (hR : ∃ ρ : ℝ, 0 < ρ ∧ R = (ρ : EReal)) :
    Ideal.div (∑ i, Ideal.exp (sv i * Ideal.div 1 R * six) * a i) (∑ i, Ideal.exp (sv i * Ideal.div 1 R * six))
      = ∑ i, Ideal.div (Ideal.exp (Ideal.div (sv i) R * six - max ⊥ (Finset.univ.sup fun j => Ideal.div (sv j) R * six)))
          (∑ j, Ideal.exp (Ideal.div (sv j) R * six - max ⊥ (Finset.univ.sup fun j' => Ideal.div (sv j') R * six))) * a i := by
  choose S hS using fun i => (hs i).exists_real
  choose A hA using fun i => (ha i).exists_real
  obtain ⟨ρ, hρ, rfl⟩ := hR
  have hx1 : ∀ i, sv i * Ideal.div 1 (ρ : EReal) * six = ((S i * (1 / ρ) * (12582912 * (2 ^ 21)⁻¹) : ℝ) : EReal) := by
    intro i
    rw [Ideal.div_coe hρ.ne', one_mul, hS i, six_eq, ← EReal.coe_mul, ← EReal.coe_mul]
  have hx2 : ∀ i, Ideal.div (sv i) (ρ : EReal) * six = ((S i * (1 / ρ) * (12582912 * (2 ^ 21)⁻¹) : ℝ) : EReal) := by
    intro i
    rw [Ideal.div_coe hρ.ne', hS i, six_eq, ← EReal.coe_mul, ← EReal.coe_mul]
  simp only [hx1, hx2, hA]
  exact softmax_law (fun i => S i * (1 / ρ) * (12582912 * (2 ^ 21)⁻¹)) A

/-! ## The two instances: rows of the scores, and columns -/

variable (im aud : Arr)

theorem fin'_s (him : Finite im) (haud : Finite aud) (n m : Fin 8192) : Fin' (s im aud n m) := by
  unfold s score
  exact fin'_leaky (fin'_sum _ _ fun d => fin'_mul (him _) (haud _))

theorem imRec_eq (im aud : Arr) (him : Finite im) (haud : Finite aud) (n : Fin 8192) (d : Fin 1024) :
    imRecK im aud n d = imRecR im aud n d := by
  unfold imRecK imRecR p1 rowinv e1 mx1 x1 rowsq
  exact rec_core (fun m => s im aud n m) (fun m => aud (ix2 m d)) _
    (fun m => fin'_s im aud him haud n m) (fun m => haud _)
    (guarded_norm_real (fun m => s im aud n m) fun m => fin'_s im aud him haud n m)

theorem audRec_eq (im aud : Arr) (him : Finite im) (haud : Finite aud) (m : Fin 8192) (d : Fin 1024) :
    audRecK im aud m d = audRecR im aud m d := by
  unfold audRecK audRecR p2 colinv e2 mx2 x2 colsq
  exact rec_core (fun n => s im aud n m) (fun n => im (ix2 n d)) _
    (fun n => fin'_s im aud him haud n m) (fun n => him _)
    (guarded_norm_real (fun n => s im aud n m) fun n => fin'_s im aud him haud n m)

end Cert.Spec

end
-- ==== Proof.FiniteInputs.lean ====
/-
  From the stated precondition to "every entry of both argument arrays is a real number".

  The precondition computes, for each of the two arrays, the conjunction over all entries of |x| < +∞, and then the
  conjunction of the two results; it is stated to be 1.  A conjunction of bits that is 1 has every conjunct 1, so
  |x| < +∞ holds at every entry of both arrays.  On the extended reals |x| = max x (−x) is +∞ exactly at the two
  infinities, so every entry is neither of them.
-/
import proofs.«128303_j3917010174495_2_alg».proof.Defs
import proofs.«128303_j3917010174495_2_alg».proof.Proof.Spec
import Idealize.ShloMosaic.Lib.ReduceAll
import Idealize.ShloMosaic.Lib.ValueIdx

noncomputable section

namespace Cert.Proof.Finite

open Idealize.ShloMosaic Idealize.SL.Sem

/-- The bit pattern of +∞ denotes the top of the extended reals. -/
theorem inf_eq_top : Ideal.ofBits .f32 0x7F800000#32 = (⊤ : EReal) := by
  simp [Ideal.ofBits, Ideal.ieee]

/-- An extended real whose absolute value max x (−x) compares below +∞ is a real. -/
theorem real_of_abs_lt (x : EReal) (h : Ideal.cmp .olt (max x (-x)) (Ideal.ofBits .f32 0x7F800000#32) = 1#1) :
    x ≠ ⊤ ∧ x ≠ ⊥ := by
  rw [inf_eq_top] at h
  unfold Ideal.cmp at h
  induction x using EReal.rec with
  | bot => simp at h
  | coe r => exact ⟨EReal.coe_ne_top r, EReal.coe_ne_bot r⟩
  | top => simp at h

/-- The rank-0 shape has one index. -/
instance : Subsingleton Cert.Pre_finite_inputs.S_.Idx := ⟨fun a b => funext fun d => d.elim0⟩

theorem of_pre [hPre_finite_inputs : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
    Cert.Spec.Finite (m ((c.tc : Thread Cert.KernelIdeal.nD Cert.KernelIdeal.τ).loc Cert.KernelIdeal.main_arg0)) ∧ Cert.Spec.Finite (m ((c.tc : Thread Cert.KernelIdeal.nD Cert.KernelIdeal.τ).loc Cert.KernelIdeal.main_arg1)) := by
  have e := congrFun (h c) ValueIdx.ix0
  dsimp only [Cert.Pre_finite_inputs.fn] at e
  change IntOp.andi _ _ = 1#1 at e
  obtain ⟨e0, e1⟩ := IntOp.andi_eq_one.1 e
  exact ⟨fun i => real_of_abs_lt _ (Host.reduce_andi_all _ _ _ _ _ e0 i),
    fun i => real_of_abs_lt _ (Host.reduce_andi_all _ _ _ _ _ e1 i)⟩

end Cert.Proof.Finite

end
-- ==== Proof.lean ====
/-
  The certificate's five claims.  The kernel program computes the leaky scores s = leaky(im · audᵀ) and their row and
  column sums of squares in two regions, the reciprocal guarded norms on the host, and in two more regions
  (Σ exp(6·s·rowinv)·aud) / Σ exp(6·s·rowinv) row by row, and the same down the columns against im: a softmax with no
  maximum subtracted, normalised after the product.  The reference divides by the guarded norm, subtracts the row maximum,
  normalises, then multiplies.  For finite inputs every quantity is a real, exp(x − M) = exp x · exp(−M) with the common
  positive factor cancelling, and dividing a finite sum of reals by a non-zero real is dividing each term: the two results
  are equal entry by entry.  The frames: each program runs to the end, faults nowhere and leaves its arguments unchanged
  — for the kernel program, at either float instance, by running its four regions as segments of @main; for the
  reference, its list of host operations.  No rewrite separates the word-level kernel from its idealization.
-/
import proofs.«128303_j3917010174495_2_alg».proof.Defs
import proofs.«128303_j3917010174495_2_alg».proof.Proof.Gen.Kernel
import proofs.«128303_j3917010174495_2_alg».proof.Proof.Gen.KernelIdeal
import proofs.«128303_j3917010174495_2_alg».proof.Proof.Gen.ReferenceIdeal
import proofs.«128303_j3917010174495_2_alg».proof.Proof.Gen.Pre_finite_inputs
import proofs.«128303_j3917010174495_2_alg».proof.Proof.K.Frame
import proofs.«128303_j3917010174495_2_alg».proof.Proof.KI.Value
import proofs.«128303_j3917010174495_2_alg».proof.Proof.RefValue
import proofs.«128303_j3917010174495_2_alg».proof.Proof.SoftmaxLaw
import proofs.«128303_j3917010174495_2_alg».proof.Proof.FiniteInputs

noncomputable section

namespace Cert.Proof

open Idealize.ShloMosaic Idealize.SL.Sem

/-- The word-level kernel program's frame: the run of its four regions at the bit-exact instance. -/
theorem frame_kernel : Cert.frame_Kernel (hKernel := Cert.Kernel.Gen.facts) (hPre_finite_inputs := Cert.Pre_finite_inputs.Gen.facts) :=
  fun m ρ _ => Cert.Kernel.RunFrame.frame m ρ

/-- The idealized kernel program's frame: the same run at the ideal instance. -/
theorem frame_kernelIdeal : Cert.frame_KernelIdeal (hKernelIdeal := Cert.KernelIdeal.Gen.facts) (hPre_finite_inputs := Cert.Pre_finite_inputs.Gen.facts) :=
  fun m ρ _ => Cert.KernelIdeal.RunFrame.frame m ρ

/-- The reference's frame: its run with the results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => ⟨(h c).2.2.1, (h c).2.2.2⟩)
    (Cert.ReferenceIdeal.RefRun.run m ρ)

/-- Both idealized programs end, with equal results: the kernel's max-free softmax normalised after the product is the
    reference's shifted softmax normalised before it, on finite inputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, _, Cert.KernelIdeal.RunValue.run m ρ, ?_⟩
  refine (θ_run Cert.ReferenceIdeal.defs _ _).mono (fun r h c => ?_) (Cert.ReferenceIdeal.RefRun.run m' ρ')
  obtain ⟨h0, h1, h2, h3⟩ := h c
  have hf := Cert.Proof.Finite.of_pre (hPre_finite_inputs := Cert.Pre_finite_inputs.Gen.facts) m hpre c
  refine ⟨?_, ?_, h2, h3⟩
  · rw [h0, (hagree c).1, (hagree c).2]
    funext i
    exact (Cert.Spec.imRec_eq _ _ hf.1 hf.2 (i 0) (i 1)).symm
  · rw [h1, (hagree c).1, (hagree c).2]
    funext i
    exact (Cert.Spec.audRec_eq _ _ hf.1 hf.2 (i 0) (i 1)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
